-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S2048x6 .f32 .bf16
  ∧ IdealRules.truncf_extf.Statement Cert.KernelIdeal.S2048x6 .f32 .bf16
  ∧ IdealRules.truncf_extf.Statement Cert.KernelIdeal.S2048x6 .f32 .bf16
  ∧ IdealRules.truncf_extf.Statement Cert.KernelIdeal.S2048x6 .f32 .bf16
  ∧ IdealRules.truncf_extf.Statement Cert.KernelIdeal.S2048x6 .f32 .bf16
  ∧ IdealRules.truncf_extf.Statement Cert.KernelIdeal.S2048x6 .f32 .bf16
  ∧ IdealRules.truncf_extf.Statement Cert.KernelIdeal.S2048x6 .f32 .bf16
  ∧ IdealRules.truncf_extf.Statement Cert.KernelIdeal.S2048x6 .f32 .bf16
  ∧ IdealRules.truncf_extf.Statement Cert.KernelIdeal.S2048x6 .f32 .bf16
  ∧ IdealRules.truncf_extf.Statement Cert.KernelIdeal.S2048x128 .f32 .bf16
  ∧ IdealRules.truncf_extf.Statement Cert.KernelIdeal.S2048x128 .f32 .bf16
  ∧ IdealRules.truncf_extf.Statement Cert.KernelIdeal.S2048x128 .f32 .bf16
  ∧ IdealRules.truncf_extf.Statement Cert.KernelIdeal.S2048x128 .f32 .bf16
  ∧ IdealRules.truncf_extf.Statement Cert.KernelIdeal.S2048x128 .f32 .bf16
  ∧ IdealRules.truncf_extf.Statement Cert.KernelIdeal.S2048x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x6 : Shape := ⟨3, ![16, 2048, 6]⟩
abbrev S16 : Shape := ⟨1, ![16]⟩
abbrev S36x128 : Shape := ⟨2, ![36, 128]⟩
abbrev S128 : Shape := ⟨1, ![128]⟩
abbrev S640x512 : Shape := ⟨2, ![640, 512]⟩
abbrev S512 : Shape := ⟨1, ![512]⟩
abbrev S1536x1024 : Shape := ⟨2, ![1536, 1024]⟩
abbrev S1024 : Shape := ⟨1, ![1024]⟩
abbrev S_ : Shape := ⟨0, ![]⟩

class Facts : Prop where
  bcast_S_S16x2048x6 : S_.BroadcastsInDim S16x2048x6 (![] : Fin 0 → Fin S16x2048x6.rank)
  reducesTo_S16x2048x6_S_d0_1_2 : S16x2048x6.ReducesTo [0, 1, 2] S_
  h_S_ : 0 < S_.numel
  bcast_S_S36x128 : S_.BroadcastsInDim S36x128 (![] : Fin 0 → Fin S36x128.rank)
  reducesTo_S36x128_S_d0_1 : S36x128.ReducesTo [0, 1] S_
  bcast_S_S128 : S_.BroadcastsInDim S128 (![] : Fin 0 → Fin S128.rank)
  reducesTo_S128_S_d0 : S128.ReducesTo [0] S_
  bcast_S_S640x512 : S_.BroadcastsInDim S640x512 (![] : Fin 0 → Fin S640x512.rank)
  reducesTo_S640x512_S_d0_1 : S640x512.ReducesTo [0, 1] S_
  bcast_S_S512 : S_.BroadcastsInDim S512 (![] : Fin 0 → Fin S512.rank)
  reducesTo_S512_S_d0 : S512.ReducesTo [0] S_
  bcast_S_S1536x1024 : S_.BroadcastsInDim S1536x1024 (![] : Fin 0 → Fin S1536x1024.rank)
  reducesTo_S1536x1024_S_d0_1 : S1536x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S512 .f32) (main_arg6 : FVec F S1536x1024 .f32) (main_arg7 : FVec F S1024 .f32) (main_v13 : IVec S_ 1) (main_v16 : IVec S640x512 1) : IVec S_ 1 :=
  let main_c_5 : IVec S_ 1 := constantI S_ 1 1#1
  let main_v17 : IVec S_ 1 := (fun x v => Host.reduce IntOp.andi x v reducesTo_S640x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1536x1024 .f32 := Host.absf main_arg6
  let main_cst_8 : FVec F S_ .f32 := constant S_ .f32 0x7F800000#32
  let main_v25 : FVec F S1536x1024 .f32 := broadcastInDim S1536x1024 ![] bcast_S_S1536x1024 main_cst_8
  let main_v26 : IVec S1536x1024 1 := cmpf .olt main_v24 main_v25
  let main_c_9 : IVec S_ 1 := constantI S_ 1 1#1
  let main_v27 : IVec S_ 1 := (fun x v => Host.reduce IntOp.andi x v reducesTo_S1536x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S16x2048x6 .f32) (main_arg1 : IVec S16 32) (main_arg2 : FVec F S36x128 .f32) (main_arg3 : FVec F S128 .f32) (main_arg4 : FVec F S640x512 .f32) (main_arg5 : FVec F S512 .f32) (main_arg6 : FVec F S1536x1024 .f32) (main_arg7 : FVec F S1024 .f32) : IVec S_ 1 :=
  let main_v0 : FVec F S16x2048x6 .f32 := Host.absf main_arg0
  let main_cst : FVec F S_ .f32 := constant S_ .f32 0x7F800000#32
  let main_v1 : FVec F S16x2048x6 .f32 := broadcastInDim S16x2048x6 ![] bcast_S_S16x2048x6 main_cst
  let main_v2 : IVec S16x2048x6 1 := cmpf .olt main_v0 main_v1
  let main_c : IVec S_ 1 := constantI S_ 1 1#1
  let main_v3 : IVec S_ 1 := (fun x v => Host.reduce IntOp.andi x v reducesTo_S16x2048x6_S_d0_1_2 h_S_) main_v2 main_c
  let main_v4 : FVec F S36x128 .f32 := Host.absf main_arg2
  let main_cst_0 : FVec F S_ .f32 := constant S_ .f32 0x7F800000#32
  let main_v5 : FVec F S36x128 .f32 := broadcastInDim S36x128 ![] bcast_S_S36x128 main_cst_0
  let main_v6 : IVec S36x128 1 := cmpf .olt main_v4 main_v5
  let main_c_1 : IVec S_ 1 := constantI S_ 1 1#1
  let main_v7 : IVec S_ 1 := (fun x v => Host.reduce IntOp.andi x v reducesTo_S36x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S640x512 .f32 := Host.absf main_arg4
  let main_cst_4 : FVec F S_ .f32 := constant S_ .f32 0x7F800000#32
  let main_v15 : FVec F S640x512 .f32 := broadcastInDim S640x512 ![] bcast_S_S640x512 main_cst_4
  let main_v16 : IVec S640x512 1 := cmpf .olt main_v14 main_v15
  fn_part1 (F := F) main_arg5 main_arg6 main_arg7 main_v13 main_v16
-- ==== Kernel.lean ====
abbrev S16x2048x6 : Shape := ⟨3, ![16, 2048, 6]⟩
abbrev S16 : Shape := ⟨1, ![16]⟩
abbrev S36x128 : Shape := ⟨2, ![36, 128]⟩
abbrev S128 : Shape := ⟨1, ![128]⟩
abbrev S640x512 : Shape := ⟨2, ![640, 512]⟩
abbrev S512 : Shape := ⟨1, ![512]⟩
abbrev S1536x1024 : Shape := ⟨2, ![1536, 1024]⟩
abbrev S1024 : Shape := ⟨1, ![1024]⟩
abbrev S6x6x128 : Shape := ⟨3, ![6, 6, 128]⟩
abbrev S128x5x512 : Shape := ⟨3, ![128, 5, 512]⟩
abbrev S5x128x512 : Shape := ⟨3, ![5, 128, 512]⟩
abbrev S512x3x1024 : Shape := ⟨3, ![512, 3, 1024]⟩
abbrev S3x512x1024 : Shape := ⟨3, ![3, 512, 1024]⟩
abbrev S1x128 : Shape := ⟨2, ![1, 128]⟩
abbrev S1x512 : Shape := ⟨2, ![1, 512]⟩
abbrev S1x1024 : Shape := ⟨2, ![1, 1024]⟩
abbrev S16x2048x1024 : Shape := ⟨3, ![16, 2048, 1024]⟩
abbrev S1x2048x6 : Shape := ⟨3, ![1, 2048, 6]⟩
abbrev S1x2048x1024 : Shape := ⟨3, ![1, 2048, 1024]⟩
abbrev S2048x2048 : Shape := ⟨2, ![2048, 2048]⟩
abbrev S2048x1 : Shape := ⟨2, ![2048, 1]⟩
abbrev S2048x1536 : Shape := ⟨2, ![2048, 1536]⟩
abbrev S2048x512 : Shape := ⟨2, ![2048, 512]⟩
abbrev S2048x6 : Shape := ⟨2, ![2048, 6]⟩
abbrev S6x2048 : Shape := ⟨2, ![6, 2048]⟩
abbrev S2048 : Shape := ⟨1, ![2048]⟩
abbrev S1x2048 : Shape := ⟨2, ![1, 2048]⟩
abbrev S256x6 : Shape := ⟨2, ![256, 6]⟩
abbrev S256x1 : Shape := ⟨2, ![256, 1]⟩
abbrev S256x2048 : Shape := ⟨2, ![256, 2048]⟩
abbrev S256 : Shape := ⟨1, ![256]⟩
abbrev S512x36 : Shape := ⟨2, ![512, 36]⟩
abbrev S512x128 : Shape := ⟨2, ![512, 128]⟩
abbrev S2048x128 : Shape := ⟨2, ![2048, 128]⟩
abbrev S512x640 : Shape := ⟨2, ![512, 640]⟩
abbrev S512x512 : Shape := ⟨2, ![512, 512]⟩
abbrev S512x1536 : Shape := ⟨2, ![512, 1536]⟩
abbrev S512x1024 : Shape := ⟨2, ![512, 1024]⟩
abbrev S1x512x1024 : Shape := ⟨3, ![1, 512, 1024]⟩

abbrev nBuf : Space → Nat
  | .hbm => 25
  | .vmem => 14
  | .smem => 0
  | _ => 0

abbrev bufTy : (tb : Table) → Fin (tcTables nBuf tb) → BufTy
  | .hbm, ⟨0, _⟩ => ⟨S16x2048x6, .f32⟩
  | .hbm, ⟨1, _⟩ => ⟨S16, .i32⟩
  | .hbm, ⟨2, _⟩ => ⟨S36x128, .f32⟩
  | .hbm, ⟨3, _⟩ => ⟨S128, .f32⟩
  | .hbm, ⟨4, _⟩ => ⟨S640x512, .f32⟩
  | .hbm, ⟨5, _⟩ => ⟨S512, .f32⟩
  | .hbm, ⟨6, _⟩ => ⟨S1536x1024, .f32⟩
  | .hbm, ⟨7, _⟩ => ⟨S1024, .f32⟩
  | .hbm, ⟨8, _⟩ => ⟨S6x6x128, .f32⟩
  | .hbm, ⟨9, _⟩ => ⟨S6x6x128, .f32⟩
  | .hbm, ⟨10, _⟩ => ⟨S36x128, .f32⟩
  | .hbm, ⟨11, _⟩ => ⟨S36x128, .bf16⟩
  | .hbm, ⟨12, _⟩ => ⟨S128x5x512, .f32⟩
  | .hbm, ⟨13, _⟩ => ⟨S5x128x512, .f32⟩
  | .hbm, ⟨14, _⟩ => ⟨S640x512, .f32⟩
  | .hbm, ⟨15, _⟩ => ⟨S640x512, .bf16⟩
  | .hbm, ⟨16, _⟩ => ⟨S512x3x1024, .f32⟩
  | .hbm, ⟨17, _⟩ => ⟨S3x512x1024, .f32⟩
  | .hbm, ⟨18, _⟩ => ⟨S1536x1024, .f32⟩
  | .hbm, ⟨19, _⟩ => ⟨S1536x1024, .bf16⟩
  | .hbm, ⟨20, _⟩ => ⟨S1x128, .f32⟩
  | .hbm, ⟨21, _⟩ => ⟨S1x512, .f32⟩
  | .hbm, ⟨22, _⟩ => ⟨S1x1024, .f32⟩
  | .hbm, ⟨23, _⟩ => ⟨S16x2048x1024, .bf16⟩
  | .hbm, ⟨24, _⟩ => ⟨S16x2048x1024, .f32⟩
  | .local _ .vmem, ⟨0, _⟩ => ⟨S1x2048x6, .f32⟩
  | .local _ .vmem, ⟨1, _⟩ => ⟨S1x2048x6, .f32⟩
  | .local _ .vmem, ⟨2, _⟩ => ⟨S36x128, .bf16⟩
  | .local _ .vmem, ⟨3, _⟩ => ⟨S1x128, .f32⟩
  | .local _ .vmem, ⟨4, _⟩ => ⟨S640x512, .bf16⟩
  | .local _ .vmem, ⟨5, _⟩ => ⟨S1x512, .f32⟩
  | .local _ .vmem, ⟨6, _⟩ => ⟨S1536x1024, .bf16⟩
  | .local _ .vmem, ⟨7, _⟩ => ⟨S1x1024, .f32⟩
  | .local _ .vmem, ⟨8, _⟩ => ⟨S1x2048x1024, .bf16⟩
  | .local _ .vmem, ⟨9, _⟩ => ⟨S1x2048x1024, .bf16⟩
  | .local _ .vmem, ⟨10, _⟩ => ⟨S2048x2048, .bf16⟩
  | .local _ .vmem, ⟨11, _⟩ => ⟨S2048x1, .f32⟩
  | .local _ .vmem, ⟨12, _⟩ => ⟨S2048x1536, .bf16⟩
  | .local _ .vmem, ⟨13, _⟩ => ⟨S2048x512, .bf16⟩
  | _, _ => ⟨S16x2048x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S36x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S640x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S36x128_S6x6x128 : S36x128.ShapeCasts S6x6x128
  transposes_S6x6x128_S6x6x128_1_0_2 : S6x6x128.Transposes [1, 0, 2] S6x6x128
  shapeCasts_S6x6x128_S36x128 : S6x6x128.ShapeCasts S36x128
  bitsLt_bf16_f32 : FTy.bits .bf16 < FTy.bits .f32
  shapeCasts_S640x512_S128x5x512 : S640x512.ShapeCasts S128x5x512
  transposes_S128x5x512_S5x128x512_1_0_2 : S128x5x512.Transposes [1, 0, 2] S5x128x512
  shapeCasts_S5x128x512_S640x512 : S5x128x512.ShapeCasts S640x512
  shapeCasts_S1536x1024_S512x3x1024 : S1536x1024.ShapeCasts S512x3x1024
  transposes_S512x3x1024_S3x512x1024_1_0_2 : S512x3x1024.Transposes [1, 0, 2] S3x512x1024
  shapeCasts_S3x512x1024_S1536x1024 : S3x512x1024.ShapeCasts S1536x1024
  shapeCasts_S128_S1x128 : S128.ShapeCasts S1x128
  shapeCasts_S512_S1x512 : S512.ShapeCasts S1x512
  shapeCasts_S1024_S1x1024 : S1024.ShapeCasts S1x1024
  inb_S1x2048x6_S1x2048x6_0_0_0 : ∀ a, (![0, 0, 0] : Fin 3 → Nat) a + S1x2048x6.size a ≤ S1x2048x6.size a
  h_S1x2048x6 : 0 < S1x2048x6.numel
  shapeCasts_S1x2048x6_S2048x6 : S1x2048x6.ShapeCasts S2048x6
  transposes_S2048x6_p1_0_S6x2048 : S2048x6.Transposes [1, 0] S6x2048
  reduces_S2048x6_S2048 : S2048x6.Reduces [1] S2048
  shapeCasts_S2048_S2048x1 : S2048.ShapeCasts S2048x1
  transposes_S2048x1_p1_0_S1x2048 : S2048x1.Transposes [1, 0] S1x2048
  slices_S2048x6_o0_0_S256x6 : S2048x6.Slices ![0, 0] S256x6
  slices_S2048x1_o0_0_S256x1 : S2048x1.Slices ![0, 0] S256x1
  broadcasts_S256x1_S256x2048 : S256x1.Broadcasts S256x2048
  broadcasts_S1x2048_S256x2048 : S1x2048.Broadcasts S256x2048
  inb_S2048x2048_S256x2048_0_0 : ∀ a, (![0, 0] : Fin 2 → Nat) a + S256x2048.size a ≤ S2048x2048.size a
  h_S256x2048 : 0 < S256x2048.numel
  shapeCasts_S256x2048_S256x2048 : S256x2048.ShapeCasts S256x2048
  packedbf16_S2048x2048_S256x2048_0_0 : (Rect.unit (s := S2048x2048) ![0, 0] S256x2048.size inb_S2048x2048_S256x2048_0_0).PackedRows (EltTy.packing .bf16)
  reduces_S256x2048_S256 : S256x2048.Reduces [1] S256
  shapeCasts_S256_S256x1 : S256.ShapeCasts S256x1
  inb_S2048x1_S256x1_0_0 : ∀ a, (![0, 0] : Fin 2 → Nat) a + S256x1.size a ≤ S2048x1.size a
  h_S256x1 : 0 < S256x1.numel
  shapeCasts_S256x1_S256x1 : S256x1.ShapeCasts S256x1
  slices_S2048x6_o256_0_S256x6 : S2048x6.Slices ![256, 0] S256x6
  slices_S2048x1_o256_0_S256x1 : S2048x1.Slices ![256, 0] S256x1
  inb_S2048x2048_S256x2048_256_0 : ∀ a, (![256, 0] : Fin 2 → Nat) a + S256x2048.size a ≤ S2048x2048.size a
  packedbf16_S2048x2048_S256x2048_256_0 : (Rect.unit (s := S2048x2048) ![256, 0] S256x2048.size inb_S2048x2048_S256x2048_256_0).PackedRows (EltTy.packing .bf16)
  inb_S2048x1_S256x1_256_0 : ∀ a, (![256, 0] : Fin 2 → Nat) a + S256x1.size a ≤ S2048x1.size a
  slices_S2048x6_o512_0_S256x6 : S2048x6.Slices ![512, 0] S256x6
  slices_S2048x1_o512_0_S256x1 : S2048x1.Slices ![512, 0] S256x1
  inb_S2048x2048_S256x2048_512_0 : ∀ a, (![512, 0] : Fin 2 → Nat) a + S256x2048.size a ≤ S2048x2048.size a
  packedbf16_S2048x2048_S256x2048_512_0 : (Rect.unit (s := S2048x2048) ![512, 0] S256x2048.size inb_S2048x2048_S256x2048_512_0).PackedRows (EltTy.packing .bf16)
  inb_S2048x1_S256x1_512_0 : ∀ a, (![512, 0] : Fin 2 → Nat) a + S256x1.size a ≤ S2048x1.size a
  slices_S2048x6_o768_0_S256x6 : S2048x6.Slices ![768, 0] S256x6
  slices_S2048x1_o768_0_S256x1 : S2048x1.Slices ![768, 0] S256x1
  inb_S2048x2048_S256x2048_768_0 : ∀ a, (![768, 0] : Fin 2 → Nat) a + S256x2048.size a ≤ S2048x2048.size a
  packedbf16_S2048x2048_S256x2048_768_0 : (Rect.unit (s := S2048x2048) ![768, 0] S256x2048.size inb_S2048x2048_S256x2048_768_0).PackedRows (EltTy.packing .bf16)
  inb_S2048x1_S256x1_768_0 : ∀ a, (![768, 0] : Fin 2 → Nat) a + S256x1.size a ≤ S2048x1.size a
  slices_S2048x6_o1024_0_S256x6 : S2048x6.Slices ![1024, 0] S256x6
  slices_S2048x1_o1024_0_S256x1 : S2048x1.Slices ![1024, 0] S256x1
  inb_S2048x2048_S256x2048_1024_0 : ∀ a, (![1024, 0] : Fin 2 → Nat) a + S256x2048.size a ≤ S2048x2048.size a
  packedbf16_S2048x2048_S256x2048_1024_0 : (Rect.unit (s := S2048x2048) ![1024, 0] S256x2048.size inb_S2048x2048_S256x2048_1024_0).PackedRows (EltTy.packing .bf16)
  inb_S2048x1_S256x1_1024_0 : ∀ a, (![1024, 0] : Fin 2 → Nat) a + S256x1.size a ≤ S2048x1.size a
  slices_S2048x6_o1280_0_S256x6 : S2048x6.Slices ![1280, 0] S256x6
  slices_S2048x1_o1280_0_S256x1 : S2048x1.Slices ![1280, 0] S256x1
  inb_S2048x2048_S256x2048_1280_0 : ∀ a, (![1280, 0] : Fin 2 → Nat) a + S256x2048.size a ≤ S2048x2048.size a
  packedbf16_S2048x2048_S256x2048_1280_0 : (Rect.unit (s := S2048x2048) ![1280, 0] S256x2048.size inb_S2048x2048_S256x2048_1280_0).PackedRows (EltTy.packing .bf16)
  inb_S2048x1_S256x1_1280_0 : ∀ a, (![1280, 0] : Fin 2 → Nat) a + S256x1.size a ≤ S2048x1.size a
  slices_S2048x6_o1536_0_S256x6 : S2048x6.Slices ![1536, 0] S256x6
  slices_S2048x1_o1536_0_S256x1 : S2048x1.Slices ![1536, 0] S256x1
  inb_S2048x2048_S256x2048_1536_0 : ∀ a, (![1536, 0] : Fin 2 → Nat) a + S256x2048.size a ≤ S2048x2048.size a
  packedbf16_S2048x2048_S256x2048_1536_0 : (Rect.unit (s := S2048x2048) ![1536, 0] S256x2048.size inb_S2048x2048_S256x2048_1536_0).PackedRows (EltTy.packing .bf16)
  inb_S2048x1_S256x1_1536_0 : ∀ a, (![1536, 0] : Fin 2 → Nat) a + S256x1.size a ≤ S2048x1.size a
  slices_S2048x6_o1792_0_S256x6 : S2048x6.Slices ![1792, 0] S256x6
  slices_S2048x1_o1792_0_S256x1 : S2048x1.Slices ![1792, 0] S256x1
  inb_S2048x2048_S256x2048_1792_0 : ∀ a, (![1792, 0] : Fin 2 → Nat) a + S256x2048.size a ≤ S2048x2048.size a
  packedbf16_S2048x2048_S256x2048_1792_0 : (Rect.unit (s := S2048x2048) ![1792, 0] S256x2048.size inb_S2048x2048_S256x2048_1792_0).PackedRows (EltTy.packing .bf16)
  inb_S2048x1_S256x1_1792_0 : ∀ a, (![1792, 0] : Fin 2 → Nat) a + S256x1.size a ≤ S2048x1.size a
  inb_S2048x1_S2048x1_0_0 : ∀ a, (![0, 0] : Fin 2 → Nat) a + S2048x1.size a ≤ S2048x1.size a
  h_S2048x1 : 0 < S2048x1.numel
  inb_S2048x1536_S2048x6_0_0 : ∀ a, (![0, 0] : Fin 2 → Nat) a + S2048x6.size a ≤ S2048x1536.size a
  h_S2048x6 : 0 < S2048x6.numel
  shapeCasts_S2048x6_S2048x6 : S2048x6.ShapeCasts S2048x6
  packedbf16_S2048x1536_S2048x6_0_0 : (Rect.unit (s := S2048x1536) ![0, 0] S2048x6.size inb_S2048x1536_S2048x6_0_0).PackedRows (EltTy.packing .bf16)
  inb_S2048x2048_S2048x2048_0_0 : ∀ a, (![0, 0] : Fin 2 → Nat) a + S2048x2048.size a ≤ S2048x2048.size a
  h_S2048x2048 : 0 < S2048x2048.numel
  inb_S2048x1536_S2048x6_0_6 : ∀ a, (![0, 6] : Fin 2 → Nat) a + S2048x6.size a ≤ S2048x1536.size a
  packedbf16_S2048x1536_S2048x6_0_6 : (Rect.unit (s := S2048x1536) ![0, 6] S2048x6.size inb_S2048x1536_S2048x6_0_6).PackedRows (EltTy.packing .bf16)
  inb_S2048x1536_S2048x6_0_12 : ∀ a, (![0, 12] : Fin 2 → Nat) a + S2048x6.size a ≤ S2048x1536.size a
  packedbf16_S2048x1536_S2048x6_0_12 : (Rect.unit (s := S2048x1536) ![0, 12] S2048x6.size inb_S2048x1536_S2048x6_0_12).PackedRows (EltTy.packing .bf16)
  inb_S2048x1536_S2048x6_0_18 : ∀ a, (![0, 18] : Fin 2 → Nat) a + S2048x6.size a ≤ S2048x1536.size a
  packedbf16_S2048x1536_S2048x6_0_18 : (Rect.unit (s := S2048x1536) ![0, 18] S2048x6.size inb_S2048x1536_S2048x6_0_18).PackedRows (EltTy.packing .bf16)
  inb_S2048x1536_S2048x6_0_24 : ∀ a, (![0, 24] : Fin 2 → Nat) a + S2048x6.size a ≤ S2048x1536.size a
  packedbf16_S2048x1536_S2048x6_0_24 : (Rect.unit (s := S2048x1536) ![0, 24] S2048x6.size inb_S2048x1536_S2048x6_0_24).PackedRows (EltTy.packing .bf16)
  inb_S2048x1536_S2048x6_0_30 : ∀ a, (![0, 30] : Fin 2 → Nat) a + S2048x6.size a ≤ S2048x1536.size a
  packedbf16_S2048x1536_S2048x6_0_30 : (Rect.unit (s := S2048x1536) ![0, 30] S2048x6.size inb_S2048x1536_S2048x6_0_30).PackedRows (EltTy.packing .bf16)
  inb_S2048x1536_S512x36_0_0 : ∀ a, (![0, 0] : Fin 2 → Nat) a + S512x36.size a ≤ S2048x1536.size a
  h_S512x36 : 0 < S512x36.numel
  inb_S36x128_S36x128_0_0 : ∀ a, (![0, 0] : Fin 2 → Nat) a + S36x128.size a ≤ S36x128.size a
  h_S36x128 : 0 < S36x128.numel
  shapeCasts_S36x128_S36x128 : S36x128.ShapeCasts S36x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S2048x512_S512x128_0_0 : ∀ a, (![0, 0] : Fin 2 → Nat) a + S512x128.size a ≤ S2048x512.size a
  h_S512x128 : 0 < S512x128.numel
  shapeCasts_S512x128_S512x128 : S512x128.ShapeCasts S512x128
  packedbf16_S2048x512_S512x128_0_0 : (Rect.unit (s := S2048x512) ![0, 0] S512x128.size inb_S2048x512_S512x128_0_0).PackedRows (EltTy.packing .bf16)
  inb_S2048x1536_S512x36_512_0 : ∀ a, (![512, 0] : Fin 2 → Nat) a + S512x36.size a ≤ S2048x1536.size a
  inb_S2048x512_S512x128_512_0 : ∀ a, (![512, 0] : Fin 2 → Nat) a + S512x128.size a ≤ S2048x512.size a
  packedbf16_S2048x512_S512x128_512_0 : (Rect.unit (s := S2048x512) ![512, 0] S512x128.size inb_S2048x512_S512x128_512_0).PackedRows (EltTy.packing .bf16)
  inb_S2048x1536_S512x36_1024_0 : ∀ a, (![1024, 0] : Fin 2 → Nat) a + S512x36.size a ≤ S2048x1536.size a
  inb_S2048x512_S512x128_1024_0 : ∀ a, (![1024, 0] : Fin 2 → Nat) a + S512x128.size a ≤ S2048x512.size a
  packedbf16_S2048x512_S512x128_1024_0 : (Rect.unit (s := S2048x512) ![1024, 0] S512x128.size inb_S2048x512_S512x128_1024_0).PackedRows (EltTy.packing .bf16)
  inb_S2048x1536_S512x36_1536_0 : ∀ a, (![1536, 0] : Fin 2 → Nat) a + S512x36.size a ≤ S2048x1536.size a
  inb_S2048x512_S512x128_1536_0 : ∀ a, (![1536, 0] : Fin 2 → Nat) a + S512x128.size a ≤ S2048x512.size a
  packedbf16_S2048x512_S512x128_1536_0 : (Rect.unit (s := S2048x512) ![1536, 0] S512x128.size inb_S2048x512_S512x128_1536_0).PackedRows (EltTy.packing .bf16)
  inb_S2048x512_S2048x128_0_0 : ∀ a, (![0, 0] : Fin 2 → Nat) a + S2048x128.size a ≤ S2048x512.size a
  h_S2048x128 : 0 < S2048x128.numel
  inb_S2048x1536_S2048x128_0_0 : ∀ a, (![0, 0] : Fin 2 → Nat) a + S2048x128.size a ≤ S2048x1536.size a
  shapeCasts_S2048x128_S2048x128 : S2048x128.ShapeCasts S2048x128
  packedbf16_S2048x1536_S2048x128_0_0 : (Rect.unit (s := S2048x1536) ![0, 0] S2048x128.size inb_S2048x1536_S2048x128_0_0).PackedRows (EltTy.packing .bf16)
  inb_S2048x1536_S2048x128_0_128 : ∀ a, (![0, 128] : Fin 2 → Nat) a + S2048x128.size a ≤ S2048x1536.size a
  packedbf16_S2048x1536_S2048x128_0_128 : (Rect.unit (s := S2048x1536) ![0, 128] S2048x128.size inb_S2048x1536_S2048x128_0_128).PackedRows (EltTy.packing .bf16)
  inb_S2048x1536_S2048x128_0_256 : ∀ a, (![0, 256] : Fin 2 → Nat) a + S2048x128.size a ≤ S2048x1536.size a
  packedbf16_S2048x1536_S2048x128_0_256 : (Rect.unit (s := S2048x1536) ![0, 256] S2048x128.size inb_S2048x1536_S2048x128_0_256).PackedRows (EltTy.packing .bf16)
  inb_S2048x1536_S2048x128_0_384 : ∀ a, (![0, 384] : Fin 2 → Nat) a + S2048x128.size a ≤ S2048x1536.size a
  packedbf16_S2048x1536_S2048x128_0_384 : (Rect.unit (s := S2048x1536) ![0, 384] S2048x128.size inb_S2048x1536_S2048x128_0_384).PackedRows (EltTy.packing .bf16)
  inb_S2048x1536_S2048x128_0_512 : ∀ a, (![0, 512] : Fin 2 → Nat) a + S2048x128.size a ≤ S2048x1536.size a
  packedbf16_S2048x1536_S2048x128_0_512 : (Rect.unit (s := S2048x1536) ![0, 512] S2048x128.size inb_S2048x1536_S2048x128_0_512).PackedRows (EltTy.packing .bf16)
  inb_S2048x1536_S512x640_0_0 : ∀ a, (![0, 0] : Fin 2 → Nat) a + S512x640.size a ≤ S2048x1536.size a
  h_S512x640 : 0 < S512x640.numel
  inb_S640x512_S640x512_0_0 : ∀ a, (![0, 0] : Fin 2 → Nat) a + S640x512.size a ≤ S640x512.size a
  h_S640x512 : 0 < S640x512.numel
  shapeCasts_S640x512_S640x512 : S640x512.ShapeCasts S640x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S2048x512_S512x512_0_0 : ∀ a, (![0, 0] : Fin 2 → Nat) a + S512x512.size a ≤ S2048x512.size a
  h_S512x512 : 0 < S512x512.numel
  shapeCasts_S512x512_S512x512 : S512x512.ShapeCasts S512x512
  packedbf16_S2048x512_S512x512_0_0 : (Rect.unit (s := S2048x512) ![0, 0] S512x512.size inb_S2048x512_S512x512_0_0).PackedRows (EltTy.packing .bf16)
  inb_S2048x1536_S512x640_512_0 : ∀ a, (![512, 0] : Fin 2 → Nat) a + S512x640.size a ≤ S2048x1536.size a
  inb_S2048x512_S512x512_512_0 : ∀ a, (![512, 0] : Fin 2 → Nat) a + S512x512.size a ≤ S2048x512.size a
  packedbf16_S2048x512_S512x512_512_0 : (Rect.unit (s := S2048x512) ![512, 0] S512x512.size inb_S2048x512_S512x512_512_0).PackedRows (EltTy.packing .bf16)
  inb_S2048x1536_S512x640_1024_0 : ∀ a, (![1024, 0] : Fin 2 → Nat) a + S512x640.size a ≤ S2048x1536.size a
  inb_S2048x512_S512x512_1024_0 : ∀ a, (![1024, 0] : Fin 2 → Nat) a + S512x512.size a ≤ S2048x512.size a
  packedbf16_S2048x512_S512x512_1024_0 : (Rect.unit (s := S2048x512) ![1024, 0] S512x512.size inb_S2048x512_S512x512_1024_0).PackedRows (EltTy.packing .bf16)
  inb_S2048x1536_S512x640_1536_0 : ∀ a, (![1536, 0] : Fin 2 → Nat) a + S512x640.size a ≤ S2048x1536.size a
  inb_S2048x512_S512x512_1536_0 : ∀ a, (![1536, 0] : Fin 2 → Nat) a + S512x512.size a ≤ S2048x512.size a
  packedbf16_S2048x512_S512x512_1536_0 : (Rect.unit (s := S2048x512) ![1536, 0] S512x512.size inb_S2048x512_S512x512_1536_0).PackedRows (EltTy.packing .bf16)
  inb_S2048x512_S2048x512_0_0 : ∀ a, (![0, 0] : Fin 2 → Nat) a + S2048x512.size a ≤ S2048x512.size a
  h_S2048x512 : 0 < S2048x512.numel
  inb_S2048x1536_S2048x512_0_0 : ∀ a, (![0, 0] : Fin 2 → Nat) a + S2048x512.size a ≤ S2048x1536.size a
  shapeCasts_S2048x512_S2048x512 : S2048x512.ShapeCasts S2048x512
  packedbf16_S2048x1536_S2048x512_0_0 : (Rect.unit (s := S2048x1536) ![0, 0] S2048x512.size inb_S2048x1536_S2048x512_0_0).PackedRows (EltTy.packing .bf16)
  inb_S2048x1536_S2048x512_0_512 : ∀ a, (![0, 512] : Fin 2 → Nat) a + S2048x512.size a ≤ S2048x1536.size a
  packedbf16_S2048x1536_S2048x512_0_512 : (Rect.unit (s := S2048x1536) ![0, 512] S2048x512.size inb_S2048x1536_S2048x512_0_512).PackedRows (EltTy.packing .bf16)
  inb_S2048x1536_S2048x512_0_1024 : ∀ a, (![0, 1024] : Fin 2 → Nat) a + S2048x512.size a ≤ S2048x1536.size a
  packedbf16_S2048x1536_S2048x512_0_1024 : (Rect.unit (s := S2048x1536) ![0, 1024] S2048x512.size inb_S2048x1536_S2048x512_0_1024).PackedRows (EltTy.packing .bf16)
  inb_S2048x1536_S512x1536_0_0 : ∀ a, (![0, 0] : Fin 2 → Nat) a + S512x1536.size a ≤ S2048x1536.size a
  h_S512x1536 : 0 < S512x1536.numel
  inb_S1536x1024_S1536x1024_0_0 : ∀ a, (![0, 0] : Fin 2 → Nat) a + S1536x1024.size a ≤ S1536x1024.size a
  h_S1536x1024 : 0 < S1536x1024.numel
  shapeCasts_S1536x1024_S1536x1024 : S1536x1024.ShapeCasts S1536x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1x2048x1024_S1x512x1024_0_0_0 : ∀ a, (![0, 0, 0] : Fin 3 → Nat) a + S1x512x1024.size a ≤ S1x2048x1024.size a
  h_S1x512x1024 : 0 < S1x512x1024.numel
  shapeCasts_S1x512x1024_S512x1024 : S1x512x1024.ShapeCasts S512x1024
  shapeCasts_S512x1024_S1x512x1024 : S512x1024.ShapeCasts S1x512x1024
  packedbf16_S1x2048x1024_S1x512x1024_0_0_0 : (Rect.unit (s := S1x2048x1024) ![0, 0, 0] S1x512x1024.size inb_S1x2048x1024_S1x512x1024_0_0_0).PackedRows (EltTy.packing .bf16)
  inb_S2048x1536_S512x1536_512_0 : ∀ a, (![512, 0] : Fin 2 → Nat) a + S512x1536.size a ≤ S2048x1536.size a
  inb_S1x2048x1024_S1x512x1024_0_512_0 : ∀ a, (![0, 512, 0] : Fin 3 → Nat) a + S1x512x1024.size a ≤ S1x2048x1024.size a
  packedbf16_S1x2048x1024_S1x512x1024_0_512_0 : (Rect.unit (s := S1x2048x1024) ![0, 512, 0] S1x512x1024.size inb_S1x2048x1024_S1x512x1024_0_512_0).PackedRows (EltTy.packing .bf16)
  inb_S2048x1536_S512x1536_1024_0 : ∀ a, (![1024, 0] : Fin 2 → Nat) a + S512x1536.size a ≤ S2048x1536.size a
  inb_S1x2048x1024_S1x512x1024_0_1024_0 : ∀ a, (![0, 1024, 0] : Fin 3 → Nat) a + S1x512x1024.size a ≤ S1x2048x1024.size a
  packedbf16_S1x2048x1024_S1x512x1024_0_1024_0 : (Rect.unit (s := S1x2048x1024) ![0, 1024, 0] S1x512x1024.size inb_S1x2048x1024_S1x512x1024_0_1024_0).PackedRows (EltTy.packing .bf16)
  inb_S2048x1536_S512x1536_1536_0 : ∀ a, (![1536, 0] : Fin 2 → Nat) a + S512x1536.size a ≤ S2048x1536.size a
  inb_S1x2048x1024_S1x512x1024_0_1536_0 : ∀ a, (![0, 1536, 0] : Fin 3 → Nat) a + S1x512x1024.size a ≤ S1x2048x1024.size a
  packedbf16_S1x2048x1024_S1x512x1024_0_1536_0 : (Rect.unit (s := S1x2048x1024) ![0, 1536, 0] S1x512x1024.size inb_S1x2048x1024_S1x512x1024_0_1536_0).PackedRows (EltTy.packing .bf16)
  dot_S256x6_S6x2048_S256x2048_1_0_0_1_n_n_wf : DotDims.WF S256x6 S6x2048 S256x2048 [1] [0] [0] [1] [] []
  dot_S2048x2048_S2048x6_S2048x6_1_0_0_1_n_n_wf : DotDims.WF S2048x2048 S2048x6 S2048x6 [1] [0] [0] [1] [] []
  dot_S512x36_S36x128_S512x128_1_0_0_1_n_n_wf : DotDims.WF S512x36 S36x128 S512x128 [1] [0] [0] [1] [] []
  dot_S2048x2048_S2048x128_S2048x128_1_0_0_1_n_n_wf : DotDims.WF S2048x2048 S2048x128 S2048x128 [1] [0] [0] [1] [] []
  dot_S512x640_S640x512_S512x512_1_0_0_1_n_n_wf : DotDims.WF S512x640 S640x512 S512x512 [1] [0] [0] [1] [] []
  dot_S2048x2048_S2048x512_S2048x512_1_0_0_1_n_n_wf : DotDims.WF S2048x2048 S2048x512 S2048x512 [1] [0] [0] [1] [] []
  dot_S512x1536_S1536x1024_S512x1024_1_0_0_1_n_n_wf : DotDims.WF S512x1536 S1536x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x6.size a ≤ S16x2048x6.size a
  hwx0_0 : ∀ i : grid0.Coords, EltTy.bits .f32 = 32 ∨ (Rect.block (s := S16x2048x6) S1x2048x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S36x128.size a ≤ S36x128.size a
  hwx0_1 : ∀ i : grid0.Coords, EltTy.bits .bf16 = 32 ∨ (Rect.block (s := S36x128) S36x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640x512.size a ≤ S640x512.size a
  hwx0_3 : ∀ i : grid0.Coords, EltTy.bits .bf16 = 32 ∨ (Rect.block (s := S640x512) S640x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1536x1024.size a ≤ S1536x1024.size a
  hwx0_5 : ∀ i : grid0.Coords, EltTy.bits .bf16 = 32 ∨ (Rect.block (s := S1536x1024) S1536x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x1024.size a ≤ S16x2048x1024.size a
  hwx0_7 : ∀ i : grid0.Coords, EltTy.bits .bf16 = 32 ∨ (Rect.block (s := S16x2048x1024) S1x2048x1024.size (cc0_transform_7 i) (hinb0_7 i)).WholeWords (EltTy.packing .bf16)

variable [Facts₀]

def dot_S256x6_S6x2048_S256x2048_1_0_0_1_n_n : DotDims S256x6 S6x2048 S256x2048 where
  lhsContracting := [1]
  rhsContracting := [0]
  lhsNonContracting := [0]
  rhsNonContracting := [1]
  lhsBatch := []
  rhsBatch := []
  wf := dot_S256x6_S6x2048_S256x2048_1_0_0_1_n_n_wf
def dot_S2048x2048_S2048x6_S2048x6_1_0_0_1_n_n : DotDims S2048x2048 S2048x6 S2048x6 where
  lhsContracting := [1]
  rhsContracting := [0]
  lhsNonContracting := [0]
  rhsNonContracting := [1]
  lhsBatch := []
  rhsBatch := []
  wf := dot_S2048x2048_S2048x6_S2048x6_1_0_0_1_n_n_wf
def dot_S512x36_S36x128_S512x128_1_0_0_1_n_n : DotDims S512x36 S36x128 S512x128 where
  lhsContracting := [1]
  rhsContracting := [0]
  lhsNonContracting := [0]
  rhsNonContracting := [1]
  lhsBatch := []
  rhsBatch := []
  wf := dot_S512x36_S36x128_S512x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S512x640_S640x512_S512x512_1_0_0_1_n_n : DotDims S512x640 S640x512 S512x512 where
  lhsContracting := [1]
  rhsContracting := [0]
  lhsNonContracting := [0]
  rhsNonContracting := [1]
  lhsBatch := []
  rhsBatch := []
  wf := dot_S512x640_S640x512_S512x512_1_0_0_1_n_n_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf
def dot_S512x1536_S1536x1024_S512x1024_1_0_0_1_n_n : DotDims S512x1536 S1536x1024 S512x1024 where
  lhsContracting := [1]
  rhsContracting := [0]
  lhsNonContracting := [0]
  rhsNonContracting := [1]
  lhsBatch := []
  rhsBatch := []
  wf := dot_S512x1536_S1536x1024_S512x1024_1_0_0_1_n_n_wf

abbrev win0_0 : Pipeline.Window sig grid0 :=
  Pipeline.Window.ofSpec (Memref.whole main_arg0) S1x2048x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S36x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S640x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1536x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x2048x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x2048x6 : Shape := ⟨3, ![16, 2048, 6]⟩
abbrev S16 : Shape := ⟨1, ![16]⟩
abbrev S36x128 : Shape := ⟨2, ![36, 128]⟩
abbrev S128 : Shape := ⟨1, ![128]⟩
abbrev S640x512 : Shape := ⟨2, ![640, 512]⟩
abbrev S512 : Shape := ⟨1, ![512]⟩
abbrev S1536x1024 : Shape := ⟨2, ![1536, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S16x6x2048 : Shape := ⟨3, ![16, 6, 2048]⟩
abbrev S16x2048x2048 : Shape := ⟨3, ![16, 2048, 2048]⟩
abbrev S16x1x2048 : Shape := ⟨3, ![16, 1, 2048]⟩
abbrev S2048x2048 : Shape := ⟨2, ![2048, 2048]⟩
abbrev S1x2048x2048 : Shape := ⟨3, ![1, 2048, 2048]⟩
abbrev S16x2048x6x1 : Shape := ⟨4, ![16, 2048, 6, 1]⟩
abbrev S16x2048x6x6 : Shape := ⟨4, ![16, 2048, 6, 6]⟩
abbrev S32768x36 : Shape := ⟨2, ![32768, 36]⟩
abbrev S32768x128 : Shape := ⟨2, ![32768, 128]⟩
abbrev S1x128 : Shape := ⟨2, ![1, 128]⟩
abbrev S16x2048x128 : Shape := ⟨3, ![16, 2048, 128]⟩
abbrev S16x2048x128x1 : Shape := ⟨4, ![16, 2048, 128, 1]⟩
abbrev S16x2048x128x5 : Shape := ⟨4, ![16, 2048, 128, 5]⟩
abbrev S32768x640 : Shape := ⟨2, ![32768, 640]⟩
abbrev S32768x512 : Shape := ⟨2, ![32768, 512]⟩
abbrev S1x512 : Shape := ⟨2, ![1, 512]⟩
abbrev S16x2048x512 : Shape := ⟨3, ![16, 2048, 512]⟩
abbrev S16x2048x512x1 : Shape := ⟨4, ![16, 2048, 512, 1]⟩
abbrev S16x2048x512x3 : Shape := ⟨4, ![16, 2048, 512, 3]⟩
abbrev S32768x1536 : Shape := ⟨2, ![32768, 1536]⟩
abbrev S32768x1024 : Shape := ⟨2, ![32768, 1024]⟩
abbrev S1x1024 : Shape := ⟨2, ![1, 1024]⟩
abbrev S16x2048x1024 : Shape := ⟨3, ![16, 2048, 1024]⟩

abbrev nBuf : Space → Nat
  | .hbm => 133
  | .vmem => 0
  | .smem => 0
  | _ => 0

abbrev hbmTy0_0 (i : Nat) : BufTy := match i % 128 with
  | 0 => ⟨S16x2048x6, .f32⟩
  | 1 => ⟨S16, .i32⟩
  | 2 => ⟨S36x128, .f32⟩
  | 3 => ⟨S128, .f32⟩
  | 4 => ⟨S640x512, .f32⟩
  | 5 => ⟨S512, .f32⟩
  | 6 => ⟨S1536x1024, .f32⟩
  | 7 => ⟨S1024, .f32⟩
  | 8 => ⟨S16x2048x6, .f32⟩
  | 9 => ⟨S_, .f32⟩
  | 10 => ⟨S16x2048, .f32⟩
  | 11 => ⟨S16x2048x1, .f32⟩
  | 12 => ⟨S16x6x2048, .f32⟩
  | 13 => ⟨S16x2048x2048, .f32⟩
  | 14 => ⟨S_, .f32⟩
  | 15 => ⟨S16x2048x2048, .f32⟩
  | 16 => ⟨S16x2048x2048, .f32⟩
  | 17 => ⟨S16x2048x2048, .f32⟩
  | 18 => ⟨S16x2048x2048, .f32⟩
  | 19 => ⟨S16x1x2048, .f32⟩
  | 20 => ⟨S16x2048x2048, .f32⟩
  | 21 => ⟨S16x2048x2048, .f32⟩
  | 22 => ⟨S16x2048x2048, .f32⟩
  | 23 => ⟨S16x2048x2048, .f32⟩
  | 24 => ⟨S_, .f32⟩
  | 25 => ⟨S16x2048, .f32⟩
  | 26 => ⟨S16x2048, .f32⟩
  | 27 => ⟨S_, .f32⟩
  | 28 => ⟨S16x2048, .f32⟩
  | 29 => ⟨S16x2048, .f32⟩
  | 30 => ⟨S2048x2048, .i32⟩
  | 31 => ⟨S2048x2048, .i32⟩
  | 32 => ⟨S_, .i32⟩
  | 33 => ⟨S2048x2048, .i32⟩
  | 34 => ⟨S2048x2048, .i32⟩
  | 35 => ⟨S2048x2048, .i1⟩
  | 36 => ⟨S2048x2048, .f32⟩
  | 37 => ⟨S1x2048x2048, .f32⟩
  | 38 => ⟨S16x2048x1, .f32⟩
  | 39 => ⟨S16x2048x2048, .f32⟩
  | 40 => ⟨S16x2048x2048, .f32⟩
  | 41 => ⟨S16x1x2048, .f32⟩
  | 42 => ⟨S16x2048x2048, .f32⟩
  | 43 => ⟨S16x2048x2048, .f32⟩
  | 44 => ⟨S16x2048x2048, .f32⟩
  | 45 => ⟨S16x2048x2048, .f32⟩
  | 46 => ⟨S16x2048x6, .f32⟩
  | 47 => ⟨S16x2048x6, .f32⟩
  | 48 => ⟨S_, .f32⟩
  | 49 => ⟨S16x2048x6, .f32⟩
  | 50 => ⟨S16x2048x6, .f32⟩
  | 51 => ⟨S16x2048x6, .f32⟩
  | 52 => ⟨S16x2048x6, .f32⟩
  | 53 => ⟨S_, .f32⟩
  | 54 => ⟨S16x2048x6, .f32⟩
  | 55 => ⟨S16x2048x6, .f32⟩
  | 56 => ⟨S16x2048x6, .f32⟩
  | 57 => ⟨S16x2048x6, .f32⟩
  | 58 => ⟨S_, .f32⟩
  | 59 => ⟨S16x2048x6, .f32⟩
  | 60 => ⟨S16x2048x6, .f32⟩
  | 61 => ⟨S16x2048x6, .f32⟩
  | 62 => ⟨S16x2048x6, .f32⟩
  | 63 => ⟨S_, .f32⟩
  | 64 => ⟨S16x2048x6, .f32⟩
  | 65 => ⟨S16x2048x6, .f32⟩
  | 66 => ⟨S16x2048x6, .f32⟩
  | 67 => ⟨S16x2048x6x1, .f32⟩
  | 68 => ⟨S16x2048x6x1, .f32⟩
  | 69 => ⟨S16x2048x6x1, .f32⟩
  | 70 => ⟨S16x2048x6x1, .f32⟩
  | 71 => ⟨S16x2048x6x1, .f32⟩
  | 72 => ⟨S16x2048x6x1, .f32⟩
  | 73 => ⟨S16x2048x6x6, .f32⟩
  | 74 => ⟨S32768x36, .f32⟩
  | 75 => ⟨S32768x128, .f32⟩
  | 76 => ⟨S1x128, .f32⟩
  | 77 => ⟨S32768x128, .f32⟩
  | 78 => ⟨S32768x128, .f32⟩
  | 79 => ⟨S_, .f32⟩
  | 80 => ⟨S32768x128, .f32⟩
  | 81 => ⟨S32768x128, .f32⟩
  | 82 => ⟨S16x2048x128, .f32⟩
  | 83 => ⟨S16x2048x128, .f32⟩
  | 84 => ⟨S16x2048x128, .f32⟩
  | 85 => ⟨S_, .f32⟩
  | 86 => ⟨S16x2048x128, .f32⟩
  | 87 => ⟨S16x2048x128, .f32⟩
  | 88 => ⟨S16x2048x128, .f32⟩
  | 89 => ⟨S16x2048x128, .f32⟩
  | 90 => ⟨S_, .f32⟩
  | 91 => ⟨S16x2048x128, .f32⟩
  | 92 => ⟨S16x2048x128, .f32⟩
  | 93 => ⟨S16x2048x128, .f32⟩
  | 94 => ⟨S16x2048x128, .f32⟩
  | 95 => ⟨S_, .f32⟩
  | 96 => ⟨S16x2048x128, .f32⟩
  | 97 => ⟨S16x2048x128, .f32⟩
  | 98 => ⟨S16x2048x128, .f32⟩
  | 99 => ⟨S16x2048x128x1, .f32⟩
  | 100 => ⟨S16x2048x128x1, .f32⟩
  | 101 => ⟨S16x2048x128x1, .f32⟩
  | 102 => ⟨S16x2048x128x1, .f32⟩
  | 103 => ⟨S16x2048x128x1, .f32⟩
  | 104 => ⟨S16x2048x128x5, .f32⟩
  | 105 => ⟨S32768x640, .f32⟩
  | 106 => ⟨S32768x512, .f32⟩
  | 107 => ⟨S1x512, .f32⟩
  | 108 => ⟨S32768x512, .f32⟩
  | 109 => ⟨S32768x512, .f32⟩
  | 110 => ⟨S_, .f32⟩
  | 111 => ⟨S32768x512, .f32⟩
  | 112 => ⟨S32768x512, .f32⟩
  | 113 => ⟨S16x2048x512, .f32⟩
  | 114 => ⟨S16x2048x512, .f32⟩
  | 115 => ⟨S16x2048x512, .f32⟩
  | 116 => ⟨S_, .f32⟩
  | 117 => ⟨S16x2048x512, .f32⟩
  | 118 => ⟨S16x2048x512, .f32⟩
  | 119 => ⟨S16x2048x512, .f32⟩
  | 120 => ⟨S16x2048x512x1, .f32⟩
  | 121 => ⟨S16x2048x512x1, .f32⟩
  | 122 => ⟨S16x2048x512x1, .f32⟩
  | 123 => ⟨S16x2048x512x3, .f32⟩
  | 124 => ⟨S32768x1536, .f32⟩
  | 125 => ⟨S32768x1024, .f32⟩
  | 126 => ⟨S1x1024, .f32⟩
  | 127 => ⟨S32768x1024, .f32⟩
  | _ => ⟨S16x2048x6, .f32⟩

abbrev hbmTy0_1 (i : Nat) : BufTy := match i % 128 with
  | 0 => ⟨S32768x1024, .f32⟩
  | 1 => ⟨S_, .f32⟩
  | 2 => ⟨S32768x1024, .f32⟩
  | 3 => ⟨S32768x1024, .f32⟩
  | 4 => ⟨S16x2048x1024, .f32⟩
  | _ => ⟨S16x2048x6, .f32⟩

abbrev hbmTy (i : Nat) : BufTy := match i / 128 with
  | 0 => hbmTy0_0 i
  | 1 => hbmTy0_1 i
  | _ => ⟨S16x2048x6, .f32⟩

abbrev bufTy : (tb : Table) → Fin (tcTables nBuf tb) → BufTy
  | .hbm, ⟨i, _⟩ => hbmTy i
  | _, _ => ⟨S16x2048x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call0_cst : Ref sig .tc := ⟨.hbm, 79, rfl⟩
abbrev main_call0_v0 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_7 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_8 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_9 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_call1_cst : Ref sig .tc := ⟨.hbm, 110, rfl⟩
abbrev main_call1_v0 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_10 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_call2_cst : Ref sig .tc := ⟨.hbm, 129, rfl⟩
abbrev main_call2_v0 : Ref sig .tc := ⟨.hbm, 130, rfl⟩
abbrev main_v104 : Ref sig .tc := ⟨.hbm, 131, rfl⟩
abbrev main_v105 : Ref sig .tc := ⟨.hbm, 132, rfl⟩

abbrev nD : Nat := 1
abbrev τ : Topo := Topo.v7x

variable {F : FTy → Type} [FloatOps F]

class Facts₀ : Prop where
  reducesTo_S16x2048x6_S16x2048_d2 : S16x2048x6.ReducesTo [2] S16x2048
  h_S_ : 0 < S_.numel
  bcast_S16x2048_S16x2048x1_0_1 : S16x2048.BroadcastsInDim S16x2048x1 (![0, 1] : Fin 2 → Fin S16x2048x1.rank)
  transposes_S16x2048x6_S16x6x2048_0_2_1 : S16x2048x6.Transposes [0, 2, 1] S16x6x2048
  bcast_S_S16x2048x2048 : S_.BroadcastsInDim S16x2048x2048 (![] : Fin 0 → Fin S16x2048x2048.rank)
  bcast_S16x2048x1_S16x2048x2048_0_1_2 : S16x2048x1.BroadcastsInDim S16x2048x2048 (![0, 1, 2] : Fin 3 → Fin S16x2048x2048.rank)
  transposes_S16x2048x1_S16x1x2048_0_2_1 : S16x2048x1.Transposes [0, 2, 1] S16x1x2048
  bcast_S16x1x2048_S16x2048x2048_0_1_2 : S16x1x2048.BroadcastsInDim S16x2048x2048 (![0, 1, 2] : Fin 3 → Fin S16x2048x2048.rank)
  reducesTo_S16x2048x2048_S16x2048_d2 : S16x2048x2048.ReducesTo [2] S16x2048
  bcast_S_S16x2048 : S_.BroadcastsInDim S16x2048 (![] : Fin 0 → Fin S16x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S16x2048_S16x1x2048_0_2 : S16x2048.BroadcastsInDim S16x1x2048 (![0, 2] : Fin 2 → Fin S16x1x2048.rank)
  bcast_S1x2048x2048_S16x2048x2048_0_1_2 : S1x2048x2048.BroadcastsInDim S16x2048x2048 (![0, 1, 2] : Fin 3 → Fin S16x2048x2048.rank)
  bcast_S_S16x2048x6 : S_.BroadcastsInDim S16x2048x6 (![] : Fin 0 → Fin S16x2048x6.rank)
  bcast_S16x2048x6_S16x2048x6x1_0_1_2 : S16x2048x6.BroadcastsInDim S16x2048x6x1 (![0, 1, 2] : Fin 3 → Fin S16x2048x6x1.rank)
  concatenates_S16x2048x6x1_S16x2048x6x1_S16x2048x6x1_S16x2048x6x1_S16x2048x6x1_S16x2048x6x1_S16x2048x6x6_d3 : Shape.Concatenates [S16x2048x6x1, S16x2048x6x1, S16x2048x6x1, S16x2048x6x1, S16x2048x6x1, S16x2048x6x1] S16x2048x6x6 3
  shapeCasts_S16x2048x6x6_S32768x36 : S16x2048x6x6.ShapeCasts S32768x36
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  shapeCasts_S32768x128_S16x2048x128 : S32768x128.ShapeCasts S16x2048x128
  bcast_S_S16x2048x128 : S_.BroadcastsInDim S16x2048x128 (![] : Fin 0 → Fin S16x2048x128.rank)
  bcast_S16x2048x128_S16x2048x128x1_0_1_2 : S16x2048x128.BroadcastsInDim S16x2048x128x1 (![0, 1, 2] : Fin 3 → Fin S16x2048x128x1.rank)
  concatenates_S16x2048x128x1_S16x2048x128x1_S16x2048x128x1_S16x2048x128x1_S16x2048x128x1_S16x2048x128x5_d3 : Shape.Concatenates [S16x2048x128x1, S16x2048x128x1, S16x2048x128x1, S16x2048x128x1, S16x2048x128x1] S16x2048x128x5 3
  shapeCasts_S16x2048x128x5_S32768x640 : S16x2048x128x5.ShapeCasts S32768x640
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  shapeCasts_S32768x512_S16x2048x512 : S32768x512.ShapeCasts S16x2048x512
  bcast_S_S16x2048x512 : S_.BroadcastsInDim S16x2048x512 (![] : Fin 0 → Fin S16x2048x512.rank)
  bcast_S16x2048x512_S16x2048x512x1_0_1_2 : S16x2048x512.BroadcastsInDim S16x2048x512x1 (![0, 1, 2] : Fin 3 → Fin S16x2048x512x1.rank)
  concatenates_S16x2048x512x1_S16x2048x512x1_S16x2048x512x1_S16x2048x512x3_d3 : Shape.Concatenates [S16x2048x512x1, S16x2048x512x1, S16x2048x512x1] S16x2048x512x3 3
  shapeCasts_S16x2048x512x3_S32768x1536 : S16x2048x512x3.ShapeCasts S32768x1536
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  shapeCasts_S32768x1024_S16x2048x1024 : S32768x1024.ShapeCasts S16x2048x1024
  dot_S16x2048x6_S16x6x2048_S16x2048x2048_2_1_1_2_0_0_wf : DotDims.WF S16x2048x6 S16x6x2048 S16x2048x2048 [2] [1] [1] [2] [0] [0]
  dot_S16x2048x2048_S16x2048x6_S16x2048x6_2_1_1_2_0_0_wf : DotDims.WF S16x2048x2048 S16x2048x6 S16x2048x6 [2] [1] [1] [2] [0] [0]
  dot_S32768x36_S36x128_S32768x128_1_0_0_1_n_n_wf : DotDims.WF S32768x36 S36x128 S32768x128 [1] [0] [0] [1] [] []
  dot_S16x2048x2048_S16x2048x128_S16x2048x128_2_1_1_2_0_0_wf : DotDims.WF S16x2048x2048 S16x2048x128 S16x2048x128 [2] [1] [1] [2] [0] [0]
  dot_S32768x640_S640x512_S32768x512_1_0_0_1_n_n_wf : DotDims.WF S32768x640 S640x512 S32768x512 [1] [0] [0] [1] [] []
  dot_S16x2048x2048_S16x2048x512_S16x2048x512_2_1_1_2_0_0_wf : DotDims.WF S16x2048x2048 S16x2048x512 S16x2048x512 [2] [1] [1] [2] [0] [0]
  dot_S32768x1536_S1536x1024_S32768x1024_1_0_0_1_n_n_wf : DotDims.WF S32768x1536 S1536x1024 S32768x1024 [1] [0] [0] [1] [] []

variable [Facts₀]

def dot_S16x2048x6_S16x6x2048_S16x2048x2048_2_1_1_2_0_0 : DotDims S16x2048x6 S16x6x2048 S16x2048x2048 where
  lhsContracting := [2]
  rhsContracting := [1]
  lhsNonContracting := [1]
  rhsNonContracting := [2]
  lhsBatch := [0]
  rhsBatch := [0]
  wf := dot_S16x2048x6_S16x6x2048_S16x2048x2048_2_1_1_2_0_0_wf
def dot_S16x2048x2048_S16x2048x6_S16x2048x6_2_1_1_2_0_0 : DotDims S16x2048x2048 S16x2048x6 S16x2048x6 where
  lhsContracting := [2]
  rhsContracting := [1]
  lhsNonContracting := [1]
  rhsNonContracting := [2]
  lhsBatch := [0]
  rhsBatch := [0]
  wf := dot_S16x2048x2048_S16x2048x6_S16x2048x6_2_1_1_2_0_0_wf
def dot_S32768x36_S36x128_S32768x128_1_0_0_1_n_n : DotDims S32768x36 S36x128 S32768x128 where
  lhsContracting := [1]
  rhsContracting := [0]
  lhsNonContracting := [0]
  rhsNonContracting := [1]
  lhsBatch := []
  rhsBatch := []
  wf := dot_S32768x36_S36x128_S32768x128_1_0_0_1_n_n_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf
def dot_S32768x640_S640x512_S32768x512_1_0_0_1_n_n : DotDims S32768x640 S640x512 S32768x512 where
  lhsContracting := [1]
  rhsContracting := [0]
  lhsNonContracting := [0]
  rhsNonContracting := [1]
  lhsBatch := []
  rhsBatch := []
  wf := dot_S32768x640_S640x512_S32768x512_1_0_0_1_n_n_wf
def dot_S16x2048x2048_S16x2048x512_S16x2048x512_2_1_1_2_0_0 : DotDims S16x2048x2048 S16x2048x512 S16x2048x512 where
  lhsContracting := [2]
  rhsContracting := [1]
  lhsNonContracting := [1]
  rhsNonContracting := [2]
  lhsBatch := [0]
  rhsBatch := [0]
  wf := dot_S16x2048x2048_S16x2048x512_S16x2048x512_2_1_1_2_0_0_wf
def dot_S32768x1536_S1536x1024_S32768x1024_1_0_0_1_n_n : DotDims S32768x1536 S1536x1024 S32768x1024 where
  lhsContracting := [1]
  rhsContracting := [0]
  lhsNonContracting := [0]
  rhsNonContracting := [1]
  lhsBatch := []
  rhsBatch := []
  wf := dot_S32768x1536_S1536x1024_S32768x1024_1_0_0_1_n_n_wf

class Facts : Prop extends Facts₀ where

variable [Facts]
-- ==== Proof.Spec.lean ====
/-
  The graph-convolution network both programs compute, written once over the extended reals, index by index.

  For one graph of 2048 nodes with 6 features per node (the array `x`):
  • `sq i` is the squared length of node `i`'s feature row, `gram i j` the inner product of rows `i` and `j`;
  • `aff i j = exp (0 - ((sq i - 2 · gram i j) + sq j))` is the Gaussian affinity of the two nodes (the exponential of
    minus their squared distance), `rowsum i` its sum over `j`, `deg i = rsqrt (rowsum i)` the inverse square root of
    the degree, and `nadj i j = deg i · aff i j · deg j` the symmetrically normalised affinity;
  • `lap y = y - nadj · y` applies the normalised Laplacian `I - nadj` to a feature array `y`, column by column;
  • `cheb y k` is the `k`-th Chebyshev term `T₀ = y`, `T₁ = lap y`, `T_{k+2} = 2 · lap T_{k+1} - T_k`;
  • `dense` concatenates the `K` terms of an `n`-feature array along the features (term `k`, feature `f` at position
    `k · n + f`), multiplies by the weight matrix whose row for (term `k`, feature `f`) is row `f · K + k` of `w`, adds the
    bias and rectifies;
  • `net` is three such layers, 6 → 128 → 512 → 1024 features, with 6, 5 and 3 Chebyshev terms.
-/
import Idealize.ShloMosaic.PureOps.Ideal
import Idealize.ShloMosaic.PureOps.Ideal.Laws
import Idealize.ShloMosaic.Lib.ValueIdx

noncomputable section

open scoped BigOperators

namespace Cert.GraphConv

open Idealize.ShloMosaic

/-- The literal `2.0`. -/
def two : EReal := Ideal.ofBits .f32 0x40000000#32

/-- The literal `0.0`. -/
def zer : EReal := Ideal.ofBits .f32 0x00000000#32

section
variable (x : Fin 2048 → Fin 6 → EReal)

/-- The squared length of node `i`'s feature row. -/
def sq (i : Fin 2048) : EReal := ∑ f : Fin 6, x i f * x i f

/-- The inner product of the feature rows of nodes `i` and `j`. -/
def gram (i j : Fin 2048) : EReal := ∑ f : Fin 6, x i f * x j f

/-- The Gaussian affinity: the exponential of minus the squared distance of the two rows. -/
def aff (i j : Fin 2048) : EReal := Ideal.exp (zer - ((sq x i - two * gram x i j) + sq x j))

/-- A node's degree: the sum of its affinities. -/
def rowsum (i : Fin 2048) : EReal := ∑ j : Fin 2048, aff x i j

/-- The inverse square root of the degree. -/
def deg (i : Fin 2048) : EReal := Ideal.rsqrt (rowsum x i)

/-- The symmetrically normalised affinity. -/
def nadj (i j : Fin 2048) : EReal := deg x i * aff x i j * deg x j

/-- The normalised Laplacian `I - nadj` applied to the columns of `y`. -/
def lap {n : ℕ} (y : Fin 2048 → Fin n → EReal) (i : Fin 2048) (f : Fin n) : EReal :=
  y i f - ∑ j : Fin 2048, nadj x i j * y j f

/-- The Chebyshev terms of `y` under the normalised Laplacian. -/
def cheb {n : ℕ} (y : Fin 2048 → Fin n → EReal) : ℕ → Fin 2048 → Fin n → EReal
  | 0 => y
  | 1 => lap x y
  | (k + 2) => fun i f => two * lap x (cheb y (k + 1)) i f - cheb y k i f

/-- Position `q = k · n + f` of the concatenated terms takes row `f · K + k` of the weight matrix. -/
theorem wrow_lt {n K : ℕ} (q : Fin (K * n)) : (q.val % n) * K + q.val / n < n * K := by
  have hq := q.isLt
  rcases Nat.eq_zero_or_pos n with hn | hn
  · subst hn; simp at hq
  have h1 : q.val % n < n := Nat.mod_lt _ hn
  have h2 : q.val / n < K := Nat.div_lt_of_lt_mul (by have := Nat.mul_comm K n; omega)
  calc (q.val % n) * K + q.val / n < (q.val % n) * K + K := by omega
    _ = (q.val % n + 1) * K := by ring
    _ ≤ n * K := Nat.mul_le_mul_right K h1

/-- One layer: the concatenated Chebyshev terms times the re-ordered weights, plus the bias, rectified. -/
def dense {n K o : ℕ} (hn : 0 < n) (w : Fin (n * K) → Fin o → EReal) (b : Fin o → EReal)
    (y : Fin 2048 → Fin n → EReal) (i : Fin 2048) (c : Fin o) : EReal :=
  max ((∑ q : Fin (K * n), cheb x y (q.val / n) i ⟨q.val % n, Nat.mod_lt _ hn⟩
      * w ⟨(q.val % n) * K + q.val / n, wrow_lt q⟩ c) + b c) zer

/-- The three layers. -/
def net (w0 : Fin (6 * 6) → Fin 128 → EReal) (b0 : Fin 128 → EReal)
    (w1 : Fin (128 * 5) → Fin 512 → EReal) (b1 : Fin 512 → EReal)
    (w2 : Fin (512 * 3) → Fin 1024 → EReal) (b2 : Fin 1024 → EReal) : Fin 2048 → Fin 1024 → EReal :=
  dense x (K := 3) (by decide) w2 b2 (dense x (K := 5) (by decide) w1 b1 (dense x (K := 6) (by decide) w0 b0 x))

end

/-- The network of one graph, its weights and biases given as arrays: row `k` of a weight matrix, entry `o` of a bias. -/
def netOf (xg : Fin 2048 → Fin 6 → EReal)
    (w0 : (⟨2, ![36, 128]⟩ : Shape).Idx → EReal) (b0 : (⟨1, ![128]⟩ : Shape).Idx → EReal)
    (w1 : (⟨2, ![640, 512]⟩ : Shape).Idx → EReal) (b1 : (⟨1, ![512]⟩ : Shape).Idx → EReal)
    (w2 : (⟨2, ![1536, 1024]⟩ : Shape).Idx → EReal) (b2 : (⟨1, ![1024]⟩ : Shape).Idx → EReal) :
    Fin 2048 → Fin 1024 → EReal :=
  net xg (fun k o => w0 (ValueIdx.ix2 (⟨k.val, k.isLt⟩ : Fin 36) o)) (fun o => b0 (ValueIdx.ix1 o))
    (fun k o => w1 (ValueIdx.ix2 (⟨k.val, k.isLt⟩ : Fin 640) o)) (fun o => b1 (ValueIdx.ix1 o))
    (fun k o => w2 (ValueIdx.ix2 (⟨k.val, k.isLt⟩ : Fin 1536) o)) (fun o => b2 (ValueIdx.ix1 o))

/-- The result array for the batch of sixteen graphs: graph `g`, node `i`, output feature `o`. -/
def outOf (x : (⟨3, ![16, 2048, 6]⟩ : Shape).Idx → EReal)
    (w0 : (⟨2, ![36, 128]⟩ : Shape).Idx → EReal) (b0 : (⟨1, ![128]⟩ : Shape).Idx → EReal)
    (w1 : (⟨2, ![640, 512]⟩ : Shape).Idx → EReal) (b1 : (⟨1, ![512]⟩ : Shape).Idx → EReal)
    (w2 : (⟨2, ![1536, 1024]⟩ : Shape).Idx → EReal) (b2 : (⟨1, ![1024]⟩ : Shape).Idx → EReal) :
    (⟨3, ![16, 2048, 1024]⟩ : Shape).Idx → EReal :=
  fun j => netOf (fun i f => x (ValueIdx.ix3 (j 0) i f)) w0 b0 w1 b1 w2 b2 (j 1) (j 2)

end Cert.GraphConv

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«175608_j66305705115960_1_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«175608_j66305705115960_1_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.KCheb.lean ====
/-
  The Chebyshev recursion and the dense layer, in the kernel's operations, read at an index.

  With `A` the normalised affinity as an array: `cur - A · cur` is the first Chebyshev term of `cur`, and
  `2 · (t₁ - A · t₁) - t₀` is the term after `t₁` and `t₀`.  A block of rows of a dense layer is
  `max ((∑ q, rows[p, q] · w[q, c]) + b[c]) 0` at `(p, c)`.
-/
import proofs.«175608_j66305705115960_1_alg».proof.Proof.Spec
import proofs.«175608_j66305705115960_1_alg».proof.Proof.LibBlockDot
import Idealize.ShloMosaic.Lib.ValueLayout

noncomputable section

open scoped BigOperators

namespace Cert.GraphConv

open Idealize.ShloMosaic Idealize.ShloMosaic.ValueIdx

/-- The first Chebyshev term, from the normalised affinity as an array. -/
theorem cheb_first (x : Fin 2048 → Fin 6 → EReal) {n : ℕ} (y : Fin 2048 → Fin n → EReal)
    (A : (⟨2, ![2048, 2048]⟩ : Shape).Idx → EReal) (cur cur' : (⟨2, ![2048, n]⟩ : Shape).Idx → EReal)
    (hA : ∀ i j, A (ix2 i j) = nadj x i j) (hc : ∀ i f, cur (ix2 i f) = y i f) (hc' : ∀ i f, cur' (ix2 i f) = y i f)
    (i : Fin 2048) (f : Fin n) :
    cur' (ix2 i f) - matmul (F := Ideal) (φ₁ := .bf16) (φ₂ := .bf16) (DotDims.plain 2048 2048 n) none A cur (constant ⟨2, ![2048, n]⟩ .f32 0x00000000#32) (ix2 i f)
      = cheb x y 1 i f := by
  rw [Cert.BlockDot.kdot_apply, hc']
  simp only [hA, hc]
  rfl

/-- The next Chebyshev term. -/
theorem cheb_next (x : Fin 2048 → Fin 6 → EReal) {n : ℕ} (y : Fin 2048 → Fin n → EReal)
    (A : (⟨2, ![2048, 2048]⟩ : Shape).Idx → EReal) (t1 t1' t0 : (⟨2, ![2048, n]⟩ : Shape).Idx → EReal) (k : ℕ)
    (hA : ∀ i j, A (ix2 i j) = nadj x i j) (h1 : ∀ i f, t1 (ix2 i f) = cheb x y (k + 1) i f)
    (h1' : ∀ i f, t1' (ix2 i f) = cheb x y (k + 1) i f) (h0 : ∀ i f, t0 (ix2 i f) = cheb x y k i f)
    (i : Fin 2048) (f : Fin n) :
    two * (t1' (ix2 i f) - matmul (F := Ideal) (φ₁ := .bf16) (φ₂ := .bf16) (DotDims.plain 2048 2048 n) none A t1 (constant ⟨2, ![2048, n]⟩ .f32 0x00000000#32) (ix2 i f))
        - t0 (ix2 i f)
      = cheb x y (k + 2) i f := by
  rw [Cert.BlockDot.kdot_apply, h1', h0]
  simp only [hA, h1]
  rfl

/-- A dense layer over weights already re-ordered to the concatenation's positions: `wp q` is the row for position `q`. -/
def denseP (x : Fin 2048 → Fin 6 → EReal) {n K o : ℕ} (hn : 0 < n) (wp : Fin (K * n) → Fin o → EReal) (b : Fin o → EReal)
    (y : Fin 2048 → Fin n → EReal) (i : Fin 2048) (c : Fin o) : EReal :=
  max ((∑ q : Fin (K * n), cheb x y (q.val / n) i ⟨q.val % n, Nat.mod_lt _ hn⟩ * wp q c) + b c) zer

/-- The layer of the specification is the layer over the re-ordered weights. -/
theorem dense_eq_denseP (x : Fin 2048 → Fin 6 → EReal) {n K o : ℕ} (hn : 0 < n) (w : Fin (n * K) → Fin o → EReal)
    (b : Fin o → EReal) (y : Fin 2048 → Fin n → EReal) :
    dense x hn w b y = denseP x hn (fun q c => w ⟨(q.val % n) * K + q.val / n, wrow_lt q⟩ c) b y := rfl

/-- Column `j = n · k + q` of the concatenated terms is feature `q` of term `k`. -/
theorem cheb_col (x : Fin 2048 → Fin 6 → EReal) {n : ℕ} (y : Fin 2048 → Fin n → EReal) (hn : 0 < n) (k : ℕ) (q : Fin n)
    (j : ℕ) (hj : j = n * k + q.val) (i : Fin 2048) :
    cheb x y (j / n) i ⟨j % n, Nat.mod_lt _ hn⟩ = cheb x y k i q := by
  subst hj
  have h1 : (n * k + q.val) / n = k := by
    rw [Nat.mul_add_div hn, Nat.div_eq_of_lt q.isLt, Nat.add_zero]
  have h2 : (n * k + q.val) % n = q.val := by
    rw [Nat.mul_add_mod, Nat.mod_eq_of_lt q.isLt]
  rw [show (⟨(n * k + q.val) % n, Nat.mod_lt _ hn⟩ : Fin n) = q from Fin.ext h2, h1]

/-- The three layers over re-ordered weights. -/
def netP (x : Fin 2048 → Fin 6 → EReal) (wp0 : Fin (6 * 6) → Fin 128 → EReal) (b0 : Fin 128 → EReal)
    (wp1 : Fin (5 * 128) → Fin 512 → EReal) (b1 : Fin 512 → EReal)
    (wp2 : Fin (3 * 512) → Fin 1024 → EReal) (b2 : Fin 1024 → EReal) : Fin 2048 → Fin 1024 → EReal :=
  denseP x (K := 3) (by decide) wp2 b2 (denseP x (K := 5) (by decide) wp1 b1 (denseP x (K := 6) (by decide) wp0 b0 x))

/-- The network of the specification is the network over the re-ordered weights. -/
theorem net_eq_netP (x : Fin 2048 → Fin 6 → EReal) (w0 : Fin (6 * 6) → Fin 128 → EReal) (b0 : Fin 128 → EReal)
    (w1 : Fin (128 * 5) → Fin 512 → EReal) (b1 : Fin 512 → EReal)
    (w2 : Fin (512 * 3) → Fin 1024 → EReal) (b2 : Fin 1024 → EReal) :
    net x w0 b0 w1 b1 w2 b2
      = netP x (fun q c => w0 ⟨(q.val % 6) * 6 + q.val / 6, wrow_lt q⟩ c) b0
          (fun q c => w1 ⟨(q.val % 128) * 5 + q.val / 128, wrow_lt q⟩ c) b1
          (fun q c => w2 ⟨(q.val % 512) * 3 + q.val / 512, wrow_lt q⟩ c) b2 := rfl

/-- What the kernel's body leaves in its output block, from the blocks it is given: the graph's features `x0`, the
    re-ordered weight matrices `x1`, `x3`, `x5` and the biases `x2`, `x4`, `x6` as one-row arrays. -/
def bodyOut (x0 : (⟨3, ![1, 2048, 6]⟩ : Shape).Idx → EReal)
    (x1 : (⟨2, ![36, 128]⟩ : Shape).Idx → EReal) (x2 : (⟨2, ![1, 128]⟩ : Shape).Idx → EReal)
    (x3 : (⟨2, ![640, 512]⟩ : Shape).Idx → EReal) (x4 : (⟨2, ![1, 512]⟩ : Shape).Idx → EReal)
    (x5 : (⟨2, ![1536, 1024]⟩ : Shape).Idx → EReal) (x6 : (⟨2, ![1, 1024]⟩ : Shape).Idx → EReal) :
    (⟨3, ![1, 2048, 1024]⟩ : Shape).Idx → EReal :=
  fun y => netP (fun i f => x0 (ix3 (0 : Fin 1) i f))
    (fun q o => x1 (ix2 (⟨q.val, q.isLt⟩ : Fin 36) o)) (fun o => x2 (ix2 (0 : Fin 1) o))
    (fun q o => x3 (ix2 (⟨q.val, q.isLt⟩ : Fin 640) o)) (fun o => x4 (ix2 (0 : Fin 1) o))
    (fun q o => x5 (ix2 (⟨q.val, q.isLt⟩ : Fin 1536) o)) (fun o => x6 (ix2 (0 : Fin 1) o)) (y 1) (y 2)

/-- A block of `R` rows of a dense layer, in the kernel's operations. -/
def denseChunk {R Kn o : ℕ} (rows : FVec Ideal ⟨2, ![R, Kn]⟩ .bf16) (w : FVec Ideal ⟨2, ![Kn, o]⟩ .bf16)
    (b : FVec Ideal ⟨2, ![1, o]⟩ .f32) (hw : (⟨2, ![Kn, o]⟩ : Shape).ShapeCasts ⟨2, ![Kn, o]⟩)
    (hb : (⟨2, ![1, o]⟩ : Shape).ShapeCasts ⟨2, ![1, o]⟩) (hbc : (⟨2, ![1, o]⟩ : Shape).Broadcasts ⟨2, ![R, o]⟩) :
    FVec Ideal ⟨2, ![R, o]⟩ .f32 :=
  maximumf (addf (matmul (DotDims.plain R Kn o) none rows (shapeCast ⟨2, ![Kn, o]⟩ w hw) (constant ⟨2, ![R, o]⟩ .f32 0x00000000#32))
      (broadcastTo ⟨2, ![R, o]⟩ (shapeCast ⟨2, ![1, o]⟩ b hb) hbc))
    (broadcast ⟨2, ![R, o]⟩ (Scalar.ofBits .f32 0x00000000#32))

theorem denseChunk_apply {R Kn o : ℕ} (rows : FVec Ideal ⟨2, ![R, Kn]⟩ .bf16) (w : FVec Ideal ⟨2, ![Kn, o]⟩ .bf16)
    (b : FVec Ideal ⟨2, ![1, o]⟩ .f32) (hw) (hb) (hbc) (p : Fin R) (c : Fin o) :
    denseChunk rows w b hw hb hbc (ix2 p c)
      = max ((∑ q : Fin Kn, rows (ix2 p q) * w (ix2 q c)) + b (ix2 (0 : Fin 1) c)) zer := by
  unfold denseChunk
  show max (matmul (DotDims.plain R Kn o) none rows (shapeCast ⟨2, ![Kn, o]⟩ w hw) (constant ⟨2, ![R, o]⟩ .f32 0x00000000#32) (ix2 p c)
      + broadcastTo ⟨2, ![R, o]⟩ (shapeCast ⟨2, ![1, o]⟩ b hb) hbc (ix2 p c)) _ = _
  rw [Cert.BlockDot.kdot_apply, broadcastTo_1b_ab_apply, shapeCast_self, shapeCast_self]
  rfl

end Cert.GraphConv

end
-- ==== Proof.KRun.lean ====
/-
  From one graph's output block to the whole result array.

  The kernel's grid has sixteen points; at point `t` its body reads graph `t` of the feature array, the three
  weight matrices with their rows re-ordered and the three biases as one-row arrays, and leaves in its output block the
  network of that graph.  The re-ordering of the weight rows is done before the grid runs, by viewing a matrix of
  `n · K` rows as `n × K` rows, exchanging the two axes and flattening again: row `q` of the result is row
  `(q mod n) · K + q / n` of the original.  Point `t` writes its block back as graph `t` of the result array, so the
  sixteen blocks tile the result, which is then the network of every graph over the original weights.
-/
import proofs.«175608_j66305705115960_1_alg».proof.Proof.Spec
import proofs.«175608_j66305705115960_1_alg».proof.Proof.KCheb
import proofs.«175608_j66305705115960_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Net

open Cert.KernelIdeal Cert.KernelIdeal.Gen

variable (m : (ℓ : Loc nD τ sig) → Buf (Elt Ideal) ℓ) (ρ : Dev nD → PrngReg)

/-! ## Two general facts -/

/-- A matrix of `N = K · n` rows viewed as `n × K` rows, its two row axes exchanged, and flattened again: row `q` of the
    result is row `(q mod n) · K + q / n` of the matrix. -/
theorem permute_apply {α : Type} {N n K o : ℕ} (x : (⟨2, ![N, o]⟩ : Shape).Idx → α)
    (h1 : (⟨2, ![N, o]⟩ : Shape).ShapeCasts ⟨3, ![n, K, o]⟩)
    (h2 : (⟨3, ![n, K, o]⟩ : Shape).Transposes [1, 0, 2] ⟨3, ![K, n, o]⟩)
    (h3 : (⟨3, ![K, n, o]⟩ : Shape).ShapeCasts ⟨2, ![N, o]⟩)
    (hn : 0 < n) (hN : N = K * n) (q : Fin N) (c : Fin o) (hq : (q.val % n) * K + q.val / n < N) :
    shapeCast ⟨2, ![N, o]⟩ (transpose ⟨3, ![K, n, o]⟩ [1, 0, 2] (shapeCast ⟨3, ![n, K, o]⟩ x h1) h2) h3 (ix2 q c)
      = x (ix2 ⟨(q.val % n) * K + q.val / n, hq⟩ c) := by
  have hf : q.val % n < n := Nat.mod_lt _ hn
  have hk : q.val / n < K := Nat.div_lt_of_lt_mul (by rw [Nat.mul_comm, ← hN]; exact q.isLt)
  rw [shapeCast_apply _ h3 (ix2 q c) (ix3 (⟨q.val / n, hk⟩ : Fin K) (⟨q.val % n, hf⟩ : Fin n) c) (by
    rw [Shape.rowMajor_val_three, Shape.rowMajor_val_two]
    show (q.val / n * n + q.val % n) * o + c.val = q.val * o + c.val
    rw [Nat.div_add_mod'])]
  rw [transpose_apply [1, 0, 2] _ h2 (ix3 (⟨q.val / n, hk⟩ : Fin K) (⟨q.val % n, hf⟩ : Fin n) c)
    (ix3 (⟨q.val % n, hf⟩ : Fin n) (⟨q.val / n, hk⟩ : Fin K) c) (fun b => by
      match b with
      | ⟨0, _⟩ => rfl
      | ⟨1, _⟩ => rfl
      | ⟨2, _⟩ => rfl)]
  rw [shapeCast_apply _ h1 (ix3 (⟨q.val % n, hf⟩ : Fin n) (⟨q.val / n, hk⟩ : Fin K) c)
    (ix2 (⟨(q.val % n) * K + q.val / n, hq⟩ : Fin N) c) (by
    rw [Shape.rowMajor_val_three, Shape.rowMajor_val_two]
    rfl)]

/-- A vector of `a` entries viewed as one row reads, at `(0, r)`, the vector at `r`. -/
theorem row_apply {α : Type} {a : ℕ} (x : (⟨1, ![a]⟩ : Shape).Idx → α)
    (h : (⟨1, ![a]⟩ : Shape).ShapeCasts ⟨2, ![1, a]⟩) (u : Fin 1) (r : Fin a) :
    shapeCast ⟨2, ![1, a]⟩ x h (ix2 u r) = x (ix1 r) :=
  shapeCast_apply x h _ _ (by
    have hu : u.val = 0 := by omega
    rw [Shape.rowMajor_val_two, Shape.rowMajor_val_one]
    show r.val = u.val * a + r.val
    rw [hu, Nat.zero_mul, Nat.zero_add])

open Cert.GraphConv in
/-- The network depends on its arguments entry by entry. -/
theorem netP_congr {x x' : Fin 2048 → Fin 6 → EReal} {wp0 wp0' : Fin (6 * 6) → Fin 128 → EReal} {b0 b0' : Fin 128 → EReal}
    {wp1 wp1' : Fin (5 * 128) → Fin 512 → EReal} {b1 b1' : Fin 512 → EReal}
    {wp2 wp2' : Fin (3 * 512) → Fin 1024 → EReal} {b2 b2' : Fin 1024 → EReal}
    (hx : ∀ i f, x i f = x' i f) (h0 : ∀ q o, wp0 q o = wp0' q o) (hb0 : ∀ o, b0 o = b0' o)
    (h1 : ∀ q o, wp1 q o = wp1' q o) (hb1 : ∀ o, b1 o = b1' o)
    (h2 : ∀ q o, wp2 q o = wp2' q o) (hb2 : ∀ o, b2 o = b2' o) :
    netP x wp0 b0 wp1 b1 wp2 b2 = netP x' wp0' b0' wp1' b1' wp2' b2' := by
  obtain rfl : x = x' := funext fun i => funext (hx i)
  obtain rfl : wp0 = wp0' := funext fun q => funext (h0 q)
  obtain rfl : b0 = b0' := funext hb0
  obtain rfl : wp1 = wp1' := funext fun q => funext (h1 q)
  obtain rfl : b1 = b1' := funext hb1
  obtain rfl : wp2 = wp2' := funext fun q => funext (h2 q)
  obtain rfl : b2 = b2' := funext hb2
  rfl

open Cert.GraphConv in
/-- The body's block, read at node `i` and output feature `o`, as the network over re-ordered weights. -/
theorem bodyOut_at (x0 : (⟨3, ![1, 2048, 6]⟩ : Shape).Idx → EReal)
    (x1 : (⟨2, ![36, 128]⟩ : Shape).Idx → EReal) (x2 : (⟨2, ![1, 128]⟩ : Shape).Idx → EReal)
    (x3 : (⟨2, ![640, 512]⟩ : Shape).Idx → EReal) (x4 : (⟨2, ![1, 512]⟩ : Shape).Idx → EReal)
    (x5 : (⟨2, ![1536, 1024]⟩ : Shape).Idx → EReal) (x6 : (⟨2, ![1, 1024]⟩ : Shape).Idx → EReal)
    (u : Fin 1) (i : Fin 2048) (o : Fin 1024) :
    bodyOut x0 x1 x2 x3 x4 x5 x6 (ix3 u i o)
      = netP (fun i f => x0 (ix3 (0 : Fin 1) i f))
          (fun q o => x1 (ix2 (⟨q.val, q.isLt⟩ : Fin 36) o)) (fun o => x2 (ix2 (0 : Fin 1) o))
          (fun q o => x3 (ix2 (⟨q.val, q.isLt⟩ : Fin 640) o)) (fun o => x4 (ix2 (0 : Fin 1) o))
          (fun q o => x5 (ix2 (⟨q.val, q.isLt⟩ : Fin 1536) o)) (fun o => x6 (ix2 (0 : Fin 1) o)) i o := rfl

open Cert.GraphConv in
/-- The specification's array, read at graph `g`, node `i` and output feature `o`, as the network over re-ordered weights:
    position `q` of a layer's concatenated terms takes row `(q mod n) · K + q / n` of that layer's weight matrix. -/
theorem outOf_at (x : (⟨3, ![16, 2048, 6]⟩ : Shape).Idx → EReal)
    (w0 : (⟨2, ![36, 128]⟩ : Shape).Idx → EReal) (b0 : (⟨1, ![128]⟩ : Shape).Idx → EReal)
    (w1 : (⟨2, ![640, 512]⟩ : Shape).Idx → EReal) (b1 : (⟨1, ![512]⟩ : Shape).Idx → EReal)
    (w2 : (⟨2, ![1536, 1024]⟩ : Shape).Idx → EReal) (b2 : (⟨1, ![1024]⟩ : Shape).Idx → EReal)
    (g : Fin 16) (i : Fin 2048) (o : Fin 1024) :
    outOf x w0 b0 w1 b1 w2 b2 (ix3 g i o)
      = netP (fun i f => x (ix3 g i f))
          (fun q o => w0 (ix2 (⟨(q.val % 6) * 6 + q.val / 6, wrow_lt q⟩ : Fin 36) o)) (fun o => b0 (ix1 o))
          (fun q o => w1 (ix2 (⟨(q.val % 128) * 5 + q.val / 128, wrow_lt q⟩ : Fin 640) o)) (fun o => b1 (ix1 o))
          (fun q o => w2 (ix2 (⟨(q.val % 512) * 3 + q.val / 512, wrow_lt q⟩ : Fin 1536) o)) (fun o => b2 (ix1 o)) i o := rfl

/-! ## The index maps, decided over the sixteen grid points -/

/-- The features' window and the output's window are at graph `t`; -/
theorem idx_x : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_out : ∀ t : Fin cfg0.N, win0_7.index t (0 : Fin 3) = t.val ∧ win0_7.index t (1 : Fin 3) = 0 ∧ win0_7.index t (2 : Fin 3) = 0 :=
  (by decide +kernel : ∀ t : Fin grid0.N, _)
/-- the six weight and bias windows are the whole arrays at every point. -/
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)

/-! ## The input blocks at a point -/

/-- The features' block at point `t` is graph `t` of the feature array. -/
theorem blk_x (c : Dev nD) (t : Fin cfg0.N) (g : Fin 16) (hg : g.val = t.val) (i : Fin 2048) (f : Fin 6) :
    (iblk m c 0 t : S1x2048x6.Idx → EReal) (ix3 (0 : Fin 1) i f)
      = (m ((c.tc : Thread nD τ).loc main_arg0) : S16x2048x6.Idx → EReal) (ix3 g i f) := by
  obtain ⟨e0, e1, e2⟩ := idx_x t
  unfold iblk
  rw [View.read_apply]
  show V m c main_arg0 _ = _
  rw [V_main_arg0]
  refine congrArg (m ((c.tc : Thread nD τ).loc main_arg0)) (funext fun a => Fin.ext ?_)
  match a with
  | ⟨0, _⟩ => show win0_0.index t 0 * 1 + 1 * 0 = g.val; omega
  | ⟨1, _⟩ => show win0_0.index t 1 * 2048 + 1 * i.val = i.val; omega
  | ⟨2, _⟩ => show win0_0.index t 2 * 6 + 1 * f.val = f.val; omega

/-- Weight matrix 0's block is the whole re-ordered matrix, whose row `q` is row `(q mod 6) · 6 + q / 6` of the argument. -/
theorem V_w0 (c : Dev nD) (q : Fin 36) (o : Fin 128) (hq : (q.val % 6) * 6 + q.val / 6 < 36) :
    (V m c main_v3 : S36x128.Idx → EReal) (ix2 q o)
      = (m ((c.tc : Thread nD τ).loc main_arg2) : S36x128.Idx → EReal) (ix2 (⟨(q.val % 6) * 6 + q.val / 6, hq⟩ : Fin 36) o) := by
  have e : (V m c main_v3 : S36x128.Idx → EReal)
      = fun j => shapeCast S36x128 (transpose S6x6x128 [1, 0, 2] (shapeCast S6x6x128 (m ((c.tc : Thread nD τ).loc main_arg2) : S36x128.Idx → EReal) shapeCasts_S36x128_S6x6x128) transposes_S6x6x128_S6x6x128_1_0_2) shapeCasts_S6x6x128_S36x128 j := by
    dsimp only [Gen.V, Gen.V0]
    simp only [Gen.hostOps0, List.flatten_cons, List.flatten_nil, List.append_nil]
    after_results
    rfl
  rw [e]
  exact permute_apply (N := 36) (n := 6) (K := 6) (o := 128) _ _ _ _ (by decide) (by decide) q o hq

theorem blk_w0 (c : Dev nD) (t : Fin cfg0.N) (q : Fin 36) (o : Fin 128) :
    (iblk m c 1 t : S36x128.Idx → EReal) (ix2 q o) = (V m c main_v3 : S36x128.Idx → EReal) (ix2 q o) := by
  obtain ⟨e0, e1⟩ := idx_1 t
  unfold iblk
  rw [View.read_apply]
  show V m c main_v3 _ = _
  refine congrArg (V m c main_v3) (funext fun a => Fin.ext ?_)
  match a with
  | ⟨0, _⟩ => show win0_1.index t 0 * 36 + 1 * q.val = q.val; omega
  | ⟨1, _⟩ => show win0_1.index t 1 * 128 + 1 * o.val = o.val; omega

/-- Weight matrix 1's block is the whole re-ordered matrix, whose row `q` is row `(q mod 128) · 5 + q / 128` of the argument. -/
theorem V_w1 (c : Dev nD) (q : Fin 640) (o : Fin 512) (hq : (q.val % 128) * 5 + q.val / 128 < 640) :
    (V m c main_v7 : S640x512.Idx → EReal) (ix2 q o)
      = (m ((c.tc : Thread nD τ).loc main_arg4) : S640x512.Idx → EReal) (ix2 (⟨(q.val % 128) * 5 + q.val / 128, hq⟩ : Fin 640) o) := by
  have e : (V m c main_v7 : S640x512.Idx → EReal)
      = fun j => shapeCast S640x512 (transpose S5x128x512 [1, 0, 2] (shapeCast S128x5x512 (m ((c.tc : Thread nD τ).loc main_arg4) : S640x512.Idx → EReal) shapeCasts_S640x512_S128x5x512) transposes_S128x5x512_S5x128x512_1_0_2) shapeCasts_S5x128x512_S640x512 j := by
    dsimp only [Gen.V, Gen.V0]
    simp only [Gen.hostOps0, List.flatten_cons, List.flatten_nil, List.append_nil]
    after_results
    rfl
  rw [e]
  exact permute_apply (N := 640) (n := 128) (K := 5) (o := 512) _ _ _ _ (by decide) (by decide) q o hq

theorem blk_w1 (c : Dev nD) (t : Fin cfg0.N) (q : Fin 640) (o : Fin 512) :
    (iblk m c 3 t : S640x512.Idx → EReal) (ix2 q o) = (V m c main_v7 : S640x512.Idx → EReal) (ix2 q o) := by
  obtain ⟨e0, e1⟩ := idx_3 t
  unfold iblk
  rw [View.read_apply]
  show V m c main_v7 _ = _
  refine congrArg (V m c main_v7) (funext fun a => Fin.ext ?_)
  match a with
  | ⟨0, _⟩ => show win0_3.index t 0 * 640 + 1 * q.val = q.val; omega
  | ⟨1, _⟩ => show win0_3.index t 1 * 512 + 1 * o.val = o.val; omega

/-- Weight matrix 2's block is the whole re-ordered matrix, whose row `q` is row `(q mod 512) · 3 + q / 512` of the argument. -/
theorem V_w2 (c : Dev nD) (q : Fin 1536) (o : Fin 1024) (hq : (q.val % 512) * 3 + q.val / 512 < 1536) :
    (V m c main_v11 : S1536x1024.Idx → EReal) (ix2 q o)
      = (m ((c.tc : Thread nD τ).loc main_arg6) : S1536x1024.Idx → EReal) (ix2 (⟨(q.val % 512) * 3 + q.val / 512, hq⟩ : Fin 1536) o) := by
  have e : (V m c main_v11 : S1536x1024.Idx → EReal)
      = fun j => shapeCast S1536x1024 (transpose S3x512x1024 [1, 0, 2] (shapeCast S512x3x1024 (m ((c.tc : Thread nD τ).loc main_arg6) : S1536x1024.Idx → EReal) shapeCasts_S1536x1024_S512x3x1024) transposes_S512x3x1024_S3x512x1024_1_0_2) shapeCasts_S3x512x1024_S1536x1024 j := by
    dsimp only [Gen.V, Gen.V0]
    simp only [Gen.hostOps0, List.flatten_cons, List.flatten_nil, List.append_nil]
    after_results
    rfl
  rw [e]
  exact permute_apply (N := 1536) (n := 512) (K := 3) (o := 1024) _ _ _ _ (by decide) (by decide) q o hq

theorem blk_w2 (c : Dev nD) (t : Fin cfg0.N) (q : Fin 1536) (o : Fin 1024) :
    (iblk m c 5 t : S1536x1024.Idx → EReal) (ix2 q o) = (V m c main_v11 : S1536x1024.Idx → EReal) (ix2 q o) := by
  obtain ⟨e0, e1⟩ := idx_5 t
  unfold iblk
  rw [View.read_apply]
  show V m c main_v11 _ = _
  refine congrArg (V m c main_v11) (funext fun a => Fin.ext ?_)
  match a with
  | ⟨0, _⟩ => show win0_5.index t 0 * 1536 + 1 * q.val = q.val; omega
  | ⟨1, _⟩ => show win0_5.index t 1 * 1024 + 1 * o.val = o.val; omega

/-- Bias 0's block is the bias as one row. -/
theorem V_b0 (c : Dev nD) (o : Fin 128) :
    (V m c main_v12 : S1x128.Idx → EReal) (ix2 (0 : Fin 1) o) = (m ((c.tc : Thread nD τ).loc main_arg3) : S128.Idx → EReal) (ix1 o) := by
  have e : (V m c main_v12 : S1x128.Idx → EReal)
      = shapeCast S1x128 (m ((c.tc : Thread nD τ).loc main_arg3) : S128.Idx → EReal) shapeCasts_S128_S1x128 := by
    dsimp only [Gen.V, Gen.V0]
    simp only [Gen.hostOps0, List.flatten_cons, List.flatten_nil, List.append_nil]
    after_results
    rfl
  rw [e]
  exact row_apply _ _ (0 : Fin 1) o

theorem blk_b0 (c : Dev nD) (t : Fin cfg0.N) (o : Fin 128) :
    (iblk m c 2 t : S1x128.Idx → EReal) (ix2 (0 : Fin 1) o) = (V m c main_v12 : S1x128.Idx → EReal) (ix2 (0 : Fin 1) o) := by
  obtain ⟨e0, e1⟩ := idx_2 t
  unfold iblk
  rw [View.read_apply]
  show V m c main_v12 _ = _
  refine congrArg (V m c main_v12) (funext fun a => Fin.ext ?_)
  match a with
  | ⟨0, _⟩ => show win0_2.index t 0 * 1 + 1 * 0 = 0; omega
  | ⟨1, _⟩ => show win0_2.index t 1 * 128 + 1 * o.val = o.val; omega

/-- Bias 1's block is the bias as one row. -/
theorem V_b1 (c : Dev nD) (o : Fin 512) :
    (V m c main_v13 : S1x512.Idx → EReal) (ix2 (0 : Fin 1) o) = (m ((c.tc : Thread nD τ).loc main_arg5) : S512.Idx → EReal) (ix1 o) := by
  have e : (V m c main_v13 : S1x512.Idx → EReal)
      = shapeCast S1x512 (m ((c.tc : Thread nD τ).loc main_arg5) : S512.Idx → EReal) shapeCasts_S512_S1x512 := by
    dsimp only [Gen.V, Gen.V0]
    simp only [Gen.hostOps0, List.flatten_cons, List.flatten_nil, List.append_nil]
    after_results
    rfl
  rw [e]
  exact row_apply _ _ (0 : Fin 1) o

theorem blk_b1 (c : Dev nD) (t : Fin cfg0.N) (o : Fin 512) :
    (iblk m c 4 t : S1x512.Idx → EReal) (ix2 (0 : Fin 1) o) = (V m c main_v13 : S1x512.Idx → EReal) (ix2 (0 : Fin 1) o) := by
  obtain ⟨e0, e1⟩ := idx_4 t
  unfold iblk
  rw [View.read_apply]
  show V m c main_v13 _ = _
  refine congrArg (V m c main_v13) (funext fun a => Fin.ext ?_)
  match a with
  | ⟨0, _⟩ => show win0_4.index t 0 * 1 + 1 * 0 = 0; omega
  | ⟨1, _⟩ => show win0_4.index t 1 * 512 + 1 * o.val = o.val; omega

/-- Bias 2's block is the bias as one row. -/
theorem V_b2 (c : Dev nD) (o : Fin 1024) :
    (V m c main_v14 : S1x1024.Idx → EReal) (ix2 (0 : Fin 1) o) = (m ((c.tc : Thread nD τ).loc main_arg7) : S1024.Idx → EReal) (ix1 o) := by
  have e : (V m c main_v14 : S1x1024.Idx → EReal)
      = shapeCast S1x1024 (m ((c.tc : Thread nD τ).loc main_arg7) : S1024.Idx → EReal) shapeCasts_S1024_S1x1024 := by
    dsimp only [Gen.V, Gen.V0]
    simp only [Gen.hostOps0, List.flatten_cons, List.flatten_nil, List.append_nil]
    after_results
    rfl
  rw [e]
  exact row_apply _ _ (0 : Fin 1) o

theorem blk_b2 (c : Dev nD) (t : Fin cfg0.N) (o : Fin 1024) :
    (iblk m c 6 t : S1x1024.Idx → EReal) (ix2 (0 : Fin 1) o) = (V m c main_v14 : S1x1024.Idx → EReal) (ix2 (0 : Fin 1) o) := by
  obtain ⟨e0, e1⟩ := idx_6 t
  unfold iblk
  rw [View.read_apply]
  show V m c main_v14 _ = _
  refine congrArg (V m c main_v14) (funext fun a => Fin.ext ?_)
  match a with
  | ⟨0, _⟩ => show win0_6.index t 0 * 1 + 1 * 0 = 0; omega
  | ⟨1, _⟩ => show win0_6.index t 1 * 1024 + 1 * o.val = o.val; omega

/-! ## One block is one graph's network -/

/-- The result array before its last conversion: the network of every graph, over the original weights. -/
abbrev G (c : Dev nD) : S16x2048x1024.Idx → EReal :=
  Cert.GraphConv.outOf (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- What the body leaves at point `t`, read at node `i` and output feature `o`, is the network of graph `t` there. -/
theorem block_net (c : Dev nD) (t : Fin cfg0.N) (g : Fin 16) (hg : g.val = t.val) (i : Fin 2048) (o : Fin 1024) :
    Cert.GraphConv.bodyOut (iblk m c 0 t) (iblk m c 1 t) (iblk m c 2 t) (iblk m c 3 t) (iblk m c 4 t) (iblk m c 5 t) (iblk m c 6 t) (ix3 (0 : Fin 1) i o)
      = G m c (ix3 g i o) := by
  refine (bodyOut_at (iblk m c 0 t) (iblk m c 1 t) (iblk m c 2 t) (iblk m c 3 t) (iblk m c 4 t) (iblk m c 5 t) (iblk m c 6 t) (0 : Fin 1) i o).trans ?_
  refine Eq.trans ?_ (outOf_at (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) g i o).symm
  refine congrFun (congrFun (netP_congr (fun i f => ?_) (fun q o => ?_) (fun o => ?_) (fun q o => ?_) (fun o => ?_)
    (fun q o => ?_) (fun o => ?_)) i) o
  · exact blk_x m c t g hg i f
  · exact (blk_w0 m c t ⟨q.val, q.isLt⟩ o).trans (V_w0 m c ⟨q.val, q.isLt⟩ o _)
  · exact (blk_b0 m c t o).trans (V_b0 m c o)
  · exact (blk_w1 m c t ⟨q.val, q.isLt⟩ o).trans (V_w1 m c ⟨q.val, q.isLt⟩ o _)
  · exact (blk_b1 m c t o).trans (V_b1 m c o)
  · exact (blk_w2 m c t ⟨q.val, q.isLt⟩ o).trans (V_w2 m c ⟨q.val, q.isLt⟩ o _)
  · exact (blk_b2 m c t o).trans (V_b2 m c o)

/-! ## From the blocks to the array -/

/-- What point `t` writes back is block `t` of the array of networks. -/
theorem flushed_eq
    (hbody : ∀ (c : Dev nD) (i : grid0.Coords) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg6 : Memref sig .tc .vmem S1536x1024 .bf16) (harg6 : arg6.IsWhole) (arg7 : Memref sig .tc .vmem S1x1024 .f32) (harg7 : arg7.IsWhole) (arg8 : Memref sig .tc .vmem S1x2048x1024 .bf16) (harg8 : arg8.IsWhole) (arg9 : Memref sig .tc .vmem S2048x2048 .bf16) (harg9 : arg9.IsWhole) (arg10 : Memref sig .tc .vmem S2048x1 .f32) (harg10 : arg10.IsWhole) (arg11 : Memref sig .tc .vmem S2048x1536 .bf16) (harg11 : arg11.IsWhole) (arg12 : Memref sig .tc .vmem S2048x512 .bf16) (harg12 : arg12.IsWhole) (x0 : Vec Ideal S1x2048x6 .f32) (x1 : Vec Ideal S36x128 .bf16) (x2 : Vec Ideal S1x128 .f32) (x3 : Vec Ideal S640x512 .bf16) (x4 : Vec Ideal S1x512 .f32) (x5 : Vec Ideal S1536x1024 .bf16) (x6 : Vec Ideal S1x1024 .f32),
      Gen.out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 = Cert.GraphConv.bodyOut x0 x1 x2 x3 x4 x5 x6)
    (c : Dev nD) (t : Fin cfg0.N) :
    (dats m 0 c).flushed 7 t = ((cfg0.win 7).blk t).view.read (Elt Ideal) (G m c) := by
  have hN : cfg0.N = 16 := N_0
  have ht : t.val < 16 := by have := t.isLt; omega
  obtain ⟨e0, e1, e2⟩ := idx_out t
  show (cfg0.win 7).cut (grid0.coords t) ((dats m 0 c).after 7 t) = _
  rw [after0_7]
  unfold outsAt0
  refine (hbody c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t)).trans ?_
  funext y
  rw [View.read_apply]
  have h0 : (y 0).val < 1 := (y 0).isLt
  refine (block_net m c t ⟨t.val, ht⟩ rfl (y 1) (y 2)).trans ?_
  refine congrArg (G m c) (funext fun a => Fin.ext ?_)
  match a with
  | ⟨0, _⟩ => show t.val = win0_7.index t 0 * 1 + 1 * (y 0).val; omega
  | ⟨1, _⟩ => show (y 1).val = win0_7.index t 1 * 2048 + 1 * (y 1).val; omega
  | ⟨2, _⟩ => show (y 2).val = win0_7.index t 2 * 1024 + 1 * (y 2).val; omega

/-- An index of the result is in point `t`'s block iff each coordinate is in the block's range on its axis. -/
theorem mem_blk (t : Fin cfg0.N) (i : S16x2048x1024.Idx) :
    i ∈ ((cfg0.win 7).blk t).view.set ↔ ∀ a : Fin 3, win0_7.index t a * S1x2048x1024.size a ≤ (i a).val
      ∧ (i a).val < win0_7.index t a * S1x2048x1024.size a + S1x2048x1024.size a := by
  show i ∈ ((View.whole main_v15).slice (win0_7.rect t)).set ↔ _
  rw [View.set_slice_whole, Rect.mem_set_unit]
  exact Iff.rfl

/-- Graph `g` of the result is covered by point `g`. -/
theorem cover (i : S16x2048x1024.Idx) :
    ∃ t : Fin cfg0.N, (cfg0.win 7).flush t = true ∧ i ∈ ((cfg0.win 7).blk t).view.set := by
  have hN : cfg0.N = 16 := N_0
  have h0 : (i 0).val < 16 := (i 0).isLt
  have h1 : (i 1).val < 2048 := (i 1).isLt
  have h2 : (i 2).val < 1024 := (i 2).isLt
  have ht : (i 0).val < cfg0.N := by omega
  obtain ⟨e0, e1, e2⟩ := idx_out ⟨(i 0).val, ht⟩
  have e0' : win0_7.index ⟨(i 0).val, ht⟩ 0 = (i 0).val := e0
  refine ⟨⟨(i 0).val, ht⟩, flush0_7 _, ?_⟩
  rw [mem_blk]
  intro a
  match a with
  | ⟨0, _⟩ => show win0_7.index ⟨(i 0).val, ht⟩ 0 * 1 ≤ (i 0).val ∧ (i 0).val < win0_7.index ⟨(i 0).val, ht⟩ 0 * 1 + 1; omega
  | ⟨1, _⟩ => show win0_7.index ⟨(i 0).val, ht⟩ 1 * 2048 ≤ (i 1).val ∧ (i 1).val < win0_7.index ⟨(i 0).val, ht⟩ 1 * 2048 + 2048; omega
  | ⟨2, _⟩ => show win0_7.index ⟨(i 0).val, ht⟩ 2 * 1024 ≤ (i 2).val ∧ (i 2).val < win0_7.index ⟨(i 0).val, ht⟩ 2 * 1024 + 1024; omega

/-- So the region leaves the array of networks in its result. -/
theorem final
    (hbody : ∀ (c : Dev nD) (i : grid0.Coords) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg6 : Memref sig .tc .vmem S1536x1024 .bf16) (harg6 : arg6.IsWhole) (arg7 : Memref sig .tc .vmem S1x1024 .f32) (harg7 : arg7.IsWhole) (arg8 : Memref sig .tc .vmem S1x2048x1024 .bf16) (harg8 : arg8.IsWhole) (arg9 : Memref sig .tc .vmem S2048x2048 .bf16) (harg9 : arg9.IsWhole) (arg10 : Memref sig .tc .vmem S2048x1 .f32) (harg10 : arg10.IsWhole) (arg11 : Memref sig .tc .vmem S2048x1536 .bf16) (harg11 : arg11.IsWhole) (arg12 : Memref sig .tc .vmem S2048x512 .bf16) (harg12 : arg12.IsWhole) (x0 : Vec Ideal S1x2048x6 .f32) (x1 : Vec Ideal S36x128 .bf16) (x2 : Vec Ideal S1x128 .f32) (x3 : Vec Ideal S640x512 .bf16) (x4 : Vec Ideal S1x512 .f32) (x5 : Vec Ideal S1536x1024 .bf16) (x6 : Vec Ideal S1x1024 .f32),
      Gen.out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 = Cert.GraphConv.bodyOut x0 x1 x2 x3 x4 x5 x6)
    (c : Dev nD) : (dats m 0 c).arrAt 7 cfg0.N = G m c :=
  (dats m 0 c).arrAt_eq_of_cover 7 (G m c) (fun t _ => flushed_eq m hbody c t) cover

/-! ## The conversion after the grid, and the run -/

/-- The program's result is the region's array converted to the wider float type: over the extended reals, the same array. -/
theorem tail_eq (c : Dev nD) :
    Pipeline.afterTail₀ cfgs (dats m) 0 (V0 m) [hostOps1] c main_v16
      = ((dats m 0 c).arrAt 7 cfg0.N : S16x2048x1024.Idx → EReal) := by
  unfold Pipeline.afterTail₀
  show StableHlo.after hostOps1 _ (Proc.devRef .tc main_v16) = _
  after_results
  refine Eq.trans ?_ (Pipeline.withArrays_arr spec0 launch0.win.arr_inj c (V0 m c) (fun w => (dats m 0 c).arrAt w cfg0.N) 7)
  rfl

/-- The run: the result array ends holding the network of every graph over the original weights, and the arguments
    are unchanged. -/
theorem kernel_run
    (hbody : ∀ (c : Dev nD) (i : grid0.Coords) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg6 : Memref sig .tc .vmem S1536x1024 .bf16) (harg6 : arg6.IsWhole) (arg7 : Memref sig .tc .vmem S1x1024 .f32) (harg7 : arg7.IsWhole) (arg8 : Memref sig .tc .vmem S1x2048x1024 .bf16) (harg8 : arg8.IsWhole) (arg9 : Memref sig .tc .vmem S2048x2048 .bf16) (harg9 : arg9.IsWhole) (arg10 : Memref sig .tc .vmem S2048x1 .f32) (harg10 : arg10.IsWhole) (arg11 : Memref sig .tc .vmem S2048x1536 .bf16) (harg11 : arg11.IsWhole) (arg12 : Memref sig .tc .vmem S2048x512 .bf16) (harg12 : arg12.IsWhole) (x0 : Vec Ideal S1x2048x6 .f32) (x1 : Vec Ideal S36x128 .bf16) (x2 : Vec Ideal S1x128 .f32) (x3 : Vec Ideal S640x512 .bf16) (x4 : Vec Ideal S1x512 .f32) (x5 : Vec Ideal S1536x1024 .bf16) (x6 : Vec Ideal S1x1024 .f32),
      Gen.out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 = Cert.GraphConv.bodyOut x0 x1 x2 x3 x4 x5 x6) :
    θ_run defs (onTc (τ := τ) (main (F := Ideal))) ⟨m, fun _ => 0, ρ⟩ fun r => ∀ c : Dev nD,
      r.2.mem ((c.tc : Thread nD τ).loc main_v16) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨((h c).2 main_v16 (Pipeline.mem_restRefs_of main_v16 (by decide) (by decide))).trans ((tail_eq m c).trans (final m hbody c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Net

end
-- ==== Proof.RefStages.lean ====
/-
  The reference program's result as a chain of named stages over its argument arrays.

  Each definition is one group of the program's operations applied to earlier stages: the squared lengths of
  the feature rows, the Gram array, the Gaussian affinity, the inverse square root of the degree written as
  `1 / sqrt`, the identity matrix as a converted comparison of two iotas, the Laplacian array
  `eye - d · aff · d`, and then, per layer, the unrolled Chebyshev terms, their stacking on a new last
  axis, the flattening to a matrix, the product with the weights, the bias and the rectification.
-/
import proofs.«175608_j66305705115960_1_alg».proof.Proof.Gen.ReferenceIdeal
import Idealize.ShloMosaic.Lib.StableHlo.Run

noncomputable section

namespace Cert.ReferenceIdeal.Net

open Cert.ReferenceIdeal Cert.ReferenceIdeal.Gen Idealize.ShloMosaic Idealize.ShloMosaic.TcCoe Idealize.SL.Sem Idealize.ShloMosaic.StableHlo

variable {F : FTy → Type} [FloatOps F]

/-! ### The graph: affinity, degree, Laplacian -/

/-- The squared length of every feature row: the sum over the features of the squares, from the literal `0`. -/
def sqLen (x : (⟨S16x2048x6, .f32⟩ : BufTy).Contents (Elt F)) : (⟨S16x2048, .f32⟩ : BufTy).Contents (Elt F) :=
  Host.reduceAdd (mulf x x) (constant S_ .f32 0x00000000#32) reducesTo_S16x2048x6_S16x2048_d2 h_S_

/-- The squared lengths as a column per graph. -/
def sqCol (x : (⟨S16x2048x6, .f32⟩ : BufTy).Contents (Elt F)) : (⟨S16x2048x1, .f32⟩ : BufTy).Contents (Elt F) :=
  broadcastInDim S16x2048x1 ![0, 1] bcast_S16x2048_S16x2048x1_0_1 (sqLen x)

/-- The inner products of the feature rows, graph by graph. -/
def gramArr (x : (⟨S16x2048x6, .f32⟩ : BufTy).Contents (Elt F)) : (⟨S16x2048x2048, .f32⟩ : BufTy).Contents (Elt F) :=
  Host.dotGeneral dot_S16x2048x6_S16x6x2048_S16x2048x2048_2_1_1_2_0_0 none x
    (transpose S16x6x2048 [0, 2, 1] x transposes_S16x2048x6_S16x6x2048_0_2_1)

/-- The squared distances: `(sq i - 2 · gram i j) + sq j`. -/
def sqDist (x : (⟨S16x2048x6, .f32⟩ : BufTy).Contents (Elt F)) : (⟨S16x2048x2048, .f32⟩ : BufTy).Contents (Elt F) :=
  addf
    (subf (broadcastInDim S16x2048x2048 ![0, 1, 2] bcast_S16x2048x1_S16x2048x2048_0_1_2 (sqCol x))
      (mulf (broadcastInDim S16x2048x2048 ![] bcast_S_S16x2048x2048 (constant S_ .f32 0x40000000#32)) (gramArr x)))
    (broadcastInDim S16x2048x2048 ![0, 1, 2] bcast_S16x1x2048_S16x2048x2048_0_1_2
      (transpose S16x1x2048 [0, 2, 1] (sqCol x) transposes_S16x2048x1_S16x1x2048_0_2_1))

/-- The Gaussian affinity: the exponential of minus the squared distance. -/
def affinity (x : (⟨S16x2048x6, .f32⟩ : BufTy).Contents (Elt F)) : (⟨S16x2048x2048, .f32⟩ : BufTy).Contents (Elt F) :=
  Host.exp (Host.negf (sqDist x))

/-- The inverse square root of the degree, as the literal `1` divided by the square root of the row sum. -/
def degree (x : (⟨S16x2048x6, .f32⟩ : BufTy).Contents (Elt F)) : (⟨S16x2048, .f32⟩ : BufTy).Contents (Elt F) :=
  Host.divf (broadcastInDim S16x2048 ![] bcast_S_S16x2048 (constant S_ .f32 0x3F800000#32))
    (Host.sqrt (Host.reduceAdd (affinity x) (constant S_ .f32 0x00000000#32) reducesTo_S16x2048x2048_S16x2048_d2 h_S_))

/-- The identity matrix: the comparison of the row and column iotas, converted. -/
def eye : (⟨S2048x2048, .f32⟩ : BufTy).Contents (Elt F) :=
  uitofp .f32 (cmpi .eq
    (addi (iotaInDim S2048x2048 32 0) (broadcastInDim S2048x2048 ![] bcast_S_S2048x2048 (constantI S_ 32 0#32)))
    (iotaInDim S2048x2048 32 1 : (⟨S2048x2048, .i32⟩ : BufTy).Contents (Elt F)))

/-- The normalised affinity `d i · aff i j · d j`. -/
def normAff (x : (⟨S16x2048x6, .f32⟩ : BufTy).Contents (Elt F)) : (⟨S16x2048x2048, .f32⟩ : BufTy).Contents (Elt F) :=
  mulf
    (mulf (broadcastInDim S16x2048x2048 ![0, 1, 2] bcast_S16x2048x1_S16x2048x2048_0_1_2
        (broadcastInDim S16x2048x1 ![0, 1] bcast_S16x2048_S16x2048x1_0_1 (degree x)))
      (affinity x))
    (broadcastInDim S16x2048x2048 ![0, 1, 2] bcast_S16x1x2048_S16x2048x2048_0_1_2
      (broadcastInDim S16x1x2048 ![0, 2] bcast_S16x2048_S16x1x2048_0_2 (degree x)))

/-- The Laplacian array: the identity minus the normalised affinity, for every graph. -/
def laplacian (x : (⟨S16x2048x6, .f32⟩ : BufTy).Contents (Elt F)) : (⟨S16x2048x2048, .f32⟩ : BufTy).Contents (Elt F) :=
  subf
    (broadcastInDim S16x2048x2048 ![0, 1, 2] bcast_S1x2048x2048_S16x2048x2048_0_1_2
      (broadcastInDim S1x2048x2048 ![1, 2] bcast_S2048x2048_S1x2048x2048_1_2 eye))
    (normAff x)

/-! ### The layer with 6 input features, 6 Chebyshev terms and 128 output features -/

/-- The Laplacian array times a feature array, graph by graph. -/
def lmul6 (L : (⟨S16x2048x2048, .f32⟩ : BufTy).Contents (Elt F)) (y : (⟨S16x2048x6, .f32⟩ : BufTy).Contents (Elt F)) : (⟨S16x2048x6, .f32⟩ : BufTy).Contents (Elt F) :=
  Host.dotGeneral dot_S16x2048x2048_S16x2048x6_S16x2048x6_2_1_1_2_0_0 none L y

/-- Twice an array: the product with the literal `2.0` broadcast. -/
def twice6 (y : (⟨S16x2048x6, .f32⟩ : BufTy).Contents (Elt F)) : (⟨S16x2048x6, .f32⟩ : BufTy).Contents (Elt F) :=
  mulf (broadcastInDim S16x2048x6 ![] bcast_S_S16x2048x6 (constant S_ .f32 0x40000000#32)) y

/-- One step of the recursion: `2 · L · y₁ - y₀`. -/
def next6 (L : (⟨S16x2048x2048, .f32⟩ : BufTy).Contents (Elt F)) (y1 y0 : (⟨S16x2048x6, .f32⟩ : BufTy).Contents (Elt F)) : (⟨S16x2048x6, .f32⟩ : BufTy).Contents (Elt F) :=
  subf (twice6 (lmul6 L y1)) y0

/-- A feature array with a new last axis of size one. -/
def lift6 (y : (⟨S16x2048x6, .f32⟩ : BufTy).Contents (Elt F)) : (⟨S16x2048x6x1, .f32⟩ : BufTy).Contents (Elt F) :=
  broadcastInDim S16x2048x6x1 ![0, 1, 2] bcast_S16x2048x6_S16x2048x6x1_0_1_2 y

/-- The first Chebyshev term. -/
def term1_6 (L : (⟨S16x2048x2048, .f32⟩ : BufTy).Contents (Elt F)) (y : (⟨S16x2048x6, .f32⟩ : BufTy).Contents (Elt F)) : (⟨S16x2048x6, .f32⟩ : BufTy).Contents (Elt F) := lmul6 L y
/-- The second Chebyshev term. -/
def term2_6 (L : (⟨S16x2048x2048, .f32⟩ : BufTy).Contents (Elt F)) (y : (⟨S16x2048x6, .f32⟩ : BufTy).Contents (Elt F)) : (⟨S16x2048x6, .f32⟩ : BufTy).Contents (Elt F) := next6 L (term1_6 L y) y
/-- The third Chebyshev term. -/
def term3_6 (L : (⟨S16x2048x2048, .f32⟩ : BufTy).Contents (Elt F)) (y : (⟨S16x2048x6, .f32⟩ : BufTy).Contents (Elt F)) : (⟨S16x2048x6, .f32⟩ : BufTy).Contents (Elt F) := next6 L (term2_6 L y) (term1_6 L y)
/-- The fourth Chebyshev term. -/
def term4_6 (L : (⟨S16x2048x2048, .f32⟩ : BufTy).Contents (Elt F)) (y : (⟨S16x2048x6, .f32⟩ : BufTy).Contents (Elt F)) : (⟨S16x2048x6, .f32⟩ : BufTy).Contents (Elt F) := next6 L (term3_6 L y) (term2_6 L y)
/-- The fifth Chebyshev term. -/
def term5_6 (L : (⟨S16x2048x2048, .f32⟩ : BufTy).Contents (Elt F)) (y : (⟨S16x2048x6, .f32⟩ : BufTy).Contents (Elt F)) : (⟨S16x2048x6, .f32⟩ : BufTy).Contents (Elt F) := next6 L (term4_6 L y) (term3_6 L y)

/-- The terms stacked on a new last axis. -/
def stack6 (L : (⟨S16x2048x2048, .f32⟩ : BufTy).Contents (Elt F)) (y : (⟨S16x2048x6, .f32⟩ : BufTy).Contents (Elt F)) : (⟨S16x2048x6x6, .f32⟩ : BufTy).Contents (Elt F) :=
  concatenate S16x2048x6x6 3 [⟨S16x2048x6x1, lift6 (y)⟩, ⟨S16x2048x6x1, lift6 (term1_6 L y)⟩, ⟨S16x2048x6x1, lift6 (term2_6 L y)⟩, ⟨S16x2048x6x1, lift6 (term3_6 L y)⟩, ⟨S16x2048x6x1, lift6 (term4_6 L y)⟩, ⟨S16x2048x6x1, lift6 (term5_6 L y)⟩] concatenates_S16x2048x6x1_S16x2048x6x1_S16x2048x6x1_S16x2048x6x1_S16x2048x6x1_S16x2048x6x1_S16x2048x6x6_d3

/-- The stacked terms as a matrix: one row per (graph, node), one column per (feature, term). -/
def flat6 (L : (⟨S16x2048x2048, .f32⟩ : BufTy).Contents (Elt F)) (y : (⟨S16x2048x6, .f32⟩ : BufTy).Contents (Elt F)) : (⟨S32768x36, .f32⟩ : BufTy).Contents (Elt F) :=
  shapeCast _ (stack6 L y) shapeCasts_S16x2048x6x6_S32768x36

/-- The matrix of stacked terms times the weights, plus the bias row. -/
def pre6 (L : (⟨S16x2048x2048, .f32⟩ : BufTy).Contents (Elt F)) (y : (⟨S16x2048x6, .f32⟩ : BufTy).Contents (Elt F)) (w : (⟨S36x128, .f32⟩ : BufTy).Contents (Elt F)) (b : (⟨S128, .f32⟩ : BufTy).Contents (Elt F)) : (⟨S32768x128, .f32⟩ : BufTy).Contents (Elt F) :=
  addf (Host.dotGeneral dot_S32768x36_S36x128_S32768x128_1_0_0_1_n_n none (flat6 L y) w)
    (broadcastInDim S32768x128 ![0, 1] bcast_S1x128_S32768x128_0_1 (broadcastInDim S1x128 ![1] bcast_S128_S1x128_1 b))

/-- The rectified pre-activation. -/
def act6 (L : (⟨S16x2048x2048, .f32⟩ : BufTy).Contents (Elt F)) (y : (⟨S16x2048x6, .f32⟩ : BufTy).Contents (Elt F)) (w : (⟨S36x128, .f32⟩ : BufTy).Contents (Elt F)) (b : (⟨S128, .f32⟩ : BufTy).Contents (Elt F)) : (⟨S32768x128, .f32⟩ : BufTy).Contents (Elt F) :=
  maximumf (pre6 L y w b) (broadcastInDim S32768x128 ![] bcast_S_S32768x128 (constant S_ .f32 0x00000000#32))

/-- The layer's output, graph by graph. -/
def layer6 (L : (⟨S16x2048x2048, .f32⟩ : BufTy).Contents (Elt F)) (y : (⟨S16x2048x6, .f32⟩ : BufTy).Contents (Elt F)) (w : (⟨S36x128, .f32⟩ : BufTy).Contents (Elt F)) (b : (⟨S128, .f32⟩ : BufTy).Contents (Elt F)) : (⟨S16x2048x128, .f32⟩ : BufTy).Contents (Elt F) :=
  shapeCast _ (act6 L y w b) shapeCasts_S32768x128_S16x2048x128

/-! ### The layer with 128 input features, 5 Chebyshev terms and 512 output features -/

/-- The Laplacian array times a feature array, graph by graph. -/
def lmul128 (L : (⟨S16x2048x2048, .f32⟩ : BufTy).Contents (Elt F)) (y : (⟨S16x2048x128, .f32⟩ : BufTy).Contents (Elt F)) : (⟨S16x2048x128, .f32⟩ : BufTy).Contents (Elt F) :=
  Host.dotGeneral dot_S16x2048x2048_S16x2048x128_S16x2048x128_2_1_1_2_0_0 none L y

/-- Twice an array: the product with the literal `2.0` broadcast. -/
def twice128 (y : (⟨S16x2048x128, .f32⟩ : BufTy).Contents (Elt F)) : (⟨S16x2048x128, .f32⟩ : BufTy).Contents (Elt F) :=
  mulf (broadcastInDim S16x2048x128 ![] bcast_S_S16x2048x128 (constant S_ .f32 0x40000000#32)) y

/-- One step of the recursion: `2 · L · y₁ - y₀`. -/
def next128 (L : (⟨S16x2048x2048, .f32⟩ : BufTy).Contents (Elt F)) (y1 y0 : (⟨S16x2048x128, .f32⟩ : BufTy).Contents (Elt F)) : (⟨S16x2048x128, .f32⟩ : BufTy).Contents (Elt F) :=
  subf (twice128 (lmul128 L y1)) y0

/-- A feature array with a new last axis of size one. -/
def lift128 (y : (⟨S16x2048x128, .f32⟩ : BufTy).Contents (Elt F)) : (⟨S16x2048x128x1, .f32⟩ : BufTy).Contents (Elt F) :=
  broadcastInDim S16x2048x128x1 ![0, 1, 2] bcast_S16x2048x128_S16x2048x128x1_0_1_2 y

/-- The first Chebyshev term. -/
def term1_128 (L : (⟨S16x2048x2048, .f32⟩ : BufTy).Contents (Elt F)) (y : (⟨S16x2048x128, .f32⟩ : BufTy).Contents (Elt F)) : (⟨S16x2048x128, .f32⟩ : BufTy).Contents (Elt F) := lmul128 L y
/-- The second Chebyshev term. -/
def term2_128 (L : (⟨S16x2048x2048, .f32⟩ : BufTy).Contents (Elt F)) (y : (⟨S16x2048x128, .f32⟩ : BufTy).Contents (Elt F)) : (⟨S16x2048x128, .f32⟩ : BufTy).Contents (Elt F) := next128 L (term1_128 L y) y
/-- The third Chebyshev term. -/
def term3_128 (L : (⟨S16x2048x2048, .f32⟩ : BufTy).Contents (Elt F)) (y : (⟨S16x2048x128, .f32⟩ : BufTy).Contents (Elt F)) : (⟨S16x2048x128, .f32⟩ : BufTy).Contents (Elt F) := next128 L (term2_128 L y) (term1_128 L y)
/-- The fourth Chebyshev term. -/
def term4_128 (L : (⟨S16x2048x2048, .f32⟩ : BufTy).Contents (Elt F)) (y : (⟨S16x2048x128, .f32⟩ : BufTy).Contents (Elt F)) : (⟨S16x2048x128, .f32⟩ : BufTy).Contents (Elt F) := next128 L (term3_128 L y) (term2_128 L y)

/-- The terms stacked on a new last axis. -/
def stack128 (L : (⟨S16x2048x2048, .f32⟩ : BufTy).Contents (Elt F)) (y : (⟨S16x2048x128, .f32⟩ : BufTy).Contents (Elt F)) : (⟨S16x2048x128x5, .f32⟩ : BufTy).Contents (Elt F) :=
  concatenate S16x2048x128x5 3 [⟨S16x2048x128x1, lift128 (y)⟩, ⟨S16x2048x128x1, lift128 (term1_128 L y)⟩, ⟨S16x2048x128x1, lift128 (term2_128 L y)⟩, ⟨S16x2048x128x1, lift128 (term3_128 L y)⟩, ⟨S16x2048x128x1, lift128 (term4_128 L y)⟩] concatenates_S16x2048x128x1_S16x2048x128x1_S16x2048x128x1_S16x2048x128x1_S16x2048x128x1_S16x2048x128x5_d3

/-- The stacked terms as a matrix: one row per (graph, node), one column per (feature, term). -/
def flat128 (L : (⟨S16x2048x2048, .f32⟩ : BufTy).Contents (Elt F)) (y : (⟨S16x2048x128, .f32⟩ : BufTy).Contents (Elt F)) : (⟨S32768x640, .f32⟩ : BufTy).Contents (Elt F) :=
  shapeCast _ (stack128 L y) shapeCasts_S16x2048x128x5_S32768x640

/-- The matrix of stacked terms times the weights, plus the bias row. -/
def pre128 (L : (⟨S16x2048x2048, .f32⟩ : BufTy).Contents (Elt F)) (y : (⟨S16x2048x128, .f32⟩ : BufTy).Contents (Elt F)) (w : (⟨S640x512, .f32⟩ : BufTy).Contents (Elt F)) (b : (⟨S512, .f32⟩ : BufTy).Contents (Elt F)) : (⟨S32768x512, .f32⟩ : BufTy).Contents (Elt F) :=
  addf (Host.dotGeneral dot_S32768x640_S640x512_S32768x512_1_0_0_1_n_n none (flat128 L y) w)
    (broadcastInDim S32768x512 ![0, 1] bcast_S1x512_S32768x512_0_1 (broadcastInDim S1x512 ![1] bcast_S512_S1x512_1 b))

/-- The rectified pre-activation. -/
def act128 (L : (⟨S16x2048x2048, .f32⟩ : BufTy).Contents (Elt F)) (y : (⟨S16x2048x128, .f32⟩ : BufTy).Contents (Elt F)) (w : (⟨S640x512, .f32⟩ : BufTy).Contents (Elt F)) (b : (⟨S512, .f32⟩ : BufTy).Contents (Elt F)) : (⟨S32768x512, .f32⟩ : BufTy).Contents (Elt F) :=
  maximumf (pre128 L y w b) (broadcastInDim S32768x512 ![] bcast_S_S32768x512 (constant S_ .f32 0x00000000#32))

/-- The layer's output, graph by graph. -/
def layer128 (L : (⟨S16x2048x2048, .f32⟩ : BufTy).Contents (Elt F)) (y : (⟨S16x2048x128, .f32⟩ : BufTy).Contents (Elt F)) (w : (⟨S640x512, .f32⟩ : BufTy).Contents (Elt F)) (b : (⟨S512, .f32⟩ : BufTy).Contents (Elt F)) : (⟨S16x2048x512, .f32⟩ : BufTy).Contents (Elt F) :=
  shapeCast _ (act128 L y w b) shapeCasts_S32768x512_S16x2048x512

/-! ### The layer with 512 input features, 3 Chebyshev terms and 1024 output features -/

/-- The Laplacian array times a feature array, graph by graph. -/
def lmul512 (L : (⟨S16x2048x2048, .f32⟩ : BufTy).Contents (Elt F)) (y : (⟨S16x2048x512, .f32⟩ : BufTy).Contents (Elt F)) : (⟨S16x2048x512, .f32⟩ : BufTy).Contents (Elt F) :=
  Host.dotGeneral dot_S16x2048x2048_S16x2048x512_S16x2048x512_2_1_1_2_0_0 none L y

/-- Twice an array: the product with the literal `2.0` broadcast. -/
def twice512 (y : (⟨S16x2048x512, .f32⟩ : BufTy).Contents (Elt F)) : (⟨S16x2048x512, .f32⟩ : BufTy).Contents (Elt F) :=
  mulf (broadcastInDim S16x2048x512 ![] bcast_S_S16x2048x512 (constant S_ .f32 0x40000000#32)) y

/-- One step of the recursion: `2 · L · y₁ - y₀`. -/
def next512 (L : (⟨S16x2048x2048, .f32⟩ : BufTy).Contents (Elt F)) (y1 y0 : (⟨S16x2048x512, .f32⟩ : BufTy).Contents (Elt F)) : (⟨S16x2048x512, .f32⟩ : BufTy).Contents (Elt F) :=
  subf (twice512 (lmul512 L y1)) y0

/-- A feature array with a new last axis of size one. -/
def lift512 (y : (⟨S16x2048x512, .f32⟩ : BufTy).Contents (Elt F)) : (⟨S16x2048x512x1, .f32⟩ : BufTy).Contents (Elt F) :=
  broadcastInDim S16x2048x512x1 ![0, 1, 2] bcast_S16x2048x512_S16x2048x512x1_0_1_2 y

/-- The first Chebyshev term. -/
def term1_512 (L : (⟨S16x2048x2048, .f32⟩ : BufTy).Contents (Elt F)) (y : (⟨S16x2048x512, .f32⟩ : BufTy).Contents (Elt F)) : (⟨S16x2048x512, .f32⟩ : BufTy).Contents (Elt F) := lmul512 L y
/-- The second Chebyshev term. -/
def term2_512 (L : (⟨S16x2048x2048, .f32⟩ : BufTy).Contents (Elt F)) (y : (⟨S16x2048x512, .f32⟩ : BufTy).Contents (Elt F)) : (⟨S16x2048x512, .f32⟩ : BufTy).Contents (Elt F) := next512 L (term1_512 L y) y

/-- The terms stacked on a new last axis. -/
def stack512 (L : (⟨S16x2048x2048, .f32⟩ : BufTy).Contents (Elt F)) (y : (⟨S16x2048x512, .f32⟩ : BufTy).Contents (Elt F)) : (⟨S16x2048x512x3, .f32⟩ : BufTy).Contents (Elt F) :=
  concatenate S16x2048x512x3 3 [⟨S16x2048x512x1, lift512 (y)⟩, ⟨S16x2048x512x1, lift512 (term1_512 L y)⟩, ⟨S16x2048x512x1, lift512 (term2_512 L y)⟩] concatenates_S16x2048x512x1_S16x2048x512x1_S16x2048x512x1_S16x2048x512x3_d3

/-- The stacked terms as a matrix: one row per (graph, node), one column per (feature, term). -/
def flat512 (L : (⟨S16x2048x2048, .f32⟩ : BufTy).Contents (Elt F)) (y : (⟨S16x2048x512, .f32⟩ : BufTy).Contents (Elt F)) : (⟨S32768x1536, .f32⟩ : BufTy).Contents (Elt F) :=
  shapeCast _ (stack512 L y) shapeCasts_S16x2048x512x3_S32768x1536

/-- The matrix of stacked terms times the weights, plus the bias row. -/
def pre512 (L : (⟨S16x2048x2048, .f32⟩ : BufTy).Contents (Elt F)) (y : (⟨S16x2048x512, .f32⟩ : BufTy).Contents (Elt F)) (w : (⟨S1536x1024, .f32⟩ : BufTy).Contents (Elt F)) (b : (⟨S1024, .f32⟩ : BufTy).Contents (Elt F)) : (⟨S32768x1024, .f32⟩ : BufTy).Contents (Elt F) :=
  addf (Host.dotGeneral dot_S32768x1536_S1536x1024_S32768x1024_1_0_0_1_n_n none (flat512 L y) w)
    (broadcastInDim S32768x1024 ![0, 1] bcast_S1x1024_S32768x1024_0_1 (broadcastInDim S1x1024 ![1] bcast_S1024_S1x1024_1 b))

/-- The rectified pre-activation. -/
def act512 (L : (⟨S16x2048x2048, .f32⟩ : BufTy).Contents (Elt F)) (y : (⟨S16x2048x512, .f32⟩ : BufTy).Contents (Elt F)) (w : (⟨S1536x1024, .f32⟩ : BufTy).Contents (Elt F)) (b : (⟨S1024, .f32⟩ : BufTy).Contents (Elt F)) : (⟨S32768x1024, .f32⟩ : BufTy).Contents (Elt F) :=
  maximumf (pre512 L y w b) (broadcastInDim S32768x1024 ![] bcast_S_S32768x1024 (constant S_ .f32 0x00000000#32))

/-- The layer's output, graph by graph. -/
def layer512 (L : (⟨S16x2048x2048, .f32⟩ : BufTy).Contents (Elt F)) (y : (⟨S16x2048x512, .f32⟩ : BufTy).Contents (Elt F)) (w : (⟨S1536x1024, .f32⟩ : BufTy).Contents (Elt F)) (b : (⟨S1024, .f32⟩ : BufTy).Contents (Elt F)) : (⟨S16x2048x1024, .f32⟩ : BufTy).Contents (Elt F) :=
  shapeCast _ (act512 L y w b) shapeCasts_S32768x1024_S16x2048x1024

/-! ### The whole network -/

/-- The reference's result over its argument arrays. -/
def refOut (x : (⟨S16x2048x6, .f32⟩ : BufTy).Contents (Elt F)) (w0 : (⟨S36x128, .f32⟩ : BufTy).Contents (Elt F)) (b0 : (⟨S128, .f32⟩ : BufTy).Contents (Elt F)) (w1 : (⟨S640x512, .f32⟩ : BufTy).Contents (Elt F)) (b1 : (⟨S512, .f32⟩ : BufTy).Contents (Elt F))
    (w2 : (⟨S1536x1024, .f32⟩ : BufTy).Contents (Elt F)) (b2 : (⟨S1024, .f32⟩ : BufTy).Contents (Elt F)) : (⟨S16x2048x1024, .f32⟩ : BufTy).Contents (Elt F) :=
  layer512 (laplacian x) (layer128 (laplacian x) (layer6 (laplacian x) x w0 b0) w1 b1) w2 b2

end Cert.ReferenceIdeal.Net

end
-- ==== Proof.RefRun.lean ====
/-
  The reference program's run: every weakly fair execution ends with the result buffer at the staged
  term `refOut` of the argument arrays, the arguments unchanged.

  The program's operations are listed once, and once more in four consecutive pieces (the graph's
  Laplacian, then the three layers). Each piece, from any contents of the buffers, leaves its output
  buffer at its stage applied to the contents of the few buffers it reads, and leaves the buffers that
  later pieces read as they were; the whole run is the four pieces in sequence.
-/
import proofs.«175608_j66305705115960_1_alg».proof.Proof.RefStages

noncomputable section

namespace Cert.ReferenceIdeal.Net

open Cert.ReferenceIdeal Cert.ReferenceIdeal.Gen Idealize.ShloMosaic Idealize.ShloMosaic.TcCoe Idealize.SL.Sem Idealize.ShloMosaic.StableHlo

section Generic

variable {nD : Nat} {τ : Topo} {sig : RefSig} {Val : EltTy → Type}

/-- Two lines of operations run one after the other. -/
theorem after_append' : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append' l₁ l₂]

/-- A concatenation of 3 literal operands: the result with each operand's contents at its own reference. -/
theorem nary3_result' {x0 x1 x2 y : Ref sig .tc}
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (no_index (Proc.devRef .tc y))
      = f (Fin.cons (F (Proc.devRef .tc x0)) (Fin.cons (F (Proc.devRef .tc x1)) (Fin.cons (F (Proc.devRef .tc x2)) (fun i => i.elim0)))) := by
  rw [nary_result]; congr 1; funext k; fin_cases k <;> rfl

/-- A concatenation of 5 literal operands: the result with each operand's contents at its own reference. -/
theorem nary5_result' {x0 x1 x2 x3 x4 y : Ref sig .tc}
    (f : ((k : Fin 5) → ((![x0, x1, x2, x3, x4] : Fin 5 → Ref sig .tc) k).ty.Contents Val) → y.ty.Contents Val) (hxs hy)
    (F : Valuation τ sig Val) :
    (nary (τ := τ) ![x0, x1, x2, x3, x4] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (fun i => i.elim0)))))) := by
  rw [nary_result]; congr 1; funext k; fin_cases k <;> rfl

/-- A concatenation of 6 literal operands: the result with each operand's contents at its own reference. -/
theorem nary6_result' {x0 x1 x2 x3 x4 x5 y : Ref sig .tc}
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (fun i => i.elim0))))))) := by
  rw [nary_result]; congr 1; funext k; fin_cases k <;> rfl

end Generic

/-- The results of a literal line of operations at a literal reference, by one pass. -/
macro "stage_results" : tactic =>
  `(tactic| (simp (disch := decide) only [after_cons, after_nil,
      nullary_result', unary_result', binary_result', reshape_result', nary3_result', nary5_result', nary6_result',
      nullary_result_ne', unary_result_ne', binary_result_ne', reshape_result_ne', nary_result_ne']))

variable {F : FTy → Type} [FloatOps F]

/-- The program's 125 operations, in order (a called function's operations stand in its call's place). -/
abbrev ops : List (HloOp τ sig (Elt F)) :=
  [ binary main_arg0 main_arg0 main_v0 (mulf : (⟨S16x2048x6, .f32⟩ : BufTy).Contents (Elt F) → (⟨S16x2048x6, .f32⟩ : BufTy).Contents (Elt F) → (⟨S16x2048x6, .f32⟩ : BufTy).Contents (Elt F)),
    nullary main_cst (constant S_ .f32 0x00000000#32),
    binary main_v0 main_cst main_v1 ((fun x v => Host.reduceAdd x v reducesTo_S16x2048x6_S16x2048_d2 h_S_) : (⟨S16x2048x6, .f32⟩ : BufTy).Contents (Elt F) → (⟨S_, .f32⟩ : BufTy).Contents (Elt F) → (⟨S16x2048, .f32⟩ : BufTy).Contents (Elt F)),
    unary main_v1 main_v2 (broadcastInDim S16x2048x1 ![0, 1] bcast_S16x2048_S16x2048x1_0_1 : (⟨S16x2048, .f32⟩ : BufTy).Contents (Elt F) → (⟨S16x2048x1, .f32⟩ : BufTy).Contents (Elt F)),
    unary main_arg0 main_v3 ((transpose S16x6x2048 [0, 2, 1] · transposes_S16x2048x6_S16x6x2048_0_2_1) : (⟨S16x2048x6, .f32⟩ : BufTy).Contents (Elt F) → (⟨S16x6x2048, .f32⟩ : BufTy).Contents (Elt F)),
    binary main_arg0 main_v3 main_v4 ((fun l r => Host.dotGeneral dot_S16x2048x6_S16x6x2048_S16x2048x2048_2_1_1_2_0_0 none l r) : (⟨S16x2048x6, .f32⟩ : BufTy).Contents (Elt F) → (⟨S16x6x2048, .f32⟩ : BufTy).Contents (Elt F) → (⟨S16x2048x2048, .f32⟩ : BufTy).Contents (Elt F)),
    nullary main_cst_0 (constant S_ .f32 0x40000000#32),
    unary main_cst_0 main_v5 (broadcastInDim S16x2048x2048 ![] bcast_S_S16x2048x2048 : (⟨S_, .f32⟩ : BufTy).Contents (Elt F) → (⟨S16x2048x2048, .f32⟩ : BufTy).Contents (Elt F)),
    binary main_v5 main_v4 main_v6 (mulf : (⟨S16x2048x2048, .f32⟩ : BufTy).Contents (Elt F) → (⟨S16x2048x2048, .f32⟩ : BufTy).Contents (Elt F) → (⟨S16x2048x2048, .f32⟩ : BufTy).Contents (Elt F)),
    unary main_v2 main_v7 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v7 main_v6 main_v8 (subf : (⟨S16x2048x2048, .f32⟩ : BufTy).Contents (Elt F) → (⟨S16x2048x2048, .f32⟩ : BufTy).Contents (Elt F) → (⟨S16x2048x2048, .f32⟩ : BufTy).Contents (Elt F)),
    unary main_v2 main_v9 ((transpose S16x1x2048 [0, 2, 1] · transposes_S16x2048x1_S16x1x2048_0_2_1) : (⟨S16x2048x1, .f32⟩ : BufTy).Contents (Elt F) → (⟨S16x1x2048, .f32⟩ : BufTy).Contents (Elt F)),
    unary main_v9 main_v10 (broadcastInDim S16x2048x2048 ![0, 1, 2] bcast_S16x1x2048_S16x2048x2048_0_1_2 : (⟨S16x1x2048, .f32⟩ : BufTy).Contents (Elt F) → (⟨S16x2048x2048, .f32⟩ : BufTy).Contents (Elt F)),
    binary main_v8 main_v10 main_v11 (addf : (⟨S16x2048x2048, .f32⟩ : BufTy).Contents (Elt F) → (⟨S16x2048x2048, .f32⟩ : BufTy).Contents (Elt F) → (⟨S16x2048x2048, .f32⟩ : BufTy).Contents (Elt F)),
    unary main_v11 main_v12 (Host.negf : (⟨S16x2048x2048, .f32⟩ : BufTy).Contents (Elt F) → (⟨S16x2048x2048, .f32⟩ : BufTy).Contents (Elt F)),
    unary main_v12 main_v13 (Host.exp : (⟨S16x2048x2048, .f32⟩ : BufTy).Contents (Elt F) → (⟨S16x2048x2048, .f32⟩ : BufTy).Contents (Elt F)),
    nullary main_cst_1 (constant S_ .f32 0x00000000#32),
    binary main_v13 main_cst_1 main_v14 ((fun x v => Host.reduceAdd x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    unary main_v14 main_v15 (Host.sqrt : (⟨S16x2048, .f32⟩ : BufTy).Contents (Elt F) → (⟨S16x2048, .f32⟩ : BufTy).Contents (Elt F)),
    nullary main_cst_2 (constant S_ .f32 0x3F800000#32),
    unary main_cst_2 main_v16 (broadcastInDim S16x2048 ![] bcast_S_S16x2048 : (⟨S_, .f32⟩ : BufTy).Contents (Elt F) → (⟨S16x2048, .f32⟩ : BufTy).Contents (Elt F)),
    binary main_v16 main_v15 main_v17 (Host.divf : (⟨S16x2048, .f32⟩ : BufTy).Contents (Elt F) → (⟨S16x2048, .f32⟩ : BufTy).Contents (Elt F) → (⟨S16x2048, .f32⟩ : BufTy).Contents (Elt F)),
    nullary main_v18 (iotaInDim S2048x2048 32 0),
    nullary main_v19 (iotaInDim S2048x2048 32 1),
    nullary main_c (constantI S_ 32 0#32),
    unary main_c main_v20 (broadcastInDim S2048x2048 ![] bcast_S_S2048x2048 : (⟨S_, .i32⟩ : BufTy).Contents (Elt F) → (⟨S2048x2048, .i32⟩ : BufTy).Contents (Elt F)),
    binary main_v18 main_v20 main_v21 (addi : (⟨S2048x2048, .i32⟩ : BufTy).Contents (Elt F) → (⟨S2048x2048, .i32⟩ : BufTy).Contents (Elt F) → (⟨S2048x2048, .i32⟩ : BufTy).Contents (Elt F)),
    binary main_v21 main_v19 main_v22 (cmpi .eq : (⟨S2048x2048, .i32⟩ : BufTy).Contents (Elt F) → (⟨S2048x2048, .i32⟩ : BufTy).Contents (Elt F) → (⟨S2048x2048, .i1⟩ : BufTy).Contents (Elt F)),
    unary main_v22 main_v23 (uitofp .f32 : (⟨S2048x2048, .i1⟩ : BufTy).Contents (Elt F) → (⟨S2048x2048, .f32⟩ : BufTy).Contents (Elt F)),
    unary main_v23 main_v24 (broadcastInDim S1x2048x2048 ![1, 2] bcast_S2048x2048_S1x2048x2048_1_2 : (⟨S2048x2048, .f32⟩ : BufTy).Contents (Elt F) → (⟨S1x2048x2048, .f32⟩ : BufTy).Contents (Elt F)),
    unary main_v17 main_v25 (broadcastInDim S16x2048x1 ![0, 1] bcast_S16x2048_S16x2048x1_0_1 : (⟨S16x2048, .f32⟩ : BufTy).Contents (Elt F) → (⟨S16x2048x1, .f32⟩ : BufTy).Contents (Elt F)),
    unary main_v25 main_v26 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v26 main_v13 main_v27 (mulf : (⟨S16x2048x2048, .f32⟩ : BufTy).Contents (Elt F) → (⟨S16x2048x2048, .f32⟩ : BufTy).Contents (Elt F) → (⟨S16x2048x2048, .f32⟩ : BufTy).Contents (Elt F)),
    unary main_v17 main_v28 (broadcastInDim S16x1x2048 ![0, 2] bcast_S16x2048_S16x1x2048_0_2 : (⟨S16x2048, .f32⟩ : BufTy).Contents (Elt F) → (⟨S16x1x2048, .f32⟩ : BufTy).Contents (Elt F)),
    unary main_v28 main_v29 (broadcastInDim S16x2048x2048 ![0, 1, 2] bcast_S16x1x2048_S16x2048x2048_0_1_2 : (⟨S16x1x2048, .f32⟩ : BufTy).Contents (Elt F) → (⟨S16x2048x2048, .f32⟩ : BufTy).Contents (Elt F)),
    binary main_v27 main_v29 main_v30 (mulf : (⟨S16x2048x2048, .f32⟩ : BufTy).Contents (Elt F) → (⟨S16x2048x2048, .f32⟩ : BufTy).Contents (Elt F) → (⟨S16x2048x2048, .f32⟩ : BufTy).Contents (Elt F)),
    unary main_v24 main_v31 (broadcastInDim S16x2048x2048 ![0, 1, 2] bcast_S1x2048x2048_S16x2048x2048_0_1_2 : (⟨S1x2048x2048, .f32⟩ : BufTy).Contents (Elt F) → (⟨S16x2048x2048, .f32⟩ : BufTy).Contents (Elt F)),
    binary main_v31 main_v30 main_v32 (subf : (⟨S16x2048x2048, .f32⟩ : BufTy).Contents (Elt F) → (⟨S16x2048x2048, .f32⟩ : BufTy).Contents (Elt F) → (⟨S16x2048x2048, .f32⟩ : BufTy).Contents (Elt F)),
    binary main_v32 main_arg0 main_v33 ((fun l r => Host.dotGeneral dot_S16x2048x2048_S16x2048x6_S16x2048x6_2_1_1_2_0_0 none l r) : (⟨S16x2048x2048, .f32⟩ : BufTy).Contents (Elt F) → (⟨S16x2048x6, .f32⟩ : BufTy).Contents (Elt F) → (⟨S16x2048x6, .f32⟩ : BufTy).Contents (Elt F)),
    binary main_v32 main_v33 main_v34 ((fun l r => Host.dotGeneral dot_S16x2048x2048_S16x2048x6_S16x2048x6_2_1_1_2_0_0 none l r) : (⟨S16x2048x2048, .f32⟩ : BufTy).Contents (Elt F) → (⟨S16x2048x6, .f32⟩ : BufTy).Contents (Elt F) → (⟨S16x2048x6, .f32⟩ : BufTy).Contents (Elt F)),
    nullary main_cst_3 (constant S_ .f32 0x40000000#32),
    unary main_cst_3 main_v35 (broadcastInDim S16x2048x6 ![] bcast_S_S16x2048x6 : (⟨S_, .f32⟩ : BufTy).Contents (Elt F) → (⟨S16x2048x6, .f32⟩ : BufTy).Contents (Elt F)),
    binary main_v35 main_v34 main_v36 (mulf : (⟨S16x2048x6, .f32⟩ : BufTy).Contents (Elt F) → (⟨S16x2048x6, .f32⟩ : BufTy).Contents (Elt F) → (⟨S16x2048x6, .f32⟩ : BufTy).Contents (Elt F)),
    binary main_v36 main_arg0 main_v37 (subf : (⟨S16x2048x6, .f32⟩ : BufTy).Contents (Elt F) → (⟨S16x2048x6, .f32⟩ : BufTy).Contents (Elt F) → (⟨S16x2048x6, .f32⟩ : BufTy).Contents (Elt F)),
    binary main_v32 main_v37 main_v38 ((fun l r => Host.dotGeneral dot_S16x2048x2048_S16x2048x6_S16x2048x6_2_1_1_2_0_0 none l r) : (⟨S16x2048x2048, .f32⟩ : BufTy).Contents (Elt F) → (⟨S16x2048x6, .f32⟩ : BufTy).Contents (Elt F) → (⟨S16x2048x6, .f32⟩ : BufTy).Contents (Elt F)),
    nullary main_cst_4 (constant S_ .f32 0x40000000#32),
    unary main_cst_4 main_v39 (broadcastInDim S16x2048x6 ![] bcast_S_S16x2048x6 : (⟨S_, .f32⟩ : BufTy).Contents (Elt F) → (⟨S16x2048x6, .f32⟩ : BufTy).Contents (Elt F)),
    binary main_v39 main_v38 main_v40 (mulf : (⟨S16x2048x6, .f32⟩ : BufTy).Contents (Elt F) → (⟨S16x2048x6, .f32⟩ : BufTy).Contents (Elt F) → (⟨S16x2048x6, .f32⟩ : BufTy).Contents (Elt F)),
    binary main_v40 main_v33 main_v41 (subf : (⟨S16x2048x6, .f32⟩ : BufTy).Contents (Elt F) → (⟨S16x2048x6, .f32⟩ : BufTy).Contents (Elt F) → (⟨S16x2048x6, .f32⟩ : BufTy).Contents (Elt F)),
    binary main_v32 main_v41 main_v42 ((fun l r => Host.dotGeneral dot_S16x2048x2048_S16x2048x6_S16x2048x6_2_1_1_2_0_0 none l r) : (⟨S16x2048x2048, .f32⟩ : BufTy).Contents (Elt F) → (⟨S16x2048x6, .f32⟩ : BufTy).Contents (Elt F) → (⟨S16x2048x6, .f32⟩ : BufTy).Contents (Elt F)),
    nullary main_cst_5 (constant S_ .f32 0x40000000#32),
    unary main_cst_5 main_v43 (broadcastInDim S16x2048x6 ![] bcast_S_S16x2048x6 : (⟨S_, .f32⟩ : BufTy).Contents (Elt F) → (⟨S16x2048x6, .f32⟩ : BufTy).Contents (Elt F)),
    binary main_v43 main_v42 main_v44 (mulf : (⟨S16x2048x6, .f32⟩ : BufTy).Contents (Elt F) → (⟨S16x2048x6, .f32⟩ : BufTy).Contents (Elt F) → (⟨S16x2048x6, .f32⟩ : BufTy).Contents (Elt F)),
    binary main_v44 main_v37 main_v45 (subf : (⟨S16x2048x6, .f32⟩ : BufTy).Contents (Elt F) → (⟨S16x2048x6, .f32⟩ : BufTy).Contents (Elt F) → (⟨S16x2048x6, .f32⟩ : BufTy).Contents (Elt F)),
    binary main_v32 main_v45 main_v46 ((fun l r => Host.dotGeneral dot_S16x2048x2048_S16x2048x6_S16x2048x6_2_1_1_2_0_0 none l r) : (⟨S16x2048x2048, .f32⟩ : BufTy).Contents (Elt F) → (⟨S16x2048x6, .f32⟩ : BufTy).Contents (Elt F) → (⟨S16x2048x6, .f32⟩ : BufTy).Contents (Elt F)),
    nullary main_cst_6 (constant S_ .f32 0x40000000#32),
    unary main_cst_6 main_v47 (broadcastInDim S16x2048x6 ![] bcast_S_S16x2048x6 : (⟨S_, .f32⟩ : BufTy).Contents (Elt F) → (⟨S16x2048x6, .f32⟩ : BufTy).Contents (Elt F)),
    binary main_v47 main_v46 main_v48 (mulf : (⟨S16x2048x6, .f32⟩ : BufTy).Contents (Elt F) → (⟨S16x2048x6, .f32⟩ : BufTy).Contents (Elt F) → (⟨S16x2048x6, .f32⟩ : BufTy).Contents (Elt F)),
    binary main_v48 main_v41 main_v49 (subf : (⟨S16x2048x6, .f32⟩ : BufTy).Contents (Elt F) → (⟨S16x2048x6, .f32⟩ : BufTy).Contents (Elt F) → (⟨S16x2048x6, .f32⟩ : BufTy).Contents (Elt F)),
    unary main_arg0 main_v50 (broadcastInDim S16x2048x6x1 ![0, 1, 2] bcast_S16x2048x6_S16x2048x6x1_0_1_2 : (⟨S16x2048x6, .f32⟩ : BufTy).Contents (Elt F) → (⟨S16x2048x6x1, .f32⟩ : BufTy).Contents (Elt F)),
    unary main_v33 main_v51 (broadcastInDim S16x2048x6x1 ![0, 1, 2] bcast_S16x2048x6_S16x2048x6x1_0_1_2 : (⟨S16x2048x6, .f32⟩ : BufTy).Contents (Elt F) → (⟨S16x2048x6x1, .f32⟩ : BufTy).Contents (Elt F)),
    unary main_v37 main_v52 (broadcastInDim S16x2048x6x1 ![0, 1, 2] bcast_S16x2048x6_S16x2048x6x1_0_1_2 : (⟨S16x2048x6, .f32⟩ : BufTy).Contents (Elt F) → (⟨S16x2048x6x1, .f32⟩ : BufTy).Contents (Elt F)),
    unary main_v41 main_v53 (broadcastInDim S16x2048x6x1 ![0, 1, 2] bcast_S16x2048x6_S16x2048x6x1_0_1_2 : (⟨S16x2048x6, .f32⟩ : BufTy).Contents (Elt F) → (⟨S16x2048x6x1, .f32⟩ : BufTy).Contents (Elt F)),
    unary main_v45 main_v54 (broadcastInDim S16x2048x6x1 ![0, 1, 2] bcast_S16x2048x6_S16x2048x6x1_0_1_2 : (⟨S16x2048x6, .f32⟩ : BufTy).Contents (Elt F) → (⟨S16x2048x6x1, .f32⟩ : BufTy).Contents (Elt F)),
    unary main_v49 main_v55 (broadcastInDim S16x2048x6x1 ![0, 1, 2] bcast_S16x2048x6_S16x2048x6x1_0_1_2 : (⟨S16x2048x6, .f32⟩ : BufTy).Contents (Elt F) → (⟨S16x2048x6x1, .f32⟩ : BufTy).Contents (Elt F)),
    nary ![main_v50, main_v51, main_v52, main_v53, main_v54, main_v55] main_v56 (fun u => concatenate S16x2048x6x6 3 [⟨S16x2048x6x1, u 0⟩, ⟨S16x2048x6x1, u 1⟩, ⟨S16x2048x6x1, u 2⟩, ⟨S16x2048x6x1, u 3⟩, ⟨S16x2048x6x1, u 4⟩, ⟨S16x2048x6x1, u 5⟩] concatenates_S16x2048x6x1_S16x2048x6x1_S16x2048x6x1_S16x2048x6x1_S16x2048x6x1_S16x2048x6x1_S16x2048x6x6_d3),
    reshape main_v56 main_v57 rfl shapeCasts_S16x2048x6x6_S32768x36,
    binary main_v57 main_arg2 main_v58 ((fun l r => Host.dotGeneral dot_S32768x36_S36x128_S32768x128_1_0_0_1_n_n none l r) : (⟨S32768x36, .f32⟩ : BufTy).Contents (Elt F) → (⟨S36x128, .f32⟩ : BufTy).Contents (Elt F) → (⟨S32768x128, .f32⟩ : BufTy).Contents (Elt F)),
    unary main_arg3 main_v59 (broadcastInDim S1x128 ![1] bcast_S128_S1x128_1 : (⟨S128, .f32⟩ : BufTy).Contents (Elt F) → (⟨S1x128, .f32⟩ : BufTy).Contents (Elt F)),
    unary main_v59 main_v60 (broadcastInDim S32768x128 ![0, 1] bcast_S1x128_S32768x128_0_1 : (⟨S1x128, .f32⟩ : BufTy).Contents (Elt F) → (⟨S32768x128, .f32⟩ : BufTy).Contents (Elt F)),
    binary main_v58 main_v60 main_v61 (addf : (⟨S32768x128, .f32⟩ : BufTy).Contents (Elt F) → (⟨S32768x128, .f32⟩ : BufTy).Contents (Elt F) → (⟨S32768x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32768x128, .f32⟩) main_call0_v0) (broadcastInDim S32768x128 ![] bcast_S_S32768x128),
    TRef.binary (TRef.of (T := ⟨S32768x128, .f32⟩) main_v61) (TRef.of (T := ⟨S32768x128, .f32⟩) main_call0_v0) (TRef.of (T := ⟨S32768x128, .f32⟩) main_v62) maximumf,
    reshape main_v62 main_v63 rfl shapeCasts_S32768x128_S16x2048x128,
    binary main_v32 main_v63 main_v64 ((fun l r => Host.dotGeneral dot_S16x2048x2048_S16x2048x128_S16x2048x128_2_1_1_2_0_0 none l r) : (⟨S16x2048x2048, .f32⟩ : BufTy).Contents (Elt F) → (⟨S16x2048x128, .f32⟩ : BufTy).Contents (Elt F) → (⟨S16x2048x128, .f32⟩ : BufTy).Contents (Elt F)),
    binary main_v32 main_v64 main_v65 ((fun l r => Host.dotGeneral dot_S16x2048x2048_S16x2048x128_S16x2048x128_2_1_1_2_0_0 none l r) : (⟨S16x2048x2048, .f32⟩ : BufTy).Contents (Elt F) → (⟨S16x2048x128, .f32⟩ : BufTy).Contents (Elt F) → (⟨S16x2048x128, .f32⟩ : BufTy).Contents (Elt F)),
    nullary main_cst_7 (constant S_ .f32 0x40000000#32),
    unary main_cst_7 main_v66 (broadcastInDim S16x2048x128 ![] bcast_S_S16x2048x128 : (⟨S_, .f32⟩ : BufTy).Contents (Elt F) → (⟨S16x2048x128, .f32⟩ : BufTy).Contents (Elt F)),
    binary main_v66 main_v65 main_v67 (mulf : (⟨S16x2048x128, .f32⟩ : BufTy).Contents (Elt F) → (⟨S16x2048x128, .f32⟩ : BufTy).Contents (Elt F) → (⟨S16x2048x128, .f32⟩ : BufTy).Contents (Elt F)),
    binary main_v67 main_v63 main_v68 (subf : (⟨S16x2048x128, .f32⟩ : BufTy).Contents (Elt F) → (⟨S16x2048x128, .f32⟩ : BufTy).Contents (Elt F) → (⟨S16x2048x128, .f32⟩ : BufTy).Contents (Elt F)),
    binary main_v32 main_v68 main_v69 ((fun l r => Host.dotGeneral dot_S16x2048x2048_S16x2048x128_S16x2048x128_2_1_1_2_0_0 none l r) : (⟨S16x2048x2048, .f32⟩ : BufTy).Contents (Elt F) → (⟨S16x2048x128, .f32⟩ : BufTy).Contents (Elt F) → (⟨S16x2048x128, .f32⟩ : BufTy).Contents (Elt F)),
    nullary main_cst_8 (constant S_ .f32 0x40000000#32),
    unary main_cst_8 main_v70 (broadcastInDim S16x2048x128 ![] bcast_S_S16x2048x128 : (⟨S_, .f32⟩ : BufTy).Contents (Elt F) → (⟨S16x2048x128, .f32⟩ : BufTy).Contents (Elt F)),
    binary main_v70 main_v69 main_v71 (mulf : (⟨S16x2048x128, .f32⟩ : BufTy).Contents (Elt F) → (⟨S16x2048x128, .f32⟩ : BufTy).Contents (Elt F) → (⟨S16x2048x128, .f32⟩ : BufTy).Contents (Elt F)),
    binary main_v71 main_v64 main_v72 (subf : (⟨S16x2048x128, .f32⟩ : BufTy).Contents (Elt F) → (⟨S16x2048x128, .f32⟩ : BufTy).Contents (Elt F) → (⟨S16x2048x128, .f32⟩ : BufTy).Contents (Elt F)),
    binary main_v32 main_v72 main_v73 ((fun l r => Host.dotGeneral dot_S16x2048x2048_S16x2048x128_S16x2048x128_2_1_1_2_0_0 none l r) : (⟨S16x2048x2048, .f32⟩ : BufTy).Contents (Elt F) → (⟨S16x2048x128, .f32⟩ : BufTy).Contents (Elt F) → (⟨S16x2048x128, .f32⟩ : BufTy).Contents (Elt F)),
    nullary main_cst_9 (constant S_ .f32 0x40000000#32),
    unary main_cst_9 main_v74 (broadcastInDim S16x2048x128 ![] bcast_S_S16x2048x128 : (⟨S_, .f32⟩ : BufTy).Contents (Elt F) → (⟨S16x2048x128, .f32⟩ : BufTy).Contents (Elt F)),
    binary main_v74 main_v73 main_v75 (mulf : (⟨S16x2048x128, .f32⟩ : BufTy).Contents (Elt F) → (⟨S16x2048x128, .f32⟩ : BufTy).Contents (Elt F) → (⟨S16x2048x128, .f32⟩ : BufTy).Contents (Elt F)),
    binary main_v75 main_v68 main_v76 (subf : (⟨S16x2048x128, .f32⟩ : BufTy).Contents (Elt F) → (⟨S16x2048x128, .f32⟩ : BufTy).Contents (Elt F) → (⟨S16x2048x128, .f32⟩ : BufTy).Contents (Elt F)),
    unary main_v63 main_v77 (broadcastInDim S16x2048x128x1 ![0, 1, 2] bcast_S16x2048x128_S16x2048x128x1_0_1_2 : (⟨S16x2048x128, .f32⟩ : BufTy).Contents (Elt F) → (⟨S16x2048x128x1, .f32⟩ : BufTy).Contents (Elt F)),
    unary main_v64 main_v78 (broadcastInDim S16x2048x128x1 ![0, 1, 2] bcast_S16x2048x128_S16x2048x128x1_0_1_2 : (⟨S16x2048x128, .f32⟩ : BufTy).Contents (Elt F) → (⟨S16x2048x128x1, .f32⟩ : BufTy).Contents (Elt F)),
    unary main_v68 main_v79 (broadcastInDim S16x2048x128x1 ![0, 1, 2] bcast_S16x2048x128_S16x2048x128x1_0_1_2 : (⟨S16x2048x128, .f32⟩ : BufTy).Contents (Elt F) → (⟨S16x2048x128x1, .f32⟩ : BufTy).Contents (Elt F)),
    unary main_v72 main_v80 (broadcastInDim S16x2048x128x1 ![0, 1, 2] bcast_S16x2048x128_S16x2048x128x1_0_1_2 : (⟨S16x2048x128, .f32⟩ : BufTy).Contents (Elt F) → (⟨S16x2048x128x1, .f32⟩ : BufTy).Contents (Elt F)),
    unary main_v76 main_v81 (broadcastInDim S16x2048x128x1 ![0, 1, 2] bcast_S16x2048x128_S16x2048x128x1_0_1_2 : (⟨S16x2048x128, .f32⟩ : BufTy).Contents (Elt F) → (⟨S16x2048x128x1, .f32⟩ : BufTy).Contents (Elt F)),
    nary ![main_v77, main_v78, main_v79, main_v80, main_v81] main_v82 (fun u => concatenate S16x2048x128x5 3 [⟨S16x2048x128x1, u 0⟩, ⟨S16x2048x128x1, u 1⟩, ⟨S16x2048x128x1, u 2⟩, ⟨S16x2048x128x1, u 3⟩, ⟨S16x2048x128x1, u 4⟩] concatenates_S16x2048x128x1_S16x2048x128x1_S16x2048x128x1_S16x2048x128x1_S16x2048x128x1_S16x2048x128x5_d3),
    reshape main_v82 main_v83 rfl shapeCasts_S16x2048x128x5_S32768x640,
    binary main_v83 main_arg4 main_v84 ((fun l r => Host.dotGeneral dot_S32768x640_S640x512_S32768x512_1_0_0_1_n_n none l r) : (⟨S32768x640, .f32⟩ : BufTy).Contents (Elt F) → (⟨S640x512, .f32⟩ : BufTy).Contents (Elt F) → (⟨S32768x512, .f32⟩ : BufTy).Contents (Elt F)),
    unary main_arg5 main_v85 (broadcastInDim S1x512 ![1] bcast_S512_S1x512_1 : (⟨S512, .f32⟩ : BufTy).Contents (Elt F) → (⟨S1x512, .f32⟩ : BufTy).Contents (Elt F)),
    unary main_v85 main_v86 (broadcastInDim S32768x512 ![0, 1] bcast_S1x512_S32768x512_0_1 : (⟨S1x512, .f32⟩ : BufTy).Contents (Elt F) → (⟨S32768x512, .f32⟩ : BufTy).Contents (Elt F)),
    binary main_v84 main_v86 main_v87 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S32768x512, .f32⟩) main_call1_v0) (broadcastInDim S32768x512 ![] bcast_S_S32768x512),
    TRef.binary (TRef.of (T := ⟨S32768x512, .f32⟩) main_v87) (TRef.of (T := ⟨S32768x512, .f32⟩) main_call1_v0) (TRef.of (T := ⟨S32768x512, .f32⟩) main_v88) maximumf,
    reshape main_v88 main_v89 rfl shapeCasts_S32768x512_S16x2048x512,
    binary main_v32 main_v89 main_v90 ((fun l r => Host.dotGeneral dot_S16x2048x2048_S16x2048x512_S16x2048x512_2_1_1_2_0_0 none l r) : (⟨S16x2048x2048, .f32⟩ : BufTy).Contents (Elt F) → (⟨S16x2048x512, .f32⟩ : BufTy).Contents (Elt F) → (⟨S16x2048x512, .f32⟩ : BufTy).Contents (Elt F)),
    binary main_v32 main_v90 main_v91 ((fun l r => Host.dotGeneral dot_S16x2048x2048_S16x2048x512_S16x2048x512_2_1_1_2_0_0 none l r) : (⟨S16x2048x2048, .f32⟩ : BufTy).Contents (Elt F) → (⟨S16x2048x512, .f32⟩ : BufTy).Contents (Elt F) → (⟨S16x2048x512, .f32⟩ : BufTy).Contents (Elt F)),
    nullary main_cst_10 (constant S_ .f32 0x40000000#32),
    unary main_cst_10 main_v92 (broadcastInDim S16x2048x512 ![] bcast_S_S16x2048x512 : (⟨S_, .f32⟩ : BufTy).Contents (Elt F) → (⟨S16x2048x512, .f32⟩ : BufTy).Contents (Elt F)),
    binary main_v92 main_v91 main_v93 (mulf : (⟨S16x2048x512, .f32⟩ : BufTy).Contents (Elt F) → (⟨S16x2048x512, .f32⟩ : BufTy).Contents (Elt F) → (⟨S16x2048x512, .f32⟩ : BufTy).Contents (Elt F)),
    binary main_v93 main_v89 main_v94 (subf : (⟨S16x2048x512, .f32⟩ : BufTy).Contents (Elt F) → (⟨S16x2048x512, .f32⟩ : BufTy).Contents (Elt F) → (⟨S16x2048x512, .f32⟩ : BufTy).Contents (Elt F)),
    unary main_v89 main_v95 (broadcastInDim S16x2048x512x1 ![0, 1, 2] bcast_S16x2048x512_S16x2048x512x1_0_1_2 : (⟨S16x2048x512, .f32⟩ : BufTy).Contents (Elt F) → (⟨S16x2048x512x1, .f32⟩ : BufTy).Contents (Elt F)),
    unary main_v90 main_v96 (broadcastInDim S16x2048x512x1 ![0, 1, 2] bcast_S16x2048x512_S16x2048x512x1_0_1_2 : (⟨S16x2048x512, .f32⟩ : BufTy).Contents (Elt F) → (⟨S16x2048x512x1, .f32⟩ : BufTy).Contents (Elt F)),
    unary main_v94 main_v97 (broadcastInDim S16x2048x512x1 ![0, 1, 2] bcast_S16x2048x512_S16x2048x512x1_0_1_2 : (⟨S16x2048x512, .f32⟩ : BufTy).Contents (Elt F) → (⟨S16x2048x512x1, .f32⟩ : BufTy).Contents (Elt F)),
    nary ![main_v95, main_v96, main_v97] main_v98 (fun u => concatenate S16x2048x512x3 3 [⟨S16x2048x512x1, u 0⟩, ⟨S16x2048x512x1, u 1⟩, ⟨S16x2048x512x1, u 2⟩] concatenates_S16x2048x512x1_S16x2048x512x1_S16x2048x512x1_S16x2048x512x3_d3),
    reshape main_v98 main_v99 rfl shapeCasts_S16x2048x512x3_S32768x1536,
    binary main_v99 main_arg6 main_v100 ((fun l r => Host.dotGeneral dot_S32768x1536_S1536x1024_S32768x1024_1_0_0_1_n_n none l r) : (⟨S32768x1536, .f32⟩ : BufTy).Contents (Elt F) → (⟨S1536x1024, .f32⟩ : BufTy).Contents (Elt F) → (⟨S32768x1024, .f32⟩ : BufTy).Contents (Elt F)),
    unary main_arg7 main_v101 (broadcastInDim S1x1024 ![1] bcast_S1024_S1x1024_1 : (⟨S1024, .f32⟩ : BufTy).Contents (Elt F) → (⟨S1x1024, .f32⟩ : BufTy).Contents (Elt F)),
    unary main_v101 main_v102 (broadcastInDim S32768x1024 ![0, 1] bcast_S1x1024_S32768x1024_0_1 : (⟨S1x1024, .f32⟩ : BufTy).Contents (Elt F) → (⟨S32768x1024, .f32⟩ : BufTy).Contents (Elt F)),
    binary main_v100 main_v102 main_v103 (addf : (⟨S32768x1024, .f32⟩ : BufTy).Contents (Elt F) → (⟨S32768x1024, .f32⟩ : BufTy).Contents (Elt F) → (⟨S32768x1024, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S32768x1024, .f32⟩) main_call2_v0) (broadcastInDim S32768x1024 ![] bcast_S_S32768x1024),
    TRef.binary (TRef.of (T := ⟨S32768x1024, .f32⟩) main_v103) (TRef.of (T := ⟨S32768x1024, .f32⟩) main_call2_v0) (TRef.of (T := ⟨S32768x1024, .f32⟩) main_v104) maximumf,
    reshape main_v104 main_v105 rfl shapeCasts_S32768x1024_S16x2048x1024 ]

/-- The operations that build the Laplacian array. -/
abbrev opsGraph : List (HloOp τ sig (Elt F)) :=
  [ binary main_arg0 main_arg0 main_v0 (mulf : (⟨S16x2048x6, .f32⟩ : BufTy).Contents (Elt F) → (⟨S16x2048x6, .f32⟩ : BufTy).Contents (Elt F) → (⟨S16x2048x6, .f32⟩ : BufTy).Contents (Elt F)),
    nullary main_cst (constant S_ .f32 0x00000000#32),
    binary main_v0 main_cst main_v1 ((fun x v => Host.reduceAdd x v reducesTo_S16x2048x6_S16x2048_d2 h_S_) : (⟨S16x2048x6, .f32⟩ : BufTy).Contents (Elt F) → (⟨S_, .f32⟩ : BufTy).Contents (Elt F) → (⟨S16x2048, .f32⟩ : BufTy).Contents (Elt F)),
    unary main_v1 main_v2 (broadcastInDim S16x2048x1 ![0, 1] bcast_S16x2048_S16x2048x1_0_1 : (⟨S16x2048, .f32⟩ : BufTy).Contents (Elt F) → (⟨S16x2048x1, .f32⟩ : BufTy).Contents (Elt F)),
    unary main_arg0 main_v3 ((transpose S16x6x2048 [0, 2, 1] · transposes_S16x2048x6_S16x6x2048_0_2_1) : (⟨S16x2048x6, .f32⟩ : BufTy).Contents (Elt F) → (⟨S16x6x2048, .f32⟩ : BufTy).Contents (Elt F)),
    binary main_arg0 main_v3 main_v4 ((fun l r => Host.dotGeneral dot_S16x2048x6_S16x6x2048_S16x2048x2048_2_1_1_2_0_0 none l r) : (⟨S16x2048x6, .f32⟩ : BufTy).Contents (Elt F) → (⟨S16x6x2048, .f32⟩ : BufTy).Contents (Elt F) → (⟨S16x2048x2048, .f32⟩ : BufTy).Contents (Elt F)),
    nullary main_cst_0 (constant S_ .f32 0x40000000#32),
    unary main_cst_0 main_v5 (broadcastInDim S16x2048x2048 ![] bcast_S_S16x2048x2048 : (⟨S_, .f32⟩ : BufTy).Contents (Elt F) → (⟨S16x2048x2048, .f32⟩ : BufTy).Contents (Elt F)),
    binary main_v5 main_v4 main_v6 (mulf : (⟨S16x2048x2048, .f32⟩ : BufTy).Contents (Elt F) → (⟨S16x2048x2048, .f32⟩ : BufTy).Contents (Elt F) → (⟨S16x2048x2048, .f32⟩ : BufTy).Contents (Elt F)),
    unary main_v2 main_v7 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v7 main_v6 main_v8 (subf : (⟨S16x2048x2048, .f32⟩ : BufTy).Contents (Elt F) → (⟨S16x2048x2048, .f32⟩ : BufTy).Contents (Elt F) → (⟨S16x2048x2048, .f32⟩ : BufTy).Contents (Elt F)),
    unary main_v2 main_v9 ((transpose S16x1x2048 [0, 2, 1] · transposes_S16x2048x1_S16x1x2048_0_2_1) : (⟨S16x2048x1, .f32⟩ : BufTy).Contents (Elt F) → (⟨S16x1x2048, .f32⟩ : BufTy).Contents (Elt F)),
    unary main_v9 main_v10 (broadcastInDim S16x2048x2048 ![0, 1, 2] bcast_S16x1x2048_S16x2048x2048_0_1_2 : (⟨S16x1x2048, .f32⟩ : BufTy).Contents (Elt F) → (⟨S16x2048x2048, .f32⟩ : BufTy).Contents (Elt F)),
    binary main_v8 main_v10 main_v11 (addf : (⟨S16x2048x2048, .f32⟩ : BufTy).Contents (Elt F) → (⟨S16x2048x2048, .f32⟩ : BufTy).Contents (Elt F) → (⟨S16x2048x2048, .f32⟩ : BufTy).Contents (Elt F)),
    unary main_v11 main_v12 (Host.negf : (⟨S16x2048x2048, .f32⟩ : BufTy).Contents (Elt F) → (⟨S16x2048x2048, .f32⟩ : BufTy).Contents (Elt F)),
    unary main_v12 main_v13 (Host.exp : (⟨S16x2048x2048, .f32⟩ : BufTy).Contents (Elt F) → (⟨S16x2048x2048, .f32⟩ : BufTy).Contents (Elt F)),
    nullary main_cst_1 (constant S_ .f32 0x00000000#32),
    binary main_v13 main_cst_1 main_v14 ((fun x v => Host.reduceAdd x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    unary main_v14 main_v15 (Host.sqrt : (⟨S16x2048, .f32⟩ : BufTy).Contents (Elt F) → (⟨S16x2048, .f32⟩ : BufTy).Contents (Elt F)),
    nullary main_cst_2 (constant S_ .f32 0x3F800000#32),
    unary main_cst_2 main_v16 (broadcastInDim S16x2048 ![] bcast_S_S16x2048 : (⟨S_, .f32⟩ : BufTy).Contents (Elt F) → (⟨S16x2048, .f32⟩ : BufTy).Contents (Elt F)),
    binary main_v16 main_v15 main_v17 (Host.divf : (⟨S16x2048, .f32⟩ : BufTy).Contents (Elt F) → (⟨S16x2048, .f32⟩ : BufTy).Contents (Elt F) → (⟨S16x2048, .f32⟩ : BufTy).Contents (Elt F)),
    nullary main_v18 (iotaInDim S2048x2048 32 0),
    nullary main_v19 (iotaInDim S2048x2048 32 1),
    nullary main_c (constantI S_ 32 0#32),
    unary main_c main_v20 (broadcastInDim S2048x2048 ![] bcast_S_S2048x2048 : (⟨S_, .i32⟩ : BufTy).Contents (Elt F) → (⟨S2048x2048, .i32⟩ : BufTy).Contents (Elt F)),
    binary main_v18 main_v20 main_v21 (addi : (⟨S2048x2048, .i32⟩ : BufTy).Contents (Elt F) → (⟨S2048x2048, .i32⟩ : BufTy).Contents (Elt F) → (⟨S2048x2048, .i32⟩ : BufTy).Contents (Elt F)),
    binary main_v21 main_v19 main_v22 (cmpi .eq : (⟨S2048x2048, .i32⟩ : BufTy).Contents (Elt F) → (⟨S2048x2048, .i32⟩ : BufTy).Contents (Elt F) → (⟨S2048x2048, .i1⟩ : BufTy).Contents (Elt F)),
    unary main_v22 main_v23 (uitofp .f32 : (⟨S2048x2048, .i1⟩ : BufTy).Contents (Elt F) → (⟨S2048x2048, .f32⟩ : BufTy).Contents (Elt F)),
    unary main_v23 main_v24 (broadcastInDim S1x2048x2048 ![1, 2] bcast_S2048x2048_S1x2048x2048_1_2 : (⟨S2048x2048, .f32⟩ : BufTy).Contents (Elt F) → (⟨S1x2048x2048, .f32⟩ : BufTy).Contents (Elt F)),
    unary main_v17 main_v25 (broadcastInDim S16x2048x1 ![0, 1] bcast_S16x2048_S16x2048x1_0_1 : (⟨S16x2048, .f32⟩ : BufTy).Contents (Elt F) → (⟨S16x2048x1, .f32⟩ : BufTy).Contents (Elt F)),
    unary main_v25 main_v26 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v26 main_v13 main_v27 (mulf : (⟨S16x2048x2048, .f32⟩ : BufTy).Contents (Elt F) → (⟨S16x2048x2048, .f32⟩ : BufTy).Contents (Elt F) → (⟨S16x2048x2048, .f32⟩ : BufTy).Contents (Elt F)),
    unary main_v17 main_v28 (broadcastInDim S16x1x2048 ![0, 2] bcast_S16x2048_S16x1x2048_0_2 : (⟨S16x2048, .f32⟩ : BufTy).Contents (Elt F) → (⟨S16x1x2048, .f32⟩ : BufTy).Contents (Elt F)),
    unary main_v28 main_v29 (broadcastInDim S16x2048x2048 ![0, 1, 2] bcast_S16x1x2048_S16x2048x2048_0_1_2 : (⟨S16x1x2048, .f32⟩ : BufTy).Contents (Elt F) → (⟨S16x2048x2048, .f32⟩ : BufTy).Contents (Elt F)),
    binary main_v27 main_v29 main_v30 (mulf : (⟨S16x2048x2048, .f32⟩ : BufTy).Contents (Elt F) → (⟨S16x2048x2048, .f32⟩ : BufTy).Contents (Elt F) → (⟨S16x2048x2048, .f32⟩ : BufTy).Contents (Elt F)),
    unary main_v24 main_v31 (broadcastInDim S16x2048x2048 ![0, 1, 2] bcast_S1x2048x2048_S16x2048x2048_0_1_2 : (⟨S1x2048x2048, .f32⟩ : BufTy).Contents (Elt F) → (⟨S16x2048x2048, .f32⟩ : BufTy).Contents (Elt F)),
    binary main_v31 main_v30 main_v32 (subf : (⟨S16x2048x2048, .f32⟩ : BufTy).Contents (Elt F) → (⟨S16x2048x2048, .f32⟩ : BufTy).Contents (Elt F) → (⟨S16x2048x2048, .f32⟩ : BufTy).Contents (Elt F)) ]

/-- The operations of the first layer. -/
abbrev opsLayer1 : List (HloOp τ sig (Elt F)) :=
  [ binary main_v32 main_arg0 main_v33 ((fun l r => Host.dotGeneral dot_S16x2048x2048_S16x2048x6_S16x2048x6_2_1_1_2_0_0 none l r) : (⟨S16x2048x2048, .f32⟩ : BufTy).Contents (Elt F) → (⟨S16x2048x6, .f32⟩ : BufTy).Contents (Elt F) → (⟨S16x2048x6, .f32⟩ : BufTy).Contents (Elt F)),
    binary main_v32 main_v33 main_v34 ((fun l r => Host.dotGeneral dot_S16x2048x2048_S16x2048x6_S16x2048x6_2_1_1_2_0_0 none l r) : (⟨S16x2048x2048, .f32⟩ : BufTy).Contents (Elt F) → (⟨S16x2048x6, .f32⟩ : BufTy).Contents (Elt F) → (⟨S16x2048x6, .f32⟩ : BufTy).Contents (Elt F)),
    nullary main_cst_3 (constant S_ .f32 0x40000000#32),
    unary main_cst_3 main_v35 (broadcastInDim S16x2048x6 ![] bcast_S_S16x2048x6 : (⟨S_, .f32⟩ : BufTy).Contents (Elt F) → (⟨S16x2048x6, .f32⟩ : BufTy).Contents (Elt F)),
    binary main_v35 main_v34 main_v36 (mulf : (⟨S16x2048x6, .f32⟩ : BufTy).Contents (Elt F) → (⟨S16x2048x6, .f32⟩ : BufTy).Contents (Elt F) → (⟨S16x2048x6, .f32⟩ : BufTy).Contents (Elt F)),
    binary main_v36 main_arg0 main_v37 (subf : (⟨S16x2048x6, .f32⟩ : BufTy).Contents (Elt F) → (⟨S16x2048x6, .f32⟩ : BufTy).Contents (Elt F) → (⟨S16x2048x6, .f32⟩ : BufTy).Contents (Elt F)),
    binary main_v32 main_v37 main_v38 ((fun l r => Host.dotGeneral dot_S16x2048x2048_S16x2048x6_S16x2048x6_2_1_1_2_0_0 none l r) : (⟨S16x2048x2048, .f32⟩ : BufTy).Contents (Elt F) → (⟨S16x2048x6, .f32⟩ : BufTy).Contents (Elt F) → (⟨S16x2048x6, .f32⟩ : BufTy).Contents (Elt F)),
    nullary main_cst_4 (constant S_ .f32 0x40000000#32),
    unary main_cst_4 main_v39 (broadcastInDim S16x2048x6 ![] bcast_S_S16x2048x6 : (⟨S_, .f32⟩ : BufTy).Contents (Elt F) → (⟨S16x2048x6, .f32⟩ : BufTy).Contents (Elt F)),
    binary main_v39 main_v38 main_v40 (mulf : (⟨S16x2048x6, .f32⟩ : BufTy).Contents (Elt F) → (⟨S16x2048x6, .f32⟩ : BufTy).Contents (Elt F) → (⟨S16x2048x6, .f32⟩ : BufTy).Contents (Elt F)),
    binary main_v40 main_v33 main_v41 (subf : (⟨S16x2048x6, .f32⟩ : BufTy).Contents (Elt F) → (⟨S16x2048x6, .f32⟩ : BufTy).Contents (Elt F) → (⟨S16x2048x6, .f32⟩ : BufTy).Contents (Elt F)),
    binary main_v32 main_v41 main_v42 ((fun l r => Host.dotGeneral dot_S16x2048x2048_S16x2048x6_S16x2048x6_2_1_1_2_0_0 none l r) : (⟨S16x2048x2048, .f32⟩ : BufTy).Contents (Elt F) → (⟨S16x2048x6, .f32⟩ : BufTy).Contents (Elt F) → (⟨S16x2048x6, .f32⟩ : BufTy).Contents (Elt F)),
    nullary main_cst_5 (constant S_ .f32 0x40000000#32),
    unary main_cst_5 main_v43 (broadcastInDim S16x2048x6 ![] bcast_S_S16x2048x6 : (⟨S_, .f32⟩ : BufTy).Contents (Elt F) → (⟨S16x2048x6, .f32⟩ : BufTy).Contents (Elt F)),
    binary main_v43 main_v42 main_v44 (mulf : (⟨S16x2048x6, .f32⟩ : BufTy).Contents (Elt F) → (⟨S16x2048x6, .f32⟩ : BufTy).Contents (Elt F) → (⟨S16x2048x6, .f32⟩ : BufTy).Contents (Elt F)),
    binary main_v44 main_v37 main_v45 (subf : (⟨S16x2048x6, .f32⟩ : BufTy).Contents (Elt F) → (⟨S16x2048x6, .f32⟩ : BufTy).Contents (Elt F) → (⟨S16x2048x6, .f32⟩ : BufTy).Contents (Elt F)),
    binary main_v32 main_v45 main_v46 ((fun l r => Host.dotGeneral dot_S16x2048x2048_S16x2048x6_S16x2048x6_2_1_1_2_0_0 none l r) : (⟨S16x2048x2048, .f32⟩ : BufTy).Contents (Elt F) → (⟨S16x2048x6, .f32⟩ : BufTy).Contents (Elt F) → (⟨S16x2048x6, .f32⟩ : BufTy).Contents (Elt F)),
    nullary main_cst_6 (constant S_ .f32 0x40000000#32),
    unary main_cst_6 main_v47 (broadcastInDim S16x2048x6 ![] bcast_S_S16x2048x6 : (⟨S_, .f32⟩ : BufTy).Contents (Elt F) → (⟨S16x2048x6, .f32⟩ : BufTy).Contents (Elt F)),
    binary main_v47 main_v46 main_v48 (mulf : (⟨S16x2048x6, .f32⟩ : BufTy).Contents (Elt F) → (⟨S16x2048x6, .f32⟩ : BufTy).Contents (Elt F) → (⟨S16x2048x6, .f32⟩ : BufTy).Contents (Elt F)),
    binary main_v48 main_v41 main_v49 (subf : (⟨S16x2048x6, .f32⟩ : BufTy).Contents (Elt F) → (⟨S16x2048x6, .f32⟩ : BufTy).Contents (Elt F) → (⟨S16x2048x6, .f32⟩ : BufTy).Contents (Elt F)),
    unary main_arg0 main_v50 (broadcastInDim S16x2048x6x1 ![0, 1, 2] bcast_S16x2048x6_S16x2048x6x1_0_1_2 : (⟨S16x2048x6, .f32⟩ : BufTy).Contents (Elt F) → (⟨S16x2048x6x1, .f32⟩ : BufTy).Contents (Elt F)),
    unary main_v33 main_v51 (broadcastInDim S16x2048x6x1 ![0, 1, 2] bcast_S16x2048x6_S16x2048x6x1_0_1_2 : (⟨S16x2048x6, .f32⟩ : BufTy).Contents (Elt F) → (⟨S16x2048x6x1, .f32⟩ : BufTy).Contents (Elt F)),
    unary main_v37 main_v52 (broadcastInDim S16x2048x6x1 ![0, 1, 2] bcast_S16x2048x6_S16x2048x6x1_0_1_2 : (⟨S16x2048x6, .f32⟩ : BufTy).Contents (Elt F) → (⟨S16x2048x6x1, .f32⟩ : BufTy).Contents (Elt F)),
    unary main_v41 main_v53 (broadcastInDim S16x2048x6x1 ![0, 1, 2] bcast_S16x2048x6_S16x2048x6x1_0_1_2 : (⟨S16x2048x6, .f32⟩ : BufTy).Contents (Elt F) → (⟨S16x2048x6x1, .f32⟩ : BufTy).Contents (Elt F)),
    unary main_v45 main_v54 (broadcastInDim S16x2048x6x1 ![0, 1, 2] bcast_S16x2048x6_S16x2048x6x1_0_1_2 : (⟨S16x2048x6, .f32⟩ : BufTy).Contents (Elt F) → (⟨S16x2048x6x1, .f32⟩ : BufTy).Contents (Elt F)),
    unary main_v49 main_v55 (broadcastInDim S16x2048x6x1 ![0, 1, 2] bcast_S16x2048x6_S16x2048x6x1_0_1_2 : (⟨S16x2048x6, .f32⟩ : BufTy).Contents (Elt F) → (⟨S16x2048x6x1, .f32⟩ : BufTy).Contents (Elt F)),
    nary ![main_v50, main_v51, main_v52, main_v53, main_v54, main_v55] main_v56 (fun u => concatenate S16x2048x6x6 3 [⟨S16x2048x6x1, u 0⟩, ⟨S16x2048x6x1, u 1⟩, ⟨S16x2048x6x1, u 2⟩, ⟨S16x2048x6x1, u 3⟩, ⟨S16x2048x6x1, u 4⟩, ⟨S16x2048x6x1, u 5⟩] concatenates_S16x2048x6x1_S16x2048x6x1_S16x2048x6x1_S16x2048x6x1_S16x2048x6x1_S16x2048x6x1_S16x2048x6x6_d3),
    reshape main_v56 main_v57 rfl shapeCasts_S16x2048x6x6_S32768x36,
    binary main_v57 main_arg2 main_v58 ((fun l r => Host.dotGeneral dot_S32768x36_S36x128_S32768x128_1_0_0_1_n_n none l r) : (⟨S32768x36, .f32⟩ : BufTy).Contents (Elt F) → (⟨S36x128, .f32⟩ : BufTy).Contents (Elt F) → (⟨S32768x128, .f32⟩ : BufTy).Contents (Elt F)),
    unary main_arg3 main_v59 (broadcastInDim S1x128 ![1] bcast_S128_S1x128_1 : (⟨S128, .f32⟩ : BufTy).Contents (Elt F) → (⟨S1x128, .f32⟩ : BufTy).Contents (Elt F)),
    unary main_v59 main_v60 (broadcastInDim S32768x128 ![0, 1] bcast_S1x128_S32768x128_0_1 : (⟨S1x128, .f32⟩ : BufTy).Contents (Elt F) → (⟨S32768x128, .f32⟩ : BufTy).Contents (Elt F)),
    binary main_v58 main_v60 main_v61 (addf : (⟨S32768x128, .f32⟩ : BufTy).Contents (Elt F) → (⟨S32768x128, .f32⟩ : BufTy).Contents (Elt F) → (⟨S32768x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32768x128, .f32⟩) main_call0_v0) (broadcastInDim S32768x128 ![] bcast_S_S32768x128),
    TRef.binary (TRef.of (T := ⟨S32768x128, .f32⟩) main_v61) (TRef.of (T := ⟨S32768x128, .f32⟩) main_call0_v0) (TRef.of (T := ⟨S32768x128, .f32⟩) main_v62) maximumf,
    reshape main_v62 main_v63 rfl shapeCasts_S32768x128_S16x2048x128 ]

/-- The operations of the second layer. -/
abbrev opsLayer2 : List (HloOp τ sig (Elt F)) :=
  [ binary main_v32 main_v63 main_v64 ((fun l r => Host.dotGeneral dot_S16x2048x2048_S16x2048x128_S16x2048x128_2_1_1_2_0_0 none l r) : (⟨S16x2048x2048, .f32⟩ : BufTy).Contents (Elt F) → (⟨S16x2048x128, .f32⟩ : BufTy).Contents (Elt F) → (⟨S16x2048x128, .f32⟩ : BufTy).Contents (Elt F)),
    binary main_v32 main_v64 main_v65 ((fun l r => Host.dotGeneral dot_S16x2048x2048_S16x2048x128_S16x2048x128_2_1_1_2_0_0 none l r) : (⟨S16x2048x2048, .f32⟩ : BufTy).Contents (Elt F) → (⟨S16x2048x128, .f32⟩ : BufTy).Contents (Elt F) → (⟨S16x2048x128, .f32⟩ : BufTy).Contents (Elt F)),
    nullary main_cst_7 (constant S_ .f32 0x40000000#32),
    unary main_cst_7 main_v66 (broadcastInDim S16x2048x128 ![] bcast_S_S16x2048x128 : (⟨S_, .f32⟩ : BufTy).Contents (Elt F) → (⟨S16x2048x128, .f32⟩ : BufTy).Contents (Elt F)),
    binary main_v66 main_v65 main_v67 (mulf : (⟨S16x2048x128, .f32⟩ : BufTy).Contents (Elt F) → (⟨S16x2048x128, .f32⟩ : BufTy).Contents (Elt F) → (⟨S16x2048x128, .f32⟩ : BufTy).Contents (Elt F)),
    binary main_v67 main_v63 main_v68 (subf : (⟨S16x2048x128, .f32⟩ : BufTy).Contents (Elt F) → (⟨S16x2048x128, .f32⟩ : BufTy).Contents (Elt F) → (⟨S16x2048x128, .f32⟩ : BufTy).Contents (Elt F)),
    binary main_v32 main_v68 main_v69 ((fun l r => Host.dotGeneral dot_S16x2048x2048_S16x2048x128_S16x2048x128_2_1_1_2_0_0 none l r) : (⟨S16x2048x2048, .f32⟩ : BufTy).Contents (Elt F) → (⟨S16x2048x128, .f32⟩ : BufTy).Contents (Elt F) → (⟨S16x2048x128, .f32⟩ : BufTy).Contents (Elt F)),
    nullary main_cst_8 (constant S_ .f32 0x40000000#32),
    unary main_cst_8 main_v70 (broadcastInDim S16x2048x128 ![] bcast_S_S16x2048x128 : (⟨S_, .f32⟩ : BufTy).Contents (Elt F) → (⟨S16x2048x128, .f32⟩ : BufTy).Contents (Elt F)),
    binary main_v70 main_v69 main_v71 (mulf : (⟨S16x2048x128, .f32⟩ : BufTy).Contents (Elt F) → (⟨S16x2048x128, .f32⟩ : BufTy).Contents (Elt F) → (⟨S16x2048x128, .f32⟩ : BufTy).Contents (Elt F)),
    binary main_v71 main_v64 main_v72 (subf : (⟨S16x2048x128, .f32⟩ : BufTy).Contents (Elt F) → (⟨S16x2048x128, .f32⟩ : BufTy).Contents (Elt F) → (⟨S16x2048x128, .f32⟩ : BufTy).Contents (Elt F)),
    binary main_v32 main_v72 main_v73 ((fun l r => Host.dotGeneral dot_S16x2048x2048_S16x2048x128_S16x2048x128_2_1_1_2_0_0 none l r) : (⟨S16x2048x2048, .f32⟩ : BufTy).Contents (Elt F) → (⟨S16x2048x128, .f32⟩ : BufTy).Contents (Elt F) → (⟨S16x2048x128, .f32⟩ : BufTy).Contents (Elt F)),
    nullary main_cst_9 (constant S_ .f32 0x40000000#32),
    unary main_cst_9 main_v74 (broadcastInDim S16x2048x128 ![] bcast_S_S16x2048x128 : (⟨S_, .f32⟩ : BufTy).Contents (Elt F) → (⟨S16x2048x128, .f32⟩ : BufTy).Contents (Elt F)),
    binary main_v74 main_v73 main_v75 (mulf : (⟨S16x2048x128, .f32⟩ : BufTy).Contents (Elt F) → (⟨S16x2048x128, .f32⟩ : BufTy).Contents (Elt F) → (⟨S16x2048x128, .f32⟩ : BufTy).Contents (Elt F)),
    binary main_v75 main_v68 main_v76 (subf : (⟨S16x2048x128, .f32⟩ : BufTy).Contents (Elt F) → (⟨S16x2048x128, .f32⟩ : BufTy).Contents (Elt F) → (⟨S16x2048x128, .f32⟩ : BufTy).Contents (Elt F)),
    unary main_v63 main_v77 (broadcastInDim S16x2048x128x1 ![0, 1, 2] bcast_S16x2048x128_S16x2048x128x1_0_1_2 : (⟨S16x2048x128, .f32⟩ : BufTy).Contents (Elt F) → (⟨S16x2048x128x1, .f32⟩ : BufTy).Contents (Elt F)),
    unary main_v64 main_v78 (broadcastInDim S16x2048x128x1 ![0, 1, 2] bcast_S16x2048x128_S16x2048x128x1_0_1_2 : (⟨S16x2048x128, .f32⟩ : BufTy).Contents (Elt F) → (⟨S16x2048x128x1, .f32⟩ : BufTy).Contents (Elt F)),
    unary main_v68 main_v79 (broadcastInDim S16x2048x128x1 ![0, 1, 2] bcast_S16x2048x128_S16x2048x128x1_0_1_2 : (⟨S16x2048x128, .f32⟩ : BufTy).Contents (Elt F) → (⟨S16x2048x128x1, .f32⟩ : BufTy).Contents (Elt F)),
    unary main_v72 main_v80 (broadcastInDim S16x2048x128x1 ![0, 1, 2] bcast_S16x2048x128_S16x2048x128x1_0_1_2 : (⟨S16x2048x128, .f32⟩ : BufTy).Contents (Elt F) → (⟨S16x2048x128x1, .f32⟩ : BufTy).Contents (Elt F)),
    unary main_v76 main_v81 (broadcastInDim S16x2048x128x1 ![0, 1, 2] bcast_S16x2048x128_S16x2048x128x1_0_1_2 : (⟨S16x2048x128, .f32⟩ : BufTy).Contents (Elt F) → (⟨S16x2048x128x1, .f32⟩ : BufTy).Contents (Elt F)),
    nary ![main_v77, main_v78, main_v79, main_v80, main_v81] main_v82 (fun u => concatenate S16x2048x128x5 3 [⟨S16x2048x128x1, u 0⟩, ⟨S16x2048x128x1, u 1⟩, ⟨S16x2048x128x1, u 2⟩, ⟨S16x2048x128x1, u 3⟩, ⟨S16x2048x128x1, u 4⟩] concatenates_S16x2048x128x1_S16x2048x128x1_S16x2048x128x1_S16x2048x128x1_S16x2048x128x1_S16x2048x128x5_d3),
    reshape main_v82 main_v83 rfl shapeCasts_S16x2048x128x5_S32768x640,
    binary main_v83 main_arg4 main_v84 ((fun l r => Host.dotGeneral dot_S32768x640_S640x512_S32768x512_1_0_0_1_n_n none l r) : (⟨S32768x640, .f32⟩ : BufTy).Contents (Elt F) → (⟨S640x512, .f32⟩ : BufTy).Contents (Elt F) → (⟨S32768x512, .f32⟩ : BufTy).Contents (Elt F)),
    unary main_arg5 main_v85 (broadcastInDim S1x512 ![1] bcast_S512_S1x512_1 : (⟨S512, .f32⟩ : BufTy).Contents (Elt F) → (⟨S1x512, .f32⟩ : BufTy).Contents (Elt F)),
    unary main_v85 main_v86 (broadcastInDim S32768x512 ![0, 1] bcast_S1x512_S32768x512_0_1 : (⟨S1x512, .f32⟩ : BufTy).Contents (Elt F) → (⟨S32768x512, .f32⟩ : BufTy).Contents (Elt F)),
    binary main_v84 main_v86 main_v87 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S32768x512, .f32⟩) main_call1_v0) (broadcastInDim S32768x512 ![] bcast_S_S32768x512),
    TRef.binary (TRef.of (T := ⟨S32768x512, .f32⟩) main_v87) (TRef.of (T := ⟨S32768x512, .f32⟩) main_call1_v0) (TRef.of (T := ⟨S32768x512, .f32⟩) main_v88) maximumf,
    reshape main_v88 main_v89 rfl shapeCasts_S32768x512_S16x2048x512 ]

/-- The operations of the third layer. -/
abbrev opsLayer3 : List (HloOp τ sig (Elt F)) :=
  [ binary main_v32 main_v89 main_v90 ((fun l r => Host.dotGeneral dot_S16x2048x2048_S16x2048x512_S16x2048x512_2_1_1_2_0_0 none l r) : (⟨S16x2048x2048, .f32⟩ : BufTy).Contents (Elt F) → (⟨S16x2048x512, .f32⟩ : BufTy).Contents (Elt F) → (⟨S16x2048x512, .f32⟩ : BufTy).Contents (Elt F)),
    binary main_v32 main_v90 main_v91 ((fun l r => Host.dotGeneral dot_S16x2048x2048_S16x2048x512_S16x2048x512_2_1_1_2_0_0 none l r) : (⟨S16x2048x2048, .f32⟩ : BufTy).Contents (Elt F) → (⟨S16x2048x512, .f32⟩ : BufTy).Contents (Elt F) → (⟨S16x2048x512, .f32⟩ : BufTy).Contents (Elt F)),
    nullary main_cst_10 (constant S_ .f32 0x40000000#32),
    unary main_cst_10 main_v92 (broadcastInDim S16x2048x512 ![] bcast_S_S16x2048x512 : (⟨S_, .f32⟩ : BufTy).Contents (Elt F) → (⟨S16x2048x512, .f32⟩ : BufTy).Contents (Elt F)),
    binary main_v92 main_v91 main_v93 (mulf : (⟨S16x2048x512, .f32⟩ : BufTy).Contents (Elt F) → (⟨S16x2048x512, .f32⟩ : BufTy).Contents (Elt F) → (⟨S16x2048x512, .f32⟩ : BufTy).Contents (Elt F)),
    binary main_v93 main_v89 main_v94 (subf : (⟨S16x2048x512, .f32⟩ : BufTy).Contents (Elt F) → (⟨S16x2048x512, .f32⟩ : BufTy).Contents (Elt F) → (⟨S16x2048x512, .f32⟩ : BufTy).Contents (Elt F)),
    unary main_v89 main_v95 (broadcastInDim S16x2048x512x1 ![0, 1, 2] bcast_S16x2048x512_S16x2048x512x1_0_1_2 : (⟨S16x2048x512, .f32⟩ : BufTy).Contents (Elt F) → (⟨S16x2048x512x1, .f32⟩ : BufTy).Contents (Elt F)),
    unary main_v90 main_v96 (broadcastInDim S16x2048x512x1 ![0, 1, 2] bcast_S16x2048x512_S16x2048x512x1_0_1_2 : (⟨S16x2048x512, .f32⟩ : BufTy).Contents (Elt F) → (⟨S16x2048x512x1, .f32⟩ : BufTy).Contents (Elt F)),
    unary main_v94 main_v97 (broadcastInDim S16x2048x512x1 ![0, 1, 2] bcast_S16x2048x512_S16x2048x512x1_0_1_2 : (⟨S16x2048x512, .f32⟩ : BufTy).Contents (Elt F) → (⟨S16x2048x512x1, .f32⟩ : BufTy).Contents (Elt F)),
    nary ![main_v95, main_v96, main_v97] main_v98 (fun u => concatenate S16x2048x512x3 3 [⟨S16x2048x512x1, u 0⟩, ⟨S16x2048x512x1, u 1⟩, ⟨S16x2048x512x1, u 2⟩] concatenates_S16x2048x512x1_S16x2048x512x1_S16x2048x512x1_S16x2048x512x3_d3),
    reshape main_v98 main_v99 rfl shapeCasts_S16x2048x512x3_S32768x1536,
    binary main_v99 main_arg6 main_v100 ((fun l r => Host.dotGeneral dot_S32768x1536_S1536x1024_S32768x1024_1_0_0_1_n_n none l r) : (⟨S32768x1536, .f32⟩ : BufTy).Contents (Elt F) → (⟨S1536x1024, .f32⟩ : BufTy).Contents (Elt F) → (⟨S32768x1024, .f32⟩ : BufTy).Contents (Elt F)),
    unary main_arg7 main_v101 (broadcastInDim S1x1024 ![1] bcast_S1024_S1x1024_1 : (⟨S1024, .f32⟩ : BufTy).Contents (Elt F) → (⟨S1x1024, .f32⟩ : BufTy).Contents (Elt F)),
    unary main_v101 main_v102 (broadcastInDim S32768x1024 ![0, 1] bcast_S1x1024_S32768x1024_0_1 : (⟨S1x1024, .f32⟩ : BufTy).Contents (Elt F) → (⟨S32768x1024, .f32⟩ : BufTy).Contents (Elt F)),
    binary main_v100 main_v102 main_v103 (addf : (⟨S32768x1024, .f32⟩ : BufTy).Contents (Elt F) → (⟨S32768x1024, .f32⟩ : BufTy).Contents (Elt F) → (⟨S32768x1024, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S32768x1024, .f32⟩) main_call2_v0) (broadcastInDim S32768x1024 ![] bcast_S_S32768x1024),
    TRef.binary (TRef.of (T := ⟨S32768x1024, .f32⟩) main_v103) (TRef.of (T := ⟨S32768x1024, .f32⟩) main_call2_v0) (TRef.of (T := ⟨S32768x1024, .f32⟩) main_v104) maximumf,
    reshape main_v104 main_v105 rfl shapeCasts_S32768x1024_S16x2048x1024 ]

theorem ops_split : (ops : List (HloOp τ sig (Elt F))) = opsGraph ++ opsLayer1 ++ opsLayer2 ++ opsLayer3 := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., nullary_bufs_sub .., binary_bufs_sub .., unary_bufs_sub .., nullary_bufs_sub .., unary_bufs_sub .., binary_bufs_sub .., nullary_bufs_sub .., nullary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., binary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., unary_bufs_sub .., unary_bufs_sub .., unary_bufs_sub .., unary_bufs_sub .., unary_bufs_sub .., unary_bufs_sub .., nary_bufs_sub .., reshape_bufs_sub .., binary_bufs_sub .., unary_bufs_sub .., unary_bufs_sub .., binary_bufs_sub .., nullary_bufs_sub .., unary_bufs_sub .., binary_bufs_sub .., reshape_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., unary_bufs_sub .., unary_bufs_sub .., unary_bufs_sub .., unary_bufs_sub .., unary_bufs_sub .., nary_bufs_sub .., reshape_bufs_sub .., binary_bufs_sub .., unary_bufs_sub .., unary_bufs_sub .., binary_bufs_sub .., nullary_bufs_sub .., unary_bufs_sub .., binary_bufs_sub .., reshape_bufs_sub .., binary_bufs_sub .., binary_bufs_sub .., nullary_bufs_sub .., unary_bufs_sub .., binary_bufs_sub .., binary_bufs_sub .., unary_bufs_sub .., unary_bufs_sub .., unary_bufs_sub .., nary_bufs_sub .., reshape_bufs_sub .., binary_bufs_sub .., unary_bufs_sub .., unary_bufs_sub .., binary_bufs_sub .., nullary_bufs_sub .., unary_bufs_sub .., binary_bufs_sub .., reshape_bufs_sub ..⟩

/-! ### The graph -/

set_option maxRecDepth 8192 in
set_option maxHeartbeats 4000000 in
theorem graph_out (W : Valuation τ sig (Elt F)) :
    after (opsGraph (F := F)) W (Proc.devRef .tc main_v32) = laplacian (W (Proc.devRef .tc main_arg0)) := by
  stage_results <;> rfl

set_option maxRecDepth 8192 in
set_option maxHeartbeats 4000000 in
section
theorem graph_keeps_arg0 (W : Valuation τ sig (Elt F)) :
    after (opsGraph (F := F)) W (Proc.devRef .tc main_arg0) = W (Proc.devRef .tc main_arg0) := by
  stage_results
theorem graph_keeps_arg2 (W : Valuation τ sig (Elt F)) :
    after (opsGraph (F := F)) W (Proc.devRef .tc main_arg2) = W (Proc.devRef .tc main_arg2) := by
  stage_results
theorem graph_keeps_arg3 (W : Valuation τ sig (Elt F)) :
    after (opsGraph (F := F)) W (Proc.devRef .tc main_arg3) = W (Proc.devRef .tc main_arg3) := by
  stage_results
theorem graph_keeps_arg4 (W : Valuation τ sig (Elt F)) :
    after (opsGraph (F := F)) W (Proc.devRef .tc main_arg4) = W (Proc.devRef .tc main_arg4) := by
  stage_results
theorem graph_keeps_arg5 (W : Valuation τ sig (Elt F)) :
    after (opsGraph (F := F)) W (Proc.devRef .tc main_arg5) = W (Proc.devRef .tc main_arg5) := by
  stage_results
theorem graph_keeps_arg6 (W : Valuation τ sig (Elt F)) :
    after (opsGraph (F := F)) W (Proc.devRef .tc main_arg6) = W (Proc.devRef .tc main_arg6) := by
  stage_results
theorem graph_keeps_arg7 (W : Valuation τ sig (Elt F)) :
    after (opsGraph (F := F)) W (Proc.devRef .tc main_arg7) = W (Proc.devRef .tc main_arg7) := by
  stage_results
end

/-! ### The first layer -/

set_option maxRecDepth 8192 in
set_option maxHeartbeats 4000000 in
theorem layer1_out (W : Valuation τ sig (Elt F)) :
    after (opsLayer1 (F := F)) W (Proc.devRef .tc main_v63)
      = layer6 (W (Proc.devRef .tc main_v32)) (W (Proc.devRef .tc main_arg0)) (W (Proc.devRef .tc main_arg2)) (W (Proc.devRef .tc main_arg3)) := by
  stage_results <;> rfl

set_option maxRecDepth 8192 in
set_option maxHeartbeats 4000000 in
section
theorem layer1_keeps_v32 (W : Valuation τ sig (Elt F)) :
    after (opsLayer1 (F := F)) W (Proc.devRef .tc main_v32) = W (Proc.devRef .tc main_v32) := by
  stage_results
theorem layer1_keeps_arg4 (W : Valuation τ sig (Elt F)) :
    after (opsLayer1 (F := F)) W (Proc.devRef .tc main_arg4) = W (Proc.devRef .tc main_arg4) := by
  stage_results
theorem layer1_keeps_arg5 (W : Valuation τ sig (Elt F)) :
    after (opsLayer1 (F := F)) W (Proc.devRef .tc main_arg5) = W (Proc.devRef .tc main_arg5) := by
  stage_results
theorem layer1_keeps_arg6 (W : Valuation τ sig (Elt F)) :
    after (opsLayer1 (F := F)) W (Proc.devRef .tc main_arg6) = W (Proc.devRef .tc main_arg6) := by
  stage_results
theorem layer1_keeps_arg7 (W : Valuation τ sig (Elt F)) :
    after (opsLayer1 (F := F)) W (Proc.devRef .tc main_arg7) = W (Proc.devRef .tc main_arg7) := by
  stage_results
end

/-! ### The second layer -/

set_option maxRecDepth 8192 in
set_option maxHeartbeats 4000000 in
theorem layer2_out (W : Valuation τ sig (Elt F)) :
    after (opsLayer2 (F := F)) W (Proc.devRef .tc main_v89)
      = layer128 (W (Proc.devRef .tc main_v32)) (W (Proc.devRef .tc main_v63)) (W (Proc.devRef .tc main_arg4)) (W (Proc.devRef .tc main_arg5)) := by
  stage_results <;> rfl

set_option maxRecDepth 8192 in
set_option maxHeartbeats 4000000 in
section
theorem layer2_keeps_v32 (W : Valuation τ sig (Elt F)) :
    after (opsLayer2 (F := F)) W (Proc.devRef .tc main_v32) = W (Proc.devRef .tc main_v32) := by
  stage_results
theorem layer2_keeps_arg6 (W : Valuation τ sig (Elt F)) :
    after (opsLayer2 (F := F)) W (Proc.devRef .tc main_arg6) = W (Proc.devRef .tc main_arg6) := by
  stage_results
theorem layer2_keeps_arg7 (W : Valuation τ sig (Elt F)) :
    after (opsLayer2 (F := F)) W (Proc.devRef .tc main_arg7) = W (Proc.devRef .tc main_arg7) := by
  stage_results
end

/-! ### The third layer -/

set_option maxRecDepth 8192 in
set_option maxHeartbeats 4000000 in
theorem layer3_out (W : Valuation τ sig (Elt F)) :
    after (opsLayer3 (F := F)) W (Proc.devRef .tc main_v105)
      = layer512 (W (Proc.devRef .tc main_v32)) (W (Proc.devRef .tc main_v89)) (W (Proc.devRef .tc main_arg6)) (W (Proc.devRef .tc main_arg7)) := by
  stage_results <;> rfl

/-! ### The whole program -/

/-- The result buffer after the whole program, from any contents. -/
theorem result_eq (V : Valuation τ sig (Elt F)) :
    after (ops (F := F)) V (Proc.devRef .tc main_v105)
      = refOut (V (Proc.devRef .tc main_arg0)) (V (Proc.devRef .tc main_arg2)) (V (Proc.devRef .tc main_arg3)) (V (Proc.devRef .tc main_arg4))
          (V (Proc.devRef .tc main_arg5)) (V (Proc.devRef .tc main_arg6)) (V (Proc.devRef .tc main_arg7)) := by
  rw [ops_split, after_append', after_append', after_append', layer3_out,
    layer2_keeps_v32, layer2_out, layer2_keeps_arg6, layer2_keeps_arg7,
    layer1_keeps_v32, layer1_out, layer1_keeps_arg4, layer1_keeps_arg5, layer1_keeps_arg6, layer1_keeps_arg7,
    graph_out, graph_keeps_arg0, graph_keeps_arg2, graph_keeps_arg3, graph_keeps_arg4, graph_keeps_arg5,
    graph_keeps_arg6, graph_keeps_arg7]
  rfl

set_option maxRecDepth 8192 in
set_option maxHeartbeats 50000000 in
/-- On every device, for any float values, from any memory with zero counters: every weakly fair execution of
    the program terminates with the result buffer at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v105)
        = refOut (m ((c.tc : Thread nD τ).loc main_arg0)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v105).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.Net

end
-- ==== Proof.LibNormSum.lean ====
/-
  Extended-real algebra for a normalised neighbour sum. A graph convolution scales each neighbour's contribution by
  the factors `1 / sqrt (degree)` of both end points. One way of computing it multiplies every summand by both
  factors and then sums; another sums first and multiplies the total by the destination's factor afterwards. On the
  extended reals multiplication does not distribute over addition in general (`⊤ + ⊥ = ⊥`), but it does for a
  multiplier that is NON-NEGATIVE and FINITE, whatever the summands are (they may be `±∞`). The factor
  `1 / sqrt (1 + number of neighbours)` is such a multiplier. No program appears in this module.
-/
import Idealize.ShloMosaic.PureOps.Ideal.Laws

noncomputable section

namespace Cert.NormSum

open Idealize.ShloMosaic
open scoped BigOperators

/-- A non-negative finite extended real `cv` distributes over any finite sum of extended reals, infinite summands
    included: `cv * Σ f = Σ cv * f`. Induction on the index set; the step is distributivity of such a multiplier
    over one addition. -/
theorem mul_sum_of_nonneg_ne_top {ι : Type*} (S : Finset ι) (f : ι → EReal) (cv : EReal) (h0 : 0 ≤ cv)
    (ht : cv ≠ ⊤) : cv * ∑ e ∈ S, f e = ∑ e ∈ S, cv * f e := by
  classical
  induction S using Finset.induction_on with
  | empty => simp
  | insert a s ha ih =>
    rw [Finset.sum_insert ha, Finset.sum_insert ha, EReal.left_distrib_of_nonneg_of_ne_top h0 ht, ih]

/-- Pulling the destination's factor out of a normalised sum. With every destination factor `dd e` equal to the one
    non-negative finite `cv`: `cv * ((0 + Σ a·ds) + hp·cv) = (0 + Σ a·(ds·dd)) + hp·(cv·cv)`. The left side
    distributes `cv` over the outer sum and then over the inner one; each term then agrees by commutativity and
    associativity of the extended reals' multiplication. -/
theorem norm_pull {ι : Type*} (S : Finset ι) (a ds dd : ι → EReal) (hp cv : EReal) (h0 : 0 ≤ cv) (ht : cv ≠ ⊤)
    (hdd : ∀ e ∈ S, dd e = cv) :
    cv * ((0 + ∑ e ∈ S, a e * ds e) + hp * cv) = (0 + ∑ e ∈ S, a e * (ds e * dd e)) + hp * (cv * cv) := by
  rw [EReal.left_distrib_of_nonneg_of_ne_top h0 ht, zero_add, zero_add,
    mul_sum_of_nonneg_ne_top S (fun e => a e * ds e) cv h0 ht]
  congr 1
  · refine Finset.sum_congr rfl fun e he => ?_
    rw [hdd e he, mul_comm cv (a e * ds e), mul_assoc]
  · exact mul_left_comm cv hp cv

/-- The single-precision pattern `0x3F800000` (sign 0, biased exponent 127, fraction 0) denotes the extended real
    one: `2 ^ 23 * 2 ^ (127 - 127 - 23) = 1`. -/
theorem one_word : Ideal.ofBits .f32 0x3F800000#32 = (1 : EReal) := by
  rw [show (1 : EReal) = ((1 : ℝ) : EReal) by norm_cast]
  simp [Ideal.ofBits, Ideal.ieee, -EReal.coe_mul]; norm_num

/-- At a positive real the reciprocal square root is the real `(sqrt r)⁻¹`: neither of its corners (a negative
    argument, a zero argument) applies. -/
theorem rsqrt_coe_pos (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- A sum of ones over a finite set, plus one, is the real number `card S + 1`. -/
theorem count_add_one {ι : Type*} (S : Finset ι) :
    (0 + ∑ _e ∈ S, (1 : EReal)) + 1 = (((S.card : ℝ) + 1 : ℝ) : EReal) := by
  rw [zero_add, Finset.sum_const, EReal.nsmul_eq_mul, mul_one, EReal.coe_add, EReal.coe_natCast, EReal.coe_one]

/-- The normalising factor `1 / sqrt (1 + number of neighbours)` is a non-negative finite extended real: its
    argument is the positive real `card S + 1`, where the reciprocal square root is the real `(sqrt _)⁻¹ ≥ 0`. -/
theorem rsqrt_count_nonneg_ne_top {ι : Type*} (S : Finset ι) :
    0 ≤ Ideal.rsqrt ((0 + ∑ _e ∈ S, (1 : EReal)) + 1) ∧ Ideal.rsqrt ((0 + ∑ _e ∈ S, (1 : EReal)) + 1) ≠ ⊤ := by
  have hpos : (0 : ℝ) < (S.card : ℝ) + 1 := by positivity
  rw [count_add_one, rsqrt_coe_pos _ hpos]
  exact ⟨EReal.coe_nonneg.mpr (inv_nonneg.mpr (Real.sqrt_nonneg _)), EReal.coe_ne_top _⟩

end Cert.NormSum

end
-- ==== Proof.LibRealEntries.lean ====
/-
  EXTENDED REALS THAT ARE REAL NUMBERS, and the one place a graph Laplacian needs them.

  Over the extended reals a product does not distribute over a difference at the infinities: `(1 - a) · y` and
  `y - a · y` differ when `y` is infinite.  A program that applies `I - A` to a vector as `y - A · y` and one that builds
  the matrix `I - A` and multiplies therefore agree only where the entries are real numbers.  Proved here, free of any
  program:
  • `IsR x` — the extended real `x` is a real number — is closed under sum, difference, product, maximum, the
    exponential and finite sums (`IsR.add` … `IsR.sum`), and holds of the reciprocal square root of a positive real;
  • `coe_sum`: the coercion of a finite real sum is the sum of the coercions;
  • `sum_sub_mul`: `∑ j, (d j - a j) · y j = ∑ j, d j · y j - ∑ j, a j · y j` over real entries;
  • `sum_ind_mul`, `sum_ind_sub_mul`: with `d` the indicator of `i` (the identity matrix's row), the left side is
    `y i - ∑ j, a j · y j`: row `i` of `(I - A) y` is row `i` of `y - A y`;
  • `one_div_sqrt`: at a positive real, `1 / sqrt` is the reciprocal square root;
  • `two_word`: the single-precision pattern `0x40000000` denotes the real number two.
-/
import Idealize.ShloMosaic.PureOps.Ideal
import Idealize.ShloMosaic.PureOps.Ideal.Laws
import proofs.«175608_j66305705115960_1_alg».proof.Proof.LibNormSum

noncomputable section

open scoped BigOperators

namespace Cert.RealEntries

open Idealize.ShloMosaic

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.max {a b : EReal} (ha : IsR a) (hb : IsR b) : IsR (max a b) := by
  rcases le_total a b with h | h
  · rwa [max_eq_right h]
  · rwa [max_eq_left h]

theorem IsR.exp {a : EReal} (ha : IsR a) : IsR (Ideal.exp a) := by
  obtain ⟨r, rfl⟩ := ha; exact ⟨Real.exp r, rfl⟩

theorem IsR.sum {ι : Type*} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h _ (Finset.mem_insert_self _ _)).add (ih fun i hi => h i (Finset.mem_insert_of_mem hi))

/-- The coercion of a real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real numbers is the coercion of a real family. -/
theorem exists_real_family {ι : Type*} (f : ι → EReal) (h : ∀ i, IsR (f i)) : ∃ g : ι → ℝ, f = fun i => (g i : EReal) :=
  ⟨fun i => (h i).choose, funext fun i => (h i).choose_spec⟩

/-- Over real numbers, `∑ j, (d j - a j) · y j = ∑ j, d j · y j - ∑ j, a j · y j`. -/
theorem sum_sub_mul {ι : Type*} (s : Finset ι) (d a y : ι → EReal) (hd : ∀ j, IsR (d j)) (ha : ∀ j, IsR (a j))
    (hy : ∀ j, IsR (y j)) : ∑ j ∈ s, (d j - a j) * y j = ∑ j ∈ s, d j * y j - ∑ j ∈ s, a j * y j := by
  obtain ⟨d', rfl⟩ := exists_real_family d hd
  obtain ⟨a', rfl⟩ := exists_real_family a ha
  obtain ⟨y', rfl⟩ := exists_real_family y hy
  simp only [← EReal.coe_sub, ← EReal.coe_mul, ← coe_sum]
  congr 1
  rw [← Finset.sum_sub_distrib]
  exact Finset.sum_congr rfl fun j _ => sub_mul _ _ _

/-- The indicator of `i` picks the `i`-th entry. -/
theorem sum_ind_mul {n : ℕ} (i : Fin n) (y : Fin n → EReal) :
    ∑ j : Fin n, (if i = j then (1 : EReal) else 0) * y j = y i := by
  rw [Finset.sum_eq_single i]
  · rw [if_pos rfl, one_mul]
  · intro j _ hj; rw [if_neg (Ne.symm hj), zero_mul]
  · intro h; exact absurd (Finset.mem_univ i) h

/-- The matrix `I - a` applied to `y`, at row `i`, is `y i - ∑ j, a j · y j` when the entries are real numbers. -/
theorem sum_ind_sub_mul {n : ℕ} (i : Fin n) (a y : Fin n → EReal) (ha : ∀ j, IsR (a j)) (hy : ∀ j, IsR (y j)) :
    ∑ j : Fin n, ((if i = j then (1 : EReal) else 0) - a j) * y j = y i - ∑ j : Fin n, a j * y j := by
  rw [sum_sub_mul Finset.univ _ a y (fun j => by split_ifs; exact IsR.one; exact IsR.zero) ha hy, sum_ind_mul]

/-- At a positive real number `1 / sqrt` is the reciprocal square root. -/
theorem one_div_sqrt (r : ℝ) (hr : 0 < r) : Ideal.div 1 (Ideal.sqrt (r : EReal)) = Ideal.rsqrt (r : EReal) := by
  rw [Cert.NormSum.rsqrt_coe_pos r hr]
  show Ideal.div 1 (if r < 0 then (⊥ : EReal) else (Real.sqrt r : EReal)) = _
  rw [if_neg (not_lt.mpr hr.le), Ideal.div_coe (Real.sqrt_pos.mpr hr).ne', one_mul, one_div]

/-- The reciprocal square root of a positive real number is a real number. -/
theorem IsR.rsqrt_pos (r : ℝ) (hr : 0 < r) : IsR (Ideal.rsqrt (r : EReal)) :=
  ⟨_, Cert.NormSum.rsqrt_coe_pos r hr⟩

/-- The single-precision pattern `0x40000000` denotes the real number two. -/
theorem two_word : Ideal.ofBits .f32 0x40000000#32 = ((2 : ℝ) : EReal) := by
  simp [Ideal.ofBits, Ideal.ieee, -EReal.coe_mul]; norm_num

end Cert.RealEntries

end
-- ==== Proof.RefReadLib.lean ====
/-
  Facts about the specification's graph convolution that no program enters: when the feature rows are real
  numbers, so are the squared lengths, the inner products, the affinities, the inverse square roots of the degrees
  (a degree is a sum of exponentials of real numbers over 2048 nodes, hence a positive real), the normalised
  affinities, every Chebyshev term and every layer's output; and the re-indexing of a sum over
  (term, feature) pairs laid out term-major into the same sum laid out feature-major.
-/
import proofs.«175608_j66305705115960_1_alg».proof.Proof.Spec
import proofs.«175608_j66305705115960_1_alg».proof.Proof.LibRealEntries

noncomputable section

open scoped BigOperators

namespace Cert.GraphConvReal

open Idealize.ShloMosaic Cert.RealEntries Cert.GraphConv

/-- The literal `0.0` is zero. -/
theorem zer_eq : zer = 0 := Ideal.ofBits_zero_f32

/-- Subtracting from the literal `0.0` negates. -/
theorem zer_sub (v : EReal) : zer - v = -v := by rw [zer_eq, zero_sub]

theorem zer_isR : IsR zer := ⟨0, by rw [zer_eq]; rfl⟩

theorem two_isR : IsR two := ⟨2, two_word⟩

/-- A sum of exponentials of real numbers over the 2048 nodes is a positive real number. -/
theorem sum_exp_pos (r : Fin 2048 → EReal) (hr : ∀ j, IsR (r j)) :
    ∃ s : ℝ, 0 < s ∧ ∑ j : Fin 2048, Ideal.exp (r j) = (s : EReal) := by
  obtain ⟨r', rfl⟩ := exists_real_family r hr
  refine ⟨∑ j : Fin 2048, Real.exp (r' j),
    Finset.sum_pos (fun j _ => Real.exp_pos _) ⟨⟨0, by decide⟩, Finset.mem_univ _⟩, ?_⟩
  rw [coe_sum]
  rfl

section
variable (x : Fin 2048 → Fin 6 → EReal) (hx : ∀ i f, IsR (x i f))
include hx

theorem sq_isR (i : Fin 2048) : IsR (sq x i) := IsR.sum _ _ fun f _ => (hx i f).mul (hx i f)

theorem gram_isR (i j : Fin 2048) : IsR (gram x i j) := IsR.sum _ _ fun f _ => (hx i f).mul (hx j f)

theorem dist_isR (i j : Fin 2048) : IsR (zer - ((sq x i - two * gram x i j) + sq x j)) :=
  zer_isR.sub (((sq_isR x hx i).sub (two_isR.mul (gram_isR x hx i j))).add (sq_isR x hx j))

theorem aff_isR (i j : Fin 2048) : IsR (aff x i j) := (dist_isR x hx i j).exp

/-- A node's degree is a positive real number. -/
theorem rowsum_pos (i : Fin 2048) : ∃ r : ℝ, 0 < r ∧ rowsum x i = (r : EReal) :=
  sum_exp_pos _ fun j => dist_isR x hx i j

theorem deg_isR (i : Fin 2048) : IsR (deg x i) := by
  obtain ⟨r, hr, h⟩ := rowsum_pos x hx i
  unfold deg
  rw [h]
  exact IsR.rsqrt_pos r hr

/-- `1 / sqrt` of a degree is its inverse square root. -/
theorem one_div_sqrt_rowsum (i : Fin 2048) : Ideal.div 1 (Ideal.sqrt (rowsum x i)) = deg x i := by
  obtain ⟨r, hr, h⟩ := rowsum_pos x hx i
  unfold deg
  rw [h]
  exact one_div_sqrt r hr

theorem nadj_isR (i j : Fin 2048) : IsR (nadj x i j) :=
  ((deg_isR x hx i).mul (aff_isR x hx i j)).mul (deg_isR x hx j)

theorem lap_isR {n : ℕ} (y : Fin 2048 → Fin n → EReal) (hy : ∀ i f, IsR (y i f)) (i : Fin 2048) (f : Fin n) :
    IsR (lap x y i f) :=
  (hy i f).sub (IsR.sum _ _ fun j _ => (nadj_isR x hx i j).mul (hy j f))

theorem cheb_isR {n : ℕ} (y : Fin 2048 → Fin n → EReal) (hy : ∀ i f, IsR (y i f)) :
    ∀ (k : ℕ) (i : Fin 2048) (f : Fin n), IsR (cheb x y k i f)
  | 0, i, f => hy i f
  | 1, i, f => lap_isR x hx y hy i f
  | (k + 2), i, f =>
    (two_isR.mul (lap_isR x hx _ (cheb_isR y hy (k + 1)) i f)).sub (cheb_isR y hy k i f)

theorem dense_isR {n K o : ℕ} (hn : 0 < n) (w : Fin (n * K) → Fin o → EReal) (b : Fin o → EReal)
    (y : Fin 2048 → Fin n → EReal) (hw : ∀ k c, IsR (w k c)) (hb : ∀ c, IsR (b c)) (hy : ∀ i f, IsR (y i f))
    (i : Fin 2048) (c : Fin o) : IsR (dense x hn w b y i c) :=
  IsR.max (IsR.add (IsR.sum _ _ fun q _ => (cheb_isR x hx y hy _ i _).mul (hw _ c)) (hb c)) zer_isR

/-- Row `i` of `(I - nadj) Y` is `lap Y` at `i` when `Y` has real entries. -/
theorem ind_sub_nadj_mul {n : ℕ} (y : Fin 2048 → Fin n → EReal) (hy : ∀ i f, IsR (y i f)) (i : Fin 2048) (f : Fin n) :
    ∑ j : Fin 2048, ((if i = j then (1 : EReal) else 0) - nadj x i j) * y j f = lap x y i f :=
  sum_ind_sub_mul i (fun j => nadj x i j) (fun j => y j f) (fun j => nadj_isR x hx i j) (fun j => hy j f)

end

/-- A sum over (term, feature) pairs laid out term-major is the same sum laid out feature-major. -/
theorem sum_term_feature (n K : ℕ) (G : ℕ → ℕ → EReal) :
    ∑ q : Fin (K * n), G (q.val / n) (q.val % n) = ∑ c : Fin (n * K), G (c.val % K) (c.val / K) := by
  rw [← Equiv.sum_comp (finProdFinEquiv (m := K) (n := n)), ← Equiv.sum_comp (finProdFinEquiv (m := n) (n := K)),
    Fintype.sum_prod_type, Fintype.sum_prod_type, Finset.sum_comm]
  refine Finset.sum_congr rfl fun f _ => Finset.sum_congr rfl fun k _ => ?_
  have hn : 0 < n := Fin.pos f
  have hK : 0 < K := Fin.pos k
  show G ((f.val + n * k.val) / n) ((f.val + n * k.val) % n) = G ((k.val + K * f.val) % K) ((k.val + K * f.val) / K)
  rw [Nat.add_mul_div_left _ _ hn, Nat.div_eq_of_lt f.isLt, Nat.zero_add, Nat.add_mul_mod_self_left, Nat.mod_eq_of_lt f.isLt,
    Nat.add_mul_mod_self_left, Nat.mod_eq_of_lt k.isLt, Nat.add_mul_div_left _ _ hK, Nat.div_eq_of_lt k.isLt, Nat.zero_add]

end Cert.GraphConvReal

end
-- ==== Proof.RefReadGraph.lean ====
/-
  The graph stages of the reference read at an index, at the ideal values: the squared lengths, the Gram array,
  the squared distances and the Gaussian affinity of graph `g` are the specification's `sq`, `gram` and `aff`
  of that graph's feature rows.
-/
import proofs.«175608_j66305705115960_1_alg».proof.Proof.RefStages
import proofs.«175608_j66305705115960_1_alg».proof.Proof.Spec
import proofs.«175608_j66305705115960_1_alg».proof.Proof.LibRealEntries
import proofs.«175608_j66305705115960_1_alg».proof.Proof.RefReadLib
import Idealize.ShloMosaic.Lib.Pipeline.Value
import Idealize.ShloMosaic.Lib.ValueIdx
import Idealize.ShloMosaic.PureOps.Ideal.Laws

noncomputable section

open scoped BigOperators

namespace Cert.ReferenceIdeal.Net

open Cert.ReferenceIdeal Cert.ReferenceIdeal.Gen Idealize.ShloMosaic Idealize.ShloMosaic.TcCoe Idealize.SL.Sem Idealize.ShloMosaic.StableHlo
open Idealize.ShloMosaic.ValueIdx Cert.RealEntries

/-- The feature rows of graph `g`. -/
def gx (x : (⟨S16x2048x6, .f32⟩ : BufTy).Contents (Elt Ideal)) (g : Fin 16) : Fin 2048 → Fin 6 → EReal := fun i f => x (ix3 g i f)

/-- The squared length of row `i` of graph `g`. -/
theorem sqLen_apply (x : (⟨S16x2048x6, .f32⟩ : BufTy).Contents (Elt Ideal)) (g : Fin 16) (i : Fin 2048) :
    sqLen (F := Ideal) x (ix2 g i) = GraphConv.sq (gx x g) i := by
  unfold sqLen
  simp only [Host.reduceAdd, Ideal.hostReduceAdd_def]
  rw [Ideal.hostReduceAdd_single reducesTo_S16x2048x6_S16x2048_d2 (by decide)]
  rw [show (constant (F := Ideal) S_ .f32 0x00000000#32) (Shape.Idx.first h_S_) = 0 from Ideal.ofBits_zero_f32, zero_add]
  unfold GraphConv.sq gx
  refine Finset.sum_congr rfl fun k _ => ?_
  exact congrArg (fun t => x t * x t) (funext fun a => Fin.ext (by match a with | ⟨0, _⟩ => rfl | ⟨1, _⟩ => rfl | ⟨2, _⟩ => rfl))

theorem gramDot_l0 (i : S16x2048x2048.Idx) (q : dot_S16x2048x6_S16x6x2048_S16x2048x2048_2_1_1_2_0_0.contr.Idx) : (dot_S16x2048x6_S16x6x2048_S16x2048x2048_2_1_1_2_0_0.lhsIdx i q 0).val = (i 0).val := by
  unfold DotDims.lhsIdx
  rw [dif_pos (show (0 : Fin S16x2048x6.rank) ∈ dot_S16x2048x6_S16x6x2048_S16x2048x2048_2_1_1_2_0_0.lhsBatch by decide)]
  rfl
theorem gramDot_l1 (i : S16x2048x2048.Idx) (q : dot_S16x2048x6_S16x6x2048_S16x2048x2048_2_1_1_2_0_0.contr.Idx) : (dot_S16x2048x6_S16x6x2048_S16x2048x2048_2_1_1_2_0_0.lhsIdx i q 1).val = (i 1).val := by
  unfold DotDims.lhsIdx
  rw [dif_neg (show ¬(1 : Fin S16x2048x6.rank) ∈ dot_S16x2048x6_S16x6x2048_S16x2048x2048_2_1_1_2_0_0.lhsBatch by decide), dif_pos (show (1 : Fin S16x2048x6.rank) ∈ dot_S16x2048x6_S16x6x2048_S16x2048x2048_2_1_1_2_0_0.lhsNonContracting by decide)]
  rfl
theorem gramDot_l2 (i : S16x2048x2048.Idx) (q : dot_S16x2048x6_S16x6x2048_S16x2048x2048_2_1_1_2_0_0.contr.Idx) : (dot_S16x2048x6_S16x6x2048_S16x2048x2048_2_1_1_2_0_0.lhsIdx i q 2).val = (q ⟨0, by decide⟩).val :=
  dot_S16x2048x6_S16x6x2048_S16x2048x2048_2_1_1_2_0_0.lhsIdx_val_of_single rfl i q
theorem gramDot_r0 (i : S16x2048x2048.Idx) (q : dot_S16x2048x6_S16x6x2048_S16x2048x2048_2_1_1_2_0_0.contr.Idx) : (dot_S16x2048x6_S16x6x2048_S16x2048x2048_2_1_1_2_0_0.rhsIdx i q 0).val = (i 0).val := by
  unfold DotDims.rhsIdx
  rw [dif_pos (show (0 : Fin S16x6x2048.rank) ∈ dot_S16x2048x6_S16x6x2048_S16x2048x2048_2_1_1_2_0_0.rhsBatch by decide)]
  rfl
theorem gramDot_r1 (i : S16x2048x2048.Idx) (q : dot_S16x2048x6_S16x6x2048_S16x2048x2048_2_1_1_2_0_0.contr.Idx) : (dot_S16x2048x6_S16x6x2048_S16x2048x2048_2_1_1_2_0_0.rhsIdx i q 1).val = (q ⟨0, by decide⟩).val :=
  dot_S16x2048x6_S16x6x2048_S16x2048x2048_2_1_1_2_0_0.rhsIdx_val_of_single rfl i q
theorem gramDot_r2 (i : S16x2048x2048.Idx) (q : dot_S16x2048x6_S16x6x2048_S16x2048x2048_2_1_1_2_0_0.contr.Idx) : (dot_S16x2048x6_S16x6x2048_S16x2048x2048_2_1_1_2_0_0.rhsIdx i q 2).val = (i 2).val := by
  unfold DotDims.rhsIdx
  rw [dif_neg (show ¬(2 : Fin S16x6x2048.rank) ∈ dot_S16x2048x6_S16x6x2048_S16x2048x2048_2_1_1_2_0_0.rhsBatch by decide), dif_pos (show (2 : Fin S16x6x2048.rank) ∈ dot_S16x2048x6_S16x6x2048_S16x2048x2048_2_1_1_2_0_0.rhsNonContracting by decide)]
  rfl

/-- The batched product read at an index: the sum over the contracted axis of the products of the operands' entries. -/
theorem gramDot_apply (a : FVec Ideal S16x2048x6 .f32) (b : FVec Ideal S16x6x2048 .f32) (g : Fin 16) (i : Fin 2048) (j : Fin 2048) :
    Host.dotGeneral (F := Ideal) dot_S16x2048x6_S16x6x2048_S16x2048x2048_2_1_1_2_0_0 none a b (ix3 g i j) = ∑ k : Fin 6, a (ix3 g i k) * b (ix3 g k j) := by
  simp only [Host.dotGeneral]
  rw [Ideal.dotGeneral_apply, ← Equiv.sum_comp (ValueIdx.contrEquiv1 dot_S16x2048x6_S16x6x2048_S16x2048x2048_2_1_1_2_0_0 6 rfl rfl).symm]
  refine Finset.sum_congr rfl fun k _ => ?_
  have hk := ValueIdx.contrEquiv1_symm_val dot_S16x2048x6_S16x6x2048_S16x2048x2048_2_1_1_2_0_0 6 rfl rfl k
  have el : dot_S16x2048x6_S16x6x2048_S16x2048x2048_2_1_1_2_0_0.lhsIdx (ix3 g i j) ((ValueIdx.contrEquiv1 dot_S16x2048x6_S16x6x2048_S16x2048x2048_2_1_1_2_0_0 6 rfl rfl).symm k) = ix3 g i k := funext fun a => Fin.ext (by
    match a with
    | ⟨0, _⟩ => exact gramDot_l0 _ _
    | ⟨1, _⟩ => exact gramDot_l1 _ _
    | ⟨2, _⟩ => exact (gramDot_l2 _ _).trans hk)
  have er : dot_S16x2048x6_S16x6x2048_S16x2048x2048_2_1_1_2_0_0.rhsIdx (ix3 g i j) ((ValueIdx.contrEquiv1 dot_S16x2048x6_S16x6x2048_S16x2048x2048_2_1_1_2_0_0 6 rfl rfl).symm k) = ix3 g k j := funext fun a => Fin.ext (by
    match a with
    | ⟨0, _⟩ => exact gramDot_r0 _ _
    | ⟨1, _⟩ => exact (gramDot_r1 _ _).trans hk
    | ⟨2, _⟩ => exact gramDot_r2 _ _)
  rw [el, er]

/-- The inner product of rows `i` and `j` of graph `g`. -/
theorem gramArr_apply (x : (⟨S16x2048x6, .f32⟩ : BufTy).Contents (Elt Ideal)) (g : Fin 16) (i j : Fin 2048) :
    gramArr (F := Ideal) x (ix3 g i j) = GraphConv.gram (gx x g) i j := by
  unfold gramArr
  rw [gramDot_apply]
  unfold GraphConv.gram gx
  refine Finset.sum_congr rfl fun k _ => ?_
  congr 1
  exact transpose_apply [0, 2, 1] x transposes_S16x2048x6_S16x6x2048_0_2_1 (ix3 g k j) (ix3 g j k) (fun b => match b with
    | ⟨0, _⟩ => rfl
    | ⟨1, _⟩ => rfl
    | ⟨2, _⟩ => rfl)

/-! ### Layout operations of the graph stages read at coordinates -/

/-- A rank-0 array broadcast to any shape reads its one entry everywhere. -/
theorem bcast0_apply {α : Type} {t : Shape} (h : S_.BroadcastsInDim t (![] : Fin 0 → Fin t.rank)) (c : S_.Idx → α) (j : t.Idx) :
    broadcastInDim t ![] h c j = c (fun a => a.elim0) :=
  broadcastInDim_apply _ h c j (fun a => a.elim0) (fun a => a.elim0)

theorem colOf_apply {α : Type} (u : S16x2048.Idx → α) (g : Fin 16) (i : Fin 2048) :
    broadcastInDim S16x2048x1 ![0, 1] bcast_S16x2048_S16x2048x1_0_1 u (ix3 g i 0) = u (ix2 g i) :=
  broadcastInDim_apply _ bcast_S16x2048_S16x2048x1_0_1 u (ix3 g i 0) (ix2 g i) (fun a => match a with
    | ⟨0, _⟩ => by show g.val = if (16 : Nat) = 1 then 0 else g.val; rw [if_neg (by decide)]
    | ⟨1, _⟩ => by show i.val = if (2048 : Nat) = 1 then 0 else i.val; rw [if_neg (by decide)])

theorem rowOf_apply {α : Type} (u : S16x2048.Idx → α) (g : Fin 16) (j : Fin 2048) :
    broadcastInDim S16x1x2048 ![0, 2] bcast_S16x2048_S16x1x2048_0_2 u (ix3 g 0 j) = u (ix2 g j) :=
  broadcastInDim_apply _ bcast_S16x2048_S16x1x2048_0_2 u (ix3 g 0 j) (ix2 g j) (fun a => match a with
    | ⟨0, _⟩ => by show g.val = if (16 : Nat) = 1 then 0 else g.val; rw [if_neg (by decide)]
    | ⟨1, _⟩ => by show j.val = if (2048 : Nat) = 1 then 0 else j.val; rw [if_neg (by decide)])

theorem bcastCol_apply {α : Type} (v : S16x2048x1.Idx → α) (g : Fin 16) (i j : Fin 2048) :
    broadcastInDim S16x2048x2048 ![0, 1, 2] bcast_S16x2048x1_S16x2048x2048_0_1_2 v (ix3 g i j) = v (ix3 g i 0) :=
  broadcastInDim_apply _ bcast_S16x2048x1_S16x2048x2048_0_1_2 v (ix3 g i j) (ix3 g i 0) (fun a => match a with
    | ⟨0, _⟩ => by show g.val = if (16 : Nat) = 1 then 0 else g.val; rw [if_neg (by decide)]
    | ⟨1, _⟩ => by show i.val = if (2048 : Nat) = 1 then 0 else i.val; rw [if_neg (by decide)]
    | ⟨2, _⟩ => by show (0 : Nat) = if (1 : Nat) = 1 then 0 else j.val; rw [if_pos rfl])

theorem bcastRow_apply {α : Type} (v : S16x1x2048.Idx → α) (g : Fin 16) (i j : Fin 2048) :
    broadcastInDim S16x2048x2048 ![0, 1, 2] bcast_S16x1x2048_S16x2048x2048_0_1_2 v (ix3 g i j) = v (ix3 g 0 j) :=
  broadcastInDim_apply _ bcast_S16x1x2048_S16x2048x2048_0_1_2 v (ix3 g i j) (ix3 g 0 j) (fun a => match a with
    | ⟨0, _⟩ => by show g.val = if (16 : Nat) = 1 then 0 else g.val; rw [if_neg (by decide)]
    | ⟨1, _⟩ => by show (0 : Nat) = if (1 : Nat) = 1 then 0 else i.val; rw [if_pos rfl]
    | ⟨2, _⟩ => by show j.val = if (2048 : Nat) = 1 then 0 else j.val; rw [if_neg (by decide)])

theorem transCol_apply {α : Type} (v : S16x2048x1.Idx → α) (g : Fin 16) (j : Fin 2048) :
    transpose S16x1x2048 [0, 2, 1] v transposes_S16x2048x1_S16x1x2048_0_2_1 (ix3 g 0 j) = v (ix3 g j 0) :=
  transpose_apply [0, 2, 1] v transposes_S16x2048x1_S16x1x2048_0_2_1 (ix3 g 0 j) (ix3 g j 0) (fun b => match b with
    | ⟨0, _⟩ => rfl
    | ⟨1, _⟩ => rfl
    | ⟨2, _⟩ => rfl)

theorem bcastEye_apply {α : Type} (e : S2048x2048.Idx → α) (g : Fin 16) (i j : Fin 2048) :
    broadcastInDim S16x2048x2048 ![0, 1, 2] bcast_S1x2048x2048_S16x2048x2048_0_1_2
      (broadcastInDim S1x2048x2048 ![1, 2] bcast_S2048x2048_S1x2048x2048_1_2 e) (ix3 g i j) = e (ix2 i j) := by
  rw [broadcastInDim_apply _ bcast_S1x2048x2048_S16x2048x2048_0_1_2 _ (ix3 g i j) (ix3 0 i j) (fun a => match a with
    | ⟨0, _⟩ => by show (0 : Nat) = if (1 : Nat) = 1 then 0 else g.val; rw [if_pos rfl]
    | ⟨1, _⟩ => by show i.val = if (2048 : Nat) = 1 then 0 else i.val; rw [if_neg (by decide)]
    | ⟨2, _⟩ => by show j.val = if (2048 : Nat) = 1 then 0 else j.val; rw [if_neg (by decide)])]
  exact broadcastInDim_apply _ bcast_S2048x2048_S1x2048x2048_1_2 e (ix3 0 i j) (ix2 i j) (fun a => match a with
    | ⟨0, _⟩ => by show i.val = if (2048 : Nat) = 1 then 0 else i.val; rw [if_neg (by decide)]
    | ⟨1, _⟩ => by show j.val = if (2048 : Nat) = 1 then 0 else j.val; rw [if_neg (by decide)])

/-! ### The affinity -/

theorem sqCol_apply (x : (⟨S16x2048x6, .f32⟩ : BufTy).Contents (Elt Ideal)) (g : Fin 16) (i : Fin 2048) :
    sqCol (F := Ideal) x (ix3 g i 0) = GraphConv.sq (gx x g) i := by
  unfold sqCol
  rw [colOf_apply, sqLen_apply]

/-- The squared distance of rows `i` and `j` of graph `g`. -/
theorem sqDist_apply (x : (⟨S16x2048x6, .f32⟩ : BufTy).Contents (Elt Ideal)) (g : Fin 16) (i j : Fin 2048) :
    sqDist (F := Ideal) x (ix3 g i j)
      = (GraphConv.sq (gx x g) i - GraphConv.two * GraphConv.gram (gx x g) i j) + GraphConv.sq (gx x g) j := by
  unfold sqDist
  simp only [addf_apply, subf_apply, mulf_apply]
  rw [bcastCol_apply, sqCol_apply, bcast0_apply, gramArr_apply, bcastRow_apply, transCol_apply, sqCol_apply]
  rfl

/-- The affinity of rows `i` and `j` of graph `g`. -/
theorem affinity_apply (x : (⟨S16x2048x6, .f32⟩ : BufTy).Contents (Elt Ideal)) (g : Fin 16) (i j : Fin 2048) :
    affinity (F := Ideal) x (ix3 g i j) = GraphConv.aff (gx x g) i j := by
  unfold affinity GraphConv.aff
  show FloatOps.hostUnary (F := Ideal) .exp (FloatOps.hostNegf (sqDist (F := Ideal) x (ix3 g i j))) = _
  rw [sqDist_apply, GraphConvReal.zer_sub]
  rfl

/-- The degree of node `i` of graph `g`: the row sum of the affinities from the literal `0`. -/
theorem rowsum_apply (x : (⟨S16x2048x6, .f32⟩ : BufTy).Contents (Elt Ideal)) (g : Fin 16) (i : Fin 2048) :
    Host.reduceAdd (F := Ideal) (affinity x) (constant S_ .f32 0x00000000#32) reducesTo_S16x2048x2048_S16x2048_d2 h_S_ (ix2 g i)
      = GraphConv.rowsum (gx x g) i := by
  simp only [Host.reduceAdd, Ideal.hostReduceAdd_def]
  rw [Ideal.hostReduceAdd_single reducesTo_S16x2048x2048_S16x2048_d2 (by decide)]
  rw [show (constant (F := Ideal) S_ .f32 0x00000000#32) (Shape.Idx.first h_S_) = 0 from Ideal.ofBits_zero_f32, zero_add]
  unfold GraphConv.rowsum
  refine Finset.sum_congr rfl fun k _ => ?_
  exact (congrArg (affinity (F := Ideal) x) (funext fun a => Fin.ext (by match a with | ⟨0, _⟩ => rfl | ⟨1, _⟩ => rfl | ⟨2, _⟩ => rfl))).trans (affinity_apply x g i k)

/-- `1 / sqrt` of the degree is the specification's inverse square root, the degree being a positive real. -/
theorem degree_apply (x : (⟨S16x2048x6, .f32⟩ : BufTy).Contents (Elt Ideal)) (hx : ∀ idx, IsR (x idx)) (g : Fin 16) (i : Fin 2048) :
    degree (F := Ideal) x (ix2 g i) = GraphConv.deg (gx x g) i := by
  unfold degree
  show FloatOps.hostDivf (F := Ideal) (broadcastInDim S16x2048 ![] bcast_S_S16x2048 (constant (F := Ideal) S_ .f32 0x3F800000#32) (ix2 g i))
      (FloatOps.hostUnary (F := Ideal) .sqrt (Host.reduceAdd (F := Ideal) (affinity x) (constant S_ .f32 0x00000000#32) reducesTo_S16x2048x2048_S16x2048_d2 h_S_ (ix2 g i))) = _
  rw [rowsum_apply, bcast0_apply]
  show Ideal.div (Ideal.ofBits .f32 0x3F800000#32) (Ideal.sqrt (GraphConv.rowsum (gx x g) i)) = _
  rw [Cert.NormSum.one_word]
  exact GraphConvReal.one_div_sqrt_rowsum (gx x g) (fun i f => hx _) i

/-- The identity matrix. -/
theorem eye_apply (i j : Fin 2048) : eye (F := Ideal) (ix2 i j) = if i = j then (1 : EReal) else 0 := by
  unfold eye
  show FloatOps.uitofp (F := Ideal) .f32 (IntOp.cmpi .eq (IntOp.addi (BitVec.ofNat 32 i.val)
      (broadcastInDim S2048x2048 ![] bcast_S_S2048x2048 (constantI S_ 32 0#32) (ix2 i j))) (BitVec.ofNat 32 j.val)) = _
  rw [bcast0_apply]
  show (((IntOp.cmpi .eq (IntOp.addi (BitVec.ofNat 32 i.val) 0#32) (BitVec.ofNat 32 j.val)).toNat : ℝ) : EReal) = _
  have hi : i.val < 2048 := i.isLt
  have hj : j.val < 2048 := j.isLt
  by_cases h : i = j
  · subst h
    simp [IntOp.cmpi, IntOp.addi]
  · have hne : ¬ (BitVec.ofNat 32 i.val = BitVec.ofNat 32 j.val) := by
      intro he
      have := congrArg BitVec.toNat he
      simp only [BitVec.toNat_ofNat] at this
      exact h (Fin.ext (by omega))
    simp [IntOp.cmpi, IntOp.addi, hne, h]

/-- The normalised affinity. -/
theorem normAff_apply (x : (⟨S16x2048x6, .f32⟩ : BufTy).Contents (Elt Ideal)) (hx : ∀ idx, IsR (x idx)) (g : Fin 16) (i j : Fin 2048) :
    normAff (F := Ideal) x (ix3 g i j) = GraphConv.nadj (gx x g) i j := by
  unfold normAff GraphConv.nadj
  simp only [mulf_apply]
  rw [bcastCol_apply, colOf_apply, degree_apply x hx, affinity_apply, bcastRow_apply, rowOf_apply, degree_apply x hx]

/-- The Laplacian array at graph `g`, row `i`, column `j`. -/
theorem laplacian_apply (x : (⟨S16x2048x6, .f32⟩ : BufTy).Contents (Elt Ideal)) (hx : ∀ idx, IsR (x idx)) (g : Fin 16) (i j : Fin 2048) :
    laplacian (F := Ideal) x (ix3 g i j) = (if i = j then (1 : EReal) else 0) - GraphConv.nadj (gx x g) i j := by
  unfold laplacian
  simp only [subf_apply]
  rw [bcastEye_apply, eye_apply, normAff_apply x hx]

end Cert.ReferenceIdeal.Net

end
-- ==== Proof.RefReadCheb.lean ====
/-
  The chain of Chebyshev terms, read graph by graph, free of any program.

  An array `L` whose graph-`g` block is the identity minus the normalised affinity of `x`'s rows, applied to a
  feature array with real entries, gives the specification's `lap`; hence arrays built by the recursion
  `T₀ = y`, `T₁ = L · y`, `T_{k+2} = 2 · L · T_{k+1} - T_k` read, graph by graph, as the specification's
  `cheb`; and a row of (feature, term) pairs laid out feature-major, times the weights, plus the bias, rectified,
  is the specification's `dense`.
-/
import proofs.«175608_j66305705115960_1_alg».proof.Proof.Spec
import proofs.«175608_j66305705115960_1_alg».proof.Proof.LibRealEntries
import proofs.«175608_j66305705115960_1_alg».proof.Proof.RefReadLib
import Idealize.ShloMosaic.Lib.ValueIdx

noncomputable section

open scoped BigOperators

namespace Cert.ReferenceIdeal.Net

open Idealize.ShloMosaic Idealize.ShloMosaic.ValueIdx Cert.RealEntries

/-- The rows of graph `g` of a feature array. -/
def rowsOf {n : ℕ} (T : (⟨3, ![16, 2048, n]⟩ : Shape).Idx → EReal) (g : Fin 16) : Fin 2048 → Fin n → EReal :=
  fun i f => T (ix3 g i f)

/-- `L` is, graph by graph, the identity minus the normalised affinity of `x`'s rows. -/
def IsLap (L : (⟨3, ![16, 2048, 2048]⟩ : Shape).Idx → EReal) (x : (⟨3, ![16, 2048, 6]⟩ : Shape).Idx → EReal) : Prop :=
  ∀ (g : Fin 16) (i j : Fin 2048),
    L (ix3 g i j) = (if i = j then (1 : EReal) else 0) - GraphConv.nadj (rowsOf x g) i j

/-- The array `T` is, graph by graph, the `k`-th Chebyshev term of `y`'s rows. -/
def Reads (x : (⟨3, ![16, 2048, 6]⟩ : Shape).Idx → EReal) {n : ℕ} (y T : (⟨3, ![16, 2048, n]⟩ : Shape).Idx → EReal) (k : ℕ) : Prop :=
  ∀ (g : Fin 16) (i : Fin 2048) (f : Fin n), T (ix3 g i f) = GraphConv.cheb (rowsOf x g) (rowsOf y g) k i f

theorem isR_of_reads {x : (⟨3, ![16, 2048, 6]⟩ : Shape).Idx → EReal} (hx : ∀ idx, IsR (x idx)) {n : ℕ} {y : (⟨3, ![16, 2048, n]⟩ : Shape).Idx → EReal} (hy : ∀ idx, IsR (y idx)) {T : (⟨3, ![16, 2048, n]⟩ : Shape).Idx → EReal} {k : ℕ} (h : Reads x y T k)
    (idx : (⟨3, ![16, 2048, n]⟩ : Shape).Idx) : IsR (T idx) := by
  have e : T idx = GraphConv.cheb (rowsOf x (idx 0)) (rowsOf y (idx 0)) k (idx 1) (idx 2) :=
    (congrArg T (eq_ix3 idx)).trans (h (idx 0) (idx 1) (idx 2))
  rw [e]
  exact GraphConvReal.cheb_isR _ (fun i f => hx _) _ (fun i f => hy _) k _ _

/-- Row `i` of graph `g` of `L · T` is `lap` of `T`'s rows, `T` having real entries. -/
theorem lapSum {x : (⟨3, ![16, 2048, 6]⟩ : Shape).Idx → EReal} (hx : ∀ idx, IsR (x idx)) {L : (⟨3, ![16, 2048, 2048]⟩ : Shape).Idx → EReal} (hL : IsLap L x) {n : ℕ} (T : (⟨3, ![16, 2048, n]⟩ : Shape).Idx → EReal) (hT : ∀ idx, IsR (T idx)) (g : Fin 16) (i : Fin 2048) (f : Fin n) :
    ∑ j : Fin 2048, L (ix3 g i j) * T (ix3 g j f) = GraphConv.lap (rowsOf x g) (rowsOf T g) i f := by
  rw [← GraphConvReal.ind_sub_nadj_mul (rowsOf x g) (fun i f => hx _) (rowsOf T g) (fun i f => hT _) i f]
  exact Finset.sum_congr rfl fun j _ => by rw [hL]; rfl

theorem reads_zero {x : (⟨3, ![16, 2048, 6]⟩ : Shape).Idx → EReal} {n : ℕ} {y : (⟨3, ![16, 2048, n]⟩ : Shape).Idx → EReal} : Reads x y y 0 := fun _ _ _ => rfl

theorem reads_one {x : (⟨3, ![16, 2048, 6]⟩ : Shape).Idx → EReal} (hx : ∀ idx, IsR (x idx)) {L : (⟨3, ![16, 2048, 2048]⟩ : Shape).Idx → EReal} (hL : IsLap L x) {n : ℕ} {y : (⟨3, ![16, 2048, n]⟩ : Shape).Idx → EReal} (hy : ∀ idx, IsR (y idx)) (T : (⟨3, ![16, 2048, n]⟩ : Shape).Idx → EReal)
    (hT : ∀ g i f, T (ix3 g i f) = ∑ j : Fin 2048, L (ix3 g i j) * y (ix3 g j f)) : Reads x y T 1 :=
  fun g i f => by rw [hT, lapSum hx hL y hy]; rfl

theorem reads_step {x : (⟨3, ![16, 2048, 6]⟩ : Shape).Idx → EReal} (hx : ∀ idx, IsR (x idx)) {L : (⟨3, ![16, 2048, 2048]⟩ : Shape).Idx → EReal} (hL : IsLap L x) {n : ℕ} {y : (⟨3, ![16, 2048, n]⟩ : Shape).Idx → EReal} (hy : ∀ idx, IsR (y idx)) (k : ℕ) (T1 T0 N : (⟨3, ![16, 2048, n]⟩ : Shape).Idx → EReal) (h1 : Reads x y T1 (k + 1)) (h0 : Reads x y T0 k)
    (hN : ∀ g i f, N (ix3 g i f)
      = GraphConv.two * (∑ j : Fin 2048, L (ix3 g i j) * T1 (ix3 g j f)) - T0 (ix3 g i f)) :
    Reads x y N (k + 2) :=
  fun g i f => by
    rw [hN, lapSum hx hL T1 (isR_of_reads hx hy h1), h0]
    have e : rowsOf T1 g = GraphConv.cheb (rowsOf x g) (rowsOf y g) (k + 1) :=
      funext fun i => funext fun f => h1 g i f
    rw [e]
    rfl

/-- The row of (graph `g`, node `i`) in the arrays flattened over graphs and nodes. -/
def rowIx (g : Fin 16) (i : Fin 2048) : Fin 32768 :=
  ⟨g.val * 2048 + i.val, by have := g.isLt; have := i.isLt; omega⟩

/-- The position of (feature `f`, term `k`) in a row laid out feature-major. -/
theorem pair_lt {n K f k : ℕ} (hf : f < n) (hk : k < K) : f * K + k < n * K :=
  calc f * K + k < f * K + K := by omega
    _ = (f + 1) * K := by ring
    _ ≤ n * K := Nat.mul_le_mul_right K hf

theorem div_lt_of_lt {n K q : ℕ} (hq : q < n * K) : q / K < n :=
  Nat.div_lt_of_lt_mul (by rw [Nat.mul_comm]; exact hq)

/-- A row whose entry at position `q` is term `q % K` of feature `q / K`, times the weights, plus the bias,
    rectified, is the specification's layer: the same sum of products, re-indexed. -/
theorem dense_of_row {n K o : ℕ} (hn : 0 < n) (xg : Fin 2048 → Fin 6 → EReal) (yg : Fin 2048 → Fin n → EReal)
    (w : Fin (n * K) → Fin o → EReal) (b : Fin o → EReal) (i : Fin 2048) (c : Fin o) (R : Fin (n * K) → EReal)
    (hR : ∀ q : Fin (n * K), R q = GraphConv.cheb xg yg (q.val % K) i ⟨q.val / K, div_lt_of_lt q.isLt⟩) :
    max ((∑ q : Fin (n * K), R q * w q c) + b c) GraphConv.zer = GraphConv.dense xg hn w b yg i c := by
  unfold GraphConv.dense
  congr 2
  let C : ℕ → ℕ → EReal := fun k f => if h : f < n then GraphConv.cheb xg yg k i ⟨f, h⟩ else 0
  let W : ℕ → EReal := fun r => if h : r < n * K then w ⟨r, h⟩ c else 0
  have key := GraphConvReal.sum_term_feature n K (fun k f => C k f * W (f * K + k))
  have e1 : (∑ q : Fin (n * K), R q * w q c) = ∑ q : Fin (n * K), C (q.val % K) (q.val / K) * W (q.val / K * K + q.val % K) := by
    refine Finset.sum_congr rfl fun q _ => ?_
    have e : q.val / K * K + q.val % K = q.val := Nat.div_add_mod' _ _
    show _ = (if h : q.val / K < n then GraphConv.cheb xg yg (q.val % K) i ⟨q.val / K, h⟩ else 0)
      * (if h : q.val / K * K + q.val % K < n * K then w ⟨q.val / K * K + q.val % K, h⟩ c else 0)
    rw [dif_pos (div_lt_of_lt q.isLt), dif_pos (by rw [e]; exact q.isLt), hR q]
    congr 2
    exact Fin.ext e.symm
  have e2 : (∑ q : Fin (K * n), GraphConv.cheb xg yg (q.val / n) i ⟨q.val % n, Nat.mod_lt _ hn⟩
      * w ⟨(q.val % n) * K + q.val / n, GraphConv.wrow_lt q⟩ c)
      = ∑ q : Fin (K * n), C (q.val / n) (q.val % n) * W (q.val % n * K + q.val / n) := by
    refine Finset.sum_congr rfl fun q _ => ?_
    show _ = (if h : q.val % n < n then GraphConv.cheb xg yg (q.val / n) i ⟨q.val % n, h⟩ else 0)
      * (if h : q.val % n * K + q.val / n < n * K then w ⟨q.val % n * K + q.val / n, h⟩ c else 0)
    rw [dif_pos (Nat.mod_lt _ hn), dif_pos (GraphConv.wrow_lt q)]
  rw [e1, e2]
  exact key.symm

end Cert.ReferenceIdeal.Net

end
-- ==== Proof.RefReadLayer6.lean ====
/-
  The layer with 6 input features, 6 Chebyshev terms and 128 output features, read at an index at the ideal
  values: its unrolled terms are the specification's `cheb`, its stacked and flattened terms hold term `q % 6`
  of feature `q / 6` at column `q`, and its output is the specification's `dense` of the graph's rows.
-/
import proofs.«175608_j66305705115960_1_alg».proof.Proof.RefStages
import proofs.«175608_j66305705115960_1_alg».proof.Proof.RefReadGraph
import proofs.«175608_j66305705115960_1_alg».proof.Proof.RefReadCheb

noncomputable section

open scoped BigOperators

namespace Cert.ReferenceIdeal.Net

open Cert.ReferenceIdeal Cert.ReferenceIdeal.Gen Idealize.ShloMosaic Idealize.ShloMosaic.TcCoe Idealize.SL.Sem Idealize.ShloMosaic.StableHlo
open Idealize.ShloMosaic.ValueIdx Cert.RealEntries

open Cert

theorem lmul6Dot_l0 (i : S16x2048x6.Idx) (q : dot_S16x2048x2048_S16x2048x6_S16x2048x6_2_1_1_2_0_0.contr.Idx) : (dot_S16x2048x2048_S16x2048x6_S16x2048x6_2_1_1_2_0_0.lhsIdx i q 0).val = (i 0).val := by
  unfold DotDims.lhsIdx
  rw [dif_pos (show (0 : Fin S16x2048x2048.rank) ∈ dot_S16x2048x2048_S16x2048x6_S16x2048x6_2_1_1_2_0_0.lhsBatch by decide)]
  rfl
theorem lmul6Dot_l1 (i : S16x2048x6.Idx) (q : dot_S16x2048x2048_S16x2048x6_S16x2048x6_2_1_1_2_0_0.contr.Idx) : (dot_S16x2048x2048_S16x2048x6_S16x2048x6_2_1_1_2_0_0.lhsIdx i q 1).val = (i 1).val := by
  unfold DotDims.lhsIdx
  rw [dif_neg (show ¬(1 : Fin S16x2048x2048.rank) ∈ dot_S16x2048x2048_S16x2048x6_S16x2048x6_2_1_1_2_0_0.lhsBatch by decide), dif_pos (show (1 : Fin S16x2048x2048.rank) ∈ dot_S16x2048x2048_S16x2048x6_S16x2048x6_2_1_1_2_0_0.lhsNonContracting by decide)]
  rfl
theorem lmul6Dot_l2 (i : S16x2048x6.Idx) (q : dot_S16x2048x2048_S16x2048x6_S16x2048x6_2_1_1_2_0_0.contr.Idx) : (dot_S16x2048x2048_S16x2048x6_S16x2048x6_2_1_1_2_0_0.lhsIdx i q 2).val = (q ⟨0, by decide⟩).val :=
  dot_S16x2048x2048_S16x2048x6_S16x2048x6_2_1_1_2_0_0.lhsIdx_val_of_single rfl i q
theorem lmul6Dot_r0 (i : S16x2048x6.Idx) (q : dot_S16x2048x2048_S16x2048x6_S16x2048x6_2_1_1_2_0_0.contr.Idx) : (dot_S16x2048x2048_S16x2048x6_S16x2048x6_2_1_1_2_0_0.rhsIdx i q 0).val = (i 0).val := by
  unfold DotDims.rhsIdx
  rw [dif_pos (show (0 : Fin S16x2048x6.rank) ∈ dot_S16x2048x2048_S16x2048x6_S16x2048x6_2_1_1_2_0_0.rhsBatch by decide)]
  rfl
theorem lmul6Dot_r1 (i : S16x2048x6.Idx) (q : dot_S16x2048x2048_S16x2048x6_S16x2048x6_2_1_1_2_0_0.contr.Idx) : (dot_S16x2048x2048_S16x2048x6_S16x2048x6_2_1_1_2_0_0.rhsIdx i q 1).val = (q ⟨0, by decide⟩).val :=
  dot_S16x2048x2048_S16x2048x6_S16x2048x6_2_1_1_2_0_0.rhsIdx_val_of_single rfl i q
theorem lmul6Dot_r2 (i : S16x2048x6.Idx) (q : dot_S16x2048x2048_S16x2048x6_S16x2048x6_2_1_1_2_0_0.contr.Idx) : (dot_S16x2048x2048_S16x2048x6_S16x2048x6_2_1_1_2_0_0.rhsIdx i q 2).val = (i 2).val := by
  unfold DotDims.rhsIdx
  rw [dif_neg (show ¬(2 : Fin S16x2048x6.rank) ∈ dot_S16x2048x2048_S16x2048x6_S16x2048x6_2_1_1_2_0_0.rhsBatch by decide), dif_pos (show (2 : Fin S16x2048x6.rank) ∈ dot_S16x2048x2048_S16x2048x6_S16x2048x6_2_1_1_2_0_0.rhsNonContracting by decide)]
  rfl

/-- The batched product read at an index: the sum over the contracted axis of the products of the operands' entries. -/
theorem lmul6Dot_apply (a : FVec Ideal S16x2048x2048 .f32) (b : FVec Ideal S16x2048x6 .f32) (g : Fin 16) (i : Fin 2048) (j : Fin 6) :
    Host.dotGeneral (F := Ideal) dot_S16x2048x2048_S16x2048x6_S16x2048x6_2_1_1_2_0_0 none a b (ix3 g i j) = ∑ k : Fin 2048, a (ix3 g i k) * b (ix3 g k j) := by
  simp only [Host.dotGeneral]
  rw [Ideal.dotGeneral_apply, ← Equiv.sum_comp (ValueIdx.contrEquiv1 dot_S16x2048x2048_S16x2048x6_S16x2048x6_2_1_1_2_0_0 2048 rfl rfl).symm]
  refine Finset.sum_congr rfl fun k _ => ?_
  have hk := ValueIdx.contrEquiv1_symm_val dot_S16x2048x2048_S16x2048x6_S16x2048x6_2_1_1_2_0_0 2048 rfl rfl k
  have el : dot_S16x2048x2048_S16x2048x6_S16x2048x6_2_1_1_2_0_0.lhsIdx (ix3 g i j) ((ValueIdx.contrEquiv1 dot_S16x2048x2048_S16x2048x6_S16x2048x6_2_1_1_2_0_0 2048 rfl rfl).symm k) = ix3 g i k := funext fun a => Fin.ext (by
    match a with
    | ⟨0, _⟩ => exact lmul6Dot_l0 _ _
    | ⟨1, _⟩ => exact lmul6Dot_l1 _ _
    | ⟨2, _⟩ => exact (lmul6Dot_l2 _ _).trans hk)
  have er : dot_S16x2048x2048_S16x2048x6_S16x2048x6_2_1_1_2_0_0.rhsIdx (ix3 g i j) ((ValueIdx.contrEquiv1 dot_S16x2048x2048_S16x2048x6_S16x2048x6_2_1_1_2_0_0 2048 rfl rfl).symm k) = ix3 g k j := funext fun a => Fin.ext (by
    match a with
    | ⟨0, _⟩ => exact lmul6Dot_r0 _ _
    | ⟨1, _⟩ => exact (lmul6Dot_r1 _ _).trans hk
    | ⟨2, _⟩ => exact lmul6Dot_r2 _ _)
  rw [el, er]

theorem lmul6_apply (L : (⟨S16x2048x2048, .f32⟩ : BufTy).Contents (Elt Ideal)) (y : (⟨S16x2048x6, .f32⟩ : BufTy).Contents (Elt Ideal)) (g : Fin 16) (i : Fin 2048) (f : Fin 6) :
    lmul6 (F := Ideal) L y (ix3 g i f) = ∑ j : Fin 2048, L (ix3 g i j) * y (ix3 g j f) :=
  lmul6Dot_apply L y g i f

theorem next6_apply (L : (⟨S16x2048x2048, .f32⟩ : BufTy).Contents (Elt Ideal)) (y1 y0 : (⟨S16x2048x6, .f32⟩ : BufTy).Contents (Elt Ideal)) (g : Fin 16) (i : Fin 2048) (f : Fin 6) :
    next6 (F := Ideal) L y1 y0 (ix3 g i f)
      = GraphConv.two * (∑ j : Fin 2048, L (ix3 g i j) * y1 (ix3 g j f)) - y0 (ix3 g i f) := by
  unfold next6 twice6
  simp only [subf_apply, mulf_apply]
  rw [bcast0_apply, lmul6_apply]
  rfl

/-! ### The terms -/

theorem term1_6_reads {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x6, .f32⟩ : BufTy).Contents (Elt Ideal)} (hy : ∀ idx, IsR (y idx)) : Reads x y (term1_6 (F := Ideal) L y) 1 :=
  reads_one hx hL hy _ (fun g i f => lmul6_apply L y g i f)

theorem term2_6_reads {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x6, .f32⟩ : BufTy).Contents (Elt Ideal)} (hy : ∀ idx, IsR (y idx)) : Reads x y (term2_6 (F := Ideal) L y) 2 :=
  reads_step hx hL hy 0 _ _ _ (term1_6_reads hx hL hy) reads_zero (fun g i f => next6_apply L _ _ g i f)

theorem term3_6_reads {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x6, .f32⟩ : BufTy).Contents (Elt Ideal)} (hy : ∀ idx, IsR (y idx)) : Reads x y (term3_6 (F := Ideal) L y) 3 :=
  reads_step hx hL hy 1 _ _ _ (term2_6_reads hx hL hy) (term1_6_reads hx hL hy) (fun g i f => next6_apply L _ _ g i f)

theorem term4_6_reads {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x6, .f32⟩ : BufTy).Contents (Elt Ideal)} (hy : ∀ idx, IsR (y idx)) : Reads x y (term4_6 (F := Ideal) L y) 4 :=
  reads_step hx hL hy 2 _ _ _ (term3_6_reads hx hL hy) (term2_6_reads hx hL hy) (fun g i f => next6_apply L _ _ g i f)

theorem term5_6_reads {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x6, .f32⟩ : BufTy).Contents (Elt Ideal)} (hy : ∀ idx, IsR (y idx)) : Reads x y (term5_6 (F := Ideal) L y) 5 :=
  reads_step hx hL hy 3 _ _ _ (term4_6_reads hx hL hy) (term3_6_reads hx hL hy) (fun g i f => next6_apply L _ _ g i f)

/-! ### The stacked and flattened terms -/

theorem lift6_apply (T : (⟨S16x2048x6, .f32⟩ : BufTy).Contents (Elt Ideal)) (g : Fin 16) (i : Fin 2048) (f : Fin 6) :
    lift6 (F := Ideal) T (ix4 g i f (0 : Fin 1)) = T (ix3 g i f) := by
  unfold lift6
  exact broadcastInDim_apply _ bcast_S16x2048x6_S16x2048x6x1_0_1_2 T (ix4 g i f (0 : Fin 1)) (ix3 g i f) (fun a => match a with
    | ⟨0, _⟩ => by show g.val = if (16 : Nat) = 1 then 0 else g.val; rw [if_neg (by decide)]
    | ⟨1, _⟩ => by show i.val = if (2048 : Nat) = 1 then 0 else i.val; rw [if_neg (by decide)]
    | ⟨2, _⟩ => by show f.val = if (6 : Nat) = 1 then 0 else f.val; rw [if_neg (by decide)])

theorem stack6_at0 (L : (⟨S16x2048x2048, .f32⟩ : BufTy).Contents (Elt Ideal)) (y : (⟨S16x2048x6, .f32⟩ : BufTy).Contents (Elt Ideal)) (g : Fin 16) (i : Fin 2048) (f : Fin 6) :
    stack6 (F := Ideal) L y (ix4 g i f (0 : Fin 6)) = (y) (ix3 g i f) := by
  unfold stack6
  exact (concatenate_apply_piece (t := S16x2048x6x6) (3 : Fin 4) _ _ (ix4 g i f (0 : Fin 6)) 0 (by show 0 < 6; decide) S16x2048x6x1
    (lift6 (F := Ideal) (y)) rfl rfl 0 rfl (ix4 g i f (0 : Fin 1))
    (fun b hb => match b, hb with
      | ⟨0, _⟩, _ => rfl
      | ⟨1, _⟩, _ => rfl
      | ⟨2, _⟩, _ => rfl
      | ⟨3, _⟩, hb => absurd rfl hb) rfl).trans (lift6_apply _ g i f)

theorem stack6_at1 (L : (⟨S16x2048x2048, .f32⟩ : BufTy).Contents (Elt Ideal)) (y : (⟨S16x2048x6, .f32⟩ : BufTy).Contents (Elt Ideal)) (g : Fin 16) (i : Fin 2048) (f : Fin 6) :
    stack6 (F := Ideal) L y (ix4 g i f (1 : Fin 6)) = (term1_6 (F := Ideal) L y) (ix3 g i f) := by
  unfold stack6
  exact (concatenate_apply_piece (t := S16x2048x6x6) (3 : Fin 4) _ _ (ix4 g i f (1 : Fin 6)) 1 (by show 1 < 6; decide) S16x2048x6x1
    (lift6 (F := Ideal) (term1_6 (F := Ideal) L y)) rfl rfl 1 rfl (ix4 g i f (0 : Fin 1))
    (fun b hb => match b, hb with
      | ⟨0, _⟩, _ => rfl
      | ⟨1, _⟩, _ => rfl
      | ⟨2, _⟩, _ => rfl
      | ⟨3, _⟩, hb => absurd rfl hb) rfl).trans (lift6_apply _ g i f)

theorem stack6_at2 (L : (⟨S16x2048x2048, .f32⟩ : BufTy).Contents (Elt Ideal)) (y : (⟨S16x2048x6, .f32⟩ : BufTy).Contents (Elt Ideal)) (g : Fin 16) (i : Fin 2048) (f : Fin 6) :
    stack6 (F := Ideal) L y (ix4 g i f (2 : Fin 6)) = (term2_6 (F := Ideal) L y) (ix3 g i f) := by
  unfold stack6
  exact (concatenate_apply_piece (t := S16x2048x6x6) (3 : Fin 4) _ _ (ix4 g i f (2 : Fin 6)) 2 (by show 2 < 6; decide) S16x2048x6x1
    (lift6 (F := Ideal) (term2_6 (F := Ideal) L y)) rfl rfl 2 rfl (ix4 g i f (0 : Fin 1))
    (fun b hb => match b, hb with
      | ⟨0, _⟩, _ => rfl
      | ⟨1, _⟩, _ => rfl
      | ⟨2, _⟩, _ => rfl
      | ⟨3, _⟩, hb => absurd rfl hb) rfl).trans (lift6_apply _ g i f)

theorem stack6_at3 (L : (⟨S16x2048x2048, .f32⟩ : BufTy).Contents (Elt Ideal)) (y : (⟨S16x2048x6, .f32⟩ : BufTy).Contents (Elt Ideal)) (g : Fin 16) (i : Fin 2048) (f : Fin 6) :
    stack6 (F := Ideal) L y (ix4 g i f (3 : Fin 6)) = (term3_6 (F := Ideal) L y) (ix3 g i f) := by
  unfold stack6
  exact (concatenate_apply_piece (t := S16x2048x6x6) (3 : Fin 4) _ _ (ix4 g i f (3 : Fin 6)) 3 (by show 3 < 6; decide) S16x2048x6x1
    (lift6 (F := Ideal) (term3_6 (F := Ideal) L y)) rfl rfl 3 rfl (ix4 g i f (0 : Fin 1))
    (fun b hb => match b, hb with
      | ⟨0, _⟩, _ => rfl
      | ⟨1, _⟩, _ => rfl
      | ⟨2, _⟩, _ => rfl
      | ⟨3, _⟩, hb => absurd rfl hb) rfl).trans (lift6_apply _ g i f)

theorem stack6_at4 (L : (⟨S16x2048x2048, .f32⟩ : BufTy).Contents (Elt Ideal)) (y : (⟨S16x2048x6, .f32⟩ : BufTy).Contents (Elt Ideal)) (g : Fin 16) (i : Fin 2048) (f : Fin 6) :
    stack6 (F := Ideal) L y (ix4 g i f (4 : Fin 6)) = (term4_6 (F := Ideal) L y) (ix3 g i f) := by
  unfold stack6
  exact (concatenate_apply_piece (t := S16x2048x6x6) (3 : Fin 4) _ _ (ix4 g i f (4 : Fin 6)) 4 (by show 4 < 6; decide) S16x2048x6x1
    (lift6 (F := Ideal) (term4_6 (F := Ideal) L y)) rfl rfl 4 rfl (ix4 g i f (0 : Fin 1))
    (fun b hb => match b, hb with
      | ⟨0, _⟩, _ => rfl
      | ⟨1, _⟩, _ => rfl
      | ⟨2, _⟩, _ => rfl
      | ⟨3, _⟩, hb => absurd rfl hb) rfl).trans (lift6_apply _ g i f)

theorem stack6_at5 (L : (⟨S16x2048x2048, .f32⟩ : BufTy).Contents (Elt Ideal)) (y : (⟨S16x2048x6, .f32⟩ : BufTy).Contents (Elt Ideal)) (g : Fin 16) (i : Fin 2048) (f : Fin 6) :
    stack6 (F := Ideal) L y (ix4 g i f (5 : Fin 6)) = (term5_6 (F := Ideal) L y) (ix3 g i f) := by
  unfold stack6
  exact (concatenate_apply_piece (t := S16x2048x6x6) (3 : Fin 4) _ _ (ix4 g i f (5 : Fin 6)) 5 (by show 5 < 6; decide) S16x2048x6x1
    (lift6 (F := Ideal) (term5_6 (F := Ideal) L y)) rfl rfl 5 rfl (ix4 g i f (0 : Fin 1))
    (fun b hb => match b, hb with
      | ⟨0, _⟩, _ => rfl
      | ⟨1, _⟩, _ => rfl
      | ⟨2, _⟩, _ => rfl
      | ⟨3, _⟩, hb => absurd rfl hb) rfl).trans (lift6_apply _ g i f)

/-- The stacked terms at (graph, node, feature, term). -/
theorem stack6_reads {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x6, .f32⟩ : BufTy).Contents (Elt Ideal)} (hy : ∀ idx, IsR (y idx)) (g : Fin 16) (i : Fin 2048) (f : Fin 6) (k : Fin 6) :
    stack6 (F := Ideal) L y (ix4 g i f k) = GraphConv.cheb (rowsOf x g) (rowsOf y g) k.val i f :=
  match k with
  | ⟨0, _⟩ => (stack6_at0 L y g i f).trans (reads_zero g i f)
  | ⟨1, _⟩ => (stack6_at1 L y g i f).trans (term1_6_reads hx hL hy g i f)
  | ⟨2, _⟩ => (stack6_at2 L y g i f).trans (term2_6_reads hx hL hy g i f)
  | ⟨3, _⟩ => (stack6_at3 L y g i f).trans (term3_6_reads hx hL hy g i f)
  | ⟨4, _⟩ => (stack6_at4 L y g i f).trans (term4_6_reads hx hL hy g i f)
  | ⟨5, _⟩ => (stack6_at5 L y g i f).trans (term5_6_reads hx hL hy g i f)
  | ⟨k + 6, h⟩ => absurd h (by omega)

/-- Column `q` of the flattened terms holds term `q % 6` of feature `q / 6`. -/
theorem flat6_apply (L : (⟨S16x2048x2048, .f32⟩ : BufTy).Contents (Elt Ideal)) (y : (⟨S16x2048x6, .f32⟩ : BufTy).Contents (Elt Ideal)) (g : Fin 16) (i : Fin 2048) (q : Fin 36) :
    flat6 (F := Ideal) L y (ix2 (rowIx g i) q)
      = stack6 (F := Ideal) L y (ix4 g i ⟨q.val / 6, by have := q.isLt; omega⟩ ⟨q.val % 6, by omega⟩) := by
  unfold flat6
  exact shapeCast_apply _ shapeCasts_S16x2048x6x6_S32768x36 (ix2 (rowIx g i) q) _
    (by rewrite [Shape.rowMajor_val_four, Shape.rowMajor_val_two]
        show ((g.val * 2048 + i.val) * 6 + q.val / 6) * 6 + q.val % 6 = (g.val * 2048 + i.val) * 36 + q.val
        omega)

/-! ### The product with the weights, the bias and the rectification -/

theorem w6_l0 (i : S32768x128.Idx) (q : dot_S32768x36_S36x128_S32768x128_1_0_0_1_n_n.contr.Idx) : (dot_S32768x36_S36x128_S32768x128_1_0_0_1_n_n.lhsIdx i q 0).val = (i 0).val := by
  unfold DotDims.lhsIdx
  rw [dif_neg (show ¬(0 : Fin S32768x36.rank) ∈ dot_S32768x36_S36x128_S32768x128_1_0_0_1_n_n.lhsBatch by decide), dif_pos (show (0 : Fin S32768x36.rank) ∈ dot_S32768x36_S36x128_S32768x128_1_0_0_1_n_n.lhsNonContracting by decide)]
  rfl
theorem w6_l1 (i : S32768x128.Idx) (q : dot_S32768x36_S36x128_S32768x128_1_0_0_1_n_n.contr.Idx) : (dot_S32768x36_S36x128_S32768x128_1_0_0_1_n_n.lhsIdx i q 1).val = (q ⟨0, by decide⟩).val :=
  dot_S32768x36_S36x128_S32768x128_1_0_0_1_n_n.lhsIdx_val_of_single rfl i q
theorem w6_r0 (i : S32768x128.Idx) (q : dot_S32768x36_S36x128_S32768x128_1_0_0_1_n_n.contr.Idx) : (dot_S32768x36_S36x128_S32768x128_1_0_0_1_n_n.rhsIdx i q 0).val = (q ⟨0, by decide⟩).val :=
  dot_S32768x36_S36x128_S32768x128_1_0_0_1_n_n.rhsIdx_val_of_single rfl i q
theorem w6_r1 (i : S32768x128.Idx) (q : dot_S32768x36_S36x128_S32768x128_1_0_0_1_n_n.contr.Idx) : (dot_S32768x36_S36x128_S32768x128_1_0_0_1_n_n.rhsIdx i q 1).val = (i 1).val := by
  unfold DotDims.rhsIdx
  rw [dif_neg (show ¬(1 : Fin S36x128.rank) ∈ dot_S32768x36_S36x128_S32768x128_1_0_0_1_n_n.rhsBatch by decide), dif_pos (show (1 : Fin S36x128.rank) ∈ dot_S32768x36_S36x128_S32768x128_1_0_0_1_n_n.rhsNonContracting by decide)]
  rfl

/-- The product with the weights read at (row, column). -/
theorem wdot6_apply (a : FVec Ideal S32768x36 .f32) (w : FVec Ideal S36x128 .f32) (r : Fin 32768) (c : Fin 128) :
    Host.dotGeneral (F := Ideal) dot_S32768x36_S36x128_S32768x128_1_0_0_1_n_n none a w (ix2 r c) = ∑ q : Fin 36, a (ix2 r q) * w (ix2 q c) := by
  simp only [Host.dotGeneral]
  rw [Ideal.dotGeneral_apply, ← Equiv.sum_comp (ValueIdx.contrEquiv1 dot_S32768x36_S36x128_S32768x128_1_0_0_1_n_n 36 rfl rfl).symm]
  refine Finset.sum_congr rfl fun k _ => ?_
  have hk := ValueIdx.contrEquiv1_symm_val dot_S32768x36_S36x128_S32768x128_1_0_0_1_n_n 36 rfl rfl k
  have el : dot_S32768x36_S36x128_S32768x128_1_0_0_1_n_n.lhsIdx (ix2 r c) ((ValueIdx.contrEquiv1 dot_S32768x36_S36x128_S32768x128_1_0_0_1_n_n 36 rfl rfl).symm k) = ix2 r k := funext fun a => Fin.ext (by
    match a with
    | ⟨0, _⟩ => exact w6_l0 _ _
    | ⟨1, _⟩ => exact (w6_l1 _ _).trans hk)
  have er : dot_S32768x36_S36x128_S32768x128_1_0_0_1_n_n.rhsIdx (ix2 r c) ((ValueIdx.contrEquiv1 dot_S32768x36_S36x128_S32768x128_1_0_0_1_n_n 36 rfl rfl).symm k) = ix2 k c := funext fun a => Fin.ext (by
    match a with
    | ⟨0, _⟩ => exact (w6_r0 _ _).trans hk
    | ⟨1, _⟩ => exact w6_r1 _ _)
  rw [el, er]

/-- The bias row broadcast over the rows. -/
theorem bias6_apply {α : Type} (b : S128.Idx → α) (r : Fin 32768) (c : Fin 128) :
    broadcastInDim S32768x128 ![0, 1] bcast_S1x128_S32768x128_0_1 (broadcastInDim S1x128 ![1] bcast_S128_S1x128_1 b) (ix2 r c)
      = b (ix1 c) := by
  rw [broadcastInDim_apply _ bcast_S1x128_S32768x128_0_1 _ (ix2 r c) (ix2 0 c) (fun a => match a with
    | ⟨0, _⟩ => by show (0 : Nat) = if (1 : Nat) = 1 then 0 else r.val; rw [if_pos rfl]
    | ⟨1, _⟩ => by show c.val = if (128 : Nat) = 1 then 0 else c.val; rw [if_neg (by decide)])]
  exact broadcastInDim_apply _ bcast_S128_S1x128_1 b (ix2 0 c) (ix1 c) (fun a => match a with
    | ⟨0, _⟩ => by show c.val = if (128 : Nat) = 1 then 0 else c.val; rw [if_neg (by decide)])

/-- The layer's output at (graph, node, output feature), over the flattened terms. -/
theorem layer6_apply (L : (⟨S16x2048x2048, .f32⟩ : BufTy).Contents (Elt Ideal)) (y : (⟨S16x2048x6, .f32⟩ : BufTy).Contents (Elt Ideal)) (w : (⟨S36x128, .f32⟩ : BufTy).Contents (Elt Ideal)) (b : (⟨S128, .f32⟩ : BufTy).Contents (Elt Ideal))
    (g : Fin 16) (i : Fin 2048) (c : Fin 128) :
    layer6 (F := Ideal) L y w b (ix3 g i c)
      = max ((∑ q : Fin 36, flat6 (F := Ideal) L y (ix2 (rowIx g i) q) * w (ix2 q c)) + b (ix1 c)) GraphConv.zer := by
  unfold layer6
  rw [shapeCast_apply _ shapeCasts_S32768x128_S16x2048x128 (ix3 g i c) (ix2 (rowIx g i) c)
    (by rewrite [Shape.rowMajor_val_two, Shape.rowMajor_val_three]; rfl)]
  unfold act6 pre6
  simp only [maximumf_apply, addf_apply]
  rw [bcast0_apply, wdot6_apply, bias6_apply]
  rfl

/-- The layer's output is the specification's layer of the graph's rows. -/
theorem layer6_eq {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x6, .f32⟩ : BufTy).Contents (Elt Ideal)} (hy : ∀ idx, IsR (y idx)) (w : (⟨S36x128, .f32⟩ : BufTy).Contents (Elt Ideal)) (b : (⟨S128, .f32⟩ : BufTy).Contents (Elt Ideal)) (g : Fin 16) (i : Fin 2048) (c : Fin 128) :
    layer6 (F := Ideal) L y w b (ix3 g i c)
      = GraphConv.dense (rowsOf x g) (n := 6) (K := 6) (by decide)
          (fun k c => w (ix2 (⟨k.val, k.isLt⟩ : Fin 36) c)) (fun c => b (ix1 c)) (rowsOf y g) i c := by
  rw [layer6_apply]
  exact dense_of_row (n := 6) (K := 6) (by decide) (rowsOf x g) (rowsOf y g)
    (fun k c => w (ix2 (⟨k.val, k.isLt⟩ : Fin 36) c)) (fun c => b (ix1 c)) i c
    (fun q => flat6 (F := Ideal) L y (ix2 (rowIx g i) (⟨q.val, q.isLt⟩ : Fin 36)))
    (fun q => by rw [flat6_apply, stack6_reads hx hL hy])

/-- The layer's output has real entries when the weights and the bias do. -/
theorem layer6_isR {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x6, .f32⟩ : BufTy).Contents (Elt Ideal)} (hy : ∀ idx, IsR (y idx)) (w : (⟨S36x128, .f32⟩ : BufTy).Contents (Elt Ideal)) (b : (⟨S128, .f32⟩ : BufTy).Contents (Elt Ideal)) (hw : ∀ idx, IsR (w idx)) (hb : ∀ idx, IsR (b idx))
    (idx : S16x2048x128.Idx) : IsR (layer6 (F := Ideal) L y w b idx) := by
  have e : layer6 (F := Ideal) L y w b idx = _ :=
    (congrArg (layer6 (F := Ideal) L y w b) (eq_ix3 idx)).trans (layer6_eq hx hL hy w b (idx 0) (idx 1) (idx 2))
  rw [e]
  exact GraphConvReal.dense_isR _ (fun i f => hx _) _ _ _ _ (fun k c => hw _) (fun c => hb _) (fun i f => hy _) _ _

end Cert.ReferenceIdeal.Net

end
-- ==== Proof.RefReadLayer128.lean ====
/-
  The layer with 128 input features, 5 Chebyshev terms and 512 output features, read at an index at the ideal
  values: its unrolled terms are the specification's `cheb`, its stacked and flattened terms hold term `q % 5`
  of feature `q / 5` at column `q`, and its output is the specification's `dense` of the graph's rows.
-/
import proofs.«175608_j66305705115960_1_alg».proof.Proof.RefStages
import proofs.«175608_j66305705115960_1_alg».proof.Proof.RefReadGraph
import proofs.«175608_j66305705115960_1_alg».proof.Proof.RefReadCheb

noncomputable section

open scoped BigOperators

namespace Cert.ReferenceIdeal.Net

open Cert.ReferenceIdeal Cert.ReferenceIdeal.Gen Idealize.ShloMosaic Idealize.ShloMosaic.TcCoe Idealize.SL.Sem Idealize.ShloMosaic.StableHlo
open Idealize.ShloMosaic.ValueIdx Cert.RealEntries

open Cert

theorem lmul128Dot_l0 (i : S16x2048x128.Idx) (q : dot_S16x2048x2048_S16x2048x128_S16x2048x128_2_1_1_2_0_0.contr.Idx) : (dot_S16x2048x2048_S16x2048x128_S16x2048x128_2_1_1_2_0_0.lhsIdx i q 0).val = (i 0).val := by
  unfold DotDims.lhsIdx
  rw [dif_pos (show (0 : Fin S16x2048x2048.rank) ∈ dot_S16x2048x2048_S16x2048x128_S16x2048x128_2_1_1_2_0_0.lhsBatch by decide)]
  rfl
theorem lmul128Dot_l1 (i : S16x2048x128.Idx) (q : dot_S16x2048x2048_S16x2048x128_S16x2048x128_2_1_1_2_0_0.contr.Idx) : (dot_S16x2048x2048_S16x2048x128_S16x2048x128_2_1_1_2_0_0.lhsIdx i q 1).val = (i 1).val := by
  unfold DotDims.lhsIdx
  rw [dif_neg (show ¬(1 : Fin S16x2048x2048.rank) ∈ dot_S16x2048x2048_S16x2048x128_S16x2048x128_2_1_1_2_0_0.lhsBatch by decide), dif_pos (show (1 : Fin S16x2048x2048.rank) ∈ dot_S16x2048x2048_S16x2048x128_S16x2048x128_2_1_1_2_0_0.lhsNonContracting by decide)]
  rfl
theorem lmul128Dot_l2 (i : S16x2048x128.Idx) (q : dot_S16x2048x2048_S16x2048x128_S16x2048x128_2_1_1_2_0_0.contr.Idx) : (dot_S16x2048x2048_S16x2048x128_S16x2048x128_2_1_1_2_0_0.lhsIdx i q 2).val = (q ⟨0, by decide⟩).val :=
  dot_S16x2048x2048_S16x2048x128_S16x2048x128_2_1_1_2_0_0.lhsIdx_val_of_single rfl i q
theorem lmul128Dot_r0 (i : S16x2048x128.Idx) (q : dot_S16x2048x2048_S16x2048x128_S16x2048x128_2_1_1_2_0_0.contr.Idx) : (dot_S16x2048x2048_S16x2048x128_S16x2048x128_2_1_1_2_0_0.rhsIdx i q 0).val = (i 0).val := by
  unfold DotDims.rhsIdx
  rw [dif_pos (show (0 : Fin S16x2048x128.rank) ∈ dot_S16x2048x2048_S16x2048x128_S16x2048x128_2_1_1_2_0_0.rhsBatch by decide)]
  rfl
theorem lmul128Dot_r1 (i : S16x2048x128.Idx) (q : dot_S16x2048x2048_S16x2048x128_S16x2048x128_2_1_1_2_0_0.contr.Idx) : (dot_S16x2048x2048_S16x2048x128_S16x2048x128_2_1_1_2_0_0.rhsIdx i q 1).val = (q ⟨0, by decide⟩).val :=
  dot_S16x2048x2048_S16x2048x128_S16x2048x128_2_1_1_2_0_0.rhsIdx_val_of_single rfl i q
theorem lmul128Dot_r2 (i : S16x2048x128.Idx) (q : dot_S16x2048x2048_S16x2048x128_S16x2048x128_2_1_1_2_0_0.contr.Idx) : (dot_S16x2048x2048_S16x2048x128_S16x2048x128_2_1_1_2_0_0.rhsIdx i q 2).val = (i 2).val := by
  unfold DotDims.rhsIdx
  rw [dif_neg (show ¬(2 : Fin S16x2048x128.rank) ∈ dot_S16x2048x2048_S16x2048x128_S16x2048x128_2_1_1_2_0_0.rhsBatch by decide), dif_pos (show (2 : Fin S16x2048x128.rank) ∈ dot_S16x2048x2048_S16x2048x128_S16x2048x128_2_1_1_2_0_0.rhsNonContracting by decide)]
  rfl

/-- The batched product read at an index: the sum over the contracted axis of the products of the operands' entries. -/
theorem lmul128Dot_apply (a : FVec Ideal S16x2048x2048 .f32) (b : FVec Ideal S16x2048x128 .f32) (g : Fin 16) (i : Fin 2048) (j : Fin 128) :
    Host.dotGeneral (F := Ideal) dot_S16x2048x2048_S16x2048x128_S16x2048x128_2_1_1_2_0_0 none a b (ix3 g i j) = ∑ k : Fin 2048, a (ix3 g i k) * b (ix3 g k j) := by
  simp only [Host.dotGeneral]
  rw [Ideal.dotGeneral_apply, ← Equiv.sum_comp (ValueIdx.contrEquiv1 dot_S16x2048x2048_S16x2048x128_S16x2048x128_2_1_1_2_0_0 2048 rfl rfl).symm]
  refine Finset.sum_congr rfl fun k _ => ?_
  have hk := ValueIdx.contrEquiv1_symm_val dot_S16x2048x2048_S16x2048x128_S16x2048x128_2_1_1_2_0_0 2048 rfl rfl k
  have el : dot_S16x2048x2048_S16x2048x128_S16x2048x128_2_1_1_2_0_0.lhsIdx (ix3 g i j) ((ValueIdx.contrEquiv1 dot_S16x2048x2048_S16x2048x128_S16x2048x128_2_1_1_2_0_0 2048 rfl rfl).symm k) = ix3 g i k := funext fun a => Fin.ext (by
    match a with
    | ⟨0, _⟩ => exact lmul128Dot_l0 _ _
    | ⟨1, _⟩ => exact lmul128Dot_l1 _ _
    | ⟨2, _⟩ => exact (lmul128Dot_l2 _ _).trans hk)
  have er : dot_S16x2048x2048_S16x2048x128_S16x2048x128_2_1_1_2_0_0.rhsIdx (ix3 g i j) ((ValueIdx.contrEquiv1 dot_S16x2048x2048_S16x2048x128_S16x2048x128_2_1_1_2_0_0 2048 rfl rfl).symm k) = ix3 g k j := funext fun a => Fin.ext (by
    match a with
    | ⟨0, _⟩ => exact lmul128Dot_r0 _ _
    | ⟨1, _⟩ => exact (lmul128Dot_r1 _ _).trans hk
    | ⟨2, _⟩ => exact lmul128Dot_r2 _ _)
  rw [el, er]

theorem lmul128_apply (L : (⟨S16x2048x2048, .f32⟩ : BufTy).Contents (Elt Ideal)) (y : (⟨S16x2048x128, .f32⟩ : BufTy).Contents (Elt Ideal)) (g : Fin 16) (i : Fin 2048) (f : Fin 128) :
    lmul128 (F := Ideal) L y (ix3 g i f) = ∑ j : Fin 2048, L (ix3 g i j) * y (ix3 g j f) :=
  lmul128Dot_apply L y g i f

theorem next128_apply (L : (⟨S16x2048x2048, .f32⟩ : BufTy).Contents (Elt Ideal)) (y1 y0 : (⟨S16x2048x128, .f32⟩ : BufTy).Contents (Elt Ideal)) (g : Fin 16) (i : Fin 2048) (f : Fin 128) :
    next128 (F := Ideal) L y1 y0 (ix3 g i f)
      = GraphConv.two * (∑ j : Fin 2048, L (ix3 g i j) * y1 (ix3 g j f)) - y0 (ix3 g i f) := by
  unfold next128 twice128
  simp only [subf_apply, mulf_apply]
  rw [bcast0_apply, lmul128_apply]
  rfl

/-! ### The terms -/

theorem term1_128_reads {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x128, .f32⟩ : BufTy).Contents (Elt Ideal)} (hy : ∀ idx, IsR (y idx)) : Reads x y (term1_128 (F := Ideal) L y) 1 :=
  reads_one hx hL hy _ (fun g i f => lmul128_apply L y g i f)

theorem term2_128_reads {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x128, .f32⟩ : BufTy).Contents (Elt Ideal)} (hy : ∀ idx, IsR (y idx)) : Reads x y (term2_128 (F := Ideal) L y) 2 :=
  reads_step hx hL hy 0 _ _ _ (term1_128_reads hx hL hy) reads_zero (fun g i f => next128_apply L _ _ g i f)

theorem term3_128_reads {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x128, .f32⟩ : BufTy).Contents (Elt Ideal)} (hy : ∀ idx, IsR (y idx)) : Reads x y (term3_128 (F := Ideal) L y) 3 :=
  reads_step hx hL hy 1 _ _ _ (term2_128_reads hx hL hy) (term1_128_reads hx hL hy) (fun g i f => next128_apply L _ _ g i f)

theorem term4_128_reads {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x128, .f32⟩ : BufTy).Contents (Elt Ideal)} (hy : ∀ idx, IsR (y idx)) : Reads x y (term4_128 (F := Ideal) L y) 4 :=
  reads_step hx hL hy 2 _ _ _ (term3_128_reads hx hL hy) (term2_128_reads hx hL hy) (fun g i f => next128_apply L _ _ g i f)

/-! ### The stacked and flattened terms -/

theorem lift128_apply (T : (⟨S16x2048x128, .f32⟩ : BufTy).Contents (Elt Ideal)) (g : Fin 16) (i : Fin 2048) (f : Fin 128) :
    lift128 (F := Ideal) T (ix4 g i f (0 : Fin 1)) = T (ix3 g i f) := by
  unfold lift128
  exact broadcastInDim_apply _ bcast_S16x2048x128_S16x2048x128x1_0_1_2 T (ix4 g i f (0 : Fin 1)) (ix3 g i f) (fun a => match a with
    | ⟨0, _⟩ => by show g.val = if (16 : Nat) = 1 then 0 else g.val; rw [if_neg (by decide)]
    | ⟨1, _⟩ => by show i.val = if (2048 : Nat) = 1 then 0 else i.val; rw [if_neg (by decide)]
    | ⟨2, _⟩ => by show f.val = if (128 : Nat) = 1 then 0 else f.val; rw [if_neg (by decide)])

theorem stack128_at0 (L : (⟨S16x2048x2048, .f32⟩ : BufTy).Contents (Elt Ideal)) (y : (⟨S16x2048x128, .f32⟩ : BufTy).Contents (Elt Ideal)) (g : Fin 16) (i : Fin 2048) (f : Fin 128) :
    stack128 (F := Ideal) L y (ix4 g i f (0 : Fin 5)) = (y) (ix3 g i f) := by
  unfold stack128
  exact (concatenate_apply_piece (t := S16x2048x128x5) (3 : Fin 4) _ _ (ix4 g i f (0 : Fin 5)) 0 (by show 0 < 5; decide) S16x2048x128x1
    (lift128 (F := Ideal) (y)) rfl rfl 0 rfl (ix4 g i f (0 : Fin 1))
    (fun b hb => match b, hb with
      | ⟨0, _⟩, _ => rfl
      | ⟨1, _⟩, _ => rfl
      | ⟨2, _⟩, _ => rfl
      | ⟨3, _⟩, hb => absurd rfl hb) rfl).trans (lift128_apply _ g i f)

theorem stack128_at1 (L : (⟨S16x2048x2048, .f32⟩ : BufTy).Contents (Elt Ideal)) (y : (⟨S16x2048x128, .f32⟩ : BufTy).Contents (Elt Ideal)) (g : Fin 16) (i : Fin 2048) (f : Fin 128) :
    stack128 (F := Ideal) L y (ix4 g i f (1 : Fin 5)) = (term1_128 (F := Ideal) L y) (ix3 g i f) := by
  unfold stack128
  exact (concatenate_apply_piece (t := S16x2048x128x5) (3 : Fin 4) _ _ (ix4 g i f (1 : Fin 5)) 1 (by show 1 < 5; decide) S16x2048x128x1
    (lift128 (F := Ideal) (term1_128 (F := Ideal) L y)) rfl rfl 1 rfl (ix4 g i f (0 : Fin 1))
    (fun b hb => match b, hb with
      | ⟨0, _⟩, _ => rfl
      | ⟨1, _⟩, _ => rfl
      | ⟨2, _⟩, _ => rfl
      | ⟨3, _⟩, hb => absurd rfl hb) rfl).trans (lift128_apply _ g i f)

theorem stack128_at2 (L : (⟨S16x2048x2048, .f32⟩ : BufTy).Contents (Elt Ideal)) (y : (⟨S16x2048x128, .f32⟩ : BufTy).Contents (Elt Ideal)) (g : Fin 16) (i : Fin 2048) (f : Fin 128) :
    stack128 (F := Ideal) L y (ix4 g i f (2 : Fin 5)) = (term2_128 (F := Ideal) L y) (ix3 g i f) := by
  unfold stack128
  exact (concatenate_apply_piece (t := S16x2048x128x5) (3 : Fin 4) _ _ (ix4 g i f (2 : Fin 5)) 2 (by show 2 < 5; decide) S16x2048x128x1
    (lift128 (F := Ideal) (term2_128 (F := Ideal) L y)) rfl rfl 2 rfl (ix4 g i f (0 : Fin 1))
    (fun b hb => match b, hb with
      | ⟨0, _⟩, _ => rfl
      | ⟨1, _⟩, _ => rfl
      | ⟨2, _⟩, _ => rfl
      | ⟨3, _⟩, hb => absurd rfl hb) rfl).trans (lift128_apply _ g i f)

theorem stack128_at3 (L : (⟨S16x2048x2048, .f32⟩ : BufTy).Contents (Elt Ideal)) (y : (⟨S16x2048x128, .f32⟩ : BufTy).Contents (Elt Ideal)) (g : Fin 16) (i : Fin 2048) (f : Fin 128) :
    stack128 (F := Ideal) L y (ix4 g i f (3 : Fin 5)) = (term3_128 (F := Ideal) L y) (ix3 g i f) := by
  unfold stack128
  exact (concatenate_apply_piece (t := S16x2048x128x5) (3 : Fin 4) _ _ (ix4 g i f (3 : Fin 5)) 3 (by show 3 < 5; decide) S16x2048x128x1
    (lift128 (F := Ideal) (term3_128 (F := Ideal) L y)) rfl rfl 3 rfl (ix4 g i f (0 : Fin 1))
    (fun b hb => match b, hb with
      | ⟨0, _⟩, _ => rfl
      | ⟨1, _⟩, _ => rfl
      | ⟨2, _⟩, _ => rfl
      | ⟨3, _⟩, hb => absurd rfl hb) rfl).trans (lift128_apply _ g i f)

theorem stack128_at4 (L : (⟨S16x2048x2048, .f32⟩ : BufTy).Contents (Elt Ideal)) (y : (⟨S16x2048x128, .f32⟩ : BufTy).Contents (Elt Ideal)) (g : Fin 16) (i : Fin 2048) (f : Fin 128) :
    stack128 (F := Ideal) L y (ix4 g i f (4 : Fin 5)) = (term4_128 (F := Ideal) L y) (ix3 g i f) := by
  unfold stack128
  exact (concatenate_apply_piece (t := S16x2048x128x5) (3 : Fin 4) _ _ (ix4 g i f (4 : Fin 5)) 4 (by show 4 < 5; decide) S16x2048x128x1
    (lift128 (F := Ideal) (term4_128 (F := Ideal) L y)) rfl rfl 4 rfl (ix4 g i f (0 : Fin 1))
    (fun b hb => match b, hb with
      | ⟨0, _⟩, _ => rfl
      | ⟨1, _⟩, _ => rfl
      | ⟨2, _⟩, _ => rfl
      | ⟨3, _⟩, hb => absurd rfl hb) rfl).trans (lift128_apply _ g i f)

/-- The stacked terms at (graph, node, feature, term). -/
theorem stack128_reads {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x128, .f32⟩ : BufTy).Contents (Elt Ideal)} (hy : ∀ idx, IsR (y idx)) (g : Fin 16) (i : Fin 2048) (f : Fin 128) (k : Fin 5) :
    stack128 (F := Ideal) L y (ix4 g i f k) = GraphConv.cheb (rowsOf x g) (rowsOf y g) k.val i f :=
  match k with
  | ⟨0, _⟩ => (stack128_at0 L y g i f).trans (reads_zero g i f)
  | ⟨1, _⟩ => (stack128_at1 L y g i f).trans (term1_128_reads hx hL hy g i f)
  | ⟨2, _⟩ => (stack128_at2 L y g i f).trans (term2_128_reads hx hL hy g i f)
  | ⟨3, _⟩ => (stack128_at3 L y g i f).trans (term3_128_reads hx hL hy g i f)
  | ⟨4, _⟩ => (stack128_at4 L y g i f).trans (term4_128_reads hx hL hy g i f)
  | ⟨k + 5, h⟩ => absurd h (by omega)

/-- Column `q` of the flattened terms holds term `q % 5` of feature `q / 5`. -/
theorem flat128_apply (L : (⟨S16x2048x2048, .f32⟩ : BufTy).Contents (Elt Ideal)) (y : (⟨S16x2048x128, .f32⟩ : BufTy).Contents (Elt Ideal)) (g : Fin 16) (i : Fin 2048) (q : Fin 640) :
    flat128 (F := Ideal) L y (ix2 (rowIx g i) q)
      = stack128 (F := Ideal) L y (ix4 g i ⟨q.val / 5, by have := q.isLt; omega⟩ ⟨q.val % 5, by omega⟩) := by
  unfold flat128
  exact shapeCast_apply _ shapeCasts_S16x2048x128x5_S32768x640 (ix2 (rowIx g i) q) _
    (by rewrite [Shape.rowMajor_val_four, Shape.rowMajor_val_two]
        show ((g.val * 2048 + i.val) * 128 + q.val / 5) * 5 + q.val % 5 = (g.val * 2048 + i.val) * 640 + q.val
        omega)

/-! ### The product with the weights, the bias and the rectification -/

theorem w128_l0 (i : S32768x512.Idx) (q : dot_S32768x640_S640x512_S32768x512_1_0_0_1_n_n.contr.Idx) : (dot_S32768x640_S640x512_S32768x512_1_0_0_1_n_n.lhsIdx i q 0).val = (i 0).val := by
  unfold DotDims.lhsIdx
  rw [dif_neg (show ¬(0 : Fin S32768x640.rank) ∈ dot_S32768x640_S640x512_S32768x512_1_0_0_1_n_n.lhsBatch by decide), dif_pos (show (0 : Fin S32768x640.rank) ∈ dot_S32768x640_S640x512_S32768x512_1_0_0_1_n_n.lhsNonContracting by decide)]
  rfl
theorem w128_l1 (i : S32768x512.Idx) (q : dot_S32768x640_S640x512_S32768x512_1_0_0_1_n_n.contr.Idx) : (dot_S32768x640_S640x512_S32768x512_1_0_0_1_n_n.lhsIdx i q 1).val = (q ⟨0, by decide⟩).val :=
  dot_S32768x640_S640x512_S32768x512_1_0_0_1_n_n.lhsIdx_val_of_single rfl i q
theorem w128_r0 (i : S32768x512.Idx) (q : dot_S32768x640_S640x512_S32768x512_1_0_0_1_n_n.contr.Idx) : (dot_S32768x640_S640x512_S32768x512_1_0_0_1_n_n.rhsIdx i q 0).val = (q ⟨0, by decide⟩).val :=
  dot_S32768x640_S640x512_S32768x512_1_0_0_1_n_n.rhsIdx_val_of_single rfl i q
theorem w128_r1 (i : S32768x512.Idx) (q : dot_S32768x640_S640x512_S32768x512_1_0_0_1_n_n.contr.Idx) : (dot_S32768x640_S640x512_S32768x512_1_0_0_1_n_n.rhsIdx i q 1).val = (i 1).val := by
  unfold DotDims.rhsIdx
  rw [dif_neg (show ¬(1 : Fin S640x512.rank) ∈ dot_S32768x640_S640x512_S32768x512_1_0_0_1_n_n.rhsBatch by decide), dif_pos (show (1 : Fin S640x512.rank) ∈ dot_S32768x640_S640x512_S32768x512_1_0_0_1_n_n.rhsNonContracting by decide)]
  rfl

/-- The product with the weights read at (row, column). -/
theorem wdot128_apply (a : FVec Ideal S32768x640 .f32) (w : FVec Ideal S640x512 .f32) (r : Fin 32768) (c : Fin 512) :
    Host.dotGeneral (F := Ideal) dot_S32768x640_S640x512_S32768x512_1_0_0_1_n_n none a w (ix2 r c) = ∑ q : Fin 640, a (ix2 r q) * w (ix2 q c) := by
  simp only [Host.dotGeneral]
  rw [Ideal.dotGeneral_apply, ← Equiv.sum_comp (ValueIdx.contrEquiv1 dot_S32768x640_S640x512_S32768x512_1_0_0_1_n_n 640 rfl rfl).symm]
  refine Finset.sum_congr rfl fun k _ => ?_
  have hk := ValueIdx.contrEquiv1_symm_val dot_S32768x640_S640x512_S32768x512_1_0_0_1_n_n 640 rfl rfl k
  have el : dot_S32768x640_S640x512_S32768x512_1_0_0_1_n_n.lhsIdx (ix2 r c) ((ValueIdx.contrEquiv1 dot_S32768x640_S640x512_S32768x512_1_0_0_1_n_n 640 rfl rfl).symm k) = ix2 r k := funext fun a => Fin.ext (by
    match a with
    | ⟨0, _⟩ => exact w128_l0 _ _
    | ⟨1, _⟩ => exact (w128_l1 _ _).trans hk)
  have er : dot_S32768x640_S640x512_S32768x512_1_0_0_1_n_n.rhsIdx (ix2 r c) ((ValueIdx.contrEquiv1 dot_S32768x640_S640x512_S32768x512_1_0_0_1_n_n 640 rfl rfl).symm k) = ix2 k c := funext fun a => Fin.ext (by
    match a with
    | ⟨0, _⟩ => exact (w128_r0 _ _).trans hk
    | ⟨1, _⟩ => exact w128_r1 _ _)
  rw [el, er]

/-- The bias row broadcast over the rows. -/
theorem bias128_apply {α : Type} (b : S512.Idx → α) (r : Fin 32768) (c : Fin 512) :
    broadcastInDim S32768x512 ![0, 1] bcast_S1x512_S32768x512_0_1 (broadcastInDim S1x512 ![1] bcast_S512_S1x512_1 b) (ix2 r c)
      = b (ix1 c) := by
  rw [broadcastInDim_apply _ bcast_S1x512_S32768x512_0_1 _ (ix2 r c) (ix2 0 c) (fun a => match a with
    | ⟨0, _⟩ => by show (0 : Nat) = if (1 : Nat) = 1 then 0 else r.val; rw [if_pos rfl]
    | ⟨1, _⟩ => by show c.val = if (512 : Nat) = 1 then 0 else c.val; rw [if_neg (by decide)])]
  exact broadcastInDim_apply _ bcast_S512_S1x512_1 b (ix2 0 c) (ix1 c) (fun a => match a with
    | ⟨0, _⟩ => by show c.val = if (512 : Nat) = 1 then 0 else c.val; rw [if_neg (by decide)])

/-- The layer's output at (graph, node, output feature), over the flattened terms. -/
theorem layer128_apply (L : (⟨S16x2048x2048, .f32⟩ : BufTy).Contents (Elt Ideal)) (y : (⟨S16x2048x128, .f32⟩ : BufTy).Contents (Elt Ideal)) (w : (⟨S640x512, .f32⟩ : BufTy).Contents (Elt Ideal)) (b : (⟨S512, .f32⟩ : BufTy).Contents (Elt Ideal))
    (g : Fin 16) (i : Fin 2048) (c : Fin 512) :
    layer128 (F := Ideal) L y w b (ix3 g i c)
      = max ((∑ q : Fin 640, flat128 (F := Ideal) L y (ix2 (rowIx g i) q) * w (ix2 q c)) + b (ix1 c)) GraphConv.zer := by
  unfold layer128
  rw [shapeCast_apply _ shapeCasts_S32768x512_S16x2048x512 (ix3 g i c) (ix2 (rowIx g i) c)
    (by rewrite [Shape.rowMajor_val_two, Shape.rowMajor_val_three]; rfl)]
  unfold act128 pre128
  simp only [maximumf_apply, addf_apply]
  rw [bcast0_apply, wdot128_apply, bias128_apply]
  rfl

/-- The layer's output is the specification's layer of the graph's rows. -/
theorem layer128_eq {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x128, .f32⟩ : BufTy).Contents (Elt Ideal)} (hy : ∀ idx, IsR (y idx)) (w : (⟨S640x512, .f32⟩ : BufTy).Contents (Elt Ideal)) (b : (⟨S512, .f32⟩ : BufTy).Contents (Elt Ideal)) (g : Fin 16) (i : Fin 2048) (c : Fin 512) :
    layer128 (F := Ideal) L y w b (ix3 g i c)
      = GraphConv.dense (rowsOf x g) (n := 128) (K := 5) (by decide)
          (fun k c => w (ix2 (⟨k.val, k.isLt⟩ : Fin 640) c)) (fun c => b (ix1 c)) (rowsOf y g) i c := by
  rw [layer128_apply]
  exact dense_of_row (n := 128) (K := 5) (by decide) (rowsOf x g) (rowsOf y g)
    (fun k c => w (ix2 (⟨k.val, k.isLt⟩ : Fin 640) c)) (fun c => b (ix1 c)) i c
    (fun q => flat128 (F := Ideal) L y (ix2 (rowIx g i) (⟨q.val, q.isLt⟩ : Fin 640)))
    (fun q => by rw [flat128_apply, stack128_reads hx hL hy])

/-- The layer's output has real entries when the weights and the bias do. -/
theorem layer128_isR {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x128, .f32⟩ : BufTy).Contents (Elt Ideal)} (hy : ∀ idx, IsR (y idx)) (w : (⟨S640x512, .f32⟩ : BufTy).Contents (Elt Ideal)) (b : (⟨S512, .f32⟩ : BufTy).Contents (Elt Ideal)) (hw : ∀ idx, IsR (w idx)) (hb : ∀ idx, IsR (b idx))
    (idx : S16x2048x512.Idx) : IsR (layer128 (F := Ideal) L y w b idx) := by
  have e : layer128 (F := Ideal) L y w b idx = _ :=
    (congrArg (layer128 (F := Ideal) L y w b) (eq_ix3 idx)).trans (layer128_eq hx hL hy w b (idx 0) (idx 1) (idx 2))
  rw [e]
  exact GraphConvReal.dense_isR _ (fun i f => hx _) _ _ _ _ (fun k c => hw _) (fun c => hb _) (fun i f => hy _) _ _

end Cert.ReferenceIdeal.Net

end
-- ==== Proof.RefReadLayer512.lean ====
/-
  The layer with 512 input features, 3 Chebyshev terms and 1024 output features, read at an index at the ideal
  values: its unrolled terms are the specification's `cheb`, its stacked and flattened terms hold term `q % 3`
  of feature `q / 3` at column `q`, and its output is the specification's `dense` of the graph's rows.
-/
import proofs.«175608_j66305705115960_1_alg».proof.Proof.RefStages
import proofs.«175608_j66305705115960_1_alg».proof.Proof.RefReadGraph
import proofs.«175608_j66305705115960_1_alg».proof.Proof.RefReadCheb

noncomputable section

open scoped BigOperators

namespace Cert.ReferenceIdeal.Net

open Cert.ReferenceIdeal Cert.ReferenceIdeal.Gen Idealize.ShloMosaic Idealize.ShloMosaic.TcCoe Idealize.SL.Sem Idealize.ShloMosaic.StableHlo
open Idealize.ShloMosaic.ValueIdx Cert.RealEntries

open Cert

theorem lmul512Dot_l0 (i : S16x2048x512.Idx) (q : dot_S16x2048x2048_S16x2048x512_S16x2048x512_2_1_1_2_0_0.contr.Idx) : (dot_S16x2048x2048_S16x2048x512_S16x2048x512_2_1_1_2_0_0.lhsIdx i q 0).val = (i 0).val := by
  unfold DotDims.lhsIdx
  rw [dif_pos (show (0 : Fin S16x2048x2048.rank) ∈ dot_S16x2048x2048_S16x2048x512_S16x2048x512_2_1_1_2_0_0.lhsBatch by decide)]
  rfl
theorem lmul512Dot_l1 (i : S16x2048x512.Idx) (q : dot_S16x2048x2048_S16x2048x512_S16x2048x512_2_1_1_2_0_0.contr.Idx) : (dot_S16x2048x2048_S16x2048x512_S16x2048x512_2_1_1_2_0_0.lhsIdx i q 1).val = (i 1).val := by
  unfold DotDims.lhsIdx
  rw [dif_neg (show ¬(1 : Fin S16x2048x2048.rank) ∈ dot_S16x2048x2048_S16x2048x512_S16x2048x512_2_1_1_2_0_0.lhsBatch by decide), dif_pos (show (1 : Fin S16x2048x2048.rank) ∈ dot_S16x2048x2048_S16x2048x512_S16x2048x512_2_1_1_2_0_0.lhsNonContracting by decide)]
  rfl
theorem lmul512Dot_l2 (i : S16x2048x512.Idx) (q : dot_S16x2048x2048_S16x2048x512_S16x2048x512_2_1_1_2_0_0.contr.Idx) : (dot_S16x2048x2048_S16x2048x512_S16x2048x512_2_1_1_2_0_0.lhsIdx i q 2).val = (q ⟨0, by decide⟩).val :=
  dot_S16x2048x2048_S16x2048x512_S16x2048x512_2_1_1_2_0_0.lhsIdx_val_of_single rfl i q
theorem lmul512Dot_r0 (i : S16x2048x512.Idx) (q : dot_S16x2048x2048_S16x2048x512_S16x2048x512_2_1_1_2_0_0.contr.Idx) : (dot_S16x2048x2048_S16x2048x512_S16x2048x512_2_1_1_2_0_0.rhsIdx i q 0).val = (i 0).val := by
  unfold DotDims.rhsIdx
  rw [dif_pos (show (0 : Fin S16x2048x512.rank) ∈ dot_S16x2048x2048_S16x2048x512_S16x2048x512_2_1_1_2_0_0.rhsBatch by decide)]
  rfl
theorem lmul512Dot_r1 (i : S16x2048x512.Idx) (q : dot_S16x2048x2048_S16x2048x512_S16x2048x512_2_1_1_2_0_0.contr.Idx) : (dot_S16x2048x2048_S16x2048x512_S16x2048x512_2_1_1_2_0_0.rhsIdx i q 1).val = (q ⟨0, by decide⟩).val :=
  dot_S16x2048x2048_S16x2048x512_S16x2048x512_2_1_1_2_0_0.rhsIdx_val_of_single rfl i q
theorem lmul512Dot_r2 (i : S16x2048x512.Idx) (q : dot_S16x2048x2048_S16x2048x512_S16x2048x512_2_1_1_2_0_0.contr.Idx) : (dot_S16x2048x2048_S16x2048x512_S16x2048x512_2_1_1_2_0_0.rhsIdx i q 2).val = (i 2).val := by
  unfold DotDims.rhsIdx
  rw [dif_neg (show ¬(2 : Fin S16x2048x512.rank) ∈ dot_S16x2048x2048_S16x2048x512_S16x2048x512_2_1_1_2_0_0.rhsBatch by decide), dif_pos (show (2 : Fin S16x2048x512.rank) ∈ dot_S16x2048x2048_S16x2048x512_S16x2048x512_2_1_1_2_0_0.rhsNonContracting by decide)]
  rfl

/-- The batched product read at an index: the sum over the contracted axis of the products of the operands' entries. -/
theorem lmul512Dot_apply (a : FVec Ideal S16x2048x2048 .f32) (b : FVec Ideal S16x2048x512 .f32) (g : Fin 16) (i : Fin 2048) (j : Fin 512) :
    Host.dotGeneral (F := Ideal) dot_S16x2048x2048_S16x2048x512_S16x2048x512_2_1_1_2_0_0 none a b (ix3 g i j) = ∑ k : Fin 2048, a (ix3 g i k) * b (ix3 g k j) := by
  simp only [Host.dotGeneral]
  rw [Ideal.dotGeneral_apply, ← Equiv.sum_comp (ValueIdx.contrEquiv1 dot_S16x2048x2048_S16x2048x512_S16x2048x512_2_1_1_2_0_0 2048 rfl rfl).symm]
  refine Finset.sum_congr rfl fun k _ => ?_
  have hk := ValueIdx.contrEquiv1_symm_val dot_S16x2048x2048_S16x2048x512_S16x2048x512_2_1_1_2_0_0 2048 rfl rfl k
  have el : dot_S16x2048x2048_S16x2048x512_S16x2048x512_2_1_1_2_0_0.lhsIdx (ix3 g i j) ((ValueIdx.contrEquiv1 dot_S16x2048x2048_S16x2048x512_S16x2048x512_2_1_1_2_0_0 2048 rfl rfl).symm k) = ix3 g i k := funext fun a => Fin.ext (by
    match a with
    | ⟨0, _⟩ => exact lmul512Dot_l0 _ _
    | ⟨1, _⟩ => exact lmul512Dot_l1 _ _
    | ⟨2, _⟩ => exact (lmul512Dot_l2 _ _).trans hk)
  have er : dot_S16x2048x2048_S16x2048x512_S16x2048x512_2_1_1_2_0_0.rhsIdx (ix3 g i j) ((ValueIdx.contrEquiv1 dot_S16x2048x2048_S16x2048x512_S16x2048x512_2_1_1_2_0_0 2048 rfl rfl).symm k) = ix3 g k j := funext fun a => Fin.ext (by
    match a with
    | ⟨0, _⟩ => exact lmul512Dot_r0 _ _
    | ⟨1, _⟩ => exact (lmul512Dot_r1 _ _).trans hk
    | ⟨2, _⟩ => exact lmul512Dot_r2 _ _)
  rw [el, er]

theorem lmul512_apply (L : (⟨S16x2048x2048, .f32⟩ : BufTy).Contents (Elt Ideal)) (y : (⟨S16x2048x512, .f32⟩ : BufTy).Contents (Elt Ideal)) (g : Fin 16) (i : Fin 2048) (f : Fin 512) :
    lmul512 (F := Ideal) L y (ix3 g i f) = ∑ j : Fin 2048, L (ix3 g i j) * y (ix3 g j f) :=
  lmul512Dot_apply L y g i f

theorem next512_apply (L : (⟨S16x2048x2048, .f32⟩ : BufTy).Contents (Elt Ideal)) (y1 y0 : (⟨S16x2048x512, .f32⟩ : BufTy).Contents (Elt Ideal)) (g : Fin 16) (i : Fin 2048) (f : Fin 512) :
    next512 (F := Ideal) L y1 y0 (ix3 g i f)
      = GraphConv.two * (∑ j : Fin 2048, L (ix3 g i j) * y1 (ix3 g j f)) - y0 (ix3 g i f) := by
  unfold next512 twice512
  simp only [subf_apply, mulf_apply]
  rw [bcast0_apply, lmul512_apply]
  rfl

/-! ### The terms -/

theorem term1_512_reads {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x512, .f32⟩ : BufTy).Contents (Elt Ideal)} (hy : ∀ idx, IsR (y idx)) : Reads x y (term1_512 (F := Ideal) L y) 1 :=
  reads_one hx hL hy _ (fun g i f => lmul512_apply L y g i f)

theorem term2_512_reads {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x512, .f32⟩ : BufTy).Contents (Elt Ideal)} (hy : ∀ idx, IsR (y idx)) : Reads x y (term2_512 (F := Ideal) L y) 2 :=
  reads_step hx hL hy 0 _ _ _ (term1_512_reads hx hL hy) reads_zero (fun g i f => next512_apply L _ _ g i f)

/-! ### The stacked and flattened terms -/

theorem lift512_apply (T : (⟨S16x2048x512, .f32⟩ : BufTy).Contents (Elt Ideal)) (g : Fin 16) (i : Fin 2048) (f : Fin 512) :
    lift512 (F := Ideal) T (ix4 g i f (0 : Fin 1)) = T (ix3 g i f) := by
  unfold lift512
  exact broadcastInDim_apply _ bcast_S16x2048x512_S16x2048x512x1_0_1_2 T (ix4 g i f (0 : Fin 1)) (ix3 g i f) (fun a => match a with
    | ⟨0, _⟩ => by show g.val = if (16 : Nat) = 1 then 0 else g.val; rw [if_neg (by decide)]
    | ⟨1, _⟩ => by show i.val = if (2048 : Nat) = 1 then 0 else i.val; rw [if_neg (by decide)]
    | ⟨2, _⟩ => by show f.val = if (512 : Nat) = 1 then 0 else f.val; rw [if_neg (by decide)])

theorem stack512_at0 (L : (⟨S16x2048x2048, .f32⟩ : BufTy).Contents (Elt Ideal)) (y : (⟨S16x2048x512, .f32⟩ : BufTy).Contents (Elt Ideal)) (g : Fin 16) (i : Fin 2048) (f : Fin 512) :
    stack512 (F := Ideal) L y (ix4 g i f (0 : Fin 3)) = (y) (ix3 g i f) := by
  unfold stack512
  exact (concatenate_apply_piece (t := S16x2048x512x3) (3 : Fin 4) _ _ (ix4 g i f (0 : Fin 3)) 0 (by show 0 < 3; decide) S16x2048x512x1
    (lift512 (F := Ideal) (y)) rfl rfl 0 rfl (ix4 g i f (0 : Fin 1))
    (fun b hb => match b, hb with
      | ⟨0, _⟩, _ => rfl
      | ⟨1, _⟩, _ => rfl
      | ⟨2, _⟩, _ => rfl
      | ⟨3, _⟩, hb => absurd rfl hb) rfl).trans (lift512_apply _ g i f)

theorem stack512_at1 (L : (⟨S16x2048x2048, .f32⟩ : BufTy).Contents (Elt Ideal)) (y : (⟨S16x2048x512, .f32⟩ : BufTy).Contents (Elt Ideal)) (g : Fin 16) (i : Fin 2048) (f : Fin 512) :
    stack512 (F := Ideal) L y (ix4 g i f (1 : Fin 3)) = (term1_512 (F := Ideal) L y) (ix3 g i f) := by
  unfold stack512
  exact (concatenate_apply_piece (t := S16x2048x512x3) (3 : Fin 4) _ _ (ix4 g i f (1 : Fin 3)) 1 (by show 1 < 3; decide) S16x2048x512x1
    (lift512 (F := Ideal) (term1_512 (F := Ideal) L y)) rfl rfl 1 rfl (ix4 g i f (0 : Fin 1))
    (fun b hb => match b, hb with
      | ⟨0, _⟩, _ => rfl
      | ⟨1, _⟩, _ => rfl
      | ⟨2, _⟩, _ => rfl
      | ⟨3, _⟩, hb => absurd rfl hb) rfl).trans (lift512_apply _ g i f)

theorem stack512_at2 (L : (⟨S16x2048x2048, .f32⟩ : BufTy).Contents (Elt Ideal)) (y : (⟨S16x2048x512, .f32⟩ : BufTy).Contents (Elt Ideal)) (g : Fin 16) (i : Fin 2048) (f : Fin 512) :
    stack512 (F := Ideal) L y (ix4 g i f (2 : Fin 3)) = (term2_512 (F := Ideal) L y) (ix3 g i f) := by
  unfold stack512
  exact (concatenate_apply_piece (t := S16x2048x512x3) (3 : Fin 4) _ _ (ix4 g i f (2 : Fin 3)) 2 (by show 2 < 3; decide) S16x2048x512x1
    (lift512 (F := Ideal) (term2_512 (F := Ideal) L y)) rfl rfl 2 rfl (ix4 g i f (0 : Fin 1))
    (fun b hb => match b, hb with
      | ⟨0, _⟩, _ => rfl
      | ⟨1, _⟩, _ => rfl
      | ⟨2, _⟩, _ => rfl
      | ⟨3, _⟩, hb => absurd rfl hb) rfl).trans (lift512_apply _ g i f)

/-- The stacked terms at (graph, node, feature, term). -/
theorem stack512_reads {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x512, .f32⟩ : BufTy).Contents (Elt Ideal)} (hy : ∀ idx, IsR (y idx)) (g : Fin 16) (i : Fin 2048) (f : Fin 512) (k : Fin 3) :
    stack512 (F := Ideal) L y (ix4 g i f k) = GraphConv.cheb (rowsOf x g) (rowsOf y g) k.val i f :=
  match k with
  | ⟨0, _⟩ => (stack512_at0 L y g i f).trans (reads_zero g i f)
  | ⟨1, _⟩ => (stack512_at1 L y g i f).trans (term1_512_reads hx hL hy g i f)
  | ⟨2, _⟩ => (stack512_at2 L y g i f).trans (term2_512_reads hx hL hy g i f)
  | ⟨k + 3, h⟩ => absurd h (by omega)

/-- Column `q` of the flattened terms holds term `q % 3` of feature `q / 3`. -/
theorem flat512_apply (L : (⟨S16x2048x2048, .f32⟩ : BufTy).Contents (Elt Ideal)) (y : (⟨S16x2048x512, .f32⟩ : BufTy).Contents (Elt Ideal)) (g : Fin 16) (i : Fin 2048) (q : Fin 1536) :
    flat512 (F := Ideal) L y (ix2 (rowIx g i) q)
      = stack512 (F := Ideal) L y (ix4 g i ⟨q.val / 3, by have := q.isLt; omega⟩ ⟨q.val % 3, by omega⟩) := by
  unfold flat512
  exact shapeCast_apply _ shapeCasts_S16x2048x512x3_S32768x1536 (ix2 (rowIx g i) q) _
    (by rewrite [Shape.rowMajor_val_four, Shape.rowMajor_val_two]
        show ((g.val * 2048 + i.val) * 512 + q.val / 3) * 3 + q.val % 3 = (g.val * 2048 + i.val) * 1536 + q.val
        omega)

/-! ### The product with the weights, the bias and the rectification -/

theorem w512_l0 (i : S32768x1024.Idx) (q : dot_S32768x1536_S1536x1024_S32768x1024_1_0_0_1_n_n.contr.Idx) : (dot_S32768x1536_S1536x1024_S32768x1024_1_0_0_1_n_n.lhsIdx i q 0).val = (i 0).val := by
  unfold DotDims.lhsIdx
  rw [dif_neg (show ¬(0 : Fin S32768x1536.rank) ∈ dot_S32768x1536_S1536x1024_S32768x1024_1_0_0_1_n_n.lhsBatch by decide), dif_pos (show (0 : Fin S32768x1536.rank) ∈ dot_S32768x1536_S1536x1024_S32768x1024_1_0_0_1_n_n.lhsNonContracting by decide)]
  rfl
theorem w512_l1 (i : S32768x1024.Idx) (q : dot_S32768x1536_S1536x1024_S32768x1024_1_0_0_1_n_n.contr.Idx) : (dot_S32768x1536_S1536x1024_S32768x1024_1_0_0_1_n_n.lhsIdx i q 1).val = (q ⟨0, by decide⟩).val :=
  dot_S32768x1536_S1536x1024_S32768x1024_1_0_0_1_n_n.lhsIdx_val_of_single rfl i q
theorem w512_r0 (i : S32768x1024.Idx) (q : dot_S32768x1536_S1536x1024_S32768x1024_1_0_0_1_n_n.contr.Idx) : (dot_S32768x1536_S1536x1024_S32768x1024_1_0_0_1_n_n.rhsIdx i q 0).val = (q ⟨0, by decide⟩).val :=
  dot_S32768x1536_S1536x1024_S32768x1024_1_0_0_1_n_n.rhsIdx_val_of_single rfl i q
theorem w512_r1 (i : S32768x1024.Idx) (q : dot_S32768x1536_S1536x1024_S32768x1024_1_0_0_1_n_n.contr.Idx) : (dot_S32768x1536_S1536x1024_S32768x1024_1_0_0_1_n_n.rhsIdx i q 1).val = (i 1).val := by
  unfold DotDims.rhsIdx
  rw [dif_neg (show ¬(1 : Fin S1536x1024.rank) ∈ dot_S32768x1536_S1536x1024_S32768x1024_1_0_0_1_n_n.rhsBatch by decide), dif_pos (show (1 : Fin S1536x1024.rank) ∈ dot_S32768x1536_S1536x1024_S32768x1024_1_0_0_1_n_n.rhsNonContracting by decide)]
  rfl

/-- The product with the weights read at (row, column). -/
theorem wdot512_apply (a : FVec Ideal S32768x1536 .f32) (w : FVec Ideal S1536x1024 .f32) (r : Fin 32768) (c : Fin 1024) :
    Host.dotGeneral (F := Ideal) dot_S32768x1536_S1536x1024_S32768x1024_1_0_0_1_n_n none a w (ix2 r c) = ∑ q : Fin 1536, a (ix2 r q) * w (ix2 q c) := by
  simp only [Host.dotGeneral]
  rw [Ideal.dotGeneral_apply, ← Equiv.sum_comp (ValueIdx.contrEquiv1 dot_S32768x1536_S1536x1024_S32768x1024_1_0_0_1_n_n 1536 rfl rfl).symm]
  refine Finset.sum_congr rfl fun k _ => ?_
  have hk := ValueIdx.contrEquiv1_symm_val dot_S32768x1536_S1536x1024_S32768x1024_1_0_0_1_n_n 1536 rfl rfl k
  have el : dot_S32768x1536_S1536x1024_S32768x1024_1_0_0_1_n_n.lhsIdx (ix2 r c) ((ValueIdx.contrEquiv1 dot_S32768x1536_S1536x1024_S32768x1024_1_0_0_1_n_n 1536 rfl rfl).symm k) = ix2 r k := funext fun a => Fin.ext (by
    match a with
    | ⟨0, _⟩ => exact w512_l0 _ _
    | ⟨1, _⟩ => exact (w512_l1 _ _).trans hk)
  have er : dot_S32768x1536_S1536x1024_S32768x1024_1_0_0_1_n_n.rhsIdx (ix2 r c) ((ValueIdx.contrEquiv1 dot_S32768x1536_S1536x1024_S32768x1024_1_0_0_1_n_n 1536 rfl rfl).symm k) = ix2 k c := funext fun a => Fin.ext (by
    match a with
    | ⟨0, _⟩ => exact (w512_r0 _ _).trans hk
    | ⟨1, _⟩ => exact w512_r1 _ _)
  rw [el, er]

/-- The bias row broadcast over the rows. -/
theorem bias512_apply {α : Type} (b : S1024.Idx → α) (r : Fin 32768) (c : Fin 1024) :
    broadcastInDim S32768x1024 ![0, 1] bcast_S1x1024_S32768x1024_0_1 (broadcastInDim S1x1024 ![1] bcast_S1024_S1x1024_1 b) (ix2 r c)
      = b (ix1 c) := by
  rw [broadcastInDim_apply _ bcast_S1x1024_S32768x1024_0_1 _ (ix2 r c) (ix2 0 c) (fun a => match a with
    | ⟨0, _⟩ => by show (0 : Nat) = if (1 : Nat) = 1 then 0 else r.val; rw [if_pos rfl]
    | ⟨1, _⟩ => by show c.val = if (1024 : Nat) = 1 then 0 else c.val; rw [if_neg (by decide)])]
  exact broadcastInDim_apply _ bcast_S1024_S1x1024_1 b (ix2 0 c) (ix1 c) (fun a => match a with
    | ⟨0, _⟩ => by show c.val = if (1024 : Nat) = 1 then 0 else c.val; rw [if_neg (by decide)])

/-- The layer's output at (graph, node, output feature), over the flattened terms. -/
theorem layer512_apply (L : (⟨S16x2048x2048, .f32⟩ : BufTy).Contents (Elt Ideal)) (y : (⟨S16x2048x512, .f32⟩ : BufTy).Contents (Elt Ideal)) (w : (⟨S1536x1024, .f32⟩ : BufTy).Contents (Elt Ideal)) (b : (⟨S1024, .f32⟩ : BufTy).Contents (Elt Ideal))
    (g : Fin 16) (i : Fin 2048) (c : Fin 1024) :
    layer512 (F := Ideal) L y w b (ix3 g i c)
      = max ((∑ q : Fin 1536, flat512 (F := Ideal) L y (ix2 (rowIx g i) q) * w (ix2 q c)) + b (ix1 c)) GraphConv.zer := by
  unfold layer512
  rw [shapeCast_apply _ shapeCasts_S32768x1024_S16x2048x1024 (ix3 g i c) (ix2 (rowIx g i) c)
    (by rewrite [Shape.rowMajor_val_two, Shape.rowMajor_val_three]; rfl)]
  unfold act512 pre512
  simp only [maximumf_apply, addf_apply]
  rw [bcast0_apply, wdot512_apply, bias512_apply]
  rfl

/-- The layer's output is the specification's layer of the graph's rows. -/
theorem layer512_eq {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x512, .f32⟩ : BufTy).Contents (Elt Ideal)} (hy : ∀ idx, IsR (y idx)) (w : (⟨S1536x1024, .f32⟩ : BufTy).Contents (Elt Ideal)) (b : (⟨S1024, .f32⟩ : BufTy).Contents (Elt Ideal)) (g : Fin 16) (i : Fin 2048) (c : Fin 1024) :
    layer512 (F := Ideal) L y w b (ix3 g i c)
      = GraphConv.dense (rowsOf x g) (n := 512) (K := 3) (by decide)
          (fun k c => w (ix2 (⟨k.val, k.isLt⟩ : Fin 1536) c)) (fun c => b (ix1 c)) (rowsOf y g) i c := by
  rw [layer512_apply]
  exact dense_of_row (n := 512) (K := 3) (by decide) (rowsOf x g) (rowsOf y g)
    (fun k c => w (ix2 (⟨k.val, k.isLt⟩ : Fin 1536) c)) (fun c => b (ix1 c)) i c
    (fun q => flat512 (F := Ideal) L y (ix2 (rowIx g i) (⟨q.val, q.isLt⟩ : Fin 1536)))
    (fun q => by rw [flat512_apply, stack512_reads hx hL hy])

/-- The layer's output has real entries when the weights and the bias do. -/
theorem layer512_isR {x : (⟨S16x2048x6, .f32⟩ : BufTy).Contents (Elt Ideal)} (hx : ∀ idx, IsR (x idx)) {L : (⟨S16x2048x2048, .f32⟩ : BufTy).Contents (Elt Ideal)} (hL : IsLap L x) {y : (⟨S16x2048x512, .f32⟩ : BufTy).Contents (Elt Ideal)} (hy : ∀ idx, IsR (y idx)) (w : (⟨S1536x1024, .f32⟩ : BufTy).Contents (Elt Ideal)) (b : (⟨S1024, .f32⟩ : BufTy).Contents (Elt Ideal)) (hw : ∀ idx, IsR (w idx)) (hb : ∀ idx, IsR (b idx))
    (idx : S16x2048x1024.Idx) : IsR (layer512 (F := Ideal) L y w b idx) := by
  have e : layer512 (F := Ideal) L y w b idx = _ :=
    (congrArg (layer512 (F := Ideal) L y w b) (eq_ix3 idx)).trans (layer512_eq hx hL hy w b (idx 0) (idx 1) (idx 2))
  rw [e]
  exact GraphConvReal.dense_isR _ (fun i f => hx _) _ _ _ _ (fun k c => hw _) (fun c => hb _) (fun i f => hy _) _ _

end Cert.ReferenceIdeal.Net

end
-- ==== Proof.RefEq.lean ====
/-
  The reference's staged result is the specification's network, graph by graph: the Laplacian array reads as the
  identity minus the normalised affinity, so each layer reads as the specification's layer of the graph's rows, the
  outputs of the first two layers having real entries (the inputs, weights and biases of those layers being real).
-/
import proofs.«175608_j66305705115960_1_alg».proof.Proof.RefReadLayer6
import proofs.«175608_j66305705115960_1_alg».proof.Proof.RefReadLayer128
import proofs.«175608_j66305705115960_1_alg».proof.Proof.RefReadLayer512

noncomputable section

open scoped BigOperators

namespace Cert.ReferenceIdeal.Net

open Cert.ReferenceIdeal Cert.ReferenceIdeal.Gen Idealize.ShloMosaic Idealize.ShloMosaic.TcCoe Idealize.SL.Sem Idealize.ShloMosaic.StableHlo
open Idealize.ShloMosaic.ValueIdx Cert.RealEntries

open Cert

/-- The reference's result is the specification's, when the features and the first two layers' weights and biases are
    real numbers. -/
theorem refOut_eq (x : (⟨S16x2048x6, .f32⟩ : BufTy).Contents (Elt Ideal)) (w0 : (⟨S36x128, .f32⟩ : BufTy).Contents (Elt Ideal)) (b0 : (⟨S128, .f32⟩ : BufTy).Contents (Elt Ideal)) (w1 : (⟨S640x512, .f32⟩ : BufTy).Contents (Elt Ideal)) (b1 : (⟨S512, .f32⟩ : BufTy).Contents (Elt Ideal))
    (w2 : (⟨S1536x1024, .f32⟩ : BufTy).Contents (Elt Ideal)) (b2 : (⟨S1024, .f32⟩ : BufTy).Contents (Elt Ideal))
    (hx : ∀ i, IsR (x i)) (hw0 : ∀ i, IsR (w0 i)) (hb0 : ∀ i, IsR (b0 i)) (hw1 : ∀ i, IsR (w1 i)) (hb1 : ∀ i, IsR (b1 i)) :
    refOut (F := Ideal) x w0 b0 w1 b1 w2 b2 = GraphConv.outOf x w0 b0 w1 b1 w2 b2 := by
  have hL : IsLap (laplacian (F := Ideal) x) x := fun g i j => laplacian_apply x hx g i j
  have hy1 := layer6_isR hx hL hx w0 b0 hw0 hb0
  have hy2 := layer128_isR hx hL hy1 w1 b1 hw1 hb1
  have r1 : ∀ g, rowsOf (layer6 (F := Ideal) (laplacian x) x w0 b0) g = _ :=
    fun g => funext fun i => funext fun c => layer6_eq hx hL hx w0 b0 g i c
  have r2 : ∀ g, rowsOf (layer128 (F := Ideal) (laplacian x) (layer6 (laplacian x) x w0 b0) w1 b1) g = _ :=
    fun g => funext fun i => funext fun c => layer128_eq hx hL hy1 w1 b1 g i c
  have key : ∀ (g : Fin 16) (i : Fin 2048) (c : Fin 1024),
      refOut (F := Ideal) x w0 b0 w1 b1 w2 b2 (ix3 g i c) = GraphConv.outOf x w0 b0 w1 b1 w2 b2 (ix3 g i c) := by
    intro g i c
    unfold refOut
    rw [layer512_eq hx hL hy2 w2 b2 g i c, r2, r1]
    rfl
  funext j
  exact (congrArg (refOut (F := Ideal) x w0 b0 w1 b1 w2 b2) (eq_ix3 j)).trans
    ((key (j 0) (j 1) (j 2)).trans (congrArg (GraphConv.outOf x w0 b0 w1 b1 w2 b2) (eq_ix3 j)).symm)

end Cert.ReferenceIdeal.Net

end
-- ==== Proof.KClaim.lean ====
/-
  The certificate's claims assembled from the kernel's run and the reference's run.

  The three frames are the programs' runs with the result dropped.  The idealization removed fifteen round trips
  through the narrower float type, each its rule's statement.  For the value claim: the precondition says that every
  float argument is below `+∞` in absolute value, entry by entry, which over the extended reals means that every
  entry is a real number; then the reference's result is the specification's network of the argument arrays, which
  is also what the kernel's run leaves, the two memories agreeing on the arguments.
-/
import proofs.«175608_j66305705115960_1_alg».proof.Defs
import proofs.«175608_j66305705115960_1_alg».proof.Proof.Gen.Kernel.Frame
import proofs.«175608_j66305705115960_1_alg».proof.Proof.Gen.KernelIdeal.Frame
import proofs.«175608_j66305705115960_1_alg».proof.Proof.Gen.Pre_finite_inputs
import proofs.«175608_j66305705115960_1_alg».proof.Proof.KRun
import proofs.«175608_j66305705115960_1_alg».proof.Proof.RefRun
import proofs.«175608_j66305705115960_1_alg».proof.Proof.RefEq
import Idealize.ShloMosaic.Lib.ReduceAll

noncomputable section

namespace Cert.Proof.Parts

open Idealize.ShloMosaic Idealize.ShloMosaic.TcCoe Idealize.SL.Sem Cert.RealEntries

/-! ## Finite entries are real numbers -/

instance : Subsingleton (⟨0, ![]⟩ : Shape).Idx := ⟨fun a b => funext fun d => d.elim0⟩

/-- The single-precision pattern of `+∞`. -/
theorem inf_word : Ideal.ofBits .f32 0x7F800000#32 = (⊤ : EReal) := by simp [Ideal.ofBits, Ideal.ieee]

/-- An extended real whose absolute value is below `+∞` is a real number. -/
theorem isR_of_lt_inf (x : EReal) (h : Ideal.cmp .olt (max x (-x)) (Ideal.ofBits .f32 0x7F800000#32) = 1#1) : IsR x := by
  rw [inf_word] at h
  induction x using EReal.rec with
  | bot => simp [Ideal.cmp] at h
  | coe r => exact ⟨r, rfl⟩
  | top => simp [Ideal.cmp] at h

/-- An array all of whose entries compare below `+∞` in absolute value has real entries. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (e : Host.reduce IntOp.andi (cmpf .olt (Host.absf x) (broadcastInDim s ![] hb (constant ⟨0, ![]⟩ .f32 0x7F800000#32)))
      (constantI ⟨0, ![]⟩ 1 1#1) hr h0 ValueIdx.ix0 = 1#1) (i : s.Idx) : IsR (x i) := by
  have h1 := Host.reduce_andi_all _ _ hr h0 ValueIdx.ix0 e i
  refine isR_of_lt_inf _ ?_
  rw [← h1]
  show _ = FloatOps.cmpf (F := Ideal) .olt (Host.absf x i) (broadcastInDim s ![] hb (constant (F := Ideal) ⟨0, ![]⟩ .f32 0x7F800000#32) i)
  rw [broadcastInDim_apply _ hb _ i (fun a => a.elim0) (fun a => a.elim0)]
  rfl

/-- Under the precondition the feature array and the first two layers' weights and biases hold real numbers. -/
theorem real_args (m : (ℓ : Loc Cert.KernelIdeal.nD Cert.KernelIdeal.τ Cert.KernelIdeal.sig) → Buf (Elt Ideal) ℓ) (hpre : Cert.Pre_KernelIdeal m) (c : Dev Cert.KernelIdeal.nD) :
    (∀ i, IsR ((m ((c.tc : Thread Cert.KernelIdeal.nD Cert.KernelIdeal.τ).loc Cert.KernelIdeal.main_arg0) : FVec Ideal Cert.KernelIdeal.S16x2048x6 .f32) i))
    ∧ (∀ i, IsR ((m ((c.tc : Thread Cert.KernelIdeal.nD Cert.KernelIdeal.τ).loc Cert.KernelIdeal.main_arg2) : FVec Ideal Cert.KernelIdeal.S36x128 .f32) i))
    ∧ (∀ i, IsR ((m ((c.tc : Thread Cert.KernelIdeal.nD Cert.KernelIdeal.τ).loc Cert.KernelIdeal.main_arg3) : FVec Ideal Cert.KernelIdeal.S128 .f32) i))
    ∧ (∀ i, IsR ((m ((c.tc : Thread Cert.KernelIdeal.nD Cert.KernelIdeal.τ).loc Cert.KernelIdeal.main_arg4) : FVec Ideal Cert.KernelIdeal.S640x512 .f32) i))
    ∧ (∀ i, IsR ((m ((c.tc : Thread Cert.KernelIdeal.nD Cert.KernelIdeal.τ).loc Cert.KernelIdeal.main_arg5) : FVec Ideal Cert.KernelIdeal.S512 .f32) i)) := by
  have h0 := congrFun (hpre c) ValueIdx.ix0
  dsimp only [Cert.Pre_finite_inputs.fn, Cert.Pre_finite_inputs.fn_part1] at h0
  obtain ⟨h28, h32⟩ := IntOp.andi_eq_one.1 h0
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨real_of_all _ _ _ _ h3, real_of_all _ _ _ _ h7, real_of_all _ _ _ _ h12, real_of_all _ _ _ _ h17,
    real_of_all _ _ _ _ h22⟩

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Net.run (F := Ideal) m ρ)

/-- The fifteen removed round trips, each its rule's statement. -/
theorem preserves : Cert.preserves_Kernel_KernelIdeal :=
  ⟨IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16⟩

section
open Cert.KernelIdeal Cert.KernelIdeal.Gen Cert.KernelIdeal.Net in
/-- The two programs end with equal results: the specification's network of the argument arrays. -/
theorem algebraic
    (hbody : ∀ (c : Dev nD) (i : grid0.Coords) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg6 : Memref sig .tc .vmem S1536x1024 .bf16) (harg6 : arg6.IsWhole) (arg7 : Memref sig .tc .vmem S1x1024 .f32) (harg7 : arg7.IsWhole) (arg8 : Memref sig .tc .vmem S1x2048x1024 .bf16) (harg8 : arg8.IsWhole) (arg9 : Memref sig .tc .vmem S2048x2048 .bf16) (harg9 : arg9.IsWhole) (arg10 : Memref sig .tc .vmem S2048x1 .f32) (harg10 : arg10.IsWhole) (arg11 : Memref sig .tc .vmem S2048x1536 .bf16) (harg11 : arg11.IsWhole) (arg12 : Memref sig .tc .vmem S2048x512 .bf16) (harg12 : arg12.IsWhole) (x0 : Vec Ideal S1x2048x6 .f32) (x1 : Vec Ideal S36x128 .bf16) (x2 : Vec Ideal S1x128 .f32) (x3 : Vec Ideal S640x512 .bf16) (x4 : Vec Ideal S1x512 .f32) (x5 : Vec Ideal S1536x1024 .bf16) (x6 : Vec Ideal S1x1024 .f32),
      Gen.out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 = Cert.GraphConv.bodyOut x0 x1 x2 x3 x4 x5 x6) :
    Cert.algebraic_KernelIdeal_ReferenceIdeal := by
  intro m ρ m' ρ' hpre hagree
  refine ⟨fun c => Cert.KernelIdeal.Net.G m c, Cert.KernelIdeal.Net.kernel_run m ρ hbody, ?_⟩
  refine (θ_run Cert.ReferenceIdeal.defs _ _).mono (fun _ h c => ⟨(h c).1.trans ?_, (h c).2⟩)
    (Cert.ReferenceIdeal.Net.run (F := Ideal) m' ρ')
  obtain ⟨a0, a1, a2, a3, a4, a5, a6, a7⟩ := hagree c
  obtain ⟨r0, r2, r3, r4, r5⟩ := real_args m hpre c
  rw [a0, a2, a3, a4, a5, a6, a7]
  exact Cert.ReferenceIdeal.Net.refOut_eq _ _ _ _ _ _ _ r0 r2 r3 r4 r5

open Cert.KernelIdeal Cert.KernelIdeal.Gen Cert.KernelIdeal.Net in
/-- Everything the certificate claims, from the kernel body's value. -/
theorem claim_of_body
    (hbody : ∀ (c : Dev nD) (i : grid0.Coords) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg6 : Memref sig .tc .vmem S1536x1024 .bf16) (harg6 : arg6.IsWhole) (arg7 : Memref sig .tc .vmem S1x1024 .f32) (harg7 : arg7.IsWhole) (arg8 : Memref sig .tc .vmem S1x2048x1024 .bf16) (harg8 : arg8.IsWhole) (arg9 : Memref sig .tc .vmem S2048x2048 .bf16) (harg9 : arg9.IsWhole) (arg10 : Memref sig .tc .vmem S2048x1 .f32) (harg10 : arg10.IsWhole) (arg11 : Memref sig .tc .vmem S2048x1536 .bf16) (harg11 : arg11.IsWhole) (arg12 : Memref sig .tc .vmem S2048x512 .bf16) (harg12 : arg12.IsWhole) (x0 : Vec Ideal S1x2048x6 .f32) (x1 : Vec Ideal S36x128 .bf16) (x2 : Vec Ideal S1x128 .f32) (x3 : Vec Ideal S640x512 .bf16) (x4 : Vec Ideal S1x512 .f32) (x5 : Vec Ideal S1536x1024 .bf16) (x6 : Vec Ideal S1x1024 .f32),
      Gen.out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 = Cert.GraphConv.bodyOut x0 x1 x2 x3 x4 x5 x6) :
    Cert.Claim :=
  ⟨Cert.Kernel.Gen.facts, Cert.KernelIdeal.Gen.facts, Cert.ReferenceIdeal.Gen.facts, Cert.Pre_finite_inputs.Gen.facts,
    frame_k, frame_ki, frame_ri, preserves, algebraic hbody⟩
end

end Cert.Proof.Parts

end
-- ==== Proof.LibColumn.lean ====
/-
  Two layout operations read at an index, for a per-row quantity kept as a column (a sum over the last axis with the
  reduced axis kept as a unit axis): the cast of a vector of `a` entries to an `a`-by-`1` column, and the broadcast of
  such a column across `b` columns. Both are stated over coordinates of literal extents.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to `[a, 1]` reads, at `(i, u)`, the operand at `i`, whatever the unit coordinate `u`: the two
    indices have the same row-major position, `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.KAffinity.lean ====
/-
  A block of 256 rows of the Gaussian affinity, as the kernel computes it, read at an index.

  From the whole feature array `v1` (2048 × 6), its transpose `v2`, the column `v5` of squared row lengths and the row
  `v6` of the same numbers, the block of rows `o … o + 255` is
  `exp (0 - ((v5[o + p] - 2 · ∑ k, v1[o + p, k] · v2[k, q]) + v6[q]))` at `(p, q)`.
-/
import proofs.«175608_j66305705115960_1_alg».proof.Proof.Spec
import proofs.«175608_j66305705115960_1_alg».proof.Proof.LibBlockDot
import proofs.«175608_j66305705115960_1_alg».proof.Proof.LibColumn
import Idealize.ShloMosaic.Lib.ValueLayout

noncomputable section

open scoped BigOperators

namespace Cert.GraphConv

open Idealize.ShloMosaic Idealize.ShloMosaic.ValueIdx

/-- Rows `o … o + 255` of the affinity, in the kernel's operations. -/
def affChunk (o : ℕ) (hs6 : (⟨2, ![2048, 6]⟩ : Shape).Slices ![o, 0] ⟨2, ![256, 6]⟩)
    (hs1 : (⟨2, ![2048, 1]⟩ : Shape).Slices ![o, 0] ⟨2, ![256, 1]⟩)
    (hb1 : (⟨2, ![256, 1]⟩ : Shape).Broadcasts ⟨2, ![256, 2048]⟩) (hb2 : (⟨2, ![1, 2048]⟩ : Shape).Broadcasts ⟨2, ![256, 2048]⟩)
    (v1 : FVec Ideal ⟨2, ![2048, 6]⟩ .f32) (v2 : FVec Ideal ⟨2, ![6, 2048]⟩ .f32)
    (v5 : FVec Ideal ⟨2, ![2048, 1]⟩ .f32) (v6 : FVec Ideal ⟨2, ![1, 2048]⟩ .f32) : FVec Ideal ⟨2, ![256, 2048]⟩ .f32 :=
  exp (subf (broadcast ⟨2, ![256, 2048]⟩ (Scalar.ofBits .f32 0x00000000#32))
    (addf (subf (broadcastTo ⟨2, ![256, 2048]⟩ (extractStridedSlice ⟨2, ![256, 1]⟩ ![o, 0] v5 hs1) hb1)
        (mulf (broadcast ⟨2, ![256, 2048]⟩ (Scalar.ofBits .f32 0x40000000#32))
          (matmul (DotDims.plain 256 6 2048) (some .fp32) (extractStridedSlice ⟨2, ![256, 6]⟩ ![o, 0] v1 hs6) v2
            (constant ⟨2, ![256, 2048]⟩ .f32 0x00000000#32))))
      (broadcastTo ⟨2, ![256, 2048]⟩ v6 hb2)))

theorem affChunk_apply (o : ℕ) (hs6) (hs1) (hb1) (hb2) (v1 : FVec Ideal ⟨2, ![2048, 6]⟩ .f32) (v2 : FVec Ideal ⟨2, ![6, 2048]⟩ .f32)
    (v5 : FVec Ideal ⟨2, ![2048, 1]⟩ .f32) (v6 : FVec Ideal ⟨2, ![1, 2048]⟩ .f32) (p : Fin 256) (q : Fin 2048)
    (r : Fin 2048) (hr : r.val = o + p.val) :
    affChunk o hs6 hs1 hb1 hb2 v1 v2 v5 v6 (ix2 p q)
      = Ideal.exp (zer - ((v5 (ix2 r (0 : Fin 1)) - two * ∑ k : Fin 6, v1 (ix2 r k) * v2 (ix2 k q)) + v6 (ix2 (0 : Fin 1) q))) := by
  unfold affChunk
  show Ideal.exp (_ - ((broadcastTo ⟨2, ![256, 2048]⟩ (extractStridedSlice ⟨2, ![256, 1]⟩ ![o, 0] v5 hs1) hb1 (ix2 p q)
      - _ * matmul (DotDims.plain 256 6 2048) (some .fp32) (extractStridedSlice ⟨2, ![256, 6]⟩ ![o, 0] v1 hs6) v2
            (constant ⟨2, ![256, 2048]⟩ .f32 0x00000000#32) (ix2 p q))
      + broadcastTo ⟨2, ![256, 2048]⟩ v6 hb2 (ix2 p q))) = _
  rw [Idealize.ShloMosaic.ColumnLayout.broadcastTo_a1_ab_apply, broadcastTo_1b_ab_apply, Cert.BlockDot.kdot_apply,
    slice2_axis0_apply o v5 hs1 p (0 : Fin 1) r hr]
  simp only [slice2_axis0_apply o v1 hs6 p _ r hr]
  rfl

/-- The inverse square roots of the row sums of a block of 256 affinity rows, as the kernel computes them. -/
def degChunk (E : FVec Ideal ⟨2, ![256, 2048]⟩ .f32) (hr : (⟨2, ![256, 2048]⟩ : Shape).Reduces [1] ⟨1, ![256]⟩)
    (h1 : (⟨1, ![256]⟩ : Shape).ShapeCasts ⟨2, ![256, 1]⟩) (h2 : (⟨2, ![256, 1]⟩ : Shape).ShapeCasts ⟨2, ![256, 1]⟩) :
    FVec Ideal ⟨2, ![256, 1]⟩ .f32 :=
  shapeCast ⟨2, ![256, 1]⟩ (rsqrt (shapeCast ⟨2, ![256, 1]⟩
    (multiReduction .add [1] ⟨1, ![256]⟩ E 0x00000000#32 hr (.inl rfl) rfl) h1)) h2

/-- A sum over the columns of an `[a, b]` array, read at row `i`. -/
theorem sumCols_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src _ h hφ hacc (ix1 i)).trans ?_
  show ∑ k : Fin b, src (h.lift (ix1 i) k) = _
  refine Finset.sum_congr rfl fun k _ => congrArg src ?_
  funext ax
  apply Fin.ext
  match ax with
  | ⟨0, _⟩ => rfl
  | ⟨1, _⟩ => rfl

theorem degChunk_apply (E : FVec Ideal ⟨2, ![256, 2048]⟩ .f32) (hr) (h1) (h2) (p : Fin 256) (u : Fin 1) :
    degChunk E hr h1 h2 (ix2 p u) = Ideal.rsqrt (∑ q : Fin 2048, E (ix2 p q)) := by
  unfold degChunk
  rw [shapeCast_self]
  show Ideal.rsqrt (shapeCast ⟨2, ![256, 1]⟩ _ h1 (ix2 p u)) = _
  rw [Idealize.ShloMosaic.ColumnLayout.shapeCast_a_a1_apply]
  exact congrArg Ideal.rsqrt (sumCols_apply E hr _ _ p)

end Cert.GraphConv

end
-- ==== Proof.LibPieces.lean ====
/-
  Reading a buffer that was filled piece by piece.

  A buffer written by a list of stores (last store first) holds, at each index, the payload of the first store of the
  list whose rectangle contains the index.  When the most recent stores `L₁` cover an index, the older stores `L₂` do not
  matter there (`canon_append_of_cover`); and when the payloads of `L₁` are all restrictions of one function `G` of the
  buffer's index, the buffer holds `G` at every index `L₁` covers (`canon_prefix`).
-/
import Idealize.ShloMosaic.Lib.Pipeline.Value
import Idealize.ShloMosaic.Lib.ValueIdx

noncomputable section

namespace Cert.Pieces

open Idealize.ShloMosaic

variable {Val : EltTy → Type} [∀ e, Nonempty (Val e)] {S : Shape} {e : EltTy}

/-- At an index the recent stores cover, the older stores are not seen. -/
theorem canon_append_of_cover (L₁ L₂ : List (View.Piece Val S e)) (y : S.Idx) (h : ∃ p ∈ L₁, y ∈ p.1.set) :
    View.canon (L₁ ++ L₂) y = View.canon L₁ y := by
  induction L₁ with
  | nil => obtain ⟨p, hp, _⟩ := h; simp at hp
  | cons p L ih =>
    by_cases hm : y ∈ p.1.set
    · obtain ⟨r, w⟩ := p
      obtain ⟨x, rfl⟩ := r.exists_idx_of_mem hm
      show View.canon (⟨r, w⟩ :: (L ++ L₂)) _ = View.canon (⟨r, w⟩ :: L) _
      rw [show r.idx x = r.emb x from rfl, View.canon_cons_emb, View.canon_cons_emb]
    · show View.canon (p :: (L ++ L₂)) y = View.canon (p :: L) y
      rw [View.canon_cons_of_not_mem _ _ hm, View.canon_cons_of_not_mem _ _ hm]
      refine ih ?_
      obtain ⟨q, hq, hy⟩ := h
      rcases List.mem_cons.mp hq with rfl | hq'
      · exact absurd hy hm
      · exact ⟨q, hq', hy⟩

/-- Recent stores that are all restrictions of one function leave that function wherever they cover. -/
theorem canon_prefix (G : S.Idx → Val e) (L₁ L₂ : List (View.Piece Val S e))
    (hL : ∀ p ∈ L₁, ∀ x : p.1.shape.Idx, p.2 x = G (p.1.emb x)) (y : S.Idx) (hy : ∃ p ∈ L₁, y ∈ p.1.set) :
    View.canon (L₁ ++ L₂) y = G y :=
  (canon_append_of_cover L₁ L₂ y hy).trans (View.canon_apply_of_pieces G L₁ hL y hy)

open Idealize.ShloMosaic.ValueIdx in
/-- A block of rows `o … o + r - 1` of an `[R, N]` buffer: the block's index `(p, q)` is the buffer's `(o + p, q)`. -/
theorem emb_rows {R N r : ℕ} (o : ℕ) (inb : ∀ a, (![o, 0] : Fin 2 → ℕ) a + (![r, N] : Fin 2 → ℕ) a ≤ (⟨2, ![R, N]⟩ : Shape).size a)
    (p : Fin r) (q : Fin N) (i : Fin R) (hi : i.val = o + p.val) :
    (Rect.unit (s := ⟨2, ![R, N]⟩) ![o, 0] ![r, N] inb).emb (ix2 p q) = ix2 i q := by
  funext a
  apply Fin.ext
  match a with
  | ⟨0, _⟩ => show o + 1 * p.val = i.val; omega
  | ⟨1, _⟩ => show 0 + 1 * q.val = q.val; omega

/-- An index whose row lies in `o … o + r - 1` belongs to that block of rows. -/
theorem mem_rows {R N r : ℕ} (o : ℕ) (inb : ∀ a, (![o, 0] : Fin 2 → ℕ) a + (![r, N] : Fin 2 → ℕ) a ≤ (⟨2, ![R, N]⟩ : Shape).size a)
    (y : (⟨2, ![R, N]⟩ : Shape).Idx) (h : o ≤ (y 0).val ∧ (y 0).val < o + r) :
    y ∈ (Rect.unit (s := ⟨2, ![R, N]⟩) ![o, 0] ![r, N] inb).set := by
  rw [Rect.mem_set_unit]
  intro a
  have h1 : (y 1).val < N := (y 1).isLt
  match a with
  | ⟨0, _⟩ => exact h
  | ⟨1, _⟩ => exact ⟨Nat.zero_le _, by show (y 1).val < 0 + N; omega⟩

/-- An index whose row lies outside `o … o + r - 1` does not belong to that block of rows. -/
theorem not_mem_rows {R N r : ℕ} (o : ℕ) (inb : ∀ a, (![o, 0] : Fin 2 → ℕ) a + (![r, N] : Fin 2 → ℕ) a ≤ (⟨2, ![R, N]⟩ : Shape).size a)
    (y : (⟨2, ![R, N]⟩ : Shape).Idx) (h : (y 0).val < o ∨ o + r ≤ (y 0).val) :
    y ∉ (Rect.unit (s := ⟨2, ![R, N]⟩) ![o, 0] ![r, N] inb).set := by
  rw [Rect.mem_set_unit]
  intro hm
  have h0 : o ≤ (y 0).val ∧ (y 0).val < o + r := hm (0 : Fin 2)
  omega

open Idealize.ShloMosaic.ValueIdx in
/-- A store of a block of rows whose payload is the restriction of `G` to those rows agrees with `G`. -/
theorem rows_piece_agree {R N r : ℕ} (G : (⟨2, ![R, N]⟩ : Shape).Idx → Val e) (o : ℕ)
    (inb : ∀ a, (![o, 0] : Fin 2 → ℕ) a + (![r, N] : Fin 2 → ℕ) a ≤ (⟨2, ![R, N]⟩ : Shape).size a)
    (w : (⟨2, ![r, N]⟩ : Shape).Idx → Val e)
    (h : ∀ (p : Fin r) (q : Fin N) (i : Fin R), i.val = o + p.val → w (ix2 p q) = G (ix2 i q)) :
    ∀ x : (⟨2, ![r, N]⟩ : Shape).Idx, w x = G ((Rect.unit (s := ⟨2, ![R, N]⟩) ![o, 0] ![r, N] inb).emb x) := by
  intro x
  obtain ⟨p, q, rfl⟩ : ∃ (p : Fin r) (q : Fin N), x = ix2 p q := ⟨x 0, x 1, eq_ix2 x⟩
  have hlt : o + p.val < R := by
    have h2 : o + r ≤ R := inb (0 : Fin 2)
    have h1 := p.isLt
    omega
  exact (h p q ⟨o + p.val, hlt⟩ rfl).trans (congrArg G (emb_rows o inb p q ⟨o + p.val, hlt⟩ rfl).symm)

open Idealize.ShloMosaic.ValueIdx in
/-- A block `[o₀, o₀ + r) × [o₁, o₁ + n)` of an `[R, N]` buffer: the block's index `(p, q)` is the buffer's `(o₀ + p, o₁ + q)`. -/
theorem emb_block {R N r n : ℕ} (o₀ o₁ : ℕ) (inb : ∀ a, (![o₀, o₁] : Fin 2 → ℕ) a + (![r, n] : Fin 2 → ℕ) a ≤ (⟨2, ![R, N]⟩ : Shape).size a)
    (p : Fin r) (q : Fin n) (i : Fin R) (j : Fin N) (hi : i.val = o₀ + p.val) (hj : j.val = o₁ + q.val) :
    (Rect.unit (s := ⟨2, ![R, N]⟩) ![o₀, o₁] ![r, n] inb).emb (ix2 p q) = ix2 i j := by
  funext a
  apply Fin.ext
  match a with
  | ⟨0, _⟩ => show o₀ + 1 * p.val = i.val; omega
  | ⟨1, _⟩ => show o₁ + 1 * q.val = j.val; omega

/-- An index inside the block belongs to it. -/
theorem mem_block {R N r n : ℕ} (o₀ o₁ : ℕ) (inb : ∀ a, (![o₀, o₁] : Fin 2 → ℕ) a + (![r, n] : Fin 2 → ℕ) a ≤ (⟨2, ![R, N]⟩ : Shape).size a)
    (y : (⟨2, ![R, N]⟩ : Shape).Idx) (h0 : o₀ ≤ (y 0).val ∧ (y 0).val < o₀ + r) (h1 : o₁ ≤ (y 1).val ∧ (y 1).val < o₁ + n) :
    y ∈ (Rect.unit (s := ⟨2, ![R, N]⟩) ![o₀, o₁] ![r, n] inb).set := by
  rw [Rect.mem_set_unit]
  intro a
  match a with
  | ⟨0, _⟩ => exact h0
  | ⟨1, _⟩ => exact h1

/-- An index whose row or column lies outside the block does not belong to it. -/
theorem not_mem_block {R N r n : ℕ} (o₀ o₁ : ℕ) (inb : ∀ a, (![o₀, o₁] : Fin 2 → ℕ) a + (![r, n] : Fin 2 → ℕ) a ≤ (⟨2, ![R, N]⟩ : Shape).size a)
    (y : (⟨2, ![R, N]⟩ : Shape).Idx)
    (h : (y 0).val < o₀ ∨ o₀ + r ≤ (y 0).val ∨ (y 1).val < o₁ ∨ o₁ + n ≤ (y 1).val) :
    y ∉ (Rect.unit (s := ⟨2, ![R, N]⟩) ![o₀, o₁] ![r, n] inb).set := by
  rw [Rect.mem_set_unit]
  intro hm
  have h0 : o₀ ≤ (y 0).val ∧ (y 0).val < o₀ + r := hm (0 : Fin 2)
  have h1 : o₁ ≤ (y 1).val ∧ (y 1).val < o₁ + n := hm (1 : Fin 2)
  omega

open Idealize.ShloMosaic.ValueIdx in
/-- A store of a block whose payload is the restriction of `G` to the block agrees with `G`. -/
theorem block_piece_agree {R N r n : ℕ} (G : (⟨2, ![R, N]⟩ : Shape).Idx → Val e) (o₀ o₁ : ℕ)
    (inb : ∀ a, (![o₀, o₁] : Fin 2 → ℕ) a + (![r, n] : Fin 2 → ℕ) a ≤ (⟨2, ![R, N]⟩ : Shape).size a)
    (w : (⟨2, ![r, n]⟩ : Shape).Idx → Val e)
    (h : ∀ (p : Fin r) (q : Fin n) (i : Fin R) (j : Fin N), i.val = o₀ + p.val → j.val = o₁ + q.val → w (ix2 p q) = G (ix2 i j)) :
    ∀ x : (⟨2, ![r, n]⟩ : Shape).Idx, w x = G ((Rect.unit (s := ⟨2, ![R, N]⟩) ![o₀, o₁] ![r, n] inb).emb x) := by
  intro x
  obtain ⟨p, q, rfl⟩ : ∃ (p : Fin r) (q : Fin n), x = ix2 p q := ⟨x 0, x 1, eq_ix2 x⟩
  have hlt0 : o₀ + p.val < R := by
    have h2 : o₀ + r ≤ R := inb (0 : Fin 2)
    have h1 := p.isLt
    omega
  have hlt1 : o₁ + q.val < N := by
    have h2 : o₁ + n ≤ N := inb (1 : Fin 2)
    have h1 := q.isLt
    omega
  exact (h p q ⟨o₀ + p.val, hlt0⟩ ⟨o₁ + q.val, hlt1⟩ rfl rfl).trans
    (congrArg G (emb_block o₀ o₁ inb p q ⟨o₀ + p.val, hlt0⟩ ⟨o₁ + q.val, hlt1⟩ rfl rfl).symm)

open Idealize.ShloMosaic.ValueIdx in
/-- A load of a block from a buffer filled by the stores `L` reads, at `(p, q)`, what the stores left at `(o₀ + p, o₁ + q)`. -/
theorem readCov_block {sig : RefSig} {κ : Kind} {sp : Space} {R N r n : ℕ} (v : View sig κ sp ⟨2, ![R, N]⟩ e)
    (L : List (View.Piece Val ⟨2, ![R, N]⟩ e)) (o₀ o₁ : ℕ)
    (inb : ∀ a, (![o₀, o₁] : Fin 2 → ℕ) a + (![r, n] : Fin 2 → ℕ) a ≤ (⟨2, ![R, N]⟩ : Shape).size a)
    (p : Fin r) (q : Fin n) (i : Fin R) (j : Fin N) (hi : i.val = o₀ + p.val) (hj : j.val = o₁ + q.val) :
    v.readCov L (Rect.unit (s := ⟨2, ![R, N]⟩) ![o₀, o₁] ![r, n] inb).toLoadRect (ix2 p q) = View.canon L (ix2 i j) := by
  rw [View.readCov_eq_canon']
  exact congrArg (View.canon L) (emb_block o₀ o₁ inb p q i j hi hj)

open Idealize.ShloMosaic.ValueIdx in
/-- A list of stores whose last store is a block of rows: inside the block the buffer holds that store's payload,
    elsewhere what the earlier stores left. -/
theorem canon_cons_rows {R N r : ℕ} (o : ℕ)
    (inb : ∀ a, (![o, 0] : Fin 2 → ℕ) a + (![r, N] : Fin 2 → ℕ) a ≤ (⟨2, ![R, N]⟩ : Shape).size a)
    (w : (Rect.unit (s := ⟨2, ![R, N]⟩) ![o, 0] ![r, N] inb).shape.Idx → Val e)
    (L : List (View.Piece Val ⟨2, ![R, N]⟩ e)) (i : Fin R) (q : Fin N) :
    View.canon ((⟨Rect.unit (s := ⟨2, ![R, N]⟩) ![o, 0] ![r, N] inb, w⟩ : View.Piece Val ⟨2, ![R, N]⟩ e) :: L) (ix2 i q)
      = if h : o ≤ i.val ∧ i.val < o + r then w (ix2 (⟨i.val - o, by omega⟩ : Fin r) q) else View.canon L (ix2 i q) := by
  by_cases h : o ≤ i.val ∧ i.val < o + r
  · rw [dif_pos h]
    have he := emb_rows o inb (⟨i.val - o, by omega⟩ : Fin r) q i (by show i.val = o + (i.val - o); omega)
    rw [← he]
    exact View.canon_cons_emb _ w L _
  · rw [dif_neg h]
    exact View.canon_cons_of_not_mem _ L (not_mem_rows o inb (ix2 i q) (by show (i.val < o ∨ o + r ≤ i.val); omega))

open Idealize.ShloMosaic.ValueIdx in
/-- A load of a whole `[R, N]` buffer reads its contents. -/
theorem ld_whole2 {R N : ℕ} (X : (⟨2, ![R, N]⟩ : Shape).Idx → Val e)
    (inb : ∀ a, (![0, 0] : Fin 2 → ℕ) a + (![R, N] : Fin 2 → ℕ) a ≤ (⟨2, ![R, N]⟩ : Shape).size a) (i : Fin R) (j : Fin N) :
    View.ld X (Rect.unit (s := ⟨2, ![R, N]⟩) ![0, 0] ![R, N] inb) (ix2 i j) = X (ix2 i j) :=
  congrArg X (emb_block 0 0 inb i j i j (by omega) (by omega))

open Idealize.ShloMosaic.ValueIdx in
/-- The whole-buffer rectangle places an index at itself. -/
theorem idx_whole2 {R N : ℕ}
    (inb : ∀ a, (![0, 0] : Fin 2 → ℕ) a + (![R, N] : Fin 2 → ℕ) a ≤ (⟨2, ![R, N]⟩ : Shape).size a) (i : Fin R) (j : Fin N) :
    (Rect.unit (s := ⟨2, ![R, N]⟩) ![0, 0] ![R, N] inb).idx (ix2 i j) = ix2 i j :=
  emb_block 0 0 inb i j i j (by omega) (by omega)

/-- The first store of a list covers. -/
theorem cover_head {y : S.Idx} (p : View.Piece Val S e) (L : List (View.Piece Val S e)) (h : y ∈ p.1.set) :
    ∃ q ∈ p :: L, y ∈ q.1.set := ⟨p, List.Mem.head _, h⟩

/-- A later store of a list covers. -/
theorem cover_tail {y : S.Idx} (p : View.Piece Val S e) (L : List (View.Piece Val S e)) (h : ∃ q ∈ L, y ∈ q.1.set) :
    ∃ q ∈ p :: L, y ∈ q.1.set := by
  obtain ⟨q, hq, hy⟩ := h
  exact ⟨q, List.Mem.tail _ hq, hy⟩

/-- Every store of `p :: L` agrees with `G` when `p` does and every store of `L` does. -/
theorem agree_cons (G : S.Idx → Val e) (p : View.Piece Val S e) (L : List (View.Piece Val S e))
    (hp : ∀ x : p.1.shape.Idx, p.2 x = G (p.1.emb x))
    (hL : ∀ q ∈ L, ∀ x : q.1.shape.Idx, q.2 x = G (q.1.emb x)) :
    ∀ q ∈ p :: L, ∀ x : q.1.shape.Idx, q.2 x = G (q.1.emb x) := by
  intro q hq
  rcases List.mem_cons.mp hq with rfl | hq'
  · exact hp
  · exact hL q hq'

/-- No store, nothing to agree. -/
theorem agree_nil (G : S.Idx → Val e) : ∀ q ∈ ([] : List (View.Piece Val S e)), ∀ x : q.1.shape.Idx, q.2 x = G (q.1.emb x) :=
  fun _ hq => absurd hq List.not_mem_nil

end Cert.Pieces

end
-- ==== Proof.KPhase1.lean ====
/-
  The kernel's first phase, read at an index: the feature block, its transpose, the squared row lengths, and the
  blocks of rows of the Gaussian affinity and of the inverse square roots of the degrees.
-/
import proofs.«175608_j66305705115960_1_alg».proof.Proof.Gen.KernelIdeal.Frame
import proofs.«175608_j66305705115960_1_alg».proof.Proof.KAffinity
import proofs.«175608_j66305705115960_1_alg».proof.Proof.LibPieces
import Idealize.ShloMosaic.Lib.ValueLayout
import Idealize.ShloMosaic.Lib.Pipeline.Value

set_option maxRecDepth 16384

noncomputable section

open scoped BigOperators

namespace Cert.KernelIdeal.Net

open Cert.KernelIdeal Cert.KernelIdeal.Gen Cert.GraphConv Idealize.ShloMosaic Idealize.ShloMosaic.ValueIdx
open Idealize.ShloMosaic.ColumnLayout

/-- The node features of the graph in the block: node `i`, feature `f`. -/
def feat (x0 : Vec Ideal S1x2048x6 .f32) : Fin 2048 → Fin 6 → EReal := fun i f => x0 (ix3 (0 : Fin 1) i f)

theorem hz3 : (![0, 0, 0] : Fin 3 → Nat) = fun _ => 0 := funext fun a => by fin_cases a <;> rfl

/-- The block as a 2048 × 6 array. -/
theorem r_apply (c : Dev nD) (arg1 : Memref sig .tc .vmem S1x2048x6 .f32) (harg1 : arg1.IsWhole)
    (x0 : Vec Ideal S1x2048x6 .f32) (i : Fin 2048) (f : Fin 6) :
    kernelRun0_A.sl.r c arg1 harg1 x0 (ix2 i f) = feat x0 i f := by
  unfold kernelRun0_A.sl.r k0_pay3
  simp only [View.readAt_eq_ld, harg1.read_unread, View.ld_unit_zero (S := S1x2048x6) hz3]
  exact shapeCast_1ab_ab_apply x0 _ i f

/-- Its transpose. -/
theorem r_1_apply (c : Dev nD) (arg1 : Memref sig .tc .vmem S1x2048x6 .f32) (harg1 : arg1.IsWhole)
    (x0 : Vec Ideal S1x2048x6 .f32) (f : Fin 6) (i : Fin 2048) :
    kernelRun0_A.sl.r_1 c arg1 harg1 x0 (ix2 f i) = feat x0 i f := by
  unfold kernelRun0_A.sl.r_1 k0_pay4 k0_pay3
  simp only [View.readAt_eq_ld, harg1.read_unread, View.ld_unit_zero (S := S1x2048x6) hz3]
  refine (transpose_ix2_apply _ _ f i).trans ?_
  exact shapeCast_1ab_ab_apply x0 _ i f

/-- The column of squared row lengths. -/
theorem r_2_apply (c : Dev nD) (arg1 : Memref sig .tc .vmem S1x2048x6 .f32) (harg1 : arg1.IsWhole)
    (x0 : Vec Ideal S1x2048x6 .f32) (i : Fin 2048) (u : Fin 1) :
    kernelRun0_A.sl.r_2 c arg1 harg1 x0 (ix2 i u) = sq (feat x0) i := by
  unfold kernelRun0_A.sl.r_2 k0_pay5 k0_pay3
  simp only [View.readAt_eq_ld, harg1.read_unread, View.ld_unit_zero (S := S1x2048x6) hz3]
  refine (shapeCast_a_a1_apply _ _ i u).trans ?_
  refine (sumCols_apply _ _ _ _ i).trans ?_
  refine Finset.sum_congr rfl fun k _ => ?_
  show shapeCast S2048x6 x0 _ (ix2 i k) * shapeCast S2048x6 x0 _ (ix2 i k) = _
  rw [shapeCast_1ab_ab_apply x0 _ i k]
  rfl

/-- The row of squared row lengths. -/
theorem r_3_apply (c : Dev nD) (arg1 : Memref sig .tc .vmem S1x2048x6 .f32) (harg1 : arg1.IsWhole)
    (x0 : Vec Ideal S1x2048x6 .f32) (u : Fin 1) (j : Fin 2048) :
    kernelRun0_A.sl.r_3 c arg1 harg1 x0 (ix2 u j) = sq (feat x0) j := by
  have h := r_2_apply c arg1 harg1 x0 j u
  unfold kernelRun0_A.sl.r_2 at h
  unfold kernelRun0_A.sl.r_3 k0_pay6
  exact (transpose_ix2_apply _ _ u j).trans h

/-- A block of affinity rows computed from the block's own arrays is the affinity of the node features. -/
theorem affChunk_feat (c : Dev nD) (arg1 : Memref sig .tc .vmem S1x2048x6 .f32) (harg1 : arg1.IsWhole) (x0 : Vec Ideal S1x2048x6 .f32) (o : ℕ) (hs6) (hs1) (hb1) (hb2) (p : Fin 256) (q : Fin 2048) (r : Fin 2048) (hr : r.val = o + p.val) :
    affChunk o hs6 hs1 hb1 hb2 (kernelRun0_A.sl.r c arg1 harg1 x0) (kernelRun0_A.sl.r_1 c arg1 harg1 x0) (kernelRun0_A.sl.r_2 c arg1 harg1 x0) (kernelRun0_A.sl.r_3 c arg1 harg1 x0) (ix2 p q) = aff (feat x0) r q := by
  rw [affChunk_apply o hs6 hs1 hb1 hb2 _ _ _ _ p q r hr, r_2_apply, r_3_apply]
  simp only [r_apply, r_1_apply]
  rfl

/-- Rows 0 … 255 of the affinity. -/
theorem aff0_apply (c : Dev nD) (arg1 : Memref sig .tc .vmem S1x2048x6 .f32) (harg1 : arg1.IsWhole) (x0 : Vec Ideal S1x2048x6 .f32) (p : Fin 256) (q : Fin 2048) (r : Fin 2048) (hr : r.val = 0 + p.val) :
    (k0_pay7 (View.readAt (Elt Ideal) arg1.view (Rect.unit ![0, 0, 0] S1x2048x6.size inb_S1x2048x6_S1x2048x6_0_0_0).toLoadRect (harg1.unread x0))) (ix2 p q) = aff (feat x0) r q :=
  (congrFun (show (k0_pay7 (View.readAt (Elt Ideal) arg1.view (Rect.unit ![0, 0, 0] S1x2048x6.size inb_S1x2048x6_S1x2048x6_0_0_0).toLoadRect (harg1.unread x0))) = affChunk 0 slices_S2048x6_o0_0_S256x6 slices_S2048x1_o0_0_S256x1 broadcasts_S256x1_S256x2048 broadcasts_S1x2048_S256x2048 (kernelRun0_A.sl.r c arg1 harg1 x0) (kernelRun0_A.sl.r_1 c arg1 harg1 x0) (kernelRun0_A.sl.r_2 c arg1 harg1 x0) (kernelRun0_A.sl.r_3 c arg1 harg1 x0) from rfl) (ix2 p q)).trans
    (affChunk_feat c arg1 harg1 x0 0 _ _ _ _ p q r hr)

/-- Rows 256 … 511 of the affinity. -/
theorem aff1_apply (c : Dev nD) (arg1 : Memref sig .tc .vmem S1x2048x6 .f32) (harg1 : arg1.IsWhole) (x0 : Vec Ideal S1x2048x6 .f32) (p : Fin 256) (q : Fin 2048) (r : Fin 2048) (hr : r.val = 256 + p.val) :
    (kernelRun0_A.sl.r_4 c arg1 harg1 x0) (ix2 p q) = aff (feat x0) r q :=
  (congrFun (show (kernelRun0_A.sl.r_4 c arg1 harg1 x0) = affChunk 256 slices_S2048x6_o256_0_S256x6 slices_S2048x1_o256_0_S256x1 broadcasts_S256x1_S256x2048 broadcasts_S1x2048_S256x2048 (kernelRun0_A.sl.r c arg1 harg1 x0) (kernelRun0_A.sl.r_1 c arg1 harg1 x0) (kernelRun0_A.sl.r_2 c arg1 harg1 x0) (kernelRun0_A.sl.r_3 c arg1 harg1 x0) from rfl) (ix2 p q)).trans
    (affChunk_feat c arg1 harg1 x0 256 _ _ _ _ p q r hr)

/-- Rows 512 … 767 of the affinity. -/
theorem aff2_apply (c : Dev nD) (arg1 : Memref sig .tc .vmem S1x2048x6 .f32) (harg1 : arg1.IsWhole) (x0 : Vec Ideal S1x2048x6 .f32) (p : Fin 256) (q : Fin 2048) (r : Fin 2048) (hr : r.val = 512 + p.val) :
    (k0_pay14 (kernelRun0_A.sl.r c arg1 harg1 x0) (kernelRun0_A.sl.r_1 c arg1 harg1 x0) (kernelRun0_A.sl.r_2 c arg1 harg1 x0) (kernelRun0_A.sl.r_3 c arg1 harg1 x0)) (ix2 p q) = aff (feat x0) r q :=
  (congrFun (show (k0_pay14 (kernelRun0_A.sl.r c arg1 harg1 x0) (kernelRun0_A.sl.r_1 c arg1 harg1 x0) (kernelRun0_A.sl.r_2 c arg1 harg1 x0) (kernelRun0_A.sl.r_3 c arg1 harg1 x0)) = affChunk 512 slices_S2048x6_o512_0_S256x6 slices_S2048x1_o512_0_S256x1 broadcasts_S256x1_S256x2048 broadcasts_S1x2048_S256x2048 (kernelRun0_A.sl.r c arg1 harg1 x0) (kernelRun0_A.sl.r_1 c arg1 harg1 x0) (kernelRun0_A.sl.r_2 c arg1 harg1 x0) (kernelRun0_A.sl.r_3 c arg1 harg1 x0) from rfl) (ix2 p q)).trans
    (affChunk_feat c arg1 harg1 x0 512 _ _ _ _ p q r hr)

/-- Rows 768 … 1023 of the affinity. -/
theorem aff3_apply (c : Dev nD) (arg1 : Memref sig .tc .vmem S1x2048x6 .f32) (harg1 : arg1.IsWhole) (x0 : Vec Ideal S1x2048x6 .f32) (p : Fin 256) (q : Fin 2048) (r : Fin 2048) (hr : r.val = 768 + p.val) :
    (k0_pay18 (kernelRun0_A.sl.r_6 c arg1 harg1 x0) kernelRun0_A.sl.cst_26) (ix2 p q) = aff (feat x0) r q :=
  (congrFun (show (k0_pay18 (kernelRun0_A.sl.r_6 c arg1 harg1 x0) kernelRun0_A.sl.cst_26) = affChunk 768 slices_S2048x6_o768_0_S256x6 slices_S2048x1_o768_0_S256x1 broadcasts_S256x1_S256x2048 broadcasts_S1x2048_S256x2048 (kernelRun0_A.sl.r c arg1 harg1 x0) (kernelRun0_A.sl.r_1 c arg1 harg1 x0) (kernelRun0_A.sl.r_2 c arg1 harg1 x0) (kernelRun0_A.sl.r_3 c arg1 harg1 x0) from rfl) (ix2 p q)).trans
    (affChunk_feat c arg1 harg1 x0 768 _ _ _ _ p q r hr)

/-- Rows 1024 … 1279 of the affinity. -/
theorem aff4_apply (c : Dev nD) (arg1 : Memref sig .tc .vmem S1x2048x6 .f32) (harg1 : arg1.IsWhole) (x0 : Vec Ideal S1x2048x6 .f32) (p : Fin 256) (q : Fin 2048) (r : Fin 2048) (hr : r.val = 1024 + p.val) :
    (k0_pay21 (kernelRun0_A.sl.r c arg1 harg1 x0) (kernelRun0_A.sl.r_1 c arg1 harg1 x0) (kernelRun0_A.sl.r_2 c arg1 harg1 x0) (kernelRun0_A.sl.r_3 c arg1 harg1 x0)) (ix2 p q) = aff (feat x0) r q :=
  (congrFun (show (k0_pay21 (kernelRun0_A.sl.r c arg1 harg1 x0) (kernelRun0_A.sl.r_1 c arg1 harg1 x0) (kernelRun0_A.sl.r_2 c arg1 harg1 x0) (kernelRun0_A.sl.r_3 c arg1 harg1 x0)) = affChunk 1024 slices_S2048x6_o1024_0_S256x6 slices_S2048x1_o1024_0_S256x1 broadcasts_S256x1_S256x2048 broadcasts_S1x2048_S256x2048 (kernelRun0_A.sl.r c arg1 harg1 x0) (kernelRun0_A.sl.r_1 c arg1 harg1 x0) (kernelRun0_A.sl.r_2 c arg1 harg1 x0) (kernelRun0_A.sl.r_3 c arg1 harg1 x0) from rfl) (ix2 p q)).trans
    (affChunk_feat c arg1 harg1 x0 1024 _ _ _ _ p q r hr)

/-- Rows 1280 … 1535 of the affinity. -/
theorem aff5_apply (c : Dev nD) (arg1 : Memref sig .tc .vmem S1x2048x6 .f32) (harg1 : arg1.IsWhole) (x0 : Vec Ideal S1x2048x6 .f32) (p : Fin 256) (q : Fin 2048) (r : Fin 2048) (hr : r.val = 1280 + p.val) :
    (k0_pay26 (kernelRun0_A.sl.r_3 c arg1 harg1 x0) (kernelRun0_A.sl.r_7 c arg1 harg1 x0) (kernelRun0_A.sl.r_8 c arg1 harg1 x0)) (ix2 p q) = aff (feat x0) r q :=
  (congrFun (show (k0_pay26 (kernelRun0_A.sl.r_3 c arg1 harg1 x0) (kernelRun0_A.sl.r_7 c arg1 harg1 x0) (kernelRun0_A.sl.r_8 c arg1 harg1 x0)) = affChunk 1280 slices_S2048x6_o1280_0_S256x6 slices_S2048x1_o1280_0_S256x1 broadcasts_S256x1_S256x2048 broadcasts_S1x2048_S256x2048 (kernelRun0_A.sl.r c arg1 harg1 x0) (kernelRun0_A.sl.r_1 c arg1 harg1 x0) (kernelRun0_A.sl.r_2 c arg1 harg1 x0) (kernelRun0_A.sl.r_3 c arg1 harg1 x0) from rfl) (ix2 p q)).trans
    (affChunk_feat c arg1 harg1 x0 1280 _ _ _ _ p q r hr)

/-- Rows 1536 … 1791 of the affinity. -/
theorem aff6_apply (c : Dev nD) (arg1 : Memref sig .tc .vmem S1x2048x6 .f32) (harg1 : arg1.IsWhole) (x0 : Vec Ideal S1x2048x6 .f32) (p : Fin 256) (q : Fin 2048) (r : Fin 2048) (hr : r.val = 1536 + p.val) :
    (k0_pay29 (kernelRun0_A.sl.r c arg1 harg1 x0) (kernelRun0_A.sl.r_1 c arg1 harg1 x0) (kernelRun0_A.sl.r_2 c arg1 harg1 x0) (kernelRun0_A.sl.r_3 c arg1 harg1 x0)) (ix2 p q) = aff (feat x0) r q :=
  (congrFun (show (k0_pay29 (kernelRun0_A.sl.r c arg1 harg1 x0) (kernelRun0_A.sl.r_1 c arg1 harg1 x0) (kernelRun0_A.sl.r_2 c arg1 harg1 x0) (kernelRun0_A.sl.r_3 c arg1 harg1 x0)) = affChunk 1536 slices_S2048x6_o1536_0_S256x6 slices_S2048x1_o1536_0_S256x1 broadcasts_S256x1_S256x2048 broadcasts_S1x2048_S256x2048 (kernelRun0_A.sl.r c arg1 harg1 x0) (kernelRun0_A.sl.r_1 c arg1 harg1 x0) (kernelRun0_A.sl.r_2 c arg1 harg1 x0) (kernelRun0_A.sl.r_3 c arg1 harg1 x0) from rfl) (ix2 p q)).trans
    (affChunk_feat c arg1 harg1 x0 1536 _ _ _ _ p q r hr)

/-- Rows 1792 … 2047 of the affinity. -/
theorem aff7_apply (c : Dev nD) (arg1 : Memref sig .tc .vmem S1x2048x6 .f32) (harg1 : arg1.IsWhole) (x0 : Vec Ideal S1x2048x6 .f32) (p : Fin 256) (q : Fin 2048) (r : Fin 2048) (hr : r.val = 1792 + p.val) :
    (k0_pay34 (kernelRun0_A.sl.r_3 c arg1 harg1 x0) (kernelRun0_A.sl.r_9 c arg1 harg1 x0) (kernelRun0_A.sl.r_10 c arg1 harg1 x0)) (ix2 p q) = aff (feat x0) r q :=
  (congrFun (show (k0_pay34 (kernelRun0_A.sl.r_3 c arg1 harg1 x0) (kernelRun0_A.sl.r_9 c arg1 harg1 x0) (kernelRun0_A.sl.r_10 c arg1 harg1 x0)) = affChunk 1792 slices_S2048x6_o1792_0_S256x6 slices_S2048x1_o1792_0_S256x1 broadcasts_S256x1_S256x2048 broadcasts_S1x2048_S256x2048 (kernelRun0_A.sl.r c arg1 harg1 x0) (kernelRun0_A.sl.r_1 c arg1 harg1 x0) (kernelRun0_A.sl.r_2 c arg1 harg1 x0) (kernelRun0_A.sl.r_3 c arg1 harg1 x0) from rfl) (ix2 p q)).trans
    (affChunk_feat c arg1 harg1 x0 1792 _ _ _ _ p q r hr)

/-- Rows 0 … 255 of the inverse square roots of the degrees. -/
theorem deg0_apply (c : Dev nD) (arg1 : Memref sig .tc .vmem S1x2048x6 .f32) (harg1 : arg1.IsWhole) (x0 : Vec Ideal S1x2048x6 .f32) (p : Fin 256) (u : Fin 1) (r : Fin 2048) (hr : r.val = 0 + p.val) :
    (k0_pay9 (View.readAt (Elt Ideal) arg1.view (Rect.unit ![0, 0, 0] S1x2048x6.size inb_S1x2048x6_S1x2048x6_0_0_0).toLoadRect (harg1.unread x0))) (ix2 p u) = deg (feat x0) r :=
  (congrFun (show (k0_pay9 (View.readAt (Elt Ideal) arg1.view (Rect.unit ![0, 0, 0] S1x2048x6.size inb_S1x2048x6_S1x2048x6_0_0_0).toLoadRect (harg1.unread x0))) = degChunk (k0_pay7 (View.readAt (Elt Ideal) arg1.view (Rect.unit ![0, 0, 0] S1x2048x6.size inb_S1x2048x6_S1x2048x6_0_0_0).toLoadRect (harg1.unread x0))) reduces_S256x2048_S256 shapeCasts_S256_S256x1 shapeCasts_S256x1_S256x1 from rfl) (ix2 p u)).trans
    ((degChunk_apply _ _ _ _ p u).trans (congrArg Ideal.rsqrt (Finset.sum_congr rfl fun q _ => aff0_apply c arg1 harg1 x0 p q r hr)))

/-- Rows 0 … 255 of the affinity as stored. -/
theorem apiece0_apply (c : Dev nD) (arg1 : Memref sig .tc .vmem S1x2048x6 .f32) (harg1 : arg1.IsWhole) (x0 : Vec Ideal S1x2048x6 .f32) (p : Fin 256) (q : Fin 2048) (r : Fin 2048) (hr : r.val = 0 + p.val) :
    (k0_pay8 (View.readAt (Elt Ideal) arg1.view (Rect.unit ![0, 0, 0] S1x2048x6.size inb_S1x2048x6_S1x2048x6_0_0_0).toLoadRect (harg1.unread x0))) (ix2 p q) = aff (feat x0) r q :=
  (congrFun (show (k0_pay8 (View.readAt (Elt Ideal) arg1.view (Rect.unit ![0, 0, 0] S1x2048x6.size inb_S1x2048x6_S1x2048x6_0_0_0).toLoadRect (harg1.unread x0))) = shapeCast S256x2048 (truncf .bf16 (k0_pay7 (View.readAt (Elt Ideal) arg1.view (Rect.unit ![0, 0, 0] S1x2048x6.size inb_S1x2048x6_S1x2048x6_0_0_0).toLoadRect (harg1.unread x0))) bitsLt_bf16_f32) shapeCasts_S256x2048_S256x2048 from rfl) (ix2 p q)).trans
    ((congrFun (shapeCast_self _ _) (ix2 p q)).trans (aff0_apply c arg1 harg1 x0 p q r hr))

/-- Rows 256 … 511 of the inverse square roots of the degrees. -/
theorem deg1_apply (c : Dev nD) (arg1 : Memref sig .tc .vmem S1x2048x6 .f32) (harg1 : arg1.IsWhole) (x0 : Vec Ideal S1x2048x6 .f32) (p : Fin 256) (u : Fin 1) (r : Fin 2048) (hr : r.val = 256 + p.val) :
    (k0_pay13 (kernelRun0_A.sl.r_4 c arg1 harg1 x0)) (ix2 p u) = deg (feat x0) r :=
  (congrFun (show (k0_pay13 (kernelRun0_A.sl.r_4 c arg1 harg1 x0)) = degChunk (kernelRun0_A.sl.r_4 c arg1 harg1 x0) reduces_S256x2048_S256 shapeCasts_S256_S256x1 shapeCasts_S256x1_S256x1 from rfl) (ix2 p u)).trans
    ((degChunk_apply _ _ _ _ p u).trans (congrArg Ideal.rsqrt (Finset.sum_congr rfl fun q _ => aff1_apply c arg1 harg1 x0 p q r hr)))

/-- Rows 256 … 511 of the affinity as stored. -/
theorem apiece1_apply (c : Dev nD) (arg1 : Memref sig .tc .vmem S1x2048x6 .f32) (harg1 : arg1.IsWhole) (x0 : Vec Ideal S1x2048x6 .f32) (p : Fin 256) (q : Fin 2048) (r : Fin 2048) (hr : r.val = 256 + p.val) :
    (k0_pay12 (kernelRun0_A.sl.r_5 c arg1 harg1 x0)) (ix2 p q) = aff (feat x0) r q :=
  (congrFun (show (k0_pay12 (kernelRun0_A.sl.r_5 c arg1 harg1 x0)) = shapeCast S256x2048 (truncf .bf16 (kernelRun0_A.sl.r_4 c arg1 harg1 x0) bitsLt_bf16_f32) shapeCasts_S256x2048_S256x2048 from rfl) (ix2 p q)).trans
    ((congrFun (shapeCast_self _ _) (ix2 p q)).trans (aff1_apply c arg1 harg1 x0 p q r hr))

/-- Rows 512 … 767 of the inverse square roots of the degrees. -/
theorem deg2_apply (c : Dev nD) (arg1 : Memref sig .tc .vmem S1x2048x6 .f32) (harg1 : arg1.IsWhole) (x0 : Vec Ideal S1x2048x6 .f32) (p : Fin 256) (u : Fin 1) (r : Fin 2048) (hr : r.val = 512 + p.val) :
    (k0_pay16 (kernelRun0_A.sl.r c arg1 harg1 x0) (kernelRun0_A.sl.r_1 c arg1 harg1 x0) (kernelRun0_A.sl.r_2 c arg1 harg1 x0) (kernelRun0_A.sl.r_3 c arg1 harg1 x0)) (ix2 p u) = deg (feat x0) r :=
  (congrFun (show (k0_pay16 (kernelRun0_A.sl.r c arg1 harg1 x0) (kernelRun0_A.sl.r_1 c arg1 harg1 x0) (kernelRun0_A.sl.r_2 c arg1 harg1 x0) (kernelRun0_A.sl.r_3 c arg1 harg1 x0)) = degChunk (k0_pay14 (kernelRun0_A.sl.r c arg1 harg1 x0) (kernelRun0_A.sl.r_1 c arg1 harg1 x0) (kernelRun0_A.sl.r_2 c arg1 harg1 x0) (kernelRun0_A.sl.r_3 c arg1 harg1 x0)) reduces_S256x2048_S256 shapeCasts_S256_S256x1 shapeCasts_S256x1_S256x1 from rfl) (ix2 p u)).trans
    ((degChunk_apply _ _ _ _ p u).trans (congrArg Ideal.rsqrt (Finset.sum_congr rfl fun q _ => aff2_apply c arg1 harg1 x0 p q r hr)))

/-- Rows 512 … 767 of the affinity as stored. -/
theorem apiece2_apply (c : Dev nD) (arg1 : Memref sig .tc .vmem S1x2048x6 .f32) (harg1 : arg1.IsWhole) (x0 : Vec Ideal S1x2048x6 .f32) (p : Fin 256) (q : Fin 2048) (r : Fin 2048) (hr : r.val = 512 + p.val) :
    (k0_pay15 (kernelRun0_A.sl.r c arg1 harg1 x0) (kernelRun0_A.sl.r_1 c arg1 harg1 x0) (kernelRun0_A.sl.r_2 c arg1 harg1 x0) (kernelRun0_A.sl.r_3 c arg1 harg1 x0)) (ix2 p q) = aff (feat x0) r q :=
  (congrFun (show (k0_pay15 (kernelRun0_A.sl.r c arg1 harg1 x0) (kernelRun0_A.sl.r_1 c arg1 harg1 x0) (kernelRun0_A.sl.r_2 c arg1 harg1 x0) (kernelRun0_A.sl.r_3 c arg1 harg1 x0)) = shapeCast S256x2048 (truncf .bf16 (k0_pay14 (kernelRun0_A.sl.r c arg1 harg1 x0) (kernelRun0_A.sl.r_1 c arg1 harg1 x0) (kernelRun0_A.sl.r_2 c arg1 harg1 x0) (kernelRun0_A.sl.r_3 c arg1 harg1 x0)) bitsLt_bf16_f32) shapeCasts_S256x2048_S256x2048 from rfl) (ix2 p q)).trans
    ((congrFun (shapeCast_self _ _) (ix2 p q)).trans (aff2_apply c arg1 harg1 x0 p q r hr))

/-- Rows 768 … 1023 of the inverse square roots of the degrees. -/
theorem deg3_apply (c : Dev nD) (arg1 : Memref sig .tc .vmem S1x2048x6 .f32) (harg1 : arg1.IsWhole) (x0 : Vec Ideal S1x2048x6 .f32) (p : Fin 256) (u : Fin 1) (r : Fin 2048) (hr : r.val = 768 + p.val) :
    (k0_pay20 (kernelRun0_A.sl.r_6 c arg1 harg1 x0) kernelRun0_A.sl.cst_26) (ix2 p u) = deg (feat x0) r :=
  (congrFun (show (k0_pay20 (kernelRun0_A.sl.r_6 c arg1 harg1 x0) kernelRun0_A.sl.cst_26) = degChunk (k0_pay18 (kernelRun0_A.sl.r_6 c arg1 harg1 x0) kernelRun0_A.sl.cst_26) reduces_S256x2048_S256 shapeCasts_S256_S256x1 shapeCasts_S256x1_S256x1 from rfl) (ix2 p u)).trans
    ((degChunk_apply _ _ _ _ p u).trans (congrArg Ideal.rsqrt (Finset.sum_congr rfl fun q _ => aff3_apply c arg1 harg1 x0 p q r hr)))

/-- Rows 768 … 1023 of the affinity as stored. -/
theorem apiece3_apply (c : Dev nD) (arg1 : Memref sig .tc .vmem S1x2048x6 .f32) (harg1 : arg1.IsWhole) (x0 : Vec Ideal S1x2048x6 .f32) (p : Fin 256) (q : Fin 2048) (r : Fin 2048) (hr : r.val = 768 + p.val) :
    (k0_pay19 (kernelRun0_A.sl.r_6 c arg1 harg1 x0) kernelRun0_A.sl.cst_26) (ix2 p q) = aff (feat x0) r q :=
  (congrFun (show (k0_pay19 (kernelRun0_A.sl.r_6 c arg1 harg1 x0) kernelRun0_A.sl.cst_26) = shapeCast S256x2048 (truncf .bf16 (k0_pay18 (kernelRun0_A.sl.r_6 c arg1 harg1 x0) kernelRun0_A.sl.cst_26) bitsLt_bf16_f32) shapeCasts_S256x2048_S256x2048 from rfl) (ix2 p q)).trans
    ((congrFun (shapeCast_self _ _) (ix2 p q)).trans (aff3_apply c arg1 harg1 x0 p q r hr))

/-- Rows 1024 … 1279 of the inverse square roots of the degrees. -/
theorem deg4_apply (c : Dev nD) (arg1 : Memref sig .tc .vmem S1x2048x6 .f32) (harg1 : arg1.IsWhole) (x0 : Vec Ideal S1x2048x6 .f32) (p : Fin 256) (u : Fin 1) (r : Fin 2048) (hr : r.val = 1024 + p.val) :
    (k0_pay23 (kernelRun0_A.sl.r c arg1 harg1 x0) (kernelRun0_A.sl.r_1 c arg1 harg1 x0) (kernelRun0_A.sl.r_2 c arg1 harg1 x0) (kernelRun0_A.sl.r_3 c arg1 harg1 x0)) (ix2 p u) = deg (feat x0) r :=
  (congrFun (show (k0_pay23 (kernelRun0_A.sl.r c arg1 harg1 x0) (kernelRun0_A.sl.r_1 c arg1 harg1 x0) (kernelRun0_A.sl.r_2 c arg1 harg1 x0) (kernelRun0_A.sl.r_3 c arg1 harg1 x0)) = degChunk (k0_pay21 (kernelRun0_A.sl.r c arg1 harg1 x0) (kernelRun0_A.sl.r_1 c arg1 harg1 x0) (kernelRun0_A.sl.r_2 c arg1 harg1 x0) (kernelRun0_A.sl.r_3 c arg1 harg1 x0)) reduces_S256x2048_S256 shapeCasts_S256_S256x1 shapeCasts_S256x1_S256x1 from rfl) (ix2 p u)).trans
    ((degChunk_apply _ _ _ _ p u).trans (congrArg Ideal.rsqrt (Finset.sum_congr rfl fun q _ => aff4_apply c arg1 harg1 x0 p q r hr)))

/-- Rows 1024 … 1279 of the affinity as stored. -/
theorem apiece4_apply (c : Dev nD) (arg1 : Memref sig .tc .vmem S1x2048x6 .f32) (harg1 : arg1.IsWhole) (x0 : Vec Ideal S1x2048x6 .f32) (p : Fin 256) (q : Fin 2048) (r : Fin 2048) (hr : r.val = 1024 + p.val) :
    (k0_pay22 (kernelRun0_A.sl.r c arg1 harg1 x0) (kernelRun0_A.sl.r_1 c arg1 harg1 x0) (kernelRun0_A.sl.r_2 c arg1 harg1 x0) (kernelRun0_A.sl.r_3 c arg1 harg1 x0)) (ix2 p q) = aff (feat x0) r q :=
  (congrFun (show (k0_pay22 (kernelRun0_A.sl.r c arg1 harg1 x0) (kernelRun0_A.sl.r_1 c arg1 harg1 x0) (kernelRun0_A.sl.r_2 c arg1 harg1 x0) (kernelRun0_A.sl.r_3 c arg1 harg1 x0)) = shapeCast S256x2048 (truncf .bf16 (k0_pay21 (kernelRun0_A.sl.r c arg1 harg1 x0) (kernelRun0_A.sl.r_1 c arg1 harg1 x0) (kernelRun0_A.sl.r_2 c arg1 harg1 x0) (kernelRun0_A.sl.r_3 c arg1 harg1 x0)) bitsLt_bf16_f32) shapeCasts_S256x2048_S256x2048 from rfl) (ix2 p q)).trans
    ((congrFun (shapeCast_self _ _) (ix2 p q)).trans (aff4_apply c arg1 harg1 x0 p q r hr))

/-- Rows 1280 … 1535 of the inverse square roots of the degrees. -/
theorem deg5_apply (c : Dev nD) (arg1 : Memref sig .tc .vmem S1x2048x6 .f32) (harg1 : arg1.IsWhole) (x0 : Vec Ideal S1x2048x6 .f32) (p : Fin 256) (u : Fin 1) (r : Fin 2048) (hr : r.val = 1280 + p.val) :
    (k0_pay28 (kernelRun0_A.sl.r_3 c arg1 harg1 x0) (kernelRun0_A.sl.r_7 c arg1 harg1 x0) (kernelRun0_A.sl.r_8 c arg1 harg1 x0)) (ix2 p u) = deg (feat x0) r :=
  (congrFun (show (k0_pay28 (kernelRun0_A.sl.r_3 c arg1 harg1 x0) (kernelRun0_A.sl.r_7 c arg1 harg1 x0) (kernelRun0_A.sl.r_8 c arg1 harg1 x0)) = degChunk (k0_pay26 (kernelRun0_A.sl.r_3 c arg1 harg1 x0) (kernelRun0_A.sl.r_7 c arg1 harg1 x0) (kernelRun0_A.sl.r_8 c arg1 harg1 x0)) reduces_S256x2048_S256 shapeCasts_S256_S256x1 shapeCasts_S256x1_S256x1 from rfl) (ix2 p u)).trans
    ((degChunk_apply _ _ _ _ p u).trans (congrArg Ideal.rsqrt (Finset.sum_congr rfl fun q _ => aff5_apply c arg1 harg1 x0 p q r hr)))

/-- Rows 1280 … 1535 of the affinity as stored. -/
theorem apiece5_apply (c : Dev nD) (arg1 : Memref sig .tc .vmem S1x2048x6 .f32) (harg1 : arg1.IsWhole) (x0 : Vec Ideal S1x2048x6 .f32) (p : Fin 256) (q : Fin 2048) (r : Fin 2048) (hr : r.val = 1280 + p.val) :
    (k0_pay27 (kernelRun0_A.sl.r_3 c arg1 harg1 x0) (kernelRun0_A.sl.r_7 c arg1 harg1 x0) (kernelRun0_A.sl.r_8 c arg1 harg1 x0)) (ix2 p q) = aff (feat x0) r q :=
  (congrFun (show (k0_pay27 (kernelRun0_A.sl.r_3 c arg1 harg1 x0) (kernelRun0_A.sl.r_7 c arg1 harg1 x0) (kernelRun0_A.sl.r_8 c arg1 harg1 x0)) = shapeCast S256x2048 (truncf .bf16 (k0_pay26 (kernelRun0_A.sl.r_3 c arg1 harg1 x0) (kernelRun0_A.sl.r_7 c arg1 harg1 x0) (kernelRun0_A.sl.r_8 c arg1 harg1 x0)) bitsLt_bf16_f32) shapeCasts_S256x2048_S256x2048 from rfl) (ix2 p q)).trans
    ((congrFun (shapeCast_self _ _) (ix2 p q)).trans (aff5_apply c arg1 harg1 x0 p q r hr))

/-- Rows 1536 … 1791 of the inverse square roots of the degrees. -/
theorem deg6_apply (c : Dev nD) (arg1 : Memref sig .tc .vmem S1x2048x6 .f32) (harg1 : arg1.IsWhole) (x0 : Vec Ideal S1x2048x6 .f32) (p : Fin 256) (u : Fin 1) (r : Fin 2048) (hr : r.val = 1536 + p.val) :
    (k0_pay31 (kernelRun0_A.sl.r c arg1 harg1 x0) (kernelRun0_A.sl.r_1 c arg1 harg1 x0) (kernelRun0_A.sl.r_2 c arg1 harg1 x0) (kernelRun0_A.sl.r_3 c arg1 harg1 x0)) (ix2 p u) = deg (feat x0) r :=
  (congrFun (show (k0_pay31 (kernelRun0_A.sl.r c arg1 harg1 x0) (kernelRun0_A.sl.r_1 c arg1 harg1 x0) (kernelRun0_A.sl.r_2 c arg1 harg1 x0) (kernelRun0_A.sl.r_3 c arg1 harg1 x0)) = degChunk (k0_pay29 (kernelRun0_A.sl.r c arg1 harg1 x0) (kernelRun0_A.sl.r_1 c arg1 harg1 x0) (kernelRun0_A.sl.r_2 c arg1 harg1 x0) (kernelRun0_A.sl.r_3 c arg1 harg1 x0)) reduces_S256x2048_S256 shapeCasts_S256_S256x1 shapeCasts_S256x1_S256x1 from rfl) (ix2 p u)).trans
    ((degChunk_apply _ _ _ _ p u).trans (congrArg Ideal.rsqrt (Finset.sum_congr rfl fun q _ => aff6_apply c arg1 harg1 x0 p q r hr)))

/-- Rows 1536 … 1791 of the affinity as stored. -/
theorem apiece6_apply (c : Dev nD) (arg1 : Memref sig .tc .vmem S1x2048x6 .f32) (harg1 : arg1.IsWhole) (x0 : Vec Ideal S1x2048x6 .f32) (p : Fin 256) (q : Fin 2048) (r : Fin 2048) (hr : r.val = 1536 + p.val) :
    (k0_pay30 (kernelRun0_A.sl.r c arg1 harg1 x0) (kernelRun0_A.sl.r_1 c arg1 harg1 x0) (kernelRun0_A.sl.r_2 c arg1 harg1 x0) (kernelRun0_A.sl.r_3 c arg1 harg1 x0)) (ix2 p q) = aff (feat x0) r q :=
  (congrFun (show (k0_pay30 (kernelRun0_A.sl.r c arg1 harg1 x0) (kernelRun0_A.sl.r_1 c arg1 harg1 x0) (kernelRun0_A.sl.r_2 c arg1 harg1 x0) (kernelRun0_A.sl.r_3 c arg1 harg1 x0)) = shapeCast S256x2048 (truncf .bf16 (k0_pay29 (kernelRun0_A.sl.r c arg1 harg1 x0) (kernelRun0_A.sl.r_1 c arg1 harg1 x0) (kernelRun0_A.sl.r_2 c arg1 harg1 x0) (kernelRun0_A.sl.r_3 c arg1 harg1 x0)) bitsLt_bf16_f32) shapeCasts_S256x2048_S256x2048 from rfl) (ix2 p q)).trans
    ((congrFun (shapeCast_self _ _) (ix2 p q)).trans (aff6_apply c arg1 harg1 x0 p q r hr))

/-- Rows 1792 … 2047 of the inverse square roots of the degrees. -/
theorem deg7_apply (c : Dev nD) (arg1 : Memref sig .tc .vmem S1x2048x6 .f32) (harg1 : arg1.IsWhole) (x0 : Vec Ideal S1x2048x6 .f32) (p : Fin 256) (u : Fin 1) (r : Fin 2048) (hr : r.val = 1792 + p.val) :
    (k0_pay36 (kernelRun0_A.sl.r_3 c arg1 harg1 x0) (kernelRun0_A.sl.r_9 c arg1 harg1 x0) (kernelRun0_A.sl.r_10 c arg1 harg1 x0)) (ix2 p u) = deg (feat x0) r :=
  (congrFun (show (k0_pay36 (kernelRun0_A.sl.r_3 c arg1 harg1 x0) (kernelRun0_A.sl.r_9 c arg1 harg1 x0) (kernelRun0_A.sl.r_10 c arg1 harg1 x0)) = degChunk (k0_pay34 (kernelRun0_A.sl.r_3 c arg1 harg1 x0) (kernelRun0_A.sl.r_9 c arg1 harg1 x0) (kernelRun0_A.sl.r_10 c arg1 harg1 x0)) reduces_S256x2048_S256 shapeCasts_S256_S256x1 shapeCasts_S256x1_S256x1 from rfl) (ix2 p u)).trans
    ((degChunk_apply _ _ _ _ p u).trans (congrArg Ideal.rsqrt (Finset.sum_congr rfl fun q _ => aff7_apply c arg1 harg1 x0 p q r hr)))

/-- Rows 1792 … 2047 of the affinity as stored. -/
theorem apiece7_apply (c : Dev nD) (arg1 : Memref sig .tc .vmem S1x2048x6 .f32) (harg1 : arg1.IsWhole) (x0 : Vec Ideal S1x2048x6 .f32) (p : Fin 256) (q : Fin 2048) (r : Fin 2048) (hr : r.val = 1792 + p.val) :
    (k0_pay35 (kernelRun0_A.sl.r_3 c arg1 harg1 x0) (kernelRun0_A.sl.r_9 c arg1 harg1 x0) (kernelRun0_A.sl.r_10 c arg1 harg1 x0)) (ix2 p q) = aff (feat x0) r q :=
  (congrFun (show (k0_pay35 (kernelRun0_A.sl.r_3 c arg1 harg1 x0) (kernelRun0_A.sl.r_9 c arg1 harg1 x0) (kernelRun0_A.sl.r_10 c arg1 harg1 x0)) = shapeCast S256x2048 (truncf .bf16 (k0_pay34 (kernelRun0_A.sl.r_3 c arg1 harg1 x0) (kernelRun0_A.sl.r_9 c arg1 harg1 x0) (kernelRun0_A.sl.r_10 c arg1 harg1 x0)) bitsLt_bf16_f32) shapeCasts_S256x2048_S256x2048 from rfl) (ix2 p q)).trans
    ((congrFun (shapeCast_self _ _) (ix2 p q)).trans (aff7_apply c arg1 harg1 x0 p q r hr))

/-- After the first phase the degree buffer holds the inverse square roots of the degrees. -/
theorem degCol_canon (c : Dev nD) (arg1 : Memref sig .tc .vmem S1x2048x6 .f32) (harg1 : arg1.IsWhole) (x0 : Vec Ideal S1x2048x6 .f32) (i : Fin 2048) (q : Fin 1) :
    View.canon (kernelRun0_A.sl.HS1_8 c arg1 harg1 x0) (ix2 i q) = deg (feat x0) i := by
  refine View.canon_apply_of_pieces (Val := Elt Ideal) (S := S2048x1) (e := .f32) (fun y : S2048x1.Idx => deg (feat x0) (y 0)) _ ?_ (ix2 i q) ?_
  · unfold kernelRun0_A.sl.HS1_8
    apply Cert.Pieces.agree_cons (Val := Elt Ideal) (S := S2048x1) (e := .f32) (fun y : S2048x1.Idx => deg (feat x0) (y 0))
    · exact Cert.Pieces.rows_piece_agree (Val := Elt Ideal) (e := .f32) (R := 2048) (N := 1) (r := 256) (fun y : S2048x1.Idx => deg (feat x0) (y 0)) 1792 inb_S2048x1_S256x1_1792_0 _ (fun p q r hr => deg7_apply c arg1 harg1 x0 p q r hr)
    apply Cert.Pieces.agree_cons (Val := Elt Ideal) (S := S2048x1) (e := .f32) (fun y : S2048x1.Idx => deg (feat x0) (y 0))
    · exact Cert.Pieces.rows_piece_agree (Val := Elt Ideal) (e := .f32) (R := 2048) (N := 1) (r := 256) (fun y : S2048x1.Idx => deg (feat x0) (y 0)) 1536 inb_S2048x1_S256x1_1536_0 _ (fun p q r hr => deg6_apply c arg1 harg1 x0 p q r hr)
    apply Cert.Pieces.agree_cons (Val := Elt Ideal) (S := S2048x1) (e := .f32) (fun y : S2048x1.Idx => deg (feat x0) (y 0))
    · exact Cert.Pieces.rows_piece_agree (Val := Elt Ideal) (e := .f32) (R := 2048) (N := 1) (r := 256) (fun y : S2048x1.Idx => deg (feat x0) (y 0)) 1280 inb_S2048x1_S256x1_1280_0 _ (fun p q r hr => deg5_apply c arg1 harg1 x0 p q r hr)
    apply Cert.Pieces.agree_cons (Val := Elt Ideal) (S := S2048x1) (e := .f32) (fun y : S2048x1.Idx => deg (feat x0) (y 0))
    · exact Cert.Pieces.rows_piece_agree (Val := Elt Ideal) (e := .f32) (R := 2048) (N := 1) (r := 256) (fun y : S2048x1.Idx => deg (feat x0) (y 0)) 1024 inb_S2048x1_S256x1_1024_0 _ (fun p q r hr => deg4_apply c arg1 harg1 x0 p q r hr)
    apply Cert.Pieces.agree_cons (Val := Elt Ideal) (S := S2048x1) (e := .f32) (fun y : S2048x1.Idx => deg (feat x0) (y 0))
    · exact Cert.Pieces.rows_piece_agree (Val := Elt Ideal) (e := .f32) (R := 2048) (N := 1) (r := 256) (fun y : S2048x1.Idx => deg (feat x0) (y 0)) 768 inb_S2048x1_S256x1_768_0 _ (fun p q r hr => deg3_apply c arg1 harg1 x0 p q r hr)
    apply Cert.Pieces.agree_cons (Val := Elt Ideal) (S := S2048x1) (e := .f32) (fun y : S2048x1.Idx => deg (feat x0) (y 0))
    · exact Cert.Pieces.rows_piece_agree (Val := Elt Ideal) (e := .f32) (R := 2048) (N := 1) (r := 256) (fun y : S2048x1.Idx => deg (feat x0) (y 0)) 512 inb_S2048x1_S256x1_512_0 _ (fun p q r hr => deg2_apply c arg1 harg1 x0 p q r hr)
    apply Cert.Pieces.agree_cons (Val := Elt Ideal) (S := S2048x1) (e := .f32) (fun y : S2048x1.Idx => deg (feat x0) (y 0))
    · exact Cert.Pieces.rows_piece_agree (Val := Elt Ideal) (e := .f32) (R := 2048) (N := 1) (r := 256) (fun y : S2048x1.Idx => deg (feat x0) (y 0)) 256 inb_S2048x1_S256x1_256_0 _ (fun p q r hr => deg1_apply c arg1 harg1 x0 p q r hr)
    apply Cert.Pieces.agree_cons (Val := Elt Ideal) (S := S2048x1) (e := .f32) (fun y : S2048x1.Idx => deg (feat x0) (y 0))
    · exact Cert.Pieces.rows_piece_agree (Val := Elt Ideal) (e := .f32) (R := 2048) (N := 1) (r := 256) (fun y : S2048x1.Idx => deg (feat x0) (y 0)) 0 inb_S2048x1_S256x1_0_0 _ (fun p q r hr => deg0_apply c arg1 harg1 x0 p q r hr)
    exact fun _ hq => absurd hq List.not_mem_nil
  · unfold kernelRun0_A.sl.HS1_8
    have hi := i.isLt
    rcases (by omega : i.val < 256 ∨ (256 ≤ i.val ∧ i.val < 512) ∨ (512 ≤ i.val ∧ i.val < 768) ∨ (768 ≤ i.val ∧ i.val < 1024) ∨ (1024 ≤ i.val ∧ i.val < 1280) ∨ (1280 ≤ i.val ∧ i.val < 1536) ∨ (1536 ≤ i.val ∧ i.val < 1792) ∨ (1792 ≤ i.val ∧ i.val < 2048)) with h | h | h | h | h | h | h | h
    · exact (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_head (Val := Elt Ideal) _ _ (Cert.Pieces.mem_rows 0 inb_S2048x1_S256x1_0_0 (ix2 i q) ⟨by show 0 ≤ i.val; omega, by show i.val < 0 + 256; omega⟩)))))))))
    · exact (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_head (Val := Elt Ideal) _ _ (Cert.Pieces.mem_rows 256 inb_S2048x1_S256x1_256_0 (ix2 i q) ⟨by show 256 ≤ i.val; omega, by show i.val < 256 + 256; omega⟩))))))))
    · exact (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_head (Val := Elt Ideal) _ _ (Cert.Pieces.mem_rows 512 inb_S2048x1_S256x1_512_0 (ix2 i q) ⟨by show 512 ≤ i.val; omega, by show i.val < 512 + 256; omega⟩)))))))
    · exact (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_head (Val := Elt Ideal) _ _ (Cert.Pieces.mem_rows 768 inb_S2048x1_S256x1_768_0 (ix2 i q) ⟨by show 768 ≤ i.val; omega, by show i.val < 768 + 256; omega⟩))))))
    · exact (Cert.Pieces.cover_tail (Val := Elt Ideal) _ _ (Cert.Pieces.cover_tail (Val := Elt Ideal) _ _ (Cert.Pieces.cover_tail (Val := Elt Ideal) _ _ (Cert.Pieces.cover_head (Val := Elt Ideal) _ _ (Cert.Pieces.mem_rows 1024 inb_S2048x1_S256x1_1024_0 (ix2 i q) ⟨by show 1024 ≤ i.val; omega, by show i.val < 1024 + 256; omega⟩)))))
    · exact (Cert.Pieces.cover_tail (Val := Elt Ideal) _ _ (Cert.Pieces.cover_tail (Val := Elt Ideal) _ _ (Cert.Pieces.cover_head (Val := Elt Ideal) _ _ (Cert.Pieces.mem_rows 1280 inb_S2048x1_S256x1_1280_0 (ix2 i q) ⟨by show 1280 ≤ i.val; omega, by show i.val < 1280 + 256; omega⟩))))
    · exact (Cert.Pieces.cover_tail (Val := Elt Ideal) _ _ (Cert.Pieces.cover_head (Val := Elt Ideal) _ _ (Cert.Pieces.mem_rows 1536 inb_S2048x1_S256x1_1536_0 (ix2 i q) ⟨by show 1536 ≤ i.val; omega, by show i.val < 1536 + 256; omega⟩)))
    · exact (Cert.Pieces.cover_head (Val := Elt Ideal) _ _ (Cert.Pieces.mem_rows 1792 inb_S2048x1_S256x1_1792_0 (ix2 i q) ⟨by show 1792 ≤ i.val; omega, by show i.val < 1792 + 256; omega⟩))

/-- After the first phase the affinity buffer holds the affinity. -/
theorem affBuf_canon (c : Dev nD) (arg1 : Memref sig .tc .vmem S1x2048x6 .f32) (harg1 : arg1.IsWhole) (x0 : Vec Ideal S1x2048x6 .f32) (i : Fin 2048) (q : Fin 2048) :
    View.canon (kernelRun0_A.sl.HS0_8 c arg1 harg1 x0) (ix2 i q) = aff (feat x0) i q := by
  refine View.canon_apply_of_pieces (Val := Elt Ideal) (S := S2048x2048) (e := .bf16) (fun y : S2048x2048.Idx => aff (feat x0) (y 0) (y 1)) _ ?_ (ix2 i q) ?_
  · unfold kernelRun0_A.sl.HS0_8
    apply Cert.Pieces.agree_cons (Val := Elt Ideal) (S := S2048x2048) (e := .bf16) (fun y : S2048x2048.Idx => aff (feat x0) (y 0) (y 1))
    · exact Cert.Pieces.rows_piece_agree (Val := Elt Ideal) (e := .bf16) (R := 2048) (N := 2048) (r := 256) (fun y : S2048x2048.Idx => aff (feat x0) (y 0) (y 1)) 1792 inb_S2048x2048_S256x2048_1792_0 _ (fun p q r hr => apiece7_apply c arg1 harg1 x0 p q r hr)
    apply Cert.Pieces.agree_cons (Val := Elt Ideal) (S := S2048x2048) (e := .bf16) (fun y : S2048x2048.Idx => aff (feat x0) (y 0) (y 1))
    · exact Cert.Pieces.rows_piece_agree (Val := Elt Ideal) (e := .bf16) (R := 2048) (N := 2048) (r := 256) (fun y : S2048x2048.Idx => aff (feat x0) (y 0) (y 1)) 1536 inb_S2048x2048_S256x2048_1536_0 _ (fun p q r hr => apiece6_apply c arg1 harg1 x0 p q r hr)
    apply Cert.Pieces.agree_cons (Val := Elt Ideal) (S := S2048x2048) (e := .bf16) (fun y : S2048x2048.Idx => aff (feat x0) (y 0) (y 1))
    · exact Cert.Pieces.rows_piece_agree (Val := Elt Ideal) (e := .bf16) (R := 2048) (N := 2048) (r := 256) (fun y : S2048x2048.Idx => aff (feat x0) (y 0) (y 1)) 1280 inb_S2048x2048_S256x2048_1280_0 _ (fun p q r hr => apiece5_apply c arg1 harg1 x0 p q r hr)
    apply Cert.Pieces.agree_cons (Val := Elt Ideal) (S := S2048x2048) (e := .bf16) (fun y : S2048x2048.Idx => aff (feat x0) (y 0) (y 1))
    · exact Cert.Pieces.rows_piece_agree (Val := Elt Ideal) (e := .bf16) (R := 2048) (N := 2048) (r := 256) (fun y : S2048x2048.Idx => aff (feat x0) (y 0) (y 1)) 1024 inb_S2048x2048_S256x2048_1024_0 _ (fun p q r hr => apiece4_apply c arg1 harg1 x0 p q r hr)
    apply Cert.Pieces.agree_cons (Val := Elt Ideal) (S := S2048x2048) (e := .bf16) (fun y : S2048x2048.Idx => aff (feat x0) (y 0) (y 1))
    · exact Cert.Pieces.rows_piece_agree (Val := Elt Ideal) (e := .bf16) (R := 2048) (N := 2048) (r := 256) (fun y : S2048x2048.Idx => aff (feat x0) (y 0) (y 1)) 768 inb_S2048x2048_S256x2048_768_0 _ (fun p q r hr => apiece3_apply c arg1 harg1 x0 p q r hr)
    apply Cert.Pieces.agree_cons (Val := Elt Ideal) (S := S2048x2048) (e := .bf16) (fun y : S2048x2048.Idx => aff (feat x0) (y 0) (y 1))
    · exact Cert.Pieces.rows_piece_agree (Val := Elt Ideal) (e := .bf16) (R := 2048) (N := 2048) (r := 256) (fun y : S2048x2048.Idx => aff (feat x0) (y 0) (y 1)) 512 inb_S2048x2048_S256x2048_512_0 _ (fun p q r hr => apiece2_apply c arg1 harg1 x0 p q r hr)
    apply Cert.Pieces.agree_cons (Val := Elt Ideal) (S := S2048x2048) (e := .bf16) (fun y : S2048x2048.Idx => aff (feat x0) (y 0) (y 1))
    · exact Cert.Pieces.rows_piece_agree (Val := Elt Ideal) (e := .bf16) (R := 2048) (N := 2048) (r := 256) (fun y : S2048x2048.Idx => aff (feat x0) (y 0) (y 1)) 256 inb_S2048x2048_S256x2048_256_0 _ (fun p q r hr => apiece1_apply c arg1 harg1 x0 p q r hr)
    apply Cert.Pieces.agree_cons (Val := Elt Ideal) (S := S2048x2048) (e := .bf16) (fun y : S2048x2048.Idx => aff (feat x0) (y 0) (y 1))
    · exact Cert.Pieces.rows_piece_agree (Val := Elt Ideal) (e := .bf16) (R := 2048) (N := 2048) (r := 256) (fun y : S2048x2048.Idx => aff (feat x0) (y 0) (y 1)) 0 inb_S2048x2048_S256x2048_0_0 _ (fun p q r hr => apiece0_apply c arg1 harg1 x0 p q r hr)
    exact fun _ hq => absurd hq List.not_mem_nil
  · unfold kernelRun0_A.sl.HS0_8
    have hi := i.isLt
    rcases (by omega : i.val < 256 ∨ (256 ≤ i.val ∧ i.val < 512) ∨ (512 ≤ i.val ∧ i.val < 768) ∨ (768 ≤ i.val ∧ i.val < 1024) ∨ (1024 ≤ i.val ∧ i.val < 1280) ∨ (1280 ≤ i.val ∧ i.val < 1536) ∨ (1536 ≤ i.val ∧ i.val < 1792) ∨ (1792 ≤ i.val ∧ i.val < 2048)) with h | h | h | h | h | h | h | h
    · exact (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_head (Val := Elt Ideal) _ _ (Cert.Pieces.mem_rows 0 inb_S2048x2048_S256x2048_0_0 (ix2 i q) ⟨by show 0 ≤ i.val; omega, by show i.val < 0 + 256; omega⟩)))))))))
    · exact (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_head (Val := Elt Ideal) _ _ (Cert.Pieces.mem_rows 256 inb_S2048x2048_S256x2048_256_0 (ix2 i q) ⟨by show 256 ≤ i.val; omega, by show i.val < 256 + 256; omega⟩))))))))
    · exact (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_head (Val := Elt Ideal) _ _ (Cert.Pieces.mem_rows 512 inb_S2048x2048_S256x2048_512_0 (ix2 i q) ⟨by show 512 ≤ i.val; omega, by show i.val < 512 + 256; omega⟩)))))))
    · exact (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_head (Val := Elt Ideal) _ _ (Cert.Pieces.mem_rows 768 inb_S2048x2048_S256x2048_768_0 (ix2 i q) ⟨by show 768 ≤ i.val; omega, by show i.val < 768 + 256; omega⟩))))))
    · exact (Cert.Pieces.cover_tail (Val := Elt Ideal) _ _ (Cert.Pieces.cover_tail (Val := Elt Ideal) _ _ (Cert.Pieces.cover_tail (Val := Elt Ideal) _ _ (Cert.Pieces.cover_head (Val := Elt Ideal) _ _ (Cert.Pieces.mem_rows 1024 inb_S2048x2048_S256x2048_1024_0 (ix2 i q) ⟨by show 1024 ≤ i.val; omega, by show i.val < 1024 + 256; omega⟩)))))
    · exact (Cert.Pieces.cover_tail (Val := Elt Ideal) _ _ (Cert.Pieces.cover_tail (Val := Elt Ideal) _ _ (Cert.Pieces.cover_head (Val := Elt Ideal) _ _ (Cert.Pieces.mem_rows 1280 inb_S2048x2048_S256x2048_1280_0 (ix2 i q) ⟨by show 1280 ≤ i.val; omega, by show i.val < 1280 + 256; omega⟩))))
    · exact (Cert.Pieces.cover_tail (Val := Elt Ideal) _ _ (Cert.Pieces.cover_head (Val := Elt Ideal) _ _ (Cert.Pieces.mem_rows 1536 inb_S2048x2048_S256x2048_1536_0 (ix2 i q) ⟨by show 1536 ≤ i.val; omega, by show i.val < 1536 + 256; omega⟩)))
    · exact (Cert.Pieces.cover_head (Val := Elt Ideal) _ _ (Cert.Pieces.mem_rows 1792 inb_S2048x2048_S256x2048_1792_0 (ix2 i q) ⟨by show 1792 ≤ i.val; omega, by show i.val < 1792 + 256; omega⟩))

end Cert.KernelIdeal.Net

end
-- ==== Proof.KNormalize.lean ====
/-
  A block of 256 rows of the normalised affinity, as the kernel computes it from the stored affinity rows `a`, the
  block's inverse square roots of the degrees `dc` (a column) and all of them as a row `drow`:
  `(dc[p] · a[p, q]) · drow[q]` at `(p, q)`.
-/
import proofs.«175608_j66305705115960_1_alg».proof.Proof.KAffinity

noncomputable section

open scoped BigOperators

namespace Cert.GraphConv

open Idealize.ShloMosaic Idealize.ShloMosaic.ValueIdx

/-- The block of normalised affinity rows, in the kernel's operations. -/
def nadjChunk (a : FVec Ideal ⟨2, ![256, 2048]⟩ .bf16) (dc : FVec Ideal ⟨2, ![256, 1]⟩ .f32)
    (drow : FVec Ideal ⟨2, ![1, 2048]⟩ .f32)
    (hb1 : (⟨2, ![256, 1]⟩ : Shape).Broadcasts ⟨2, ![256, 2048]⟩) (hb2 : (⟨2, ![1, 2048]⟩ : Shape).Broadcasts ⟨2, ![256, 2048]⟩)
    (hsc : (⟨2, ![256, 2048]⟩ : Shape).ShapeCasts ⟨2, ![256, 2048]⟩) (hlt : FTy.bits .bf16 < FTy.bits .f32) :
    FVec Ideal ⟨2, ![256, 2048]⟩ .bf16 :=
  shapeCast ⟨2, ![256, 2048]⟩ (truncf .bf16 (mulf (mulf (broadcastTo ⟨2, ![256, 2048]⟩ dc hb1) (extf .f32 a hlt))
    (broadcastTo ⟨2, ![256, 2048]⟩ drow hb2)) hlt) hsc

theorem nadjChunk_apply (a : FVec Ideal ⟨2, ![256, 2048]⟩ .bf16) (dc : FVec Ideal ⟨2, ![256, 1]⟩ .f32)
    (drow : FVec Ideal ⟨2, ![1, 2048]⟩ .f32) (hb1) (hb2) (hsc) (hlt) (p : Fin 256) (q : Fin 2048) :
    nadjChunk a dc drow hb1 hb2 hsc hlt (ix2 p q) = dc (ix2 p (0 : Fin 1)) * a (ix2 p q) * drow (ix2 (0 : Fin 1) q) := by
  unfold nadjChunk
  rw [shapeCast_self]
  show broadcastTo ⟨2, ![256, 2048]⟩ dc hb1 (ix2 p q) * a (ix2 p q) * broadcastTo ⟨2, ![256, 2048]⟩ drow hb2 (ix2 p q) = _
  rw [Idealize.ShloMosaic.ColumnLayout.broadcastTo_a1_ab_apply, broadcastTo_1b_ab_apply]

end Cert.GraphConv

end
-- ==== Proof.KPhase2.lean ====
/-
  The kernel's second phase, read at an index: the affinity buffer is normalised in place, 256 rows at a time.
  After `c` blocks the buffer holds the normalised affinity on its first `256 · c` rows and the affinity on the rest;
  after all eight it holds the normalised affinity, which every later matrix product reads.
-/
import proofs.«175608_j66305705115960_1_alg».proof.Proof.KPhase1
import proofs.«175608_j66305705115960_1_alg».proof.Proof.KNormalize

set_option maxRecDepth 16384

noncomputable section

open scoped BigOperators

namespace Cert.KernelIdeal.Net

open Cert.KernelIdeal Cert.KernelIdeal.Gen Cert.GraphConv Idealize.ShloMosaic Idealize.ShloMosaic.ValueIdx
open Idealize.ShloMosaic.ColumnLayout

/-- The whole degree buffer read back: the inverse square roots of the degrees. -/
theorem dcol_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (u : Fin 1) :
    (kernelRun0_A.sl.v183 c arg1 harg1 arg10 x0) (ix2 i u) = deg (feat x0) i := by
  unfold kernelRun0_A.sl.v183
  exact (Cert.Pieces.readCov_block (R := 2048) (N := 1) (r := 2048) (n := 1) _ _ 0 0 inb_S2048x1_S2048x1_0_0 i u i u (by omega) (by omega)).trans
    (degCol_canon c arg1 harg1 x0 i u)

/-- The same numbers as a row. -/
theorem drow_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (u : Fin 1) (j : Fin 2048) :
    (kernelRun0_A.sl.r_11 c arg1 harg1 arg10 x0) (ix2 u j) = deg (feat x0) j := by
  unfold kernelRun0_A.sl.r_11 k0_pay37
  exact (transpose_ix2_apply _ _ u j).trans (dcol_apply c arg1 harg1 arg9 arg10 x0 j u)

theorem drow'_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (u : Fin 1) (j : Fin 2048) :
    (k0_pay37 (kernelRun0_A.sl.v183 c arg1 harg1 arg10 x0)) (ix2 u j) = deg (feat x0) j := by
  unfold k0_pay37
  exact (transpose_ix2_apply _ _ u j).trans (dcol_apply c arg1 harg1 arg9 arg10 x0 j u)

theorem abuf0_canon (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (q : Fin 2048) :
    View.canon (kernelRun0_A.sl.HS0_8 c arg1 harg1 x0) (ix2 i q) = aff (feat x0) i q := affBuf_canon c arg1 harg1 x0 i q

/-- Rows 0 … of the degree buffer read back. -/
theorem dchunk0_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (u : Fin 1) (r : Fin 2048) (hr : r.val = 0 + p.val) :
    (kernelRun0_A.sl.v187 c arg1 harg1 arg10 x0) (ix2 p u) = deg (feat x0) r := by
  unfold kernelRun0_A.sl.v187
  exact (Cert.Pieces.readCov_block (R := 2048) (N := 1) (r := 256) (n := 1) _ _ 0 0 inb_S2048x1_S256x1_0_0 p u r u hr (by omega)).trans
    (degCol_canon c arg1 harg1 x0 r u)

/-- Rows 0 … of the affinity buffer read back before they are normalised: still the affinity. -/
theorem achunk0_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (q : Fin 2048) (r : Fin 2048) (hr : r.val = 0 + p.val) :
    (kernelRun0_A.sl.v185 c arg1 harg1 arg9 x0) (ix2 p q) = aff (feat x0) r q := by
  unfold kernelRun0_A.sl.v185
  refine (Cert.Pieces.readCov_block (R := 2048) (N := 2048) (r := 256) (n := 2048) _ _ 0 0 inb_S2048x2048_S256x2048_0_0 p q r q hr (by omega)).trans ?_
  exact abuf0_canon c arg1 harg1 arg9 arg10 x0 r q

/-- Rows 0 … of the normalised affinity as stored. -/
theorem npiece0_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (q : Fin 2048) (r : Fin 2048) (hr : r.val = 0 + p.val) :
    (k0_pay38 (kernelRun0_A.sl.v183 c arg1 harg1 arg10 x0) (kernelRun0_A.sl.v185 c arg1 harg1 arg9 x0) (kernelRun0_A.sl.v187 c arg1 harg1 arg10 x0)) (ix2 p q) = nadj (feat x0) r q := by
  unfold k0_pay38
  refine (congrFun (shapeCast_self _ _) (ix2 p q)).trans ?_
  show broadcastTo S256x2048 (kernelRun0_A.sl.v187 c arg1 harg1 arg10 x0) broadcasts_S256x1_S256x2048 (ix2 p q) * (kernelRun0_A.sl.v185 c arg1 harg1 arg9 x0) (ix2 p q)
      * broadcastTo S256x2048 (k0_pay37 (kernelRun0_A.sl.v183 c arg1 harg1 arg10 x0)) broadcasts_S1x2048_S256x2048 (ix2 p q) = _
  rw [broadcastTo_a1_ab_apply, broadcastTo_1b_ab_apply, dchunk0_apply c arg1 harg1 arg9 arg10 x0 p 0 r hr, achunk0_apply c arg1 harg1 arg9 arg10 x0 p q r hr, drow'_apply c arg1 harg1 arg9 arg10 x0]
  rfl

/-- After 1 block of the second phase. -/
theorem abuf1_canon (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (q : Fin 2048) :
    View.canon (kernelRun0_A.sl.HS0_9 c arg1 harg1 arg9 arg10 x0) (ix2 i q) = (if i.val < 256 then nadj (feat x0) i q else aff (feat x0) i q) := by
  unfold kernelRun0_A.sl.HS0_9
  refine (Cert.Pieces.canon_cons_rows (Val := Elt Ideal) (e := .bf16) (R := 2048) (N := 2048) (r := 256) 0 inb_S2048x2048_S256x2048_0_0 _ _ i q).trans ?_
  by_cases hm : 0 ≤ i.val ∧ i.val < 0 + 256
  · rw [dif_pos hm, if_pos (by omega)]
    exact npiece0_apply c arg1 harg1 arg9 arg10 x0 ⟨i.val - 0, by omega⟩ q i (by show i.val = 0 + (i.val - 0); omega)
  · rw [dif_neg hm, abuf0_canon c arg1 harg1 arg9 arg10 x0 i q]
    rw [if_neg (by omega)]

/-- Rows 256 … of the degree buffer read back. -/
theorem dchunk1_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (u : Fin 1) (r : Fin 2048) (hr : r.val = 256 + p.val) :
    (kernelRun0_A.sl.v198 c arg1 harg1 arg10 x0) (ix2 p u) = deg (feat x0) r := by
  unfold kernelRun0_A.sl.v198
  exact (Cert.Pieces.readCov_block (R := 2048) (N := 1) (r := 256) (n := 1) _ _ 256 0 inb_S2048x1_S256x1_256_0 p u r u hr (by omega)).trans
    (degCol_canon c arg1 harg1 x0 r u)

/-- Rows 256 … of the affinity buffer read back before they are normalised: still the affinity. -/
theorem achunk1_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (q : Fin 2048) (r : Fin 2048) (hr : r.val = 256 + p.val) :
    (kernelRun0_A.sl.v196 c arg1 harg1 arg9 arg10 x0) (ix2 p q) = aff (feat x0) r q := by
  unfold kernelRun0_A.sl.v196
  refine (Cert.Pieces.readCov_block (R := 2048) (N := 2048) (r := 256) (n := 2048) _ _ 256 0 inb_S2048x2048_S256x2048_256_0 p q r q hr (by omega)).trans ?_
  rw [abuf1_canon c arg1 harg1 arg9 arg10 x0 r q, if_neg (by omega)]

/-- Rows 256 … of the normalised affinity as stored. -/
theorem npiece1_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (q : Fin 2048) (r : Fin 2048) (hr : r.val = 256 + p.val) :
    (k0_pay41 (kernelRun0_A.sl.r_12 c arg1 harg1 arg9 arg10 x0) (kernelRun0_A.sl.r_13 c arg1 harg1 arg10 x0)) (ix2 p q) = nadj (feat x0) r q := by
  unfold kernelRun0_A.sl.r_12 kernelRun0_A.sl.r_13 k0_pay41 k0_pay39 k0_pay40
  refine (congrFun (shapeCast_self _ _) (ix2 p q)).trans ?_
  show broadcastTo S256x2048 (kernelRun0_A.sl.v198 c arg1 harg1 arg10 x0) broadcasts_S256x1_S256x2048 (ix2 p q) * (kernelRun0_A.sl.v196 c arg1 harg1 arg9 arg10 x0) (ix2 p q)
      * broadcastTo S256x2048 (k0_pay37 (kernelRun0_A.sl.v183 c arg1 harg1 arg10 x0)) broadcasts_S1x2048_S256x2048 (ix2 p q) = _
  rw [broadcastTo_a1_ab_apply, broadcastTo_1b_ab_apply, dchunk1_apply c arg1 harg1 arg9 arg10 x0 p 0 r hr, achunk1_apply c arg1 harg1 arg9 arg10 x0 p q r hr, drow'_apply c arg1 harg1 arg9 arg10 x0]
  rfl

/-- After 2 blocks of the second phase. -/
theorem abuf2_canon (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (q : Fin 2048) :
    View.canon (kernelRun0_A.sl.HS0_10 c arg1 harg1 arg9 arg10 x0) (ix2 i q) = (if i.val < 512 then nadj (feat x0) i q else aff (feat x0) i q) := by
  unfold kernelRun0_A.sl.HS0_10
  refine (Cert.Pieces.canon_cons_rows (Val := Elt Ideal) (e := .bf16) (R := 2048) (N := 2048) (r := 256) 256 inb_S2048x2048_S256x2048_256_0 _ _ i q).trans ?_
  by_cases hm : 256 ≤ i.val ∧ i.val < 256 + 256
  · rw [dif_pos hm, if_pos (by omega)]
    exact npiece1_apply c arg1 harg1 arg9 arg10 x0 ⟨i.val - 256, by omega⟩ q i (by show i.val = 256 + (i.val - 256); omega)
  · rw [dif_neg hm, abuf1_canon c arg1 harg1 arg9 arg10 x0 i q]
    by_cases h1 : i.val < 256
    · rw [if_pos h1, if_pos (by omega)]
    · rw [if_neg h1, if_neg (by omega)]

/-- Rows 512 … of the degree buffer read back. -/
theorem dchunk2_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (u : Fin 1) (r : Fin 2048) (hr : r.val = 512 + p.val) :
    (kernelRun0_A.sl.v209 c arg1 harg1 arg10 x0) (ix2 p u) = deg (feat x0) r := by
  unfold kernelRun0_A.sl.v209
  exact (Cert.Pieces.readCov_block (R := 2048) (N := 1) (r := 256) (n := 1) _ _ 512 0 inb_S2048x1_S256x1_512_0 p u r u hr (by omega)).trans
    (degCol_canon c arg1 harg1 x0 r u)

/-- Rows 512 … of the affinity buffer read back before they are normalised: still the affinity. -/
theorem achunk2_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (q : Fin 2048) (r : Fin 2048) (hr : r.val = 512 + p.val) :
    (kernelRun0_A.sl.v207 c arg1 harg1 arg9 arg10 x0) (ix2 p q) = aff (feat x0) r q := by
  unfold kernelRun0_A.sl.v207
  refine (Cert.Pieces.readCov_block (R := 2048) (N := 2048) (r := 256) (n := 2048) _ _ 512 0 inb_S2048x2048_S256x2048_512_0 p q r q hr (by omega)).trans ?_
  rw [abuf2_canon c arg1 harg1 arg9 arg10 x0 r q, if_neg (by omega)]

/-- Rows 512 … of the normalised affinity as stored. -/
theorem npiece2_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (q : Fin 2048) (r : Fin 2048) (hr : r.val = 512 + p.val) :
    (k0_pay42 (kernelRun0_A.sl.r_11 c arg1 harg1 arg10 x0) (kernelRun0_A.sl.v207 c arg1 harg1 arg9 arg10 x0) (kernelRun0_A.sl.v209 c arg1 harg1 arg10 x0)) (ix2 p q) = nadj (feat x0) r q := by
  unfold k0_pay42
  refine (congrFun (shapeCast_self _ _) (ix2 p q)).trans ?_
  show broadcastTo S256x2048 (kernelRun0_A.sl.v209 c arg1 harg1 arg10 x0) broadcasts_S256x1_S256x2048 (ix2 p q) * (kernelRun0_A.sl.v207 c arg1 harg1 arg9 arg10 x0) (ix2 p q)
      * broadcastTo S256x2048 (kernelRun0_A.sl.r_11 c arg1 harg1 arg10 x0) broadcasts_S1x2048_S256x2048 (ix2 p q) = _
  rw [broadcastTo_a1_ab_apply, broadcastTo_1b_ab_apply, dchunk2_apply c arg1 harg1 arg9 arg10 x0 p 0 r hr, achunk2_apply c arg1 harg1 arg9 arg10 x0 p q r hr, drow_apply c arg1 harg1 arg9 arg10 x0]
  rfl

/-- After 3 blocks of the second phase. -/
theorem abuf3_canon (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (q : Fin 2048) :
    View.canon (kernelRun0_A.sl.HS0_11 c arg1 harg1 arg9 arg10 x0) (ix2 i q) = (if i.val < 768 then nadj (feat x0) i q else aff (feat x0) i q) := by
  unfold kernelRun0_A.sl.HS0_11
  refine (Cert.Pieces.canon_cons_rows (Val := Elt Ideal) (e := .bf16) (R := 2048) (N := 2048) (r := 256) 512 inb_S2048x2048_S256x2048_512_0 _ _ i q).trans ?_
  by_cases hm : 512 ≤ i.val ∧ i.val < 512 + 256
  · rw [dif_pos hm, if_pos (by omega)]
    exact npiece2_apply c arg1 harg1 arg9 arg10 x0 ⟨i.val - 512, by omega⟩ q i (by show i.val = 512 + (i.val - 512); omega)
  · rw [dif_neg hm, abuf2_canon c arg1 harg1 arg9 arg10 x0 i q]
    by_cases h1 : i.val < 512
    · rw [if_pos h1, if_pos (by omega)]
    · rw [if_neg h1, if_neg (by omega)]

/-- Rows 768 … of the degree buffer read back. -/
theorem dchunk3_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (u : Fin 1) (r : Fin 2048) (hr : r.val = 768 + p.val) :
    (kernelRun0_A.sl.v220 c arg1 harg1 arg10 x0) (ix2 p u) = deg (feat x0) r := by
  unfold kernelRun0_A.sl.v220
  exact (Cert.Pieces.readCov_block (R := 2048) (N := 1) (r := 256) (n := 1) _ _ 768 0 inb_S2048x1_S256x1_768_0 p u r u hr (by omega)).trans
    (degCol_canon c arg1 harg1 x0 r u)

/-- Rows 768 … of the affinity buffer read back before they are normalised: still the affinity. -/
theorem achunk3_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (q : Fin 2048) (r : Fin 2048) (hr : r.val = 768 + p.val) :
    (kernelRun0_A.sl.v218 c arg1 harg1 arg9 arg10 x0) (ix2 p q) = aff (feat x0) r q := by
  unfold kernelRun0_A.sl.v218
  refine (Cert.Pieces.readCov_block (R := 2048) (N := 2048) (r := 256) (n := 2048) _ _ 768 0 inb_S2048x2048_S256x2048_768_0 p q r q hr (by omega)).trans ?_
  rw [abuf3_canon c arg1 harg1 arg9 arg10 x0 r q, if_neg (by omega)]

/-- Rows 768 … of the normalised affinity as stored. -/
theorem npiece3_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (q : Fin 2048) (r : Fin 2048) (hr : r.val = 768 + p.val) :
    (k0_pay43 (kernelRun0_A.sl.r_11 c arg1 harg1 arg10 x0) (kernelRun0_A.sl.v218 c arg1 harg1 arg9 arg10 x0) (kernelRun0_A.sl.v220 c arg1 harg1 arg10 x0)) (ix2 p q) = nadj (feat x0) r q := by
  unfold k0_pay43
  refine (congrFun (shapeCast_self _ _) (ix2 p q)).trans ?_
  show broadcastTo S256x2048 (kernelRun0_A.sl.v220 c arg1 harg1 arg10 x0) broadcasts_S256x1_S256x2048 (ix2 p q) * (kernelRun0_A.sl.v218 c arg1 harg1 arg9 arg10 x0) (ix2 p q)
      * broadcastTo S256x2048 (kernelRun0_A.sl.r_11 c arg1 harg1 arg10 x0) broadcasts_S1x2048_S256x2048 (ix2 p q) = _
  rw [broadcastTo_a1_ab_apply, broadcastTo_1b_ab_apply, dchunk3_apply c arg1 harg1 arg9 arg10 x0 p 0 r hr, achunk3_apply c arg1 harg1 arg9 arg10 x0 p q r hr, drow_apply c arg1 harg1 arg9 arg10 x0]
  rfl

/-- After 4 blocks of the second phase. -/
theorem abuf4_canon (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (q : Fin 2048) :
    View.canon (kernelRun0_A.sl.HS0_12 c arg1 harg1 arg9 arg10 x0) (ix2 i q) = (if i.val < 1024 then nadj (feat x0) i q else aff (feat x0) i q) := by
  unfold kernelRun0_A.sl.HS0_12
  refine (Cert.Pieces.canon_cons_rows (Val := Elt Ideal) (e := .bf16) (R := 2048) (N := 2048) (r := 256) 768 inb_S2048x2048_S256x2048_768_0 _ _ i q).trans ?_
  by_cases hm : 768 ≤ i.val ∧ i.val < 768 + 256
  · rw [dif_pos hm, if_pos (by omega)]
    exact npiece3_apply c arg1 harg1 arg9 arg10 x0 ⟨i.val - 768, by omega⟩ q i (by show i.val = 768 + (i.val - 768); omega)
  · rw [dif_neg hm, abuf3_canon c arg1 harg1 arg9 arg10 x0 i q]
    by_cases h1 : i.val < 768
    · rw [if_pos h1, if_pos (by omega)]
    · rw [if_neg h1, if_neg (by omega)]

/-- Rows 1024 … of the degree buffer read back. -/
theorem dchunk4_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (u : Fin 1) (r : Fin 2048) (hr : r.val = 1024 + p.val) :
    (kernelRun0_A.sl.v231 c arg1 harg1 arg10 x0) (ix2 p u) = deg (feat x0) r := by
  unfold kernelRun0_A.sl.v231
  exact (Cert.Pieces.readCov_block (R := 2048) (N := 1) (r := 256) (n := 1) _ _ 1024 0 inb_S2048x1_S256x1_1024_0 p u r u hr (by omega)).trans
    (degCol_canon c arg1 harg1 x0 r u)

/-- Rows 1024 … of the affinity buffer read back before they are normalised: still the affinity. -/
theorem achunk4_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (q : Fin 2048) (r : Fin 2048) (hr : r.val = 1024 + p.val) :
    (kernelRun0_A.sl.v229 c arg1 harg1 arg9 arg10 x0) (ix2 p q) = aff (feat x0) r q := by
  unfold kernelRun0_A.sl.v229
  refine (Cert.Pieces.readCov_block (R := 2048) (N := 2048) (r := 256) (n := 2048) _ _ 1024 0 inb_S2048x2048_S256x2048_1024_0 p q r q hr (by omega)).trans ?_
  rw [abuf4_canon c arg1 harg1 arg9 arg10 x0 r q, if_neg (by omega)]

/-- Rows 1024 … of the normalised affinity as stored. -/
theorem npiece4_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (q : Fin 2048) (r : Fin 2048) (hr : r.val = 1024 + p.val) :
    (k0_pay45 (kernelRun0_A.sl.r_14 c arg1 harg1 arg9 arg10 x0)) (ix2 p q) = nadj (feat x0) r q := by
  unfold kernelRun0_A.sl.r_14 k0_pay45 k0_pay44
  refine (congrFun (shapeCast_self _ _) (ix2 p q)).trans ?_
  show broadcastTo S256x2048 (kernelRun0_A.sl.v231 c arg1 harg1 arg10 x0) broadcasts_S256x1_S256x2048 (ix2 p q) * (kernelRun0_A.sl.v229 c arg1 harg1 arg9 arg10 x0) (ix2 p q)
      * broadcastTo S256x2048 (kernelRun0_A.sl.r_11 c arg1 harg1 arg10 x0) broadcasts_S1x2048_S256x2048 (ix2 p q) = _
  rw [broadcastTo_a1_ab_apply, broadcastTo_1b_ab_apply, dchunk4_apply c arg1 harg1 arg9 arg10 x0 p 0 r hr, achunk4_apply c arg1 harg1 arg9 arg10 x0 p q r hr, drow_apply c arg1 harg1 arg9 arg10 x0]
  rfl

/-- After 5 blocks of the second phase. -/
theorem abuf5_canon (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (q : Fin 2048) :
    View.canon (kernelRun0_A.sl.HS0_13 c arg1 harg1 arg9 arg10 x0) (ix2 i q) = (if i.val < 1280 then nadj (feat x0) i q else aff (feat x0) i q) := by
  unfold kernelRun0_A.sl.HS0_13
  refine (Cert.Pieces.canon_cons_rows (Val := Elt Ideal) (e := .bf16) (R := 2048) (N := 2048) (r := 256) 1024 inb_S2048x2048_S256x2048_1024_0 _ _ i q).trans ?_
  by_cases hm : 1024 ≤ i.val ∧ i.val < 1024 + 256
  · rw [dif_pos hm, if_pos (by omega)]
    exact npiece4_apply c arg1 harg1 arg9 arg10 x0 ⟨i.val - 1024, by omega⟩ q i (by show i.val = 1024 + (i.val - 1024); omega)
  · rw [dif_neg hm, abuf4_canon c arg1 harg1 arg9 arg10 x0 i q]
    by_cases h1 : i.val < 1024
    · rw [if_pos h1, if_pos (by omega)]
    · rw [if_neg h1, if_neg (by omega)]

/-- Rows 1280 … of the degree buffer read back. -/
theorem dchunk5_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (u : Fin 1) (r : Fin 2048) (hr : r.val = 1280 + p.val) :
    (kernelRun0_A.sl.v242 c arg1 harg1 arg10 x0) (ix2 p u) = deg (feat x0) r := by
  unfold kernelRun0_A.sl.v242
  exact (Cert.Pieces.readCov_block (R := 2048) (N := 1) (r := 256) (n := 1) _ _ 1280 0 inb_S2048x1_S256x1_1280_0 p u r u hr (by omega)).trans
    (degCol_canon c arg1 harg1 x0 r u)

/-- Rows 1280 … of the affinity buffer read back before they are normalised: still the affinity. -/
theorem achunk5_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (q : Fin 2048) (r : Fin 2048) (hr : r.val = 1280 + p.val) :
    (kernelRun0_A.sl.v240 c arg1 harg1 arg9 arg10 x0) (ix2 p q) = aff (feat x0) r q := by
  unfold kernelRun0_A.sl.v240
  refine (Cert.Pieces.readCov_block (R := 2048) (N := 2048) (r := 256) (n := 2048) _ _ 1280 0 inb_S2048x2048_S256x2048_1280_0 p q r q hr (by omega)).trans ?_
  rw [abuf5_canon c arg1 harg1 arg9 arg10 x0 r q, if_neg (by omega)]

/-- Rows 1280 … of the normalised affinity as stored. -/
theorem npiece5_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (q : Fin 2048) (r : Fin 2048) (hr : r.val = 1280 + p.val) :
    (k0_pay46 (kernelRun0_A.sl.r_11 c arg1 harg1 arg10 x0) (kernelRun0_A.sl.v240 c arg1 harg1 arg9 arg10 x0) (kernelRun0_A.sl.v242 c arg1 harg1 arg10 x0)) (ix2 p q) = nadj (feat x0) r q := by
  unfold k0_pay46
  refine (congrFun (shapeCast_self _ _) (ix2 p q)).trans ?_
  show broadcastTo S256x2048 (kernelRun0_A.sl.v242 c arg1 harg1 arg10 x0) broadcasts_S256x1_S256x2048 (ix2 p q) * (kernelRun0_A.sl.v240 c arg1 harg1 arg9 arg10 x0) (ix2 p q)
      * broadcastTo S256x2048 (kernelRun0_A.sl.r_11 c arg1 harg1 arg10 x0) broadcasts_S1x2048_S256x2048 (ix2 p q) = _
  rw [broadcastTo_a1_ab_apply, broadcastTo_1b_ab_apply, dchunk5_apply c arg1 harg1 arg9 arg10 x0 p 0 r hr, achunk5_apply c arg1 harg1 arg9 arg10 x0 p q r hr, drow_apply c arg1 harg1 arg9 arg10 x0]
  rfl

/-- After 6 blocks of the second phase. -/
theorem abuf6_canon (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (q : Fin 2048) :
    View.canon (kernelRun0_A.sl.HS0_14 c arg1 harg1 arg9 arg10 x0) (ix2 i q) = (if i.val < 1536 then nadj (feat x0) i q else aff (feat x0) i q) := by
  unfold kernelRun0_A.sl.HS0_14
  refine (Cert.Pieces.canon_cons_rows (Val := Elt Ideal) (e := .bf16) (R := 2048) (N := 2048) (r := 256) 1280 inb_S2048x2048_S256x2048_1280_0 _ _ i q).trans ?_
  by_cases hm : 1280 ≤ i.val ∧ i.val < 1280 + 256
  · rw [dif_pos hm, if_pos (by omega)]
    exact npiece5_apply c arg1 harg1 arg9 arg10 x0 ⟨i.val - 1280, by omega⟩ q i (by show i.val = 1280 + (i.val - 1280); omega)
  · rw [dif_neg hm, abuf5_canon c arg1 harg1 arg9 arg10 x0 i q]
    by_cases h1 : i.val < 1280
    · rw [if_pos h1, if_pos (by omega)]
    · rw [if_neg h1, if_neg (by omega)]

/-- Rows 1536 … of the degree buffer read back. -/
theorem dchunk6_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (u : Fin 1) (r : Fin 2048) (hr : r.val = 1536 + p.val) :
    (kernelRun0_A.sl.v253 c arg1 harg1 arg10 x0) (ix2 p u) = deg (feat x0) r := by
  unfold kernelRun0_A.sl.v253
  exact (Cert.Pieces.readCov_block (R := 2048) (N := 1) (r := 256) (n := 1) _ _ 1536 0 inb_S2048x1_S256x1_1536_0 p u r u hr (by omega)).trans
    (degCol_canon c arg1 harg1 x0 r u)

/-- Rows 1536 … of the affinity buffer read back before they are normalised: still the affinity. -/
theorem achunk6_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (q : Fin 2048) (r : Fin 2048) (hr : r.val = 1536 + p.val) :
    (kernelRun0_A.sl.v251 c arg1 harg1 arg9 arg10 x0) (ix2 p q) = aff (feat x0) r q := by
  unfold kernelRun0_A.sl.v251
  refine (Cert.Pieces.readCov_block (R := 2048) (N := 2048) (r := 256) (n := 2048) _ _ 1536 0 inb_S2048x2048_S256x2048_1536_0 p q r q hr (by omega)).trans ?_
  rw [abuf6_canon c arg1 harg1 arg9 arg10 x0 r q, if_neg (by omega)]

/-- Rows 1536 … of the normalised affinity as stored. -/
theorem npiece6_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (q : Fin 2048) (r : Fin 2048) (hr : r.val = 1536 + p.val) :
    (k0_pay47 (kernelRun0_A.sl.r_11 c arg1 harg1 arg10 x0) (kernelRun0_A.sl.v251 c arg1 harg1 arg9 arg10 x0) (kernelRun0_A.sl.v253 c arg1 harg1 arg10 x0)) (ix2 p q) = nadj (feat x0) r q := by
  unfold k0_pay47
  refine (congrFun (shapeCast_self _ _) (ix2 p q)).trans ?_
  show broadcastTo S256x2048 (kernelRun0_A.sl.v253 c arg1 harg1 arg10 x0) broadcasts_S256x1_S256x2048 (ix2 p q) * (kernelRun0_A.sl.v251 c arg1 harg1 arg9 arg10 x0) (ix2 p q)
      * broadcastTo S256x2048 (kernelRun0_A.sl.r_11 c arg1 harg1 arg10 x0) broadcasts_S1x2048_S256x2048 (ix2 p q) = _
  rw [broadcastTo_a1_ab_apply, broadcastTo_1b_ab_apply, dchunk6_apply c arg1 harg1 arg9 arg10 x0 p 0 r hr, achunk6_apply c arg1 harg1 arg9 arg10 x0 p q r hr, drow_apply c arg1 harg1 arg9 arg10 x0]
  rfl

/-- After 7 blocks of the second phase. -/
theorem abuf7_canon (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (q : Fin 2048) :
    View.canon (kernelRun0_A.sl.HS0_15 c arg1 harg1 arg9 arg10 x0) (ix2 i q) = (if i.val < 1792 then nadj (feat x0) i q else aff (feat x0) i q) := by
  unfold kernelRun0_A.sl.HS0_15
  refine (Cert.Pieces.canon_cons_rows (Val := Elt Ideal) (e := .bf16) (R := 2048) (N := 2048) (r := 256) 1536 inb_S2048x2048_S256x2048_1536_0 _ _ i q).trans ?_
  by_cases hm : 1536 ≤ i.val ∧ i.val < 1536 + 256
  · rw [dif_pos hm, if_pos (by omega)]
    exact npiece6_apply c arg1 harg1 arg9 arg10 x0 ⟨i.val - 1536, by omega⟩ q i (by show i.val = 1536 + (i.val - 1536); omega)
  · rw [dif_neg hm, abuf6_canon c arg1 harg1 arg9 arg10 x0 i q]
    by_cases h1 : i.val < 1536
    · rw [if_pos h1, if_pos (by omega)]
    · rw [if_neg h1, if_neg (by omega)]

/-- Rows 1792 … of the degree buffer read back. -/
theorem dchunk7_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (u : Fin 1) (r : Fin 2048) (hr : r.val = 1792 + p.val) :
    (kernelRun0_A.sl.v264 c arg1 harg1 arg10 x0) (ix2 p u) = deg (feat x0) r := by
  unfold kernelRun0_A.sl.v264
  exact (Cert.Pieces.readCov_block (R := 2048) (N := 1) (r := 256) (n := 1) _ _ 1792 0 inb_S2048x1_S256x1_1792_0 p u r u hr (by omega)).trans
    (degCol_canon c arg1 harg1 x0 r u)

/-- Rows 1792 … of the affinity buffer read back before they are normalised: still the affinity. -/
theorem achunk7_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (q : Fin 2048) (r : Fin 2048) (hr : r.val = 1792 + p.val) :
    (kernelRun0_A.sl.v262 c arg1 harg1 arg9 arg10 x0) (ix2 p q) = aff (feat x0) r q := by
  unfold kernelRun0_A.sl.v262
  refine (Cert.Pieces.readCov_block (R := 2048) (N := 2048) (r := 256) (n := 2048) _ _ 1792 0 inb_S2048x2048_S256x2048_1792_0 p q r q hr (by omega)).trans ?_
  rw [abuf7_canon c arg1 harg1 arg9 arg10 x0 r q, if_neg (by omega)]

/-- Rows 1792 … of the normalised affinity as stored. -/
theorem npiece7_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (p : Fin 256) (q : Fin 2048) (r : Fin 2048) (hr : r.val = 1792 + p.val) :
    (k0_pay48 (kernelRun0_A.sl.r_11 c arg1 harg1 arg10 x0) (kernelRun0_A.sl.v262 c arg1 harg1 arg9 arg10 x0) (kernelRun0_A.sl.v264 c arg1 harg1 arg10 x0)) (ix2 p q) = nadj (feat x0) r q := by
  unfold k0_pay48
  refine (congrFun (shapeCast_self _ _) (ix2 p q)).trans ?_
  show broadcastTo S256x2048 (kernelRun0_A.sl.v264 c arg1 harg1 arg10 x0) broadcasts_S256x1_S256x2048 (ix2 p q) * (kernelRun0_A.sl.v262 c arg1 harg1 arg9 arg10 x0) (ix2 p q)
      * broadcastTo S256x2048 (kernelRun0_A.sl.r_11 c arg1 harg1 arg10 x0) broadcasts_S1x2048_S256x2048 (ix2 p q) = _
  rw [broadcastTo_a1_ab_apply, broadcastTo_1b_ab_apply, dchunk7_apply c arg1 harg1 arg9 arg10 x0 p 0 r hr, achunk7_apply c arg1 harg1 arg9 arg10 x0 p q r hr, drow_apply c arg1 harg1 arg9 arg10 x0]
  rfl

/-- After 8 blocks of the second phase. -/
theorem abuf8_canon (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (q : Fin 2048) :
    View.canon (kernelRun0_A.sl.HS0_16 c arg1 harg1 arg9 arg10 x0) (ix2 i q) = (if i.val < 2048 then nadj (feat x0) i q else aff (feat x0) i q) := by
  unfold kernelRun0_A.sl.HS0_16
  refine (Cert.Pieces.canon_cons_rows (Val := Elt Ideal) (e := .bf16) (R := 2048) (N := 2048) (r := 256) 1792 inb_S2048x2048_S256x2048_1792_0 _ _ i q).trans ?_
  by_cases hm : 1792 ≤ i.val ∧ i.val < 1792 + 256
  · rw [dif_pos hm, if_pos (by omega)]
    exact npiece7_apply c arg1 harg1 arg9 arg10 x0 ⟨i.val - 1792, by omega⟩ q i (by show i.val = 1792 + (i.val - 1792); omega)
  · rw [dif_neg hm, abuf7_canon c arg1 harg1 arg9 arg10 x0 i q]
    by_cases h1 : i.val < 1792
    · rw [if_pos h1, if_pos (by omega)]
    · rw [if_neg h1, if_neg (by omega)]

/-- The whole affinity buffer read back after the second phase: the normalised affinity. -/
theorem nadj_apply (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (j : Fin 2048) :
    (kernelRun0_A.sl.v277 c arg1 harg1 arg9 arg10 x0) (ix2 i j) = nadj (feat x0) i j := by
  unfold kernelRun0_A.sl.v277
  refine (Cert.Pieces.readCov_block (R := 2048) (N := 2048) (r := 2048) (n := 2048) _ _ 0 0 inb_S2048x2048_S2048x2048_0_0 i j i j (by omega) (by omega)).trans ?_
  rw [abuf8_canon c arg1 harg1 arg9 arg10 x0 i j, if_pos i.isLt]

end Cert.KernelIdeal.Net

end
-- ==== Proof.KLayer0.lean ====
/-
  The first layer's Chebyshev terms as the kernel computes and stores them, read at an index.
-/
import proofs.«175608_j66305705115960_1_alg».proof.Proof.KPhase2
import proofs.«175608_j66305705115960_1_alg».proof.Proof.KCheb

set_option maxRecDepth 16384

noncomputable section

open scoped BigOperators

namespace Cert.KernelIdeal.Net

open Cert.KernelIdeal Cert.KernelIdeal.Gen Cert.GraphConv Idealize.ShloMosaic Idealize.ShloMosaic.ValueIdx

theorem l0t0 (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (f : Fin 6) : (kernelRun0_A.sl.r c arg1 harg1 x0) (ix2 i f) = cheb (feat x0) (feat x0) 0 i f :=
  r_apply c arg1 harg1 x0 i f

theorem l0t0b (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (f : Fin 6) : (kernelRun0_A.sl.r_15 c arg1 harg1 x0) (ix2 i f) = cheb (feat x0) (feat x0) 0 i f :=
  r_apply c arg1 harg1 x0 i f

theorem l0t1 (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (f : Fin 6) : (k0_pay51 (kernelRun0_A.sl.r c arg1 harg1 x0) (kernelRun0_A.sl.r_15 c arg1 harg1 x0) (kernelRun0_A.sl.v277 c arg1 harg1 arg9 arg10 x0)) (ix2 i f) = cheb (feat x0) (feat x0) 1 i f :=
  cheb_first (feat x0) (feat x0) (kernelRun0_A.sl.v277 c arg1 harg1 arg9 arg10 x0) (kernelRun0_A.sl.r_15 c arg1 harg1 x0) (kernelRun0_A.sl.r c arg1 harg1 x0) (nadj_apply c arg1 harg1 arg9 arg10 x0) (l0t0b c arg1 harg1 arg9 arg10 x0) (l0t0 c arg1 harg1 arg9 arg10 x0) i f

theorem l0t1b (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (f : Fin 6) : (k0_pay52 (kernelRun0_A.sl.r c arg1 harg1 x0) (kernelRun0_A.sl.r_15 c arg1 harg1 x0) (kernelRun0_A.sl.v277 c arg1 harg1 arg9 arg10 x0)) (ix2 i f) = cheb (feat x0) (feat x0) 1 i f :=
  l0t1 c arg1 harg1 arg9 arg10 x0 i f

theorem l0t2 (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (f : Fin 6) : (kernelRun0_A.sl.r_17 c arg1 harg1 arg9 arg10 x0) (ix2 i f) = cheb (feat x0) (feat x0) 2 i f :=
  cheb_next (feat x0) (feat x0) (kernelRun0_A.sl.v277 c arg1 harg1 arg9 arg10 x0) (k0_pay52 (kernelRun0_A.sl.r c arg1 harg1 x0) (kernelRun0_A.sl.r_15 c arg1 harg1 x0) (kernelRun0_A.sl.v277 c arg1 harg1 arg9 arg10 x0)) (k0_pay51 (kernelRun0_A.sl.r c arg1 harg1 x0) (kernelRun0_A.sl.r_15 c arg1 harg1 x0) (kernelRun0_A.sl.v277 c arg1 harg1 arg9 arg10 x0)) (kernelRun0_A.sl.r c arg1 harg1 x0) 0 (nadj_apply c arg1 harg1 arg9 arg10 x0) (l0t1b c arg1 harg1 arg9 arg10 x0) (l0t1 c arg1 harg1 arg9 arg10 x0) (l0t0 c arg1 harg1 arg9 arg10 x0) i f

theorem l0t2b (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (f : Fin 6) : (k0_pay55 (kernelRun0_A.sl.r c arg1 harg1 x0) (kernelRun0_A.sl.r_15 c arg1 harg1 x0) (kernelRun0_A.sl.v277 c arg1 harg1 arg9 arg10 x0) (kernelRun0_A.sl.v277 c arg1 harg1 arg9 arg10 x0)) (ix2 i f) = cheb (feat x0) (feat x0) 2 i f :=
  l0t2 c arg1 harg1 arg9 arg10 x0 i f

theorem l0t3 (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (f : Fin 6) : (kernelRun0_A.sl.r_18 c arg1 harg1 arg9 arg10 x0) (ix2 i f) = cheb (feat x0) (feat x0) 3 i f :=
  cheb_next (feat x0) (feat x0) (kernelRun0_A.sl.v277 c arg1 harg1 arg9 arg10 x0) (k0_pay55 (kernelRun0_A.sl.r c arg1 harg1 x0) (kernelRun0_A.sl.r_15 c arg1 harg1 x0) (kernelRun0_A.sl.v277 c arg1 harg1 arg9 arg10 x0) (kernelRun0_A.sl.v277 c arg1 harg1 arg9 arg10 x0)) (kernelRun0_A.sl.r_17 c arg1 harg1 arg9 arg10 x0) (k0_pay51 (kernelRun0_A.sl.r c arg1 harg1 x0) (kernelRun0_A.sl.r_15 c arg1 harg1 x0) (kernelRun0_A.sl.v277 c arg1 harg1 arg9 arg10 x0)) 1 (nadj_apply c arg1 harg1 arg9 arg10 x0) (l0t2b c arg1 harg1 arg9 arg10 x0) (l0t2 c arg1 harg1 arg9 arg10 x0) (l0t1 c arg1 harg1 arg9 arg10 x0) i f

theorem l0t3b (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (f : Fin 6) : (k0_pay58 (kernelRun0_A.sl.r c arg1 harg1 x0) (kernelRun0_A.sl.r_15 c arg1 harg1 x0) (kernelRun0_A.sl.v277 c arg1 harg1 arg9 arg10 x0) (kernelRun0_A.sl.v277 c arg1 harg1 arg9 arg10 x0) (kernelRun0_A.sl.v277 c arg1 harg1 arg9 arg10 x0)) (ix2 i f) = cheb (feat x0) (feat x0) 3 i f :=
  l0t3 c arg1 harg1 arg9 arg10 x0 i f

theorem l0t4 (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (f : Fin 6) : (k0_pay61 (kernelRun0_A.sl.r_17 c arg1 harg1 arg9 arg10 x0) (kernelRun0_A.sl.r_18 c arg1 harg1 arg9 arg10 x0) (kernelRun0_A.sl.r_19 c arg1 harg1 arg9 arg10 x0)) (ix2 i f) = cheb (feat x0) (feat x0) 4 i f :=
  cheb_next (feat x0) (feat x0) (kernelRun0_A.sl.v277 c arg1 harg1 arg9 arg10 x0) (k0_pay58 (kernelRun0_A.sl.r c arg1 harg1 x0) (kernelRun0_A.sl.r_15 c arg1 harg1 x0) (kernelRun0_A.sl.v277 c arg1 harg1 arg9 arg10 x0) (kernelRun0_A.sl.v277 c arg1 harg1 arg9 arg10 x0) (kernelRun0_A.sl.v277 c arg1 harg1 arg9 arg10 x0)) (kernelRun0_A.sl.r_18 c arg1 harg1 arg9 arg10 x0) (kernelRun0_A.sl.r_17 c arg1 harg1 arg9 arg10 x0) 2 (nadj_apply c arg1 harg1 arg9 arg10 x0) (l0t3b c arg1 harg1 arg9 arg10 x0) (l0t3 c arg1 harg1 arg9 arg10 x0) (l0t2 c arg1 harg1 arg9 arg10 x0) i f

theorem l0t4b (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (f : Fin 6) : (k0_pay62 (kernelRun0_A.sl.r_17 c arg1 harg1 arg9 arg10 x0) (kernelRun0_A.sl.r_18 c arg1 harg1 arg9 arg10 x0) (kernelRun0_A.sl.r_19 c arg1 harg1 arg9 arg10 x0)) (ix2 i f) = cheb (feat x0) (feat x0) 4 i f :=
  l0t4 c arg1 harg1 arg9 arg10 x0 i f

/-- The stored terms. -/
theorem l0p0 (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (f : Fin 6) : (k0_pay50 (kernelRun0_A.sl.r_15 c arg1 harg1 x0)) (ix2 i f) = cheb (feat x0) (feat x0) 0 i f :=
  (congrFun (shapeCast_self _ _) (ix2 i f)).trans (l0t0b c arg1 harg1 arg9 arg10 x0 i f)

theorem l0p1 (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (f : Fin 6) : (k0_pay53 (kernelRun0_A.sl.r c arg1 harg1 x0) (kernelRun0_A.sl.r_15 c arg1 harg1 x0) (kernelRun0_A.sl.v277 c arg1 harg1 arg9 arg10 x0)) (ix2 i f) = cheb (feat x0) (feat x0) 1 i f :=
  (congrFun (shapeCast_self _ _) (ix2 i f)).trans (l0t1b c arg1 harg1 arg9 arg10 x0 i f)

theorem l0p2 (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (f : Fin 6) : (k0_pay56 (kernelRun0_A.sl.r c arg1 harg1 x0) (kernelRun0_A.sl.r_15 c arg1 harg1 x0) (kernelRun0_A.sl.v277 c arg1 harg1 arg9 arg10 x0) (kernelRun0_A.sl.v277 c arg1 harg1 arg9 arg10 x0)) (ix2 i f) = cheb (feat x0) (feat x0) 2 i f :=
  (congrFun (shapeCast_self _ _) (ix2 i f)).trans (l0t2b c arg1 harg1 arg9 arg10 x0 i f)

theorem l0p3 (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (f : Fin 6) : (k0_pay59 (kernelRun0_A.sl.r c arg1 harg1 x0) (kernelRun0_A.sl.r_15 c arg1 harg1 x0) (kernelRun0_A.sl.v277 c arg1 harg1 arg9 arg10 x0) (kernelRun0_A.sl.v277 c arg1 harg1 arg9 arg10 x0) (kernelRun0_A.sl.v277 c arg1 harg1 arg9 arg10 x0)) (ix2 i f) = cheb (feat x0) (feat x0) 3 i f :=
  (congrFun (shapeCast_self _ _) (ix2 i f)).trans (l0t3b c arg1 harg1 arg9 arg10 x0 i f)

theorem l0p4 (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (f : Fin 6) : (k0_pay63 (kernelRun0_A.sl.r_17 c arg1 harg1 arg9 arg10 x0) (kernelRun0_A.sl.r_18 c arg1 harg1 arg9 arg10 x0) (kernelRun0_A.sl.r_19 c arg1 harg1 arg9 arg10 x0)) (ix2 i f) = cheb (feat x0) (feat x0) 4 i f :=
  (congrFun (shapeCast_self _ _) (ix2 i f)).trans (l0t4b c arg1 harg1 arg9 arg10 x0 i f)

theorem l0p5 (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (f : Fin 6) : (k0_pay64 (kernelRun0_A.sl.r_17 c arg1 harg1 arg9 arg10 x0) (kernelRun0_A.sl.r_18 c arg1 harg1 arg9 arg10 x0) (kernelRun0_A.sl.r_19 c arg1 harg1 arg9 arg10 x0) (kernelRun0_A.sl.v277 c arg1 harg1 arg9 arg10 x0)) (ix2 i f) = cheb (feat x0) (feat x0) 5 i f := by
  unfold k0_pay64
  refine (congrFun (shapeCast_self _ _) (ix2 i f)).trans ?_
  exact cheb_next (feat x0) (feat x0) (kernelRun0_A.sl.v277 c arg1 harg1 arg9 arg10 x0) (k0_pay62 (kernelRun0_A.sl.r_17 c arg1 harg1 arg9 arg10 x0) (kernelRun0_A.sl.r_18 c arg1 harg1 arg9 arg10 x0) (kernelRun0_A.sl.r_19 c arg1 harg1 arg9 arg10 x0)) (k0_pay61 (kernelRun0_A.sl.r_17 c arg1 harg1 arg9 arg10 x0) (kernelRun0_A.sl.r_18 c arg1 harg1 arg9 arg10 x0) (kernelRun0_A.sl.r_19 c arg1 harg1 arg9 arg10 x0)) (kernelRun0_A.sl.r_18 c arg1 harg1 arg9 arg10 x0) 3 (nadj_apply c arg1 harg1 arg9 arg10 x0) (l0t4b c arg1 harg1 arg9 arg10 x0) (l0t4 c arg1 harg1 arg9 arg10 x0) (l0t3 c arg1 harg1 arg9 arg10 x0) i f

end Cert.KernelIdeal.Net

end
-- ==== Proof.KDense0.lean ====
/-
  The first layer's dense stage as the kernel computes it: the buffer of concatenated Chebyshev terms, its blocks of
  512 rows, the dense layer on each block, and the hidden buffer they fill.
-/
import proofs.«175608_j66305705115960_1_alg».proof.Proof.KLayer0

set_option maxRecDepth 16384

noncomputable section

open scoped BigOperators

namespace Cert.KernelIdeal.Net

open Cert.KernelIdeal Cert.KernelIdeal.Gen Cert.GraphConv Idealize.ShloMosaic Idealize.ShloMosaic.ValueIdx

theorem hz2 : (![0, 0] : Fin 2 → Nat) = fun _ => 0 := funext fun a => by fin_cases a <;> rfl

/-- The first layer's output: 128 features per node. -/
def h0 (x0 : Vec Ideal S1x2048x6 .f32) (x1 : Vec Ideal S36x128 .bf16) (x2 : Vec Ideal S1x128 .f32) : Fin 2048 → Fin 128 → EReal :=
  denseP (feat x0) (K := 6) (by decide) (fun q o => x1 (ix2 (⟨q.val, q.isLt⟩ : Fin 36) o)) (fun o => x2 (ix2 (0 : Fin 1) o)) (feat x0)

/-- Column `j` of the buffer of concatenated terms: feature `j % 6` of term `j / 6`. -/
def xt0G (x0 : Vec Ideal S1x2048x6 .f32) : S2048x1536.Idx → EReal :=
  fun y => cheb (feat x0) (feat x0) ((y 1).val / 6) (y 0) ⟨(y 1).val % 6, Nat.mod_lt _ (by decide)⟩

/-- The buffer of concatenated terms after the first layer's recursion: column `6 k + f` holds feature `f` of term `k`. -/
theorem xt0_canon (c : Dev nD) (arg1 : Memref sig .tc .vmem S1x2048x6 .f32) (harg1 : arg1.IsWhole) (arg9 : Memref sig .tc .vmem S2048x2048 .bf16) (arg10 : Memref sig .tc .vmem S2048x1 .f32) (x0 : Vec Ideal S1x2048x6 .f32) (i : Fin 2048) (q : Fin 1536) (hq : q.val < 36) :
    View.canon (kernelRun0_A.sl.HS2_6 c arg1 harg1 arg9 arg10 x0) (ix2 i q) = cheb (feat x0) (feat x0) (q.val / 6) i ⟨q.val % 6, Nat.mod_lt _ (by decide)⟩ := by
  refine View.canon_apply_of_pieces (Val := Elt Ideal) (S := S2048x1536) (e := .bf16)
    (xt0G x0) _ ?_ (ix2 i q) ?_
  · unfold kernelRun0_A.sl.HS2_6
    apply Cert.Pieces.agree_cons (Val := Elt Ideal) (S := S2048x1536) (e := .bf16) (xt0G x0)
    · exact Cert.Pieces.block_piece_agree (Val := Elt Ideal) (e := .bf16) (R := 2048) (N := 1536) (r := 2048) (n := 6) (xt0G x0) 0 30 inb_S2048x1536_S2048x6_0_30 _
        (fun p f i j hi hj => by
          obtain rfl : i = p := Fin.ext (by omega)
          exact (l0p5 c arg1 harg1 arg9 arg10 x0 i f).trans (cheb_col (feat x0) (feat x0) (by decide) 5 f j.val (by omega) i).symm)
    apply Cert.Pieces.agree_cons (Val := Elt Ideal) (S := S2048x1536) (e := .bf16) (xt0G x0)
    · exact Cert.Pieces.block_piece_agree (Val := Elt Ideal) (e := .bf16) (R := 2048) (N := 1536) (r := 2048) (n := 6) (xt0G x0) 0 24 inb_S2048x1536_S2048x6_0_24 _
        (fun p f i j hi hj => by
          obtain rfl : i = p := Fin.ext (by omega)
          exact (l0p4 c arg1 harg1 arg9 arg10 x0 i f).trans (cheb_col (feat x0) (feat x0) (by decide) 4 f j.val (by omega) i).symm)
    apply Cert.Pieces.agree_cons (Val := Elt Ideal) (S := S2048x1536) (e := .bf16) (xt0G x0)
    · exact Cert.Pieces.block_piece_agree (Val := Elt Ideal) (e := .bf16) (R := 2048) (N := 1536) (r := 2048) (n := 6) (xt0G x0) 0 18 inb_S2048x1536_S2048x6_0_18 _
        (fun p f i j hi hj => by
          obtain rfl : i = p := Fin.ext (by omega)
          exact (l0p3 c arg1 harg1 arg9 arg10 x0 i f).trans (cheb_col (feat x0) (feat x0) (by decide) 3 f j.val (by omega) i).symm)
    apply Cert.Pieces.agree_cons (Val := Elt Ideal) (S := S2048x1536) (e := .bf16) (xt0G x0)
    · exact Cert.Pieces.block_piece_agree (Val := Elt Ideal) (e := .bf16) (R := 2048) (N := 1536) (r := 2048) (n := 6) (xt0G x0) 0 12 inb_S2048x1536_S2048x6_0_12 _
        (fun p f i j hi hj => by
          obtain rfl : i = p := Fin.ext (by omega)
          exact (l0p2 c arg1 harg1 arg9 arg10 x0 i f).trans (cheb_col (feat x0) (feat x0) (by decide) 2 f j.val (by omega) i).symm)
    apply Cert.Pieces.agree_cons (Val := Elt Ideal) (S := S2048x1536) (e := .bf16) (xt0G x0)
    · exact Cert.Pieces.block_piece_agree (Val := Elt Ideal) (e := .bf16) (R := 2048) (N := 1536) (r := 2048) (n := 6) (xt0G x0) 0 6 inb_S2048x1536_S2048x6_0_6 _
        (fun p f i j hi hj => by
          obtain rfl : i = p := Fin.ext (by omega)
          exact (l0p1 c arg1 harg1 arg9 arg10 x0 i f).trans (cheb_col (feat x0) (feat x0) (by decide) 1 f j.val (by omega) i).symm)
    apply Cert.Pieces.agree_cons (Val := Elt Ideal) (S := S2048x1536) (e := .bf16) (xt0G x0)
    · exact Cert.Pieces.block_piece_agree (Val := Elt Ideal) (e := .bf16) (R := 2048) (N := 1536) (r := 2048) (n := 6) (xt0G x0) 0 0 inb_S2048x1536_S2048x6_0_0 _
        (fun p f i j hi hj => by
          obtain rfl : i = p := Fin.ext (by omega)
          exact (l0p0 c arg1 harg1 arg9 arg10 x0 i f).trans (cheb_col (feat x0) (feat x0) (by decide) 0 f j.val (by omega) i).symm)
    exact fun _ hq => absurd hq List.not_mem_nil
  · unfold kernelRun0_A.sl.HS2_6
    have hi := i.isLt
    rcases (by omega : q.val < 6 ∨ (6 ≤ q.val ∧ q.val < 12) ∨ (12 ≤ q.val ∧ q.val < 18) ∨ (18 ≤ q.val ∧ q.val < 24) ∨ (24 ≤ q.val ∧ q.val < 30) ∨ (30 ≤ q.val ∧ q.val < 36)) with h | h | h | h | h | h
    · exact (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_head (Val := Elt Ideal) _ _ (Cert.Pieces.mem_block 0 0 inb_S2048x1536_S2048x6_0_0 (ix2 i q) ⟨Nat.zero_le _, by show i.val < 0 + 2048; omega⟩ ⟨by show 0 ≤ q.val; omega, by show q.val < 0 + 6; omega⟩)))))))
    · exact (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_head (Val := Elt Ideal) _ _ (Cert.Pieces.mem_block 0 6 inb_S2048x1536_S2048x6_0_6 (ix2 i q) ⟨Nat.zero_le _, by show i.val < 0 + 2048; omega⟩ ⟨by show 6 ≤ q.val; omega, by show q.val < 6 + 6; omega⟩))))))
    · exact (Cert.Pieces.cover_tail (Val := Elt Ideal) _ _ (Cert.Pieces.cover_tail (Val := Elt Ideal) _ _ (Cert.Pieces.cover_tail (Val := Elt Ideal) _ _ (Cert.Pieces.cover_head (Val := Elt Ideal) _ _ (Cert.Pieces.mem_block 0 12 inb_S2048x1536_S2048x6_0_12 (ix2 i q) ⟨Nat.zero_le _, by show i.val < 0 + 2048; omega⟩ ⟨by show 12 ≤ q.val; omega, by show q.val < 12 + 6; omega⟩)))))
    · exact (Cert.Pieces.cover_tail (Val := Elt Ideal) _ _ (Cert.Pieces.cover_tail (Val := Elt Ideal) _ _ (Cert.Pieces.cover_head (Val := Elt Ideal) _ _ (Cert.Pieces.mem_block 0 18 inb_S2048x1536_S2048x6_0_18 (ix2 i q) ⟨Nat.zero_le _, by show i.val < 0 + 2048; omega⟩ ⟨by show 18 ≤ q.val; omega, by show q.val < 18 + 6; omega⟩))))
    · exact (Cert.Pieces.cover_tail (Val := Elt Ideal) _ _ (Cert.Pieces.cover_head (Val := Elt Ideal) _ _ (Cert.Pieces.mem_block 0 24 inb_S2048x1536_S2048x6_0_24 (ix2 i q) ⟨Nat.zero_le _, by show i.val < 0 + 2048; omega⟩ ⟨by show 24 ≤ q.val; omega, by show q.val < 24 + 6; omega⟩)))
    · exact (Cert.Pieces.cover_head (Val := Elt Ideal) _ _ (Cert.Pieces.mem_block 0 30 inb_S2048x1536_S2048x6_0_30 (ix2 i q) ⟨Nat.zero_le _, by show i.val < 0 + 2048; omega⟩ ⟨by show 30 ≤ q.val; omega, by show q.val < 30 + 6; omega⟩))

/-- Rows 0 … of the concatenated terms read back. -/
theorem xrows0_0 (c : Dev nD) (arg1 : Memref sig .tc .vmem S1x2048x6 .f32) (harg1 : arg1.IsWhole) (arg9 : Memref sig .tc .vmem S2048x2048 .bf16) (arg10 : Memref sig .tc .vmem S2048x1 .f32) (arg11 : Memref sig .tc .vmem S2048x1536 .bf16) (x0 : Vec Ideal S1x2048x6 .f32) (p : Fin 512) (q : Fin 36) (r : Fin 2048) (hr : r.val = 0 + p.val) :
    (kernelRun0_A.sl.v333 c arg1 harg1 arg9 arg10 arg11 x0) (ix2 p q) = cheb (feat x0) (feat x0) (q.val / 6) r ⟨q.val % 6, Nat.mod_lt _ (by decide)⟩ := by
  unfold kernelRun0_A.sl.v333
  exact (Cert.Pieces.readCov_block (R := 2048) (N := 1536) (r := 512) (n := 36) _ _ 0 0 inb_S2048x1536_S512x36_0_0 p q r ⟨q.val, by omega⟩ hr (by show q.val = 0 + q.val; omega)).trans
    (xt0_canon c arg1 harg1 arg9 arg10 x0 r ⟨q.val, by omega⟩ (by show q.val < 36; omega))

/-- Rows 512 … of the concatenated terms read back. -/
theorem xrows0_1 (c : Dev nD) (arg1 : Memref sig .tc .vmem S1x2048x6 .f32) (harg1 : arg1.IsWhole) (arg9 : Memref sig .tc .vmem S2048x2048 .bf16) (arg10 : Memref sig .tc .vmem S2048x1 .f32) (arg11 : Memref sig .tc .vmem S2048x1536 .bf16) (x0 : Vec Ideal S1x2048x6 .f32) (p : Fin 512) (q : Fin 36) (r : Fin 2048) (hr : r.val = 512 + p.val) :
    (kernelRun0_A.sl.v347 c arg1 harg1 arg9 arg10 arg11 x0) (ix2 p q) = cheb (feat x0) (feat x0) (q.val / 6) r ⟨q.val % 6, Nat.mod_lt _ (by decide)⟩ := by
  unfold kernelRun0_A.sl.v347
  exact (Cert.Pieces.readCov_block (R := 2048) (N := 1536) (r := 512) (n := 36) _ _ 512 0 inb_S2048x1536_S512x36_512_0 p q r ⟨q.val, by omega⟩ hr (by show q.val = 0 + q.val; omega)).trans
    (xt0_canon c arg1 harg1 arg9 arg10 x0 r ⟨q.val, by omega⟩ (by show q.val < 36; omega))

/-- Rows 1024 … of the concatenated terms read back. -/
theorem xrows0_2 (c : Dev nD) (arg1 : Memref sig .tc .vmem S1x2048x6 .f32) (harg1 : arg1.IsWhole) (arg9 : Memref sig .tc .vmem S2048x2048 .bf16) (arg10 : Memref sig .tc .vmem S2048x1 .f32) (arg11 : Memref sig .tc .vmem S2048x1536 .bf16) (x0 : Vec Ideal S1x2048x6 .f32) (p : Fin 512) (q : Fin 36) (r : Fin 2048) (hr : r.val = 1024 + p.val) :
    (kernelRun0_A.sl.v361 c arg1 harg1 arg9 arg10 arg11 x0) (ix2 p q) = cheb (feat x0) (feat x0) (q.val / 6) r ⟨q.val % 6, Nat.mod_lt _ (by decide)⟩ := by
  unfold kernelRun0_A.sl.v361
  exact (Cert.Pieces.readCov_block (R := 2048) (N := 1536) (r := 512) (n := 36) _ _ 1024 0 inb_S2048x1536_S512x36_1024_0 p q r ⟨q.val, by omega⟩ hr (by show q.val = 0 + q.val; omega)).trans
    (xt0_canon c arg1 harg1 arg9 arg10 x0 r ⟨q.val, by omega⟩ (by show q.val < 36; omega))

/-- Rows 1536 … of the concatenated terms read back. -/
theorem xrows0_3 (c : Dev nD) (arg1 : Memref sig .tc .vmem S1x2048x6 .f32) (harg1 : arg1.IsWhole) (arg9 : Memref sig .tc .vmem S2048x2048 .bf16) (arg10 : Memref sig .tc .vmem S2048x1 .f32) (arg11 : Memref sig .tc .vmem S2048x1536 .bf16) (x0 : Vec Ideal S1x2048x6 .f32) (p : Fin 512) (q : Fin 36) (r : Fin 2048) (hr : r.val = 1536 + p.val) :
    (kernelRun0_A.sl.v375 c arg1 harg1 arg9 arg10 arg11 x0) (ix2 p q) = cheb (feat x0) (feat x0) (q.val / 6) r ⟨q.val % 6, Nat.mod_lt _ (by decide)⟩ := by
  unfold kernelRun0_A.sl.v375
  exact (Cert.Pieces.readCov_block (R := 2048) (N := 1536) (r := 512) (n := 36) _ _ 1536 0 inb_S2048x1536_S512x36_1536_0 p q r ⟨q.val, by omega⟩ hr (by show q.val = 0 + q.val; omega)).trans
    (xt0_canon c arg1 harg1 arg9 arg10 x0 r ⟨q.val, by omega⟩ (by show q.val < 36; omega))

theorem k0_pay65_apply (V : Vec Ideal S512x36 .bf16) (w : Vec Ideal S36x128 .bf16) (b : Vec Ideal S1x128 .f32) (p : Fin 512) (o : Fin 128) :
    k0_pay65 V w b (ix2 p o) = max ((∑ q : Fin 36, V (ix2 p q) * w (ix2 q o)) + b (ix2 (0 : Fin 1) o)) zer := by
  unfold k0_pay65
  refine (congrFun (shapeCast_self _ _) (ix2 p o)).trans ?_
  show max (matmul (F := Ideal) (DotDims.plain 512 36 128) none V (shapeCast S36x128 w shapeCasts_S36x128_S36x128) (constant S512x128 .f32 0x00000000#32) (ix2 p o)
      + broadcastTo S512x128 (shapeCast S1x128 b shapeCasts_S1x128_S1x128) broadcasts_S1x128_S512x128 (ix2 p o)) _ = _
  rw [Cert.BlockDot.kdot_apply, broadcastTo_1b_ab_apply, shapeCast_self, shapeCast_self]
  rfl

theorem k0_pay66_apply (V : Vec Ideal S512x36 .bf16) (w : Vec Ideal S36x128 .bf16) (b : Vec Ideal S1x128 .f32) (p : Fin 512) (o : Fin 128) :
    k0_pay66 V w b (ix2 p o) = max ((∑ q : Fin 36, V (ix2 p q) * w (ix2 q o)) + b (ix2 (0 : Fin 1) o)) zer := by
  unfold k0_pay66
  refine (congrFun (shapeCast_self _ _) (ix2 p o)).trans ?_
  show max (matmul (F := Ideal) (DotDims.plain 512 36 128) none V (shapeCast S36x128 w shapeCasts_S36x128_S36x128) (constant S512x128 .f32 0x00000000#32) (ix2 p o)
      + broadcastTo S512x128 (shapeCast S1x128 b shapeCasts_S1x128_S1x128) broadcasts_S1x128_S512x128 (ix2 p o)) _ = _
  rw [Cert.BlockDot.kdot_apply, broadcastTo_1b_ab_apply, shapeCast_self, shapeCast_self]
  rfl

theorem k0_pay67_apply (V : Vec Ideal S512x36 .bf16) (w : Vec Ideal S36x128 .bf16) (b : Vec Ideal S1x128 .f32) (p : Fin 512) (o : Fin 128) :
    k0_pay67 V w b (ix2 p o) = max ((∑ q : Fin 36, V (ix2 p q) * w (ix2 q o)) + b (ix2 (0 : Fin 1) o)) zer := by
  unfold k0_pay67
  refine (congrFun (shapeCast_self _ _) (ix2 p o)).trans ?_
  show max (matmul (F := Ideal) (DotDims.plain 512 36 128) none V (shapeCast S36x128 w shapeCasts_S36x128_S36x128) (constant S512x128 .f32 0x00000000#32) (ix2 p o)
      + broadcastTo S512x128 (shapeCast S1x128 b shapeCasts_S1x128_S1x128) broadcasts_S1x128_S512x128 (ix2 p o)) _ = _
  rw [Cert.BlockDot.kdot_apply, broadcastTo_1b_ab_apply, shapeCast_self, shapeCast_self]
  rfl

theorem k0_pay69_apply (V : Vec Ideal S512x36 .bf16) (w : Vec Ideal S36x128 .bf16) (b : Vec Ideal S1x128 .f32) (p : Fin 512) (o : Fin 128) :
    k0_pay69 (k0_pay68 V w) b (ix2 p o) = max ((∑ q : Fin 36, V (ix2 p q) * w (ix2 q o)) + b (ix2 (0 : Fin 1) o)) zer := by
  unfold k0_pay69 k0_pay68
  refine (congrFun (shapeCast_self _ _) (ix2 p o)).trans ?_
  show max (matmul (F := Ideal) (DotDims.plain 512 36 128) none V (shapeCast S36x128 w shapeCasts_S36x128_S36x128) (constant S512x128 .f32 0x00000000#32) (ix2 p o)
      + broadcastTo S512x128 (shapeCast S1x128 b shapeCasts_S1x128_S1x128) broadcasts_S1x128_S512x128 (ix2 p o)) _ = _
  rw [Cert.BlockDot.kdot_apply, broadcastTo_1b_ab_apply, shapeCast_self, shapeCast_self]
  rfl

/-- Rows 0 … of the first layer's output as stored. -/
theorem hpiece0_0 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (x0 : Vec Ideal S1x2048x6 .f32) (x1 : Vec Ideal S36x128 .bf16) (x2 : Vec Ideal S1x128 .f32) (p : Fin 512) (o : Fin 128) (r : Fin 2048) (hr : r.val = 0 + p.val) :
    (k0_pay65 (kernelRun0_A.sl.v333 c arg1 harg1 arg9 arg10 arg11 x0) (View.readAt (Elt Ideal) arg2.view (Rect.unit ![0, 0] S36x128.size inb_S36x128_S36x128_0_0).toLoadRect (harg2.unread x1)) (View.readAt (Elt Ideal) arg3.view (Rect.unit ![0, 0] S1x128.size inb_S1x128_S1x128_0_0).toLoadRect (harg3.unread x2))) (ix2 p o) = (h0 x0 x1 x2) r o := by
  refine (k0_pay65_apply _ _ _ p o).trans ?_
  simp only [View.readAt_eq_ld, harg2.read_unread, harg3.read_unread, View.ld, Cert.Pieces.idx_whole2]
  simp only [xrows0_0 c arg1 harg1 arg9 arg10 arg11 x0 p _ r hr]
  rfl

/-- Rows 512 … of the first layer's output as stored. -/
theorem hpiece0_1 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (x0 : Vec Ideal S1x2048x6 .f32) (x1 : Vec Ideal S36x128 .bf16) (x2 : Vec Ideal S1x128 .f32) (p : Fin 512) (o : Fin 128) (r : Fin 2048) (hr : r.val = 512 + p.val) :
    (k0_pay66 (kernelRun0_A.sl.v347 c arg1 harg1 arg9 arg10 arg11 x0) (View.readAt (Elt Ideal) arg2.view (Rect.unit ![0, 0] S36x128.size inb_S36x128_S36x128_0_0).toLoadRect (harg2.unread x1)) (View.readAt (Elt Ideal) arg3.view (Rect.unit ![0, 0] S1x128.size inb_S1x128_S1x128_0_0).toLoadRect (harg3.unread x2))) (ix2 p o) = (h0 x0 x1 x2) r o := by
  refine (k0_pay66_apply _ _ _ p o).trans ?_
  simp only [View.readAt_eq_ld, harg2.read_unread, harg3.read_unread, View.ld, Cert.Pieces.idx_whole2]
  simp only [xrows0_1 c arg1 harg1 arg9 arg10 arg11 x0 p _ r hr]
  rfl

/-- Rows 1024 … of the first layer's output as stored. -/
theorem hpiece0_2 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (x0 : Vec Ideal S1x2048x6 .f32) (x1 : Vec Ideal S36x128 .bf16) (x2 : Vec Ideal S1x128 .f32) (p : Fin 512) (o : Fin 128) (r : Fin 2048) (hr : r.val = 1024 + p.val) :
    (k0_pay67 (kernelRun0_A.sl.v361 c arg1 harg1 arg9 arg10 arg11 x0) (View.readAt (Elt Ideal) arg2.view (Rect.unit ![0, 0] S36x128.size inb_S36x128_S36x128_0_0).toLoadRect (harg2.unread x1)) (View.readAt (Elt Ideal) arg3.view (Rect.unit ![0, 0] S1x128.size inb_S1x128_S1x128_0_0).toLoadRect (harg3.unread x2))) (ix2 p o) = (h0 x0 x1 x2) r o := by
  refine (k0_pay67_apply _ _ _ p o).trans ?_
  simp only [View.readAt_eq_ld, harg2.read_unread, harg3.read_unread, View.ld, Cert.Pieces.idx_whole2]
  simp only [xrows0_2 c arg1 harg1 arg9 arg10 arg11 x0 p _ r hr]
  rfl

/-- Rows 1536 … of the first layer's output as stored. -/
theorem hpiece0_3 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (x0 : Vec Ideal S1x2048x6 .f32) (x1 : Vec Ideal S36x128 .bf16) (x2 : Vec Ideal S1x128 .f32) (p : Fin 512) (o : Fin 128) (r : Fin 2048) (hr : r.val = 1536 + p.val) :
    (k0_pay69 (kernelRun0_A.sl.r_20 c arg1 harg1 arg2 harg2 arg9 arg10 arg11 x0 x1) (kernelRun0_A.sl.r_21 c arg3 harg3 x2)) (ix2 p o) = (h0 x0 x1 x2) r o := by
  unfold kernelRun0_A.sl.r_20 kernelRun0_A.sl.r_21
  refine (k0_pay69_apply _ _ _ p o).trans ?_
  simp only [View.readAt_eq_ld, harg2.read_unread, harg3.read_unread, View.ld, Cert.Pieces.idx_whole2]
  simp only [xrows0_3 c arg1 harg1 arg9 arg10 arg11 x0 p _ r hr]
  rfl

/-- The hidden buffer's first 128 columns hold the first layer's output. -/
def hbuf0G (x0 : Vec Ideal S1x2048x6 .f32) (x1 : Vec Ideal S36x128 .bf16) (x2 : Vec Ideal S1x128 .f32) : S2048x512.Idx → EReal :=
  fun y => if h : (y 1).val < 128 then (h0 x0 x1 x2) (y 0) ⟨(y 1).val, h⟩ else zer

theorem hbuf0G_apply (x0 : Vec Ideal S1x2048x6 .f32) (x1 : Vec Ideal S36x128 .bf16) (x2 : Vec Ideal S1x128 .f32)
    (i : Fin 2048) (j : Fin 512) (hj : j.val < 128) : hbuf0G x0 x1 x2 (ix2 i j) = (h0 x0 x1 x2) i ⟨j.val, hj⟩ := dif_pos hj

/-- The hidden buffer after the first layer. -/
theorem hbuf0_canon (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (x0 : Vec Ideal S1x2048x6 .f32) (x1 : Vec Ideal S36x128 .bf16) (x2 : Vec Ideal S1x128 .f32) (i : Fin 2048) (q : Fin 512) (hq : q.val < 128) :
    View.canon (kernelRun0_A.sl.HS3_4 c arg1 harg1 arg2 harg2 arg3 harg3 arg9 arg10 arg11 x0 x1 x2) (ix2 i q) = (h0 x0 x1 x2) i ⟨q.val, hq⟩ := by
  refine (View.canon_apply_of_pieces (Val := Elt Ideal) (S := S2048x512) (e := .bf16)
    (hbuf0G x0 x1 x2) _ ?_ (ix2 i q) ?_).trans (hbuf0G_apply x0 x1 x2 i q hq)
  · unfold kernelRun0_A.sl.HS3_4
    apply Cert.Pieces.agree_cons (Val := Elt Ideal) (S := S2048x512) (e := .bf16) (hbuf0G x0 x1 x2)
    · exact Cert.Pieces.block_piece_agree (Val := Elt Ideal) (e := .bf16) (R := 2048) (N := 512) (r := 512) (n := 128) (hbuf0G x0 x1 x2) 1536 0 inb_S2048x512_S512x128_1536_0 _
        (fun p o i j hi hj => by
          have hj' : j.val < 128 := by have := o.isLt; omega
          exact (hpiece0_3 c arg1 harg1 arg2 harg2 arg3 harg3 arg9 arg10 arg11 x0 x1 x2 p o i hi).trans
            ((congrArg ((h0 x0 x1 x2) i) (Fin.ext (by show o.val = j.val; omega) : o = ⟨j.val, hj'⟩)).trans (hbuf0G_apply x0 x1 x2 i j hj').symm))
    apply Cert.Pieces.agree_cons (Val := Elt Ideal) (S := S2048x512) (e := .bf16) (hbuf0G x0 x1 x2)
    · exact Cert.Pieces.block_piece_agree (Val := Elt Ideal) (e := .bf16) (R := 2048) (N := 512) (r := 512) (n := 128) (hbuf0G x0 x1 x2) 1024 0 inb_S2048x512_S512x128_1024_0 _
        (fun p o i j hi hj => by
          have hj' : j.val < 128 := by have := o.isLt; omega
          exact (hpiece0_2 c arg1 harg1 arg2 harg2 arg3 harg3 arg9 arg10 arg11 x0 x1 x2 p o i hi).trans
            ((congrArg ((h0 x0 x1 x2) i) (Fin.ext (by show o.val = j.val; omega) : o = ⟨j.val, hj'⟩)).trans (hbuf0G_apply x0 x1 x2 i j hj').symm))
    apply Cert.Pieces.agree_cons (Val := Elt Ideal) (S := S2048x512) (e := .bf16) (hbuf0G x0 x1 x2)
    · exact Cert.Pieces.block_piece_agree (Val := Elt Ideal) (e := .bf16) (R := 2048) (N := 512) (r := 512) (n := 128) (hbuf0G x0 x1 x2) 512 0 inb_S2048x512_S512x128_512_0 _
        (fun p o i j hi hj => by
          have hj' : j.val < 128 := by have := o.isLt; omega
          exact (hpiece0_1 c arg1 harg1 arg2 harg2 arg3 harg3 arg9 arg10 arg11 x0 x1 x2 p o i hi).trans
            ((congrArg ((h0 x0 x1 x2) i) (Fin.ext (by show o.val = j.val; omega) : o = ⟨j.val, hj'⟩)).trans (hbuf0G_apply x0 x1 x2 i j hj').symm))
    apply Cert.Pieces.agree_cons (Val := Elt Ideal) (S := S2048x512) (e := .bf16) (hbuf0G x0 x1 x2)
    · exact Cert.Pieces.block_piece_agree (Val := Elt Ideal) (e := .bf16) (R := 2048) (N := 512) (r := 512) (n := 128) (hbuf0G x0 x1 x2) 0 0 inb_S2048x512_S512x128_0_0 _
        (fun p o i j hi hj => by
          have hj' : j.val < 128 := by have := o.isLt; omega
          exact (hpiece0_0 c arg1 harg1 arg2 harg2 arg3 harg3 arg9 arg10 arg11 x0 x1 x2 p o i hi).trans
            ((congrArg ((h0 x0 x1 x2) i) (Fin.ext (by show o.val = j.val; omega) : o = ⟨j.val, hj'⟩)).trans (hbuf0G_apply x0 x1 x2 i j hj').symm))
    exact fun _ hq => absurd hq List.not_mem_nil
  · unfold kernelRun0_A.sl.HS3_4
    have hi := i.isLt
    rcases (by omega : i.val < 512 ∨ (512 ≤ i.val ∧ i.val < 1024) ∨ (1024 ≤ i.val ∧ i.val < 1536) ∨ (1536 ≤ i.val ∧ i.val < 2048)) with h | h | h | h
    · exact (Cert.Pieces.cover_tail (Val := Elt Ideal) _ _ (Cert.Pieces.cover_tail (Val := Elt Ideal) _ _ (Cert.Pieces.cover_tail (Val := Elt Ideal) _ _ (Cert.Pieces.cover_head (Val := Elt Ideal) _ _ (Cert.Pieces.mem_block 0 0 inb_S2048x512_S512x128_0_0 (ix2 i q) ⟨by show 0 ≤ i.val; omega, by show i.val < 0 + 512; omega⟩ ⟨Nat.zero_le _, by show q.val < 0 + 128; omega⟩)))))
    · exact (Cert.Pieces.cover_tail (Val := Elt Ideal) _ _ (Cert.Pieces.cover_tail (Val := Elt Ideal) _ _ (Cert.Pieces.cover_head (Val := Elt Ideal) _ _ (Cert.Pieces.mem_block 512 0 inb_S2048x512_S512x128_512_0 (ix2 i q) ⟨by show 512 ≤ i.val; omega, by show i.val < 512 + 512; omega⟩ ⟨Nat.zero_le _, by show q.val < 0 + 128; omega⟩))))
    · exact (Cert.Pieces.cover_tail (Val := Elt Ideal) _ _ (Cert.Pieces.cover_head (Val := Elt Ideal) _ _ (Cert.Pieces.mem_block 1024 0 inb_S2048x512_S512x128_1024_0 (ix2 i q) ⟨by show 1024 ≤ i.val; omega, by show i.val < 1024 + 512; omega⟩ ⟨Nat.zero_le _, by show q.val < 0 + 128; omega⟩)))
    · exact (Cert.Pieces.cover_head (Val := Elt Ideal) _ _ (Cert.Pieces.mem_block 1536 0 inb_S2048x512_S512x128_1536_0 (ix2 i q) ⟨by show 1536 ≤ i.val; omega, by show i.val < 1536 + 512; omega⟩ ⟨Nat.zero_le _, by show q.val < 0 + 128; omega⟩))

/-- The first layer's output read back: the second layer's input. -/
theorem h0_apply (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (i : Fin 2048) (o : Fin 128) :
    (kernelRun0_A.sl.v389 c arg1 harg1 arg2 harg2 arg3 harg3 arg9 arg10 arg11 arg12 x0 x1 x2) (ix2 i o) = (h0 x0 x1 x2) i o := by
  unfold kernelRun0_A.sl.v389
  exact (Cert.Pieces.readCov_block (R := 2048) (N := 512) (r := 2048) (n := 128) _ _ 0 0 inb_S2048x512_S2048x128_0_0 i o i ⟨o.val, by omega⟩ (by omega) (by show o.val = 0 + o.val; omega)).trans
    (hbuf0_canon c arg1 harg1 arg2 harg2 arg3 harg3 arg9 arg10 arg11 x0 x1 x2 i ⟨o.val, by omega⟩ o.isLt)

end Cert.KernelIdeal.Net

end
-- ==== Proof.KLayer1.lean ====
/-
  The second layer's Chebyshev terms as the kernel computes and stores them, read at an index.
-/
import proofs.«175608_j66305705115960_1_alg».proof.Proof.KDense0

set_option maxRecDepth 16384

noncomputable section

open scoped BigOperators

namespace Cert.KernelIdeal.Net

open Cert.KernelIdeal Cert.KernelIdeal.Gen Cert.GraphConv Idealize.ShloMosaic Idealize.ShloMosaic.ValueIdx

theorem l1t0 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (i : Fin 2048) (f : Fin 128) : (kernelRun0_A.sl.v389 c arg1 harg1 arg2 harg2 arg3 harg3 arg9 arg10 arg11 arg12 x0 x1 x2) (ix2 i f) = cheb (feat x0) (h0 x0 x1 x2) 0 i f :=
  h0_apply c arg1 harg1 arg2 harg2 arg3 harg3 arg9 arg10 arg11 arg12 x0 x1 x2 i f

theorem l1t1 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (i : Fin 2048) (f : Fin 128) : (kernelRun0_A.sl.r_22 c arg1 harg1 arg2 harg2 arg3 harg3 arg9 arg10 arg11 arg12 x0 x1 x2) (ix2 i f) = cheb (feat x0) (h0 x0 x1 x2) 1 i f :=
  cheb_first (feat x0) (h0 x0 x1 x2) (kernelRun0_A.sl.v277 c arg1 harg1 arg9 arg10 x0) (kernelRun0_A.sl.v389 c arg1 harg1 arg2 harg2 arg3 harg3 arg9 arg10 arg11 arg12 x0 x1 x2) (kernelRun0_A.sl.v389 c arg1 harg1 arg2 harg2 arg3 harg3 arg9 arg10 arg11 arg12 x0 x1 x2) (nadj_apply c arg1 harg1 arg9 arg10 x0) (l1t0 c arg1 harg1 arg2 harg2 arg3 harg3 arg9 arg10 arg11 arg12 x0 x1 x2) (l1t0 c arg1 harg1 arg2 harg2 arg3 harg3 arg9 arg10 arg11 arg12 x0 x1 x2) i f

theorem l1t1b (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (i : Fin 2048) (f : Fin 128) : (k0_pay72 (kernelRun0_A.sl.v389 c arg1 harg1 arg2 harg2 arg3 harg3 arg9 arg10 arg11 arg12 x0 x1 x2) (kernelRun0_A.sl.v277 c arg1 harg1 arg9 arg10 x0)) (ix2 i f) = cheb (feat x0) (h0 x0 x1 x2) 1 i f :=
  l1t1 c arg1 harg1 arg2 harg2 arg3 harg3 arg9 arg10 arg11 arg12 x0 x1 x2 i f

theorem l1t2 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (i : Fin 2048) (f : Fin 128) : (kernelRun0_A.sl.r_23 c arg1 harg1 arg2 harg2 arg3 harg3 arg9 arg10 arg11 arg12 x0 x1 x2) (ix2 i f) = cheb (feat x0) (h0 x0 x1 x2) 2 i f :=
  cheb_next (feat x0) (h0 x0 x1 x2) (kernelRun0_A.sl.v277 c arg1 harg1 arg9 arg10 x0) (k0_pay72 (kernelRun0_A.sl.v389 c arg1 harg1 arg2 harg2 arg3 harg3 arg9 arg10 arg11 arg12 x0 x1 x2) (kernelRun0_A.sl.v277 c arg1 harg1 arg9 arg10 x0)) (kernelRun0_A.sl.r_22 c arg1 harg1 arg2 harg2 arg3 harg3 arg9 arg10 arg11 arg12 x0 x1 x2) (kernelRun0_A.sl.v389 c arg1 harg1 arg2 harg2 arg3 harg3 arg9 arg10 arg11 arg12 x0 x1 x2) 0 (nadj_apply c arg1 harg1 arg9 arg10 x0) (l1t1b c arg1 harg1 arg2 harg2 arg3 harg3 arg9 arg10 arg11 arg12 x0 x1 x2) (l1t1 c arg1 harg1 arg2 harg2 arg3 harg3 arg9 arg10 arg11 arg12 x0 x1 x2) (l1t0 c arg1 harg1 arg2 harg2 arg3 harg3 arg9 arg10 arg11 arg12 x0 x1 x2) i f

theorem l1t2b (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (i : Fin 2048) (f : Fin 128) : (k0_pay75 (kernelRun0_A.sl.v389 c arg1 harg1 arg2 harg2 arg3 harg3 arg9 arg10 arg11 arg12 x0 x1 x2) (kernelRun0_A.sl.v277 c arg1 harg1 arg9 arg10 x0) (kernelRun0_A.sl.v277 c arg1 harg1 arg9 arg10 x0)) (ix2 i f) = cheb (feat x0) (h0 x0 x1 x2) 2 i f :=
  l1t2 c arg1 harg1 arg2 harg2 arg3 harg3 arg9 arg10 arg11 arg12 x0 x1 x2 i f

theorem l1t3 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (i : Fin 2048) (f : Fin 128) : (k0_pay78 (kernelRun0_A.sl.r_22 c arg1 harg1 arg2 harg2 arg3 harg3 arg9 arg10 arg11 arg12 x0 x1 x2) (kernelRun0_A.sl.r_23 c arg1 harg1 arg2 harg2 arg3 harg3 arg9 arg10 arg11 arg12 x0 x1 x2) (kernelRun0_A.sl.r_24 c arg1 harg1 arg2 harg2 arg3 harg3 arg9 arg10 arg11 arg12 x0 x1 x2)) (ix2 i f) = cheb (feat x0) (h0 x0 x1 x2) 3 i f :=
  cheb_next (feat x0) (h0 x0 x1 x2) (kernelRun0_A.sl.v277 c arg1 harg1 arg9 arg10 x0) (k0_pay75 (kernelRun0_A.sl.v389 c arg1 harg1 arg2 harg2 arg3 harg3 arg9 arg10 arg11 arg12 x0 x1 x2) (kernelRun0_A.sl.v277 c arg1 harg1 arg9 arg10 x0) (kernelRun0_A.sl.v277 c arg1 harg1 arg9 arg10 x0)) (kernelRun0_A.sl.r_23 c arg1 harg1 arg2 harg2 arg3 harg3 arg9 arg10 arg11 arg12 x0 x1 x2) (kernelRun0_A.sl.r_22 c arg1 harg1 arg2 harg2 arg3 harg3 arg9 arg10 arg11 arg12 x0 x1 x2) 1 (nadj_apply c arg1 harg1 arg9 arg10 x0) (l1t2b c arg1 harg1 arg2 harg2 arg3 harg3 arg9 arg10 arg11 arg12 x0 x1 x2) (l1t2 c arg1 harg1 arg2 harg2 arg3 harg3 arg9 arg10 arg11 arg12 x0 x1 x2) (l1t1 c arg1 harg1 arg2 harg2 arg3 harg3 arg9 arg10 arg11 arg12 x0 x1 x2) i f

theorem l1t3b (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (i : Fin 2048) (f : Fin 128) : (k0_pay79 (kernelRun0_A.sl.r_22 c arg1 harg1 arg2 harg2 arg3 harg3 arg9 arg10 arg11 arg12 x0 x1 x2) (kernelRun0_A.sl.r_23 c arg1 harg1 arg2 harg2 arg3 harg3 arg9 arg10 arg11 arg12 x0 x1 x2) (kernelRun0_A.sl.r_24 c arg1 harg1 arg2 harg2 arg3 harg3 arg9 arg10 arg11 arg12 x0 x1 x2)) (ix2 i f) = cheb (feat x0) (h0 x0 x1 x2) 3 i f :=
  l1t3 c arg1 harg1 arg2 harg2 arg3 harg3 arg9 arg10 arg11 arg12 x0 x1 x2 i f

theorem l1p0 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (i : Fin 2048) (f : Fin 128) : (k0_pay70 (kernelRun0_A.sl.v389 c arg1 harg1 arg2 harg2 arg3 harg3 arg9 arg10 arg11 arg12 x0 x1 x2)) (ix2 i f) = cheb (feat x0) (h0 x0 x1 x2) 0 i f :=
  (congrFun (shapeCast_self _ _) (ix2 i f)).trans (l1t0 c arg1 harg1 arg2 harg2 arg3 harg3 arg9 arg10 arg11 arg12 x0 x1 x2 i f)

theorem l1p1 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (i : Fin 2048) (f : Fin 128) : (k0_pay73 (kernelRun0_A.sl.v389 c arg1 harg1 arg2 harg2 arg3 harg3 arg9 arg10 arg11 arg12 x0 x1 x2) (kernelRun0_A.sl.v277 c arg1 harg1 arg9 arg10 x0)) (ix2 i f) = cheb (feat x0) (h0 x0 x1 x2) 1 i f :=
  (congrFun (shapeCast_self _ _) (ix2 i f)).trans (l1t1b c arg1 harg1 arg2 harg2 arg3 harg3 arg9 arg10 arg11 arg12 x0 x1 x2 i f)

theorem l1p2 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (i : Fin 2048) (f : Fin 128) : (k0_pay76 (kernelRun0_A.sl.v389 c arg1 harg1 arg2 harg2 arg3 harg3 arg9 arg10 arg11 arg12 x0 x1 x2) (kernelRun0_A.sl.v277 c arg1 harg1 arg9 arg10 x0) (kernelRun0_A.sl.v277 c arg1 harg1 arg9 arg10 x0)) (ix2 i f) = cheb (feat x0) (h0 x0 x1 x2) 2 i f :=
  (congrFun (shapeCast_self _ _) (ix2 i f)).trans (l1t2b c arg1 harg1 arg2 harg2 arg3 harg3 arg9 arg10 arg11 arg12 x0 x1 x2 i f)

theorem l1p3 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (i : Fin 2048) (f : Fin 128) : (k0_pay80 (kernelRun0_A.sl.r_22 c arg1 harg1 arg2 harg2 arg3 harg3 arg9 arg10 arg11 arg12 x0 x1 x2) (kernelRun0_A.sl.r_23 c arg1 harg1 arg2 harg2 arg3 harg3 arg9 arg10 arg11 arg12 x0 x1 x2) (kernelRun0_A.sl.r_24 c arg1 harg1 arg2 harg2 arg3 harg3 arg9 arg10 arg11 arg12 x0 x1 x2)) (ix2 i f) = cheb (feat x0) (h0 x0 x1 x2) 3 i f :=
  (congrFun (shapeCast_self _ _) (ix2 i f)).trans (l1t3b c arg1 harg1 arg2 harg2 arg3 harg3 arg9 arg10 arg11 arg12 x0 x1 x2 i f)

theorem l1p4 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (i : Fin 2048) (f : Fin 128) : (k0_pay81 (kernelRun0_A.sl.r_22 c arg1 harg1 arg2 harg2 arg3 harg3 arg9 arg10 arg11 arg12 x0 x1 x2) (kernelRun0_A.sl.r_23 c arg1 harg1 arg2 harg2 arg3 harg3 arg9 arg10 arg11 arg12 x0 x1 x2) (kernelRun0_A.sl.r_24 c arg1 harg1 arg2 harg2 arg3 harg3 arg9 arg10 arg11 arg12 x0 x1 x2) (kernelRun0_A.sl.v277 c arg1 harg1 arg9 arg10 x0)) (ix2 i f) = cheb (feat x0) (h0 x0 x1 x2) 4 i f := by
  unfold k0_pay81
  refine (congrFun (shapeCast_self _ _) (ix2 i f)).trans ?_
  exact cheb_next (feat x0) (h0 x0 x1 x2) (kernelRun0_A.sl.v277 c arg1 harg1 arg9 arg10 x0) (k0_pay79 (kernelRun0_A.sl.r_22 c arg1 harg1 arg2 harg2 arg3 harg3 arg9 arg10 arg11 arg12 x0 x1 x2) (kernelRun0_A.sl.r_23 c arg1 harg1 arg2 harg2 arg3 harg3 arg9 arg10 arg11 arg12 x0 x1 x2) (kernelRun0_A.sl.r_24 c arg1 harg1 arg2 harg2 arg3 harg3 arg9 arg10 arg11 arg12 x0 x1 x2)) (k0_pay78 (kernelRun0_A.sl.r_22 c arg1 harg1 arg2 harg2 arg3 harg3 arg9 arg10 arg11 arg12 x0 x1 x2) (kernelRun0_A.sl.r_23 c arg1 harg1 arg2 harg2 arg3 harg3 arg9 arg10 arg11 arg12 x0 x1 x2) (kernelRun0_A.sl.r_24 c arg1 harg1 arg2 harg2 arg3 harg3 arg9 arg10 arg11 arg12 x0 x1 x2)) (kernelRun0_A.sl.r_23 c arg1 harg1 arg2 harg2 arg3 harg3 arg9 arg10 arg11 arg12 x0 x1 x2) 2 (nadj_apply c arg1 harg1 arg9 arg10 x0) (l1t3b c arg1 harg1 arg2 harg2 arg3 harg3 arg9 arg10 arg11 arg12 x0 x1 x2) (l1t3 c arg1 harg1 arg2 harg2 arg3 harg3 arg9 arg10 arg11 arg12 x0 x1 x2) (l1t2 c arg1 harg1 arg2 harg2 arg3 harg3 arg9 arg10 arg11 arg12 x0 x1 x2) i f

end Cert.KernelIdeal.Net

end
-- ==== Proof.KDense1.lean ====
/-
  The second layer's dense stage as the kernel computes it: the buffer of concatenated Chebyshev terms, its blocks of
  512 rows, the dense layer on each block, and the hidden buffer they fill.
-/
import proofs.«175608_j66305705115960_1_alg».proof.Proof.KLayer1

set_option maxRecDepth 16384

noncomputable section

open scoped BigOperators

namespace Cert.KernelIdeal.Net

open Cert.KernelIdeal Cert.KernelIdeal.Gen Cert.GraphConv Idealize.ShloMosaic Idealize.ShloMosaic.ValueIdx

/-- The second layer's output: 512 features per node. -/
def h1 (x0 : Vec Ideal S1x2048x6 .f32) (x1 : Vec Ideal S36x128 .bf16) (x2 : Vec Ideal S1x128 .f32)
    (x3 : Vec Ideal S640x512 .bf16) (x4 : Vec Ideal S1x512 .f32) : Fin 2048 → Fin 512 → EReal :=
  denseP (feat x0) (K := 5) (by decide) (fun q o => x3 (ix2 (⟨q.val, q.isLt⟩ : Fin 640) o)) (fun o => x4 (ix2 (0 : Fin 1) o)) (h0 x0 x1 x2)

/-- Column `j` of the buffer of concatenated terms: feature `j % 128` of term `j / 128`. -/
def xt1G (x0 : Vec Ideal S1x2048x6 .f32) (x1 : Vec Ideal S36x128 .bf16) (x2 : Vec Ideal S1x128 .f32) : S2048x1536.Idx → EReal :=
  fun y => cheb (feat x0) (h0 x0 x1 x2) ((y 1).val / 128) (y 0) ⟨(y 1).val % 128, Nat.mod_lt _ (by decide)⟩

/-- The buffer of concatenated terms after the second layer's recursion. -/
theorem xt1_canon (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (i : Fin 2048) (q : Fin 1536) (hq : q.val < 640) :
    View.canon (kernelRun0_A.sl.HS2_11 c arg1 harg1 arg2 harg2 arg3 harg3 arg9 arg10 arg11 arg12 x0 x1 x2) (ix2 i q) = xt1G x0 x1 x2 (ix2 i q) := by
  unfold kernelRun0_A.sl.HS2_11
  show View.canon ([_, _, _, _, _] ++ _) _ = _
  refine Cert.Pieces.canon_prefix (Val := Elt Ideal) (S := S2048x1536) (e := .bf16) (xt1G x0 x1 x2) _ _ ?_ (ix2 i q) ?_
  · apply Cert.Pieces.agree_cons (Val := Elt Ideal) (S := S2048x1536) (e := .bf16) (xt1G x0 x1 x2)
    · exact Cert.Pieces.block_piece_agree (Val := Elt Ideal) (e := .bf16) (R := 2048) (N := 1536) (r := 2048) (n := 128) (xt1G x0 x1 x2) 0 512 inb_S2048x1536_S2048x128_0_512 _
        (fun p f i j hi hj => by
          obtain rfl : i = p := Fin.ext (by omega)
          exact (l1p4 c arg1 harg1 arg2 harg2 arg3 harg3 arg9 arg10 arg11 arg12 x0 x1 x2 i f).trans (cheb_col (feat x0) (h0 x0 x1 x2) (by decide) 4 f j.val (by omega) i).symm)
    apply Cert.Pieces.agree_cons (Val := Elt Ideal) (S := S2048x1536) (e := .bf16) (xt1G x0 x1 x2)
    · exact Cert.Pieces.block_piece_agree (Val := Elt Ideal) (e := .bf16) (R := 2048) (N := 1536) (r := 2048) (n := 128) (xt1G x0 x1 x2) 0 384 inb_S2048x1536_S2048x128_0_384 _
        (fun p f i j hi hj => by
          obtain rfl : i = p := Fin.ext (by omega)
          exact (l1p3 c arg1 harg1 arg2 harg2 arg3 harg3 arg9 arg10 arg11 arg12 x0 x1 x2 i f).trans (cheb_col (feat x0) (h0 x0 x1 x2) (by decide) 3 f j.val (by omega) i).symm)
    apply Cert.Pieces.agree_cons (Val := Elt Ideal) (S := S2048x1536) (e := .bf16) (xt1G x0 x1 x2)
    · exact Cert.Pieces.block_piece_agree (Val := Elt Ideal) (e := .bf16) (R := 2048) (N := 1536) (r := 2048) (n := 128) (xt1G x0 x1 x2) 0 256 inb_S2048x1536_S2048x128_0_256 _
        (fun p f i j hi hj => by
          obtain rfl : i = p := Fin.ext (by omega)
          exact (l1p2 c arg1 harg1 arg2 harg2 arg3 harg3 arg9 arg10 arg11 arg12 x0 x1 x2 i f).trans (cheb_col (feat x0) (h0 x0 x1 x2) (by decide) 2 f j.val (by omega) i).symm)
    apply Cert.Pieces.agree_cons (Val := Elt Ideal) (S := S2048x1536) (e := .bf16) (xt1G x0 x1 x2)
    · exact Cert.Pieces.block_piece_agree (Val := Elt Ideal) (e := .bf16) (R := 2048) (N := 1536) (r := 2048) (n := 128) (xt1G x0 x1 x2) 0 128 inb_S2048x1536_S2048x128_0_128 _
        (fun p f i j hi hj => by
          obtain rfl : i = p := Fin.ext (by omega)
          exact (l1p1 c arg1 harg1 arg2 harg2 arg3 harg3 arg9 arg10 arg11 arg12 x0 x1 x2 i f).trans (cheb_col (feat x0) (h0 x0 x1 x2) (by decide) 1 f j.val (by omega) i).symm)
    apply Cert.Pieces.agree_cons (Val := Elt Ideal) (S := S2048x1536) (e := .bf16) (xt1G x0 x1 x2)
    · exact Cert.Pieces.block_piece_agree (Val := Elt Ideal) (e := .bf16) (R := 2048) (N := 1536) (r := 2048) (n := 128) (xt1G x0 x1 x2) 0 0 inb_S2048x1536_S2048x128_0_0 _
        (fun p f i j hi hj => by
          obtain rfl : i = p := Fin.ext (by omega)
          exact (l1p0 c arg1 harg1 arg2 harg2 arg3 harg3 arg9 arg10 arg11 arg12 x0 x1 x2 i f).trans (cheb_col (feat x0) (h0 x0 x1 x2) (by decide) 0 f j.val (by omega) i).symm)
    exact fun _ hq => absurd hq List.not_mem_nil
  · have hi := i.isLt
    rcases (by omega : q.val < 128 ∨ (128 ≤ q.val ∧ q.val < 256) ∨ (256 ≤ q.val ∧ q.val < 384) ∨ (384 ≤ q.val ∧ q.val < 512) ∨ (512 ≤ q.val ∧ q.val < 640)) with h | h | h | h | h
    · exact (Cert.Pieces.cover_tail (Val := Elt Ideal) _ _ (Cert.Pieces.cover_tail (Val := Elt Ideal) _ _ (Cert.Pieces.cover_tail (Val := Elt Ideal) _ _ (Cert.Pieces.cover_tail (Val := Elt Ideal) _ _ (Cert.Pieces.cover_head (Val := Elt Ideal) _ _ (Cert.Pieces.mem_block 0 0 inb_S2048x1536_S2048x128_0_0 (ix2 i q) ⟨Nat.zero_le _, by show i.val < 0 + 2048; omega⟩ ⟨by show 0 ≤ q.val; omega, by show q.val < 0 + 128; omega⟩))))))
    · exact (Cert.Pieces.cover_tail (Val := Elt Ideal) _ _ (Cert.Pieces.cover_tail (Val := Elt Ideal) _ _ (Cert.Pieces.cover_tail (Val := Elt Ideal) _ _ (Cert.Pieces.cover_head (Val := Elt Ideal) _ _ (Cert.Pieces.mem_block 0 128 inb_S2048x1536_S2048x128_0_128 (ix2 i q) ⟨Nat.zero_le _, by show i.val < 0 + 2048; omega⟩ ⟨by show 128 ≤ q.val; omega, by show q.val < 128 + 128; omega⟩)))))
    · exact (Cert.Pieces.cover_tail (Val := Elt Ideal) _ _ (Cert.Pieces.cover_tail (Val := Elt Ideal) _ _ (Cert.Pieces.cover_head (Val := Elt Ideal) _ _ (Cert.Pieces.mem_block 0 256 inb_S2048x1536_S2048x128_0_256 (ix2 i q) ⟨Nat.zero_le _, by show i.val < 0 + 2048; omega⟩ ⟨by show 256 ≤ q.val; omega, by show q.val < 256 + 128; omega⟩))))
    · exact (Cert.Pieces.cover_tail (Val := Elt Ideal) _ _ (Cert.Pieces.cover_head (Val := Elt Ideal) _ _ (Cert.Pieces.mem_block 0 384 inb_S2048x1536_S2048x128_0_384 (ix2 i q) ⟨Nat.zero_le _, by show i.val < 0 + 2048; omega⟩ ⟨by show 384 ≤ q.val; omega, by show q.val < 384 + 128; omega⟩)))
    · exact (Cert.Pieces.cover_head (Val := Elt Ideal) _ _ (Cert.Pieces.mem_block 0 512 inb_S2048x1536_S2048x128_0_512 (ix2 i q) ⟨Nat.zero_le _, by show i.val < 0 + 2048; omega⟩ ⟨by show 512 ≤ q.val; omega, by show q.val < 512 + 128; omega⟩))

/-- Rows 0 … of the concatenated terms read back. -/
theorem xrows1_0 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (p : Fin 512) (q : Fin 640) (r : Fin 2048) (hr : r.val = 0 + p.val) :
    (kernelRun0_A.sl.v437 c arg1 harg1 arg2 harg2 arg3 harg3 arg9 arg10 arg11 arg12 x0 x1 x2) (ix2 p q) = cheb (feat x0) (h0 x0 x1 x2) (q.val / 128) r ⟨q.val % 128, Nat.mod_lt _ (by decide)⟩ := by
  unfold kernelRun0_A.sl.v437
  exact (Cert.Pieces.readCov_block (R := 2048) (N := 1536) (r := 512) (n := 640) _ _ 0 0 inb_S2048x1536_S512x640_0_0 p q r ⟨q.val, by omega⟩ hr (by show q.val = 0 + q.val; omega)).trans
    (xt1_canon c arg1 harg1 arg2 harg2 arg3 harg3 arg9 arg10 arg11 arg12 x0 x1 x2 r ⟨q.val, by omega⟩ (by show q.val < 640; omega))

/-- Rows 512 … of the concatenated terms read back. -/
theorem xrows1_1 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (p : Fin 512) (q : Fin 640) (r : Fin 2048) (hr : r.val = 512 + p.val) :
    (kernelRun0_A.sl.v451 c arg1 harg1 arg2 harg2 arg3 harg3 arg9 arg10 arg11 arg12 x0 x1 x2) (ix2 p q) = cheb (feat x0) (h0 x0 x1 x2) (q.val / 128) r ⟨q.val % 128, Nat.mod_lt _ (by decide)⟩ := by
  unfold kernelRun0_A.sl.v451
  exact (Cert.Pieces.readCov_block (R := 2048) (N := 1536) (r := 512) (n := 640) _ _ 512 0 inb_S2048x1536_S512x640_512_0 p q r ⟨q.val, by omega⟩ hr (by show q.val = 0 + q.val; omega)).trans
    (xt1_canon c arg1 harg1 arg2 harg2 arg3 harg3 arg9 arg10 arg11 arg12 x0 x1 x2 r ⟨q.val, by omega⟩ (by show q.val < 640; omega))

/-- Rows 1024 … of the concatenated terms read back. -/
theorem xrows1_2 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (p : Fin 512) (q : Fin 640) (r : Fin 2048) (hr : r.val = 1024 + p.val) :
    (kernelRun0_A.sl.v465 c arg1 harg1 arg2 harg2 arg3 harg3 arg9 arg10 arg11 arg12 x0 x1 x2) (ix2 p q) = cheb (feat x0) (h0 x0 x1 x2) (q.val / 128) r ⟨q.val % 128, Nat.mod_lt _ (by decide)⟩ := by
  unfold kernelRun0_A.sl.v465
  exact (Cert.Pieces.readCov_block (R := 2048) (N := 1536) (r := 512) (n := 640) _ _ 1024 0 inb_S2048x1536_S512x640_1024_0 p q r ⟨q.val, by omega⟩ hr (by show q.val = 0 + q.val; omega)).trans
    (xt1_canon c arg1 harg1 arg2 harg2 arg3 harg3 arg9 arg10 arg11 arg12 x0 x1 x2 r ⟨q.val, by omega⟩ (by show q.val < 640; omega))

/-- Rows 1536 … of the concatenated terms read back. -/
theorem xrows1_3 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (p : Fin 512) (q : Fin 640) (r : Fin 2048) (hr : r.val = 1536 + p.val) :
    (kernelRun0_A.sl.v479 c arg1 harg1 arg2 harg2 arg3 harg3 arg9 arg10 arg11 arg12 x0 x1 x2) (ix2 p q) = cheb (feat x0) (h0 x0 x1 x2) (q.val / 128) r ⟨q.val % 128, Nat.mod_lt _ (by decide)⟩ := by
  unfold kernelRun0_A.sl.v479
  exact (Cert.Pieces.readCov_block (R := 2048) (N := 1536) (r := 512) (n := 640) _ _ 1536 0 inb_S2048x1536_S512x640_1536_0 p q r ⟨q.val, by omega⟩ hr (by show q.val = 0 + q.val; omega)).trans
    (xt1_canon c arg1 harg1 arg2 harg2 arg3 harg3 arg9 arg10 arg11 arg12 x0 x1 x2 r ⟨q.val, by omega⟩ (by show q.val < 640; omega))

theorem k0_pay82_apply (V : Vec Ideal S512x640 .bf16) (w : Vec Ideal S640x512 .bf16) (b : Vec Ideal S1x512 .f32) (p : Fin 512) (o : Fin 512) :
    k0_pay82 V w b (ix2 p o) = max ((∑ q : Fin 640, V (ix2 p q) * w (ix2 q o)) + b (ix2 (0 : Fin 1) o)) zer := by
  unfold k0_pay82
  refine (congrFun (shapeCast_self _ _) (ix2 p o)).trans ?_
  show max (matmul (F := Ideal) (DotDims.plain 512 640 512) none V (shapeCast S640x512 w shapeCasts_S640x512_S640x512) (constant S512x512 .f32 0x00000000#32) (ix2 p o)
      + broadcastTo S512x512 (shapeCast S1x512 b shapeCasts_S1x512_S1x512) broadcasts_S1x512_S512x512 (ix2 p o)) _ = _
  rw [Cert.BlockDot.kdot_apply, broadcastTo_1b_ab_apply, shapeCast_self, shapeCast_self]
  rfl

theorem k0_pay83_apply (V : Vec Ideal S512x640 .bf16) (w : Vec Ideal S640x512 .bf16) (b : Vec Ideal S1x512 .f32) (p : Fin 512) (o : Fin 512) :
    k0_pay83 V w b (ix2 p o) = max ((∑ q : Fin 640, V (ix2 p q) * w (ix2 q o)) + b (ix2 (0 : Fin 1) o)) zer := by
  unfold k0_pay83
  refine (congrFun (shapeCast_self _ _) (ix2 p o)).trans ?_
  show max (matmul (F := Ideal) (DotDims.plain 512 640 512) none V (shapeCast S640x512 w shapeCasts_S640x512_S640x512) (constant S512x512 .f32 0x00000000#32) (ix2 p o)
      + broadcastTo S512x512 (shapeCast S1x512 b shapeCasts_S1x512_S1x512) broadcasts_S1x512_S512x512 (ix2 p o)) _ = _
  rw [Cert.BlockDot.kdot_apply, broadcastTo_1b_ab_apply, shapeCast_self, shapeCast_self]
  rfl

theorem k0_pay84_apply (V : Vec Ideal S512x640 .bf16) (w : Vec Ideal S640x512 .bf16) (b : Vec Ideal S1x512 .f32) (p : Fin 512) (o : Fin 512) :
    k0_pay84 V w b (ix2 p o) = max ((∑ q : Fin 640, V (ix2 p q) * w (ix2 q o)) + b (ix2 (0 : Fin 1) o)) zer := by
  unfold k0_pay84
  refine (congrFun (shapeCast_self _ _) (ix2 p o)).trans ?_
  show max (matmul (F := Ideal) (DotDims.plain 512 640 512) none V (shapeCast S640x512 w shapeCasts_S640x512_S640x512) (constant S512x512 .f32 0x00000000#32) (ix2 p o)
      + broadcastTo S512x512 (shapeCast S1x512 b shapeCasts_S1x512_S1x512) broadcasts_S1x512_S512x512 (ix2 p o)) _ = _
  rw [Cert.BlockDot.kdot_apply, broadcastTo_1b_ab_apply, shapeCast_self, shapeCast_self]
  rfl

theorem k0_pay86_apply (V : Vec Ideal S512x640 .bf16) (w : Vec Ideal S640x512 .bf16) (b : Vec Ideal S1x512 .f32) (p : Fin 512) (o : Fin 512) :
    k0_pay86 (k0_pay85 V w) b (ix2 p o) = max ((∑ q : Fin 640, V (ix2 p q) * w (ix2 q o)) + b (ix2 (0 : Fin 1) o)) zer := by
  unfold k0_pay86 k0_pay85
  refine (congrFun (shapeCast_self _ _) (ix2 p o)).trans ?_
  show max (matmul (F := Ideal) (DotDims.plain 512 640 512) none V (shapeCast S640x512 w shapeCasts_S640x512_S640x512) (constant S512x512 .f32 0x00000000#32) (ix2 p o)
      + broadcastTo S512x512 (shapeCast S1x512 b shapeCasts_S1x512_S1x512) broadcasts_S1x512_S512x512 (ix2 p o)) _ = _
  rw [Cert.BlockDot.kdot_apply, broadcastTo_1b_ab_apply, shapeCast_self, shapeCast_self]
  rfl

/-- Rows 0 … of the second layer's output as stored. -/
theorem hpiece1_0 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (x3 : Vec Ideal S640x512 .bf16) (x4 : Vec Ideal S1x512 .f32) (p : Fin 512) (o : Fin 512) (r : Fin 2048) (hr : r.val = 0 + p.val) :
    (k0_pay82 (kernelRun0_A.sl.v437 c arg1 harg1 arg2 harg2 arg3 harg3 arg9 arg10 arg11 arg12 x0 x1 x2) (View.readAt (Elt Ideal) arg4.view (Rect.unit ![0, 0] S640x512.size inb_S640x512_S640x512_0_0).toLoadRect (harg4.unread x3)) (View.readAt (Elt Ideal) arg5.view (Rect.unit ![0, 0] S1x512.size inb_S1x512_S1x512_0_0).toLoadRect (harg5.unread x4))) (ix2 p o) = (h1 x0 x1 x2 x3 x4) r o := by
  refine (k0_pay82_apply _ _ _ p o).trans ?_
  simp only [View.readAt_eq_ld, harg4.read_unread, harg5.read_unread, View.ld, Cert.Pieces.idx_whole2]
  simp only [xrows1_0 c arg1 harg1 arg2 harg2 arg3 harg3 arg9 arg10 arg11 arg12 x0 x1 x2 p _ r hr]
  rfl

/-- Rows 512 … of the second layer's output as stored. -/
theorem hpiece1_1 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (x3 : Vec Ideal S640x512 .bf16) (x4 : Vec Ideal S1x512 .f32) (p : Fin 512) (o : Fin 512) (r : Fin 2048) (hr : r.val = 512 + p.val) :
    (k0_pay83 (kernelRun0_A.sl.v451 c arg1 harg1 arg2 harg2 arg3 harg3 arg9 arg10 arg11 arg12 x0 x1 x2) (View.readAt (Elt Ideal) arg4.view (Rect.unit ![0, 0] S640x512.size inb_S640x512_S640x512_0_0).toLoadRect (harg4.unread x3)) (View.readAt (Elt Ideal) arg5.view (Rect.unit ![0, 0] S1x512.size inb_S1x512_S1x512_0_0).toLoadRect (harg5.unread x4))) (ix2 p o) = (h1 x0 x1 x2 x3 x4) r o := by
  refine (k0_pay83_apply _ _ _ p o).trans ?_
  simp only [View.readAt_eq_ld, harg4.read_unread, harg5.read_unread, View.ld, Cert.Pieces.idx_whole2]
  simp only [xrows1_1 c arg1 harg1 arg2 harg2 arg3 harg3 arg9 arg10 arg11 arg12 x0 x1 x2 p _ r hr]
  rfl

/-- Rows 1024 … of the second layer's output as stored. -/
theorem hpiece1_2 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (x3 : Vec Ideal S640x512 .bf16) (x4 : Vec Ideal S1x512 .f32) (p : Fin 512) (o : Fin 512) (r : Fin 2048) (hr : r.val = 1024 + p.val) :
    (k0_pay84 (kernelRun0_A.sl.v465 c arg1 harg1 arg2 harg2 arg3 harg3 arg9 arg10 arg11 arg12 x0 x1 x2) (View.readAt (Elt Ideal) arg4.view (Rect.unit ![0, 0] S640x512.size inb_S640x512_S640x512_0_0).toLoadRect (harg4.unread x3)) (View.readAt (Elt Ideal) arg5.view (Rect.unit ![0, 0] S1x512.size inb_S1x512_S1x512_0_0).toLoadRect (harg5.unread x4))) (ix2 p o) = (h1 x0 x1 x2 x3 x4) r o := by
  refine (k0_pay84_apply _ _ _ p o).trans ?_
  simp only [View.readAt_eq_ld, harg4.read_unread, harg5.read_unread, View.ld, Cert.Pieces.idx_whole2]
  simp only [xrows1_2 c arg1 harg1 arg2 harg2 arg3 harg3 arg9 arg10 arg11 arg12 x0 x1 x2 p _ r hr]
  rfl

/-- Rows 1536 … of the second layer's output as stored. -/
theorem hpiece1_3 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (x3 : Vec Ideal S640x512 .bf16) (x4 : Vec Ideal S1x512 .f32) (p : Fin 512) (o : Fin 512) (r : Fin 2048) (hr : r.val = 1536 + p.val) :
    (k0_pay86 (kernelRun0_A.sl.r_25 c arg1 harg1 arg2 harg2 arg3 harg3 arg4 harg4 arg9 arg10 arg11 arg12 x0 x1 x2 x3) (kernelRun0_A.sl.r_26 c arg5 harg5 x4)) (ix2 p o) = (h1 x0 x1 x2 x3 x4) r o := by
  unfold kernelRun0_A.sl.r_25 kernelRun0_A.sl.r_26
  refine (k0_pay86_apply _ _ _ p o).trans ?_
  simp only [View.readAt_eq_ld, harg4.read_unread, harg5.read_unread, View.ld, Cert.Pieces.idx_whole2]
  simp only [xrows1_3 c arg1 harg1 arg2 harg2 arg3 harg3 arg9 arg10 arg11 arg12 x0 x1 x2 p _ r hr]
  rfl

/-- The hidden buffer after the second layer. -/
theorem hbuf1_canon (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (x3 : Vec Ideal S640x512 .bf16) (x4 : Vec Ideal S1x512 .f32) (i : Fin 2048) (q : Fin 512) :
    View.canon (kernelRun0_A.sl.HS3_8 c arg1 harg1 arg2 harg2 arg3 harg3 arg4 harg4 arg5 harg5 arg9 arg10 arg11 arg12 x0 x1 x2 x3 x4) (ix2 i q) = (h1 x0 x1 x2 x3 x4) i q := by
  unfold kernelRun0_A.sl.HS3_8
  show View.canon ([_, _, _, _] ++ _) _ = _
  refine Cert.Pieces.canon_prefix (Val := Elt Ideal) (S := S2048x512) (e := .bf16) (fun y : S2048x512.Idx => (h1 x0 x1 x2 x3 x4) (y 0) (y 1)) _ _ ?_ (ix2 i q) ?_
  · apply Cert.Pieces.agree_cons (Val := Elt Ideal) (S := S2048x512) (e := .bf16) (fun y : S2048x512.Idx => (h1 x0 x1 x2 x3 x4) (y 0) (y 1))
    · exact Cert.Pieces.rows_piece_agree (Val := Elt Ideal) (e := .bf16) (R := 2048) (N := 512) (r := 512) (fun y : S2048x512.Idx => (h1 x0 x1 x2 x3 x4) (y 0) (y 1)) 1536 inb_S2048x512_S512x512_1536_0 _
        (fun p o r hr => hpiece1_3 c arg1 harg1 arg2 harg2 arg3 harg3 arg4 harg4 arg5 harg5 arg9 arg10 arg11 arg12 x0 x1 x2 x3 x4 p o r hr)
    apply Cert.Pieces.agree_cons (Val := Elt Ideal) (S := S2048x512) (e := .bf16) (fun y : S2048x512.Idx => (h1 x0 x1 x2 x3 x4) (y 0) (y 1))
    · exact Cert.Pieces.rows_piece_agree (Val := Elt Ideal) (e := .bf16) (R := 2048) (N := 512) (r := 512) (fun y : S2048x512.Idx => (h1 x0 x1 x2 x3 x4) (y 0) (y 1)) 1024 inb_S2048x512_S512x512_1024_0 _
        (fun p o r hr => hpiece1_2 c arg1 harg1 arg2 harg2 arg3 harg3 arg4 harg4 arg5 harg5 arg9 arg10 arg11 arg12 x0 x1 x2 x3 x4 p o r hr)
    apply Cert.Pieces.agree_cons (Val := Elt Ideal) (S := S2048x512) (e := .bf16) (fun y : S2048x512.Idx => (h1 x0 x1 x2 x3 x4) (y 0) (y 1))
    · exact Cert.Pieces.rows_piece_agree (Val := Elt Ideal) (e := .bf16) (R := 2048) (N := 512) (r := 512) (fun y : S2048x512.Idx => (h1 x0 x1 x2 x3 x4) (y 0) (y 1)) 512 inb_S2048x512_S512x512_512_0 _
        (fun p o r hr => hpiece1_1 c arg1 harg1 arg2 harg2 arg3 harg3 arg4 harg4 arg5 harg5 arg9 arg10 arg11 arg12 x0 x1 x2 x3 x4 p o r hr)
    apply Cert.Pieces.agree_cons (Val := Elt Ideal) (S := S2048x512) (e := .bf16) (fun y : S2048x512.Idx => (h1 x0 x1 x2 x3 x4) (y 0) (y 1))
    · exact Cert.Pieces.rows_piece_agree (Val := Elt Ideal) (e := .bf16) (R := 2048) (N := 512) (r := 512) (fun y : S2048x512.Idx => (h1 x0 x1 x2 x3 x4) (y 0) (y 1)) 0 inb_S2048x512_S512x512_0_0 _
        (fun p o r hr => hpiece1_0 c arg1 harg1 arg2 harg2 arg3 harg3 arg4 harg4 arg5 harg5 arg9 arg10 arg11 arg12 x0 x1 x2 x3 x4 p o r hr)
    exact fun _ hq => absurd hq List.not_mem_nil
  · have hi := i.isLt
    rcases (by omega : i.val < 512 ∨ (512 ≤ i.val ∧ i.val < 1024) ∨ (1024 ≤ i.val ∧ i.val < 1536) ∨ (1536 ≤ i.val ∧ i.val < 2048)) with h | h | h | h
    · exact (Cert.Pieces.cover_tail (Val := Elt Ideal) _ _ (Cert.Pieces.cover_tail (Val := Elt Ideal) _ _ (Cert.Pieces.cover_tail (Val := Elt Ideal) _ _ (Cert.Pieces.cover_head (Val := Elt Ideal) _ _ (Cert.Pieces.mem_rows 0 inb_S2048x512_S512x512_0_0 (ix2 i q) ⟨by show 0 ≤ i.val; omega, by show i.val < 0 + 512; omega⟩)))))
    · exact (Cert.Pieces.cover_tail (Val := Elt Ideal) _ _ (Cert.Pieces.cover_tail (Val := Elt Ideal) _ _ (Cert.Pieces.cover_head (Val := Elt Ideal) _ _ (Cert.Pieces.mem_rows 512 inb_S2048x512_S512x512_512_0 (ix2 i q) ⟨by show 512 ≤ i.val; omega, by show i.val < 512 + 512; omega⟩))))
    · exact (Cert.Pieces.cover_tail (Val := Elt Ideal) _ _ (Cert.Pieces.cover_head (Val := Elt Ideal) _ _ (Cert.Pieces.mem_rows 1024 inb_S2048x512_S512x512_1024_0 (ix2 i q) ⟨by show 1024 ≤ i.val; omega, by show i.val < 1024 + 512; omega⟩)))
    · exact (Cert.Pieces.cover_head (Val := Elt Ideal) _ _ (Cert.Pieces.mem_rows 1536 inb_S2048x512_S512x512_1536_0 (ix2 i q) ⟨by show 1536 ≤ i.val; omega, by show i.val < 1536 + 512; omega⟩))

/-- The second layer's output read back: the third layer's input. -/
theorem h1_apply (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (x3 : Vec Ideal S640x512 .bf16) (x4 : Vec Ideal S1x512 .f32) (i : Fin 2048) (o : Fin 512) :
    (kernelRun0_A.sl.v493 c arg1 harg1 arg2 harg2 arg3 harg3 arg4 harg4 arg5 harg5 arg9 arg10 arg11 arg12 x0 x1 x2 x3 x4) (ix2 i o) = (h1 x0 x1 x2 x3 x4) i o := by
  unfold kernelRun0_A.sl.v493
  exact (Cert.Pieces.readCov_block (R := 2048) (N := 512) (r := 2048) (n := 512) _ _ 0 0 inb_S2048x512_S2048x512_0_0 i o i o (by omega) (by omega)).trans
    (hbuf1_canon c arg1 harg1 arg2 harg2 arg3 harg3 arg4 harg4 arg5 harg5 arg9 arg10 arg11 arg12 x0 x1 x2 x3 x4 i o)

end Cert.KernelIdeal.Net

end
-- ==== Proof.KLayer2.lean ====
/-
  The last layer as the kernel computes it, from the second layer's output.

  With `Y` the second layer's output (512 features per node) held in the hidden buffer and `A` the normalised affinity:
  the three Chebyshev terms `T₀ = Y`, `T₁ = Y - A · Y`, `T₂ = 2 · (T₁ - A · T₁) - T₀` are stored side by side in the buffer
  of concatenated terms (term `k`, feature `f` at column `512 · k + f`); each block of 512 rows of that buffer is multiplied
  by the weight matrix, the bias is added and the result rectified, and the four blocks fill the output block.
-/
import proofs.«175608_j66305705115960_1_alg».proof.Proof.KPhase1
import proofs.«175608_j66305705115960_1_alg».proof.Proof.KCheb
import proofs.«175608_j66305705115960_1_alg».proof.Proof.LibPieces
import Idealize.ShloMosaic.Lib.ValueLayout

set_option maxRecDepth 16384

noncomputable section

open scoped BigOperators

namespace Cert.KernelIdeal.Net

open Cert.KernelIdeal Cert.KernelIdeal.Gen Cert.GraphConv Idealize.ShloMosaic Idealize.ShloMosaic.ValueIdx

/-! ## The three Chebyshev terms of the last layer -/

section Terms

variable (X : Fin 2048 → Fin 6 → EReal) (Y : Fin 2048 → Fin 512 → EReal)
  (A : Vec Ideal S2048x2048 .bf16) (T0 : Vec Ideal S2048x512 .bf16)
  (hA : ∀ i j, A (ix2 i j) = nadj X i j) (hY : ∀ i o, T0 (ix2 i o) = Y i o)

include hA hY

/-- The first term, before and after it is narrowed. -/
theorem l2t1 (i : Fin 2048) (f : Fin 512) : k0_pay88 T0 A (ix2 i f) = cheb X Y 1 i f :=
  cheb_first X Y A T0 T0 hA hY hY i f

theorem l2t1b (i : Fin 2048) (f : Fin 512) : k0_pay89 T0 A (ix2 i f) = cheb X Y 1 i f :=
  l2t1 X Y A T0 hA hY i f

/-- The three stored terms. -/
theorem l2p0 (i : Fin 2048) (f : Fin 512) : k0_pay87 T0 (ix2 i f) = cheb X Y 0 i f :=
  (congrFun (shapeCast_self _ _) (ix2 i f)).trans (hY i f)

theorem l2p1 (i : Fin 2048) (f : Fin 512) : k0_pay90 T0 A (ix2 i f) = cheb X Y 1 i f :=
  (congrFun (shapeCast_self _ _) (ix2 i f)).trans (l2t1b X Y A T0 hA hY i f)

theorem l2p2 (i : Fin 2048) (f : Fin 512) : k0_pay91 T0 A A (ix2 i f) = cheb X Y 2 i f := by
  unfold k0_pay91
  refine (congrFun (shapeCast_self _ _) (ix2 i f)).trans ?_
  exact cheb_next X Y A (k0_pay89 T0 A) (k0_pay88 T0 A) T0 0 hA (l2t1b X Y A T0 hA hY) (l2t1 X Y A T0 hA hY) hY i f

/-- Column `j` of the buffer of concatenated terms: feature `j mod 512` of term `j / 512`. -/
def xt2G : S2048x1536.Idx → EReal :=
  fun y => cheb X Y ((y 1).val / 512) (y 0) ⟨(y 1).val % 512, Nat.mod_lt _ (by decide)⟩

omit hA hY in
theorem xt2G_apply (i : Fin 2048) (q : Fin 1536) :
    xt2G X Y (ix2 i q) = cheb X Y (q.val / 512) i ⟨q.val % 512, Nat.mod_lt _ (by decide)⟩ := rfl

/-- The buffer of concatenated terms after the last layer's three stores, whatever it held before: they fill it. -/
theorem xt2_canon (L₂ : List (View.Piece (Elt Ideal) S2048x1536 .bf16)) (i : Fin 2048) (q : Fin 1536) :
    View.canon (([⟨Rect.unit ![0, 1024] S2048x512.size inb_S2048x1536_S2048x512_0_1024, k0_pay91 T0 A A⟩,
        ⟨Rect.unit ![0, 512] S2048x512.size inb_S2048x1536_S2048x512_0_512, k0_pay90 T0 A⟩,
        ⟨Rect.unit ![0, 0] S2048x512.size inb_S2048x1536_S2048x512_0_0, k0_pay87 T0⟩] : List (View.Piece (Elt Ideal) S2048x1536 .bf16)) ++ L₂) (ix2 i q)
      = cheb X Y (q.val / 512) i ⟨q.val % 512, Nat.mod_lt _ (by decide)⟩ := by
  refine (Cert.Pieces.canon_prefix (Val := Elt Ideal) (S := S2048x1536) (e := .bf16) (xt2G X Y) _ L₂ ?_ (ix2 i q) ?_).trans
    (xt2G_apply X Y i q)
  · apply Cert.Pieces.agree_cons (Val := Elt Ideal) (S := S2048x1536) (e := .bf16) (xt2G X Y)
    · exact Cert.Pieces.block_piece_agree (Val := Elt Ideal) (e := .bf16) (R := 2048) (N := 1536) (r := 2048) (n := 512) (xt2G X Y) 0 1024 inb_S2048x1536_S2048x512_0_1024 _
        (fun p f i j hi hj => by
          obtain rfl : i = p := Fin.ext (by omega)
          exact (l2p2 X Y A T0 hA hY i f).trans (cheb_col X Y (by decide) 2 f j.val (by omega) i).symm)
    apply Cert.Pieces.agree_cons (Val := Elt Ideal) (S := S2048x1536) (e := .bf16) (xt2G X Y)
    · exact Cert.Pieces.block_piece_agree (Val := Elt Ideal) (e := .bf16) (R := 2048) (N := 1536) (r := 2048) (n := 512) (xt2G X Y) 0 512 inb_S2048x1536_S2048x512_0_512 _
        (fun p f i j hi hj => by
          obtain rfl : i = p := Fin.ext (by omega)
          exact (l2p1 X Y A T0 hA hY i f).trans (cheb_col X Y (by decide) 1 f j.val (by omega) i).symm)
    apply Cert.Pieces.agree_cons (Val := Elt Ideal) (S := S2048x1536) (e := .bf16) (xt2G X Y)
    · exact Cert.Pieces.block_piece_agree (Val := Elt Ideal) (e := .bf16) (R := 2048) (N := 1536) (r := 2048) (n := 512) (xt2G X Y) 0 0 inb_S2048x1536_S2048x512_0_0 _
        (fun p f i j hi hj => by
          obtain rfl : i = p := Fin.ext (by omega)
          exact (l2p0 X Y A T0 hA hY i f).trans (cheb_col X Y (by decide) 0 f j.val (by omega) i).symm)
    exact fun _ hq => absurd hq List.not_mem_nil
  · have hi := i.isLt
    have hq := q.isLt
    rcases (by omega : q.val < 512 ∨ (512 ≤ q.val ∧ q.val < 1024) ∨ (1024 ≤ q.val ∧ q.val < 1536)) with h | h | h
    · exact (Cert.Pieces.cover_tail (Val := Elt Ideal) _ _ (Cert.Pieces.cover_tail (Val := Elt Ideal) _ _ (Cert.Pieces.cover_head (Val := Elt Ideal) _ _ (Cert.Pieces.mem_block 0 0 inb_S2048x1536_S2048x512_0_0 (ix2 i q) ⟨Nat.zero_le _, by show i.val < 0 + 2048; omega⟩ ⟨by show 0 ≤ q.val; omega, by show q.val < 0 + 512; omega⟩))))
    · exact (Cert.Pieces.cover_tail (Val := Elt Ideal) _ _ (Cert.Pieces.cover_head (Val := Elt Ideal) _ _ (Cert.Pieces.mem_block 0 512 inb_S2048x1536_S2048x512_0_512 (ix2 i q) ⟨Nat.zero_le _, by show i.val < 0 + 2048; omega⟩ ⟨by show 512 ≤ q.val; omega, by show q.val < 512 + 512; omega⟩)))
    · exact (Cert.Pieces.cover_head (Val := Elt Ideal) _ _ (Cert.Pieces.mem_block 0 1024 inb_S2048x1536_S2048x512_0_1024 (ix2 i q) ⟨Nat.zero_le _, by show i.val < 0 + 2048; omega⟩ ⟨by show 1024 ≤ q.val; omega, by show q.val < 1024 + 512; omega⟩))

/-- A block of 512 rows of that buffer, read back. -/
theorem xrows2 {κ : Kind} {sp : Space} (v : View sig κ sp S2048x1536 .bf16) (L₂ : List (View.Piece (Elt Ideal) S2048x1536 .bf16)) (o₀ : ℕ)
    (inb : ∀ a, (![o₀, 0] : Fin 2 → ℕ) a + (![512, 1536] : Fin 2 → ℕ) a ≤ S2048x1536.size a)
    (p : Fin 512) (q : Fin 1536) (r : Fin 2048) (hr : r.val = o₀ + p.val) :
    v.readCov (([⟨Rect.unit ![0, 1024] S2048x512.size inb_S2048x1536_S2048x512_0_1024, k0_pay91 T0 A A⟩,
        ⟨Rect.unit ![0, 512] S2048x512.size inb_S2048x1536_S2048x512_0_512, k0_pay90 T0 A⟩,
        ⟨Rect.unit ![0, 0] S2048x512.size inb_S2048x1536_S2048x512_0_0, k0_pay87 T0⟩] : List (View.Piece (Elt Ideal) S2048x1536 .bf16)) ++ L₂) (Rect.unit (s := S2048x1536) ![o₀, 0] ![512, 1536] inb).toLoadRect (ix2 p q)
      = cheb X Y (q.val / 512) r ⟨q.val % 512, Nat.mod_lt _ (by decide)⟩ :=
  (Cert.Pieces.readCov_block (R := 2048) (N := 1536) (r := 512) (n := 1536) v _ o₀ 0 inb p q r q hr (by omega)).trans
    (xt2_canon X Y A T0 hA hY L₂ r q)

end Terms

/-! ## The kernel's own blocks -/

/-- Rows 0 … of the concatenated terms read back. -/
theorem xrows2_0 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (x3 : Vec Ideal S640x512 .bf16) (x4 : Vec Ideal S1x512 .f32)
    (Y : Fin 2048 → Fin 512 → EReal)
    (hA : ∀ i j, kernelRun0_A.sl.v277 c arg1 harg1 arg9 arg10 x0 (ix2 i j) = nadj (feat x0) i j)
    (hY : ∀ i o, kernelRun0_A.sl.v493 c arg1 harg1 arg2 harg2 arg3 harg3 arg4 harg4 arg5 harg5 arg9 arg10 arg11 arg12 x0 x1 x2 x3 x4 (ix2 i o) = Y i o)
    (p : Fin 512) (q : Fin 1536) (r : Fin 2048) (hr : r.val = 0 + p.val) :
    (kernelRun0_A.sl.v c arg1 harg1 arg2 harg2 arg3 harg3 arg4 harg4 arg5 harg5 arg9 arg10 arg11 arg12 x0 x1 x2 x3 x4) (ix2 p q) = cheb (feat x0) Y (q.val / 512) r ⟨q.val % 512, Nat.mod_lt _ (by decide)⟩ := by
  unfold kernelRun0_A.sl.v kernelRun0_A.sl.HS2_14
  exact xrows2 (feat x0) Y (kernelRun0_A.sl.v277 c arg1 harg1 arg9 arg10 x0) (kernelRun0_A.sl.v493 c arg1 harg1 arg2 harg2 arg3 harg3 arg4 harg4 arg5 harg5 arg9 arg10 arg11 arg12 x0 x1 x2 x3 x4) hA hY arg11.view (kernelRun0_A.sl.HS2_11 c arg1 harg1 arg2 harg2 arg3 harg3 arg9 arg10 arg11 arg12 x0 x1 x2) 0 inb_S2048x1536_S512x1536_0_0 p q r hr

/-- Rows 512 … of the concatenated terms read back. -/
theorem xrows2_1 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (x3 : Vec Ideal S640x512 .bf16) (x4 : Vec Ideal S1x512 .f32)
    (Y : Fin 2048 → Fin 512 → EReal)
    (hA : ∀ i j, kernelRun0_A.sl.v277 c arg1 harg1 arg9 arg10 x0 (ix2 i j) = nadj (feat x0) i j)
    (hY : ∀ i o, kernelRun0_A.sl.v493 c arg1 harg1 arg2 harg2 arg3 harg3 arg4 harg4 arg5 harg5 arg9 arg10 arg11 arg12 x0 x1 x2 x3 x4 (ix2 i o) = Y i o)
    (p : Fin 512) (q : Fin 1536) (r : Fin 2048) (hr : r.val = 512 + p.val) :
    (kernelRun0_A.sl.v531 c arg1 harg1 arg2 harg2 arg3 harg3 arg4 harg4 arg5 harg5 arg9 arg10 arg11 arg12 x0 x1 x2 x3 x4) (ix2 p q) = cheb (feat x0) Y (q.val / 512) r ⟨q.val % 512, Nat.mod_lt _ (by decide)⟩ := by
  unfold kernelRun0_A.sl.v531 kernelRun0_A.sl.HS2_14
  exact xrows2 (feat x0) Y (kernelRun0_A.sl.v277 c arg1 harg1 arg9 arg10 x0) (kernelRun0_A.sl.v493 c arg1 harg1 arg2 harg2 arg3 harg3 arg4 harg4 arg5 harg5 arg9 arg10 arg11 arg12 x0 x1 x2 x3 x4) hA hY arg11.view (kernelRun0_A.sl.HS2_11 c arg1 harg1 arg2 harg2 arg3 harg3 arg9 arg10 arg11 arg12 x0 x1 x2) 512 inb_S2048x1536_S512x1536_512_0 p q r hr

/-- Rows 1024 … of the concatenated terms read back. -/
theorem xrows2_2 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (x3 : Vec Ideal S640x512 .bf16) (x4 : Vec Ideal S1x512 .f32)
    (Y : Fin 2048 → Fin 512 → EReal)
    (hA : ∀ i j, kernelRun0_A.sl.v277 c arg1 harg1 arg9 arg10 x0 (ix2 i j) = nadj (feat x0) i j)
    (hY : ∀ i o, kernelRun0_A.sl.v493 c arg1 harg1 arg2 harg2 arg3 harg3 arg4 harg4 arg5 harg5 arg9 arg10 arg11 arg12 x0 x1 x2 x3 x4 (ix2 i o) = Y i o)
    (p : Fin 512) (q : Fin 1536) (r : Fin 2048) (hr : r.val = 1024 + p.val) :
    (kernelRun0_A.sl.v545 c arg1 harg1 arg2 harg2 arg3 harg3 arg4 harg4 arg5 harg5 arg9 arg10 arg11 arg12 x0 x1 x2 x3 x4) (ix2 p q) = cheb (feat x0) Y (q.val / 512) r ⟨q.val % 512, Nat.mod_lt _ (by decide)⟩ := by
  unfold kernelRun0_A.sl.v545 kernelRun0_A.sl.HS2_14
  exact xrows2 (feat x0) Y (kernelRun0_A.sl.v277 c arg1 harg1 arg9 arg10 x0) (kernelRun0_A.sl.v493 c arg1 harg1 arg2 harg2 arg3 harg3 arg4 harg4 arg5 harg5 arg9 arg10 arg11 arg12 x0 x1 x2 x3 x4) hA hY arg11.view (kernelRun0_A.sl.HS2_11 c arg1 harg1 arg2 harg2 arg3 harg3 arg9 arg10 arg11 arg12 x0 x1 x2) 1024 inb_S2048x1536_S512x1536_1024_0 p q r hr

/-- Rows 1536 … of the concatenated terms read back. -/
theorem xrows2_3 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (x3 : Vec Ideal S640x512 .bf16) (x4 : Vec Ideal S1x512 .f32)
    (Y : Fin 2048 → Fin 512 → EReal)
    (hA : ∀ i j, kernelRun0_A.sl.v277 c arg1 harg1 arg9 arg10 x0 (ix2 i j) = nadj (feat x0) i j)
    (hY : ∀ i o, kernelRun0_A.sl.v493 c arg1 harg1 arg2 harg2 arg3 harg3 arg4 harg4 arg5 harg5 arg9 arg10 arg11 arg12 x0 x1 x2 x3 x4 (ix2 i o) = Y i o)
    (p : Fin 512) (q : Fin 1536) (r : Fin 2048) (hr : r.val = 1536 + p.val) :
    (kernelRun0_A.sl.v559 c arg1 harg1 arg2 harg2 arg3 harg3 arg4 harg4 arg5 harg5 arg9 arg10 arg11 arg12 x0 x1 x2 x3 x4) (ix2 p q) = cheb (feat x0) Y (q.val / 512) r ⟨q.val % 512, Nat.mod_lt _ (by decide)⟩ := by
  unfold kernelRun0_A.sl.v559 kernelRun0_A.sl.HS2_14
  exact xrows2 (feat x0) Y (kernelRun0_A.sl.v277 c arg1 harg1 arg9 arg10 x0) (kernelRun0_A.sl.v493 c arg1 harg1 arg2 harg2 arg3 harg3 arg4 harg4 arg5 harg5 arg9 arg10 arg11 arg12 x0 x1 x2 x3 x4) hA hY arg11.view (kernelRun0_A.sl.HS2_11 c arg1 harg1 arg2 harg2 arg3 harg3 arg9 arg10 arg11 arg12 x0 x1 x2) 1536 inb_S2048x1536_S512x1536_1536_0 p q r hr

end Cert.KernelIdeal.Net

end
-- ==== Proof.KOut.lean ====
/-
  The last layer's dense stage: each block of 512 rows of the concatenated terms times the weights, plus the bias,
  rectified, and the four blocks filling the output block.
-/
import proofs.«175608_j66305705115960_1_alg».proof.Proof.KLayer2
import Idealize.ShloMosaic.Lib.ValueLayout

set_option maxRecDepth 16384

noncomputable section

open scoped BigOperators

namespace Cert.KernelIdeal.Net

open Cert.KernelIdeal Cert.KernelIdeal.Gen Cert.GraphConv Idealize.ShloMosaic Idealize.ShloMosaic.ValueIdx

/-! ## One block of rows of the dense layer -/

theorem k0_pay92_apply (V : Vec Ideal S512x1536 .bf16) (w : Vec Ideal S1536x1024 .bf16) (b : Vec Ideal S1x1024 .f32) (u : Fin 1) (p : Fin 512) (o : Fin 1024) :
    k0_pay92 V w b (ix3 u p o) = max ((∑ q : Fin 1536, V (ix2 p q) * w (ix2 q o)) + b (ix2 (0 : Fin 1) o)) zer := by
  unfold k0_pay92
  refine (shapeCast_ab_1ab_apply _ _ u p o).trans ?_
  show max (matmul (F := Ideal) (DotDims.plain 512 1536 1024) none V (shapeCast S1536x1024 w shapeCasts_S1536x1024_S1536x1024) (constant S512x1024 .f32 0x00000000#32) (ix2 p o)
      + broadcastTo S512x1024 (shapeCast S1x1024 b shapeCasts_S1x1024_S1x1024) broadcasts_S1x1024_S512x1024 (ix2 p o)) _ = _
  rw [Cert.BlockDot.kdot_apply, broadcastTo_1b_ab_apply, shapeCast_self, shapeCast_self]
  rfl

theorem k0_pay93_apply (V : Vec Ideal S512x1536 .bf16) (w : Vec Ideal S1536x1024 .bf16) (b : Vec Ideal S1x1024 .f32) (u : Fin 1) (p : Fin 512) (o : Fin 1024) :
    k0_pay93 V w b (ix3 u p o) = max ((∑ q : Fin 1536, V (ix2 p q) * w (ix2 q o)) + b (ix2 (0 : Fin 1) o)) zer := by
  unfold k0_pay93
  refine (shapeCast_ab_1ab_apply _ _ u p o).trans ?_
  show max (matmul (F := Ideal) (DotDims.plain 512 1536 1024) none V (shapeCast S1536x1024 w shapeCasts_S1536x1024_S1536x1024) (constant S512x1024 .f32 0x00000000#32) (ix2 p o)
      + broadcastTo S512x1024 (shapeCast S1x1024 b shapeCasts_S1x1024_S1x1024) broadcasts_S1x1024_S512x1024 (ix2 p o)) _ = _
  rw [Cert.BlockDot.kdot_apply, broadcastTo_1b_ab_apply, shapeCast_self, shapeCast_self]
  rfl

theorem k0_pay2_apply (V : Vec Ideal S512x1536 .bf16) (w : Vec Ideal S1536x1024 .bf16) (b : Vec Ideal S1x1024 .f32) (u : Fin 1) (p : Fin 512) (o : Fin 1024) :
    k0_pay2 V w b (ix3 u p o) = max ((∑ q : Fin 1536, V (ix2 p q) * w (ix2 q o)) + b (ix2 (0 : Fin 1) o)) zer := by
  unfold k0_pay2
  refine (shapeCast_ab_1ab_apply _ _ u p o).trans ?_
  show max (matmul (F := Ideal) (DotDims.plain 512 1536 1024) none V (shapeCast S1536x1024 w shapeCasts_S1536x1024_S1536x1024) (constant S512x1024 .f32 0x00000000#32) (ix2 p o)
      + broadcastTo S512x1024 (shapeCast S1x1024 b shapeCasts_S1x1024_S1x1024) broadcasts_S1x1024_S512x1024 (ix2 p o)) _ = _
  rw [Cert.BlockDot.kdot_apply, broadcastTo_1b_ab_apply, shapeCast_self, shapeCast_self]
  rfl

theorem k0_pay1_apply (V : Vec Ideal S512x1536 .bf16) (w : Vec Ideal S1536x1024 .bf16) (b : Vec Ideal S1x1024 .f32) (u : Fin 1) (p : Fin 512) (o : Fin 1024) :
    k0_pay1 (k0_pay94 V w) (k0_pay95 b) (ix3 u p o) = max ((∑ q : Fin 1536, V (ix2 p q) * w (ix2 q o)) + b (ix2 (0 : Fin 1) o)) zer := by
  unfold k0_pay1 k0_pay94 k0_pay95
  refine (shapeCast_ab_1ab_apply _ _ u p o).trans ?_
  show max (matmul (F := Ideal) (DotDims.plain 512 1536 1024) none V (shapeCast S1536x1024 w shapeCasts_S1536x1024_S1536x1024) (constant S512x1024 .f32 0x00000000#32) (ix2 p o)
      + broadcastTo S512x1024 (shapeCast S1x1024 b shapeCasts_S1x1024_S1x1024) broadcasts_S1x1024_S512x1024 (ix2 p o)) _ = _
  rw [Cert.BlockDot.kdot_apply, broadcastTo_1b_ab_apply, shapeCast_self, shapeCast_self]
  rfl

/-- A load of a whole buffer reads its contents. -/
theorem readAt_whole2 {sp : Space} {e : EltTy} {R N : ℕ} (arg : Memref sig .tc sp ⟨2, ![R, N]⟩ e) (harg : arg.IsWhole)
    (x : (⟨2, ![R, N]⟩ : Shape).Idx → Elt Ideal e)
    (inb : ∀ a, (![0, 0] : Fin 2 → ℕ) a + (![R, N] : Fin 2 → ℕ) a ≤ (⟨2, ![R, N]⟩ : Shape).size a) (i : Fin R) (j : Fin N) :
    View.readAt (Elt Ideal) arg.view (Rect.unit (s := ⟨2, ![R, N]⟩) ![0, 0] ![R, N] inb).toLoadRect (harg.unread x) (ix2 i j) = x (ix2 i j) := by
  rw [View.readAt_eq_ld, harg.read_unread]
  exact Cert.Pieces.ld_whole2 x inb i j

/-- A block of rows times the weights, plus the bias, rectified, is the dense layer at those rows. -/
theorem dense_rows (X : Fin 2048 → Fin 6 → EReal) (Y : Fin 2048 → Fin 512 → EReal)
    (wp : Fin (3 * 512) → Fin 1024 → EReal) (b : Fin 1024 → EReal)
    (V : (⟨2, ![512, 1536]⟩ : Shape).Idx → EReal) (w : (⟨2, ![1536, 1024]⟩ : Shape).Idx → EReal)
    (bb : (⟨2, ![1, 1024]⟩ : Shape).Idx → EReal) (p : Fin 512) (r : Fin 2048) (o : Fin 1024)
    (hV : ∀ q : Fin 1536, V (ix2 p q) = cheb X Y (q.val / 512) r ⟨q.val % 512, Nat.mod_lt _ (by decide)⟩)
    (hw : ∀ q : Fin 1536, w (ix2 q o) = wp ⟨q.val, q.isLt⟩ o) (hb : bb (ix2 (0 : Fin 1) o) = b o) :
    max ((∑ q : Fin 1536, V (ix2 p q) * w (ix2 q o)) + bb (ix2 (0 : Fin 1) o)) zer
      = denseP X (K := 3) (by decide) wp b Y r o := by
  unfold denseP
  rw [hb]
  have e : ∀ q : Fin 1536, V (ix2 p q) * w (ix2 q o)
      = cheb X Y (q.val / 512) r ⟨q.val % 512, Nat.mod_lt _ (by decide)⟩ * wp ⟨q.val, q.isLt⟩ o := fun q => by rw [hV q, hw q]
  rw [Finset.sum_congr rfl fun q _ => e q]

/-! ## Blocks of rows of a three-axis buffer with one leading entry -/

section Slabs

variable {Val : EltTy → Type} [∀ e, Nonempty (Val e)] {e : EltTy}

/-- Rows `o … o + r - 1` of a `[1, R, N]` buffer: the block's index `(u, p, q)` is the buffer's `(0, o + p, q)`. -/
theorem emb_slab {R N r : ℕ} (o : ℕ)
    (inb : ∀ a, (![0, o, 0] : Fin 3 → ℕ) a + (![1, r, N] : Fin 3 → ℕ) a ≤ (⟨3, ![1, R, N]⟩ : Shape).size a)
    (u : Fin 1) (p : Fin r) (q : Fin N) (i : Fin R) (hi : i.val = o + p.val) :
    (Rect.unit (s := ⟨3, ![1, R, N]⟩) ![0, o, 0] ![1, r, N] inb).emb (ix3 u p q) = ix3 (0 : Fin 1) i q := by
  funext a
  apply Fin.ext
  match a with
  | ⟨0, _⟩ => show 0 + 1 * u.val = 0; omega
  | ⟨1, _⟩ => show o + 1 * p.val = i.val; omega
  | ⟨2, _⟩ => show 0 + 1 * q.val = q.val; omega

/-- An index whose row lies in `o … o + r - 1` belongs to that block of rows. -/
theorem mem_slab {R N r : ℕ} (o : ℕ)
    (inb : ∀ a, (![0, o, 0] : Fin 3 → ℕ) a + (![1, r, N] : Fin 3 → ℕ) a ≤ (⟨3, ![1, R, N]⟩ : Shape).size a)
    (y : (⟨3, ![1, R, N]⟩ : Shape).Idx) (h : o ≤ (y 1).val ∧ (y 1).val < o + r) :
    y ∈ (Rect.unit (s := ⟨3, ![1, R, N]⟩) ![0, o, 0] ![1, r, N] inb).set := by
  rw [Rect.mem_set_unit]
  intro a
  have h0 : (y 0).val < 1 := (y 0).isLt
  have h2 : (y 2).val < N := (y 2).isLt
  match a with
  | ⟨0, _⟩ => exact ⟨Nat.zero_le _, by show (y 0).val < 0 + 1; omega⟩
  | ⟨1, _⟩ => exact h
  | ⟨2, _⟩ => exact ⟨Nat.zero_le _, by show (y 2).val < 0 + N; omega⟩

/-- A store of a block of rows whose payload is the restriction of `G` to those rows agrees with `G`. -/
theorem slab_piece_agree {R N r : ℕ} (G : (⟨3, ![1, R, N]⟩ : Shape).Idx → Val e) (o : ℕ)
    (inb : ∀ a, (![0, o, 0] : Fin 3 → ℕ) a + (![1, r, N] : Fin 3 → ℕ) a ≤ (⟨3, ![1, R, N]⟩ : Shape).size a)
    (w : (⟨3, ![1, r, N]⟩ : Shape).Idx → Val e)
    (h : ∀ (u : Fin 1) (p : Fin r) (q : Fin N) (i : Fin R), i.val = o + p.val → w (ix3 u p q) = G (ix3 (0 : Fin 1) i q)) :
    ∀ x : (⟨3, ![1, r, N]⟩ : Shape).Idx, w x = G ((Rect.unit (s := ⟨3, ![1, R, N]⟩) ![0, o, 0] ![1, r, N] inb).emb x) := by
  intro x
  obtain ⟨u, p, q, rfl⟩ : ∃ (u : Fin 1) (p : Fin r) (q : Fin N), x = ix3 u p q := ⟨x 0, x 1, x 2, eq_ix3 x⟩
  have hlt : o + p.val < R := by
    have h2 : o + r ≤ R := inb (1 : Fin 3)
    have h1 := p.isLt
    omega
  exact (h u p q ⟨o + p.val, hlt⟩ rfl).trans (congrArg G (emb_slab o inb u p q ⟨o + p.val, hlt⟩ rfl).symm)

end Slabs

/-! ## The kernel's own blocks -/

/-- Rows 0 … of the output block as stored. -/
theorem opiece_0 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg6 : Memref sig .tc .vmem S1536x1024 .bf16) (harg6 : arg6.IsWhole) (arg7 : Memref sig .tc .vmem S1x1024 .f32) (harg7 : arg7.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (x3 : Vec Ideal S640x512 .bf16) (x4 : Vec Ideal S1x512 .f32) (x5 : Vec Ideal S1536x1024 .bf16) (x6 : Vec Ideal S1x1024 .f32)
    (Y : Fin 2048 → Fin 512 → EReal)
    (hA : ∀ i j, kernelRun0_A.sl.v277 c arg1 harg1 arg9 arg10 x0 (ix2 i j) = nadj (feat x0) i j)
    (hY : ∀ i o, kernelRun0_A.sl.v493 c arg1 harg1 arg2 harg2 arg3 harg3 arg4 harg4 arg5 harg5 arg9 arg10 arg11 arg12 x0 x1 x2 x3 x4 (ix2 i o) = Y i o)
    (u : Fin 1) (p : Fin 512) (o : Fin 1024) (r : Fin 2048) (hr : r.val = 0 + p.val) :
    (k0_pay92 (kernelRun0_A.sl.v c arg1 harg1 arg2 harg2 arg3 harg3 arg4 harg4 arg5 harg5 arg9 arg10 arg11 arg12 x0 x1 x2 x3 x4) (View.readAt (Elt Ideal) arg6.view (Rect.unit ![0, 0] S1536x1024.size inb_S1536x1024_S1536x1024_0_0).toLoadRect (harg6.unread x5)) (View.readAt (Elt Ideal) arg7.view (Rect.unit ![0, 0] S1x1024.size inb_S1x1024_S1x1024_0_0).toLoadRect (harg7.unread x6))) (ix3 u p o)
      = denseP (feat x0) (K := 3) (by decide) (fun q o => x5 (ix2 (⟨q.val, q.isLt⟩ : Fin 1536) o)) (fun o => x6 (ix2 (0 : Fin 1) o)) Y r o := by
  refine (k0_pay92_apply _ _ _ u p o).trans ?_
  exact dense_rows (feat x0) Y (fun q o => x5 (ix2 (⟨q.val, q.isLt⟩ : Fin 1536) o)) (fun o => x6 (ix2 (0 : Fin 1) o)) _ _ _ p r o
    (fun q => xrows2_0 c arg1 harg1 arg2 harg2 arg3 harg3 arg4 harg4 arg5 harg5 arg9 arg10 arg11 arg12 x0 x1 x2 x3 x4 Y hA hY p q r hr)
    (fun q => readAt_whole2 arg6 harg6 x5 inb_S1536x1024_S1536x1024_0_0 q o)
    (readAt_whole2 arg7 harg7 x6 inb_S1x1024_S1x1024_0_0 (0 : Fin 1) o)

/-- Rows 512 … of the output block as stored. -/
theorem opiece_512 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg6 : Memref sig .tc .vmem S1536x1024 .bf16) (harg6 : arg6.IsWhole) (arg7 : Memref sig .tc .vmem S1x1024 .f32) (harg7 : arg7.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (x3 : Vec Ideal S640x512 .bf16) (x4 : Vec Ideal S1x512 .f32) (x5 : Vec Ideal S1536x1024 .bf16) (x6 : Vec Ideal S1x1024 .f32)
    (Y : Fin 2048 → Fin 512 → EReal)
    (hA : ∀ i j, kernelRun0_A.sl.v277 c arg1 harg1 arg9 arg10 x0 (ix2 i j) = nadj (feat x0) i j)
    (hY : ∀ i o, kernelRun0_A.sl.v493 c arg1 harg1 arg2 harg2 arg3 harg3 arg4 harg4 arg5 harg5 arg9 arg10 arg11 arg12 x0 x1 x2 x3 x4 (ix2 i o) = Y i o)
    (u : Fin 1) (p : Fin 512) (o : Fin 1024) (r : Fin 2048) (hr : r.val = 512 + p.val) :
    (k0_pay93 (kernelRun0_A.sl.v531 c arg1 harg1 arg2 harg2 arg3 harg3 arg4 harg4 arg5 harg5 arg9 arg10 arg11 arg12 x0 x1 x2 x3 x4) (View.readAt (Elt Ideal) arg6.view (Rect.unit ![0, 0] S1536x1024.size inb_S1536x1024_S1536x1024_0_0).toLoadRect (harg6.unread x5)) (View.readAt (Elt Ideal) arg7.view (Rect.unit ![0, 0] S1x1024.size inb_S1x1024_S1x1024_0_0).toLoadRect (harg7.unread x6))) (ix3 u p o)
      = denseP (feat x0) (K := 3) (by decide) (fun q o => x5 (ix2 (⟨q.val, q.isLt⟩ : Fin 1536) o)) (fun o => x6 (ix2 (0 : Fin 1) o)) Y r o := by
  refine (k0_pay93_apply _ _ _ u p o).trans ?_
  exact dense_rows (feat x0) Y (fun q o => x5 (ix2 (⟨q.val, q.isLt⟩ : Fin 1536) o)) (fun o => x6 (ix2 (0 : Fin 1) o)) _ _ _ p r o
    (fun q => xrows2_1 c arg1 harg1 arg2 harg2 arg3 harg3 arg4 harg4 arg5 harg5 arg9 arg10 arg11 arg12 x0 x1 x2 x3 x4 Y hA hY p q r hr)
    (fun q => readAt_whole2 arg6 harg6 x5 inb_S1536x1024_S1536x1024_0_0 q o)
    (readAt_whole2 arg7 harg7 x6 inb_S1x1024_S1x1024_0_0 (0 : Fin 1) o)

/-- Rows 1024 … of the output block as stored. -/
theorem opiece_1024 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg6 : Memref sig .tc .vmem S1536x1024 .bf16) (harg6 : arg6.IsWhole) (arg7 : Memref sig .tc .vmem S1x1024 .f32) (harg7 : arg7.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (x3 : Vec Ideal S640x512 .bf16) (x4 : Vec Ideal S1x512 .f32) (x5 : Vec Ideal S1536x1024 .bf16) (x6 : Vec Ideal S1x1024 .f32)
    (Y : Fin 2048 → Fin 512 → EReal)
    (hA : ∀ i j, kernelRun0_A.sl.v277 c arg1 harg1 arg9 arg10 x0 (ix2 i j) = nadj (feat x0) i j)
    (hY : ∀ i o, kernelRun0_A.sl.v493 c arg1 harg1 arg2 harg2 arg3 harg3 arg4 harg4 arg5 harg5 arg9 arg10 arg11 arg12 x0 x1 x2 x3 x4 (ix2 i o) = Y i o)
    (u : Fin 1) (p : Fin 512) (o : Fin 1024) (r : Fin 2048) (hr : r.val = 1024 + p.val) :
    (k0_pay1 (kernelRun0_A.sl.r_27 c arg1 harg1 arg2 harg2 arg3 harg3 arg4 harg4 arg5 harg5 arg6 harg6 arg9 arg10 arg11 arg12 x0 x1 x2 x3 x4 x5) (kernelRun0_A.sl.r_28 c arg7 harg7 x6)) (ix3 u p o)
      = denseP (feat x0) (K := 3) (by decide) (fun q o => x5 (ix2 (⟨q.val, q.isLt⟩ : Fin 1536) o)) (fun o => x6 (ix2 (0 : Fin 1) o)) Y r o := by
  unfold kernelRun0_A.sl.r_27 kernelRun0_A.sl.r_28
  refine (k0_pay1_apply _ _ _ u p o).trans ?_
  exact dense_rows (feat x0) Y (fun q o => x5 (ix2 (⟨q.val, q.isLt⟩ : Fin 1536) o)) (fun o => x6 (ix2 (0 : Fin 1) o)) _ _ _ p r o
    (fun q => xrows2_2 c arg1 harg1 arg2 harg2 arg3 harg3 arg4 harg4 arg5 harg5 arg9 arg10 arg11 arg12 x0 x1 x2 x3 x4 Y hA hY p q r hr)
    (fun q => readAt_whole2 arg6 harg6 x5 inb_S1536x1024_S1536x1024_0_0 q o)
    (readAt_whole2 arg7 harg7 x6 inb_S1x1024_S1x1024_0_0 (0 : Fin 1) o)

/-- Rows 1536 … of the output block as stored. -/
theorem opiece_1536 (c : Dev nD) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg6 : Memref sig .tc .vmem S1536x1024 .bf16) (harg6 : arg6.IsWhole) (arg7 : Memref sig .tc .vmem S1x1024 .f32) (harg7 : arg7.IsWhole) (arg9 : Memref sig .tc .vmem S2048x2048 .bf16) (arg10 : Memref sig .tc .vmem S2048x1 .f32) (arg11 : Memref sig .tc .vmem S2048x1536 .bf16) (arg12 : Memref sig .tc .vmem S2048x512 .bf16) (x0 : Vec Ideal S1x2048x6 .f32) (x1 : Vec Ideal S36x128 .bf16) (x2 : Vec Ideal S1x128 .f32) (x3 : Vec Ideal S640x512 .bf16) (x4 : Vec Ideal S1x512 .f32) (x5 : Vec Ideal S1536x1024 .bf16) (x6 : Vec Ideal S1x1024 .f32)
    (Y : Fin 2048 → Fin 512 → EReal)
    (hA : ∀ i j, kernelRun0_A.sl.v277 c arg1 harg1 arg9 arg10 x0 (ix2 i j) = nadj (feat x0) i j)
    (hY : ∀ i o, kernelRun0_A.sl.v493 c arg1 harg1 arg2 harg2 arg3 harg3 arg4 harg4 arg5 harg5 arg9 arg10 arg11 arg12 x0 x1 x2 x3 x4 (ix2 i o) = Y i o)
    (u : Fin 1) (p : Fin 512) (o : Fin 1024) (r : Fin 2048) (hr : r.val = 1536 + p.val) :
    (k0_pay2 (kernelRun0_A.sl.v559 c arg1 harg1 arg2 harg2 arg3 harg3 arg4 harg4 arg5 harg5 arg9 arg10 arg11 arg12 x0 x1 x2 x3 x4) (View.readAt (Elt Ideal) arg6.view (Rect.unit ![0, 0] S1536x1024.size inb_S1536x1024_S1536x1024_0_0).toLoadRect (harg6.unread x5)) (View.readAt (Elt Ideal) arg7.view (Rect.unit ![0, 0] S1x1024.size inb_S1x1024_S1x1024_0_0).toLoadRect (harg7.unread x6))) (ix3 u p o)
      = denseP (feat x0) (K := 3) (by decide) (fun q o => x5 (ix2 (⟨q.val, q.isLt⟩ : Fin 1536) o)) (fun o => x6 (ix2 (0 : Fin 1) o)) Y r o := by
  refine (k0_pay2_apply _ _ _ u p o).trans ?_
  exact dense_rows (feat x0) Y (fun q o => x5 (ix2 (⟨q.val, q.isLt⟩ : Fin 1536) o)) (fun o => x6 (ix2 (0 : Fin 1) o)) _ _ _ p r o
    (fun q => xrows2_3 c arg1 harg1 arg2 harg2 arg3 harg3 arg4 harg4 arg5 harg5 arg9 arg10 arg11 arg12 x0 x1 x2 x3 x4 Y hA hY p q r hr)
    (fun q => readAt_whole2 arg6 harg6 x5 inb_S1536x1024_S1536x1024_0_0 q o)
    (readAt_whole2 arg7 harg7 x6 inb_S1x1024_S1x1024_0_0 (0 : Fin 1) o)

/-! ## The output block -/

/-- The output block as a function of its index: the last layer at node `y 1`, output feature `y 2`. -/
def outG (x0 : Vec Ideal S1x2048x6 .f32) (x5 : Vec Ideal S1536x1024 .bf16) (x6 : Vec Ideal S1x1024 .f32)
    (Y : Fin 2048 → Fin 512 → EReal) : S1x2048x1024.Idx → EReal :=
  fun y => denseP (feat x0) (K := 3) (by decide) (fun q o => x5 (ix2 (⟨q.val, q.isLt⟩ : Fin 1536) o)) (fun o => x6 (ix2 (0 : Fin 1) o)) Y (y 1) (y 2)

/-- What the body leaves in its output block, from the second layer's output: the last layer of it. -/
theorem out_of_hidden (c : Dev nD) (i : grid0.Coords) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg6 : Memref sig .tc .vmem S1536x1024 .bf16) (harg6 : arg6.IsWhole) (arg7 : Memref sig .tc .vmem S1x1024 .f32) (harg7 : arg7.IsWhole) (arg8 : Memref sig .tc .vmem S1x2048x1024 .bf16) (harg8 : arg8.IsWhole) (arg9 : Memref sig .tc .vmem S2048x2048 .bf16) (harg9 : arg9.IsWhole) (arg10 : Memref sig .tc .vmem S2048x1 .f32) (harg10 : arg10.IsWhole) (arg11 : Memref sig .tc .vmem S2048x1536 .bf16) (harg11 : arg11.IsWhole) (arg12 : Memref sig .tc .vmem S2048x512 .bf16) (harg12 : arg12.IsWhole) (x0 : Vec Ideal S1x2048x6 .f32) (x1 : Vec Ideal S36x128 .bf16) (x2 : Vec Ideal S1x128 .f32) (x3 : Vec Ideal S640x512 .bf16) (x4 : Vec Ideal S1x512 .f32) (x5 : Vec Ideal S1536x1024 .bf16) (x6 : Vec Ideal S1x1024 .f32)
    (Y : Fin 2048 → Fin 512 → EReal)
    (hA : ∀ i j, kernelRun0_A.sl.v277 c arg1 harg1 arg9 arg10 x0 (ix2 i j) = nadj (feat x0) i j)
    (hY : ∀ i o, kernelRun0_A.sl.v493 c arg1 harg1 arg2 harg2 arg3 harg3 arg4 harg4 arg5 harg5 arg9 arg10 arg11 arg12 x0 x1 x2 x3 x4 (ix2 i o) = Y i o) :
    out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6
      = fun y => denseP (feat x0) (K := 3) (by decide) (fun q o => x5 (ix2 (⟨q.val, q.isLt⟩ : Fin 1536) o)) (fun o => x6 (ix2 (0 : Fin 1) o)) Y (y 1) (y 2) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 x0 x1 x2 x3 x4 x5 x6)]
  unfold kernelRun0_A
  dsimp only
  funext y
  refine View.canon_apply_of_pieces (Val := Elt Ideal) (S := S1x2048x1024) (e := .bf16) (outG x0 x5 x6 Y) _ ?_ y ?_
  · apply Cert.Pieces.agree_cons (Val := Elt Ideal) (S := S1x2048x1024) (e := .bf16) (outG x0 x5 x6 Y)
    · exact slab_piece_agree (Val := Elt Ideal) (e := .bf16) (R := 2048) (N := 1024) (r := 512) (outG x0 x5 x6 Y) 1536 inb_S1x2048x1024_S1x512x1024_0_1536_0 _
        (fun u p q i hi => opiece_1536 c arg1 harg1 arg2 harg2 arg3 harg3 arg4 harg4 arg5 harg5 arg6 harg6 arg7 harg7 arg9 arg10 arg11 arg12 x0 x1 x2 x3 x4 x5 x6 Y hA hY u p q i hi)
    apply Cert.Pieces.agree_cons (Val := Elt Ideal) (S := S1x2048x1024) (e := .bf16) (outG x0 x5 x6 Y)
    · exact slab_piece_agree (Val := Elt Ideal) (e := .bf16) (R := 2048) (N := 1024) (r := 512) (outG x0 x5 x6 Y) 1024 inb_S1x2048x1024_S1x512x1024_0_1024_0 _
        (fun u p q i hi => opiece_1024 c arg1 harg1 arg2 harg2 arg3 harg3 arg4 harg4 arg5 harg5 arg6 harg6 arg7 harg7 arg9 arg10 arg11 arg12 x0 x1 x2 x3 x4 x5 x6 Y hA hY u p q i hi)
    apply Cert.Pieces.agree_cons (Val := Elt Ideal) (S := S1x2048x1024) (e := .bf16) (outG x0 x5 x6 Y)
    · exact slab_piece_agree (Val := Elt Ideal) (e := .bf16) (R := 2048) (N := 1024) (r := 512) (outG x0 x5 x6 Y) 512 inb_S1x2048x1024_S1x512x1024_0_512_0 _
        (fun u p q i hi => opiece_512 c arg1 harg1 arg2 harg2 arg3 harg3 arg4 harg4 arg5 harg5 arg6 harg6 arg7 harg7 arg9 arg10 arg11 arg12 x0 x1 x2 x3 x4 x5 x6 Y hA hY u p q i hi)
    apply Cert.Pieces.agree_cons (Val := Elt Ideal) (S := S1x2048x1024) (e := .bf16) (outG x0 x5 x6 Y)
    · exact slab_piece_agree (Val := Elt Ideal) (e := .bf16) (R := 2048) (N := 1024) (r := 512) (outG x0 x5 x6 Y) 0 inb_S1x2048x1024_S1x512x1024_0_0_0 _
        (fun u p q i hi => opiece_0 c arg1 harg1 arg2 harg2 arg3 harg3 arg4 harg4 arg5 harg5 arg6 harg6 arg7 harg7 arg9 arg10 arg11 arg12 x0 x1 x2 x3 x4 x5 x6 Y hA hY u p q i hi)
    exact fun _ hq => absurd hq List.not_mem_nil
  · have h1 : (y 1).val < 2048 := (y 1).isLt
    rcases (by omega : (y 1).val < 512 ∨ (512 ≤ (y 1).val ∧ (y 1).val < 1024) ∨ (1024 ≤ (y 1).val ∧ (y 1).val < 1536) ∨ (1536 ≤ (y 1).val ∧ (y 1).val < 2048)) with h | h | h | h
    · exact (Cert.Pieces.cover_tail (Val := Elt Ideal) _ _ (Cert.Pieces.cover_tail (Val := Elt Ideal) _ _ (Cert.Pieces.cover_tail (Val := Elt Ideal) _ _ (Cert.Pieces.cover_head (Val := Elt Ideal) _ _ (mem_slab 0 inb_S1x2048x1024_S1x512x1024_0_0_0 y ⟨Nat.zero_le _, by omega⟩)))))
    · exact (Cert.Pieces.cover_tail (Val := Elt Ideal) _ _ (Cert.Pieces.cover_tail (Val := Elt Ideal) _ _ (Cert.Pieces.cover_head (Val := Elt Ideal) _ _ (mem_slab 512 inb_S1x2048x1024_S1x512x1024_0_512_0 y ⟨by omega, by omega⟩))))
    · exact (Cert.Pieces.cover_tail (Val := Elt Ideal) _ _ (Cert.Pieces.cover_head (Val := Elt Ideal) _ _ (mem_slab 1024 inb_S1x2048x1024_S1x512x1024_0_1024_0 y ⟨by omega, by omega⟩)))
    · exact (Cert.Pieces.cover_head (Val := Elt Ideal) _ _ (mem_slab 1536 inb_S1x2048x1024_S1x512x1024_0_1536_0 y ⟨by omega, by omega⟩))

end Cert.KernelIdeal.Net

end
-- ==== Proof.KBody.lean ====
/-
  What the kernel's body leaves in its output block: the three layers of the specification over the re-ordered weights
  it is given, from the graph's features in its first input block.
-/
import proofs.«175608_j66305705115960_1_alg».proof.Proof.KDense1
import proofs.«175608_j66305705115960_1_alg».proof.Proof.KOut

set_option maxRecDepth 16384

noncomputable section

namespace Cert.KernelIdeal.Net

open Cert.KernelIdeal Cert.KernelIdeal.Gen Cert.GraphConv Idealize.ShloMosaic Idealize.ShloMosaic.ValueIdx

/-- The body's output block is the network of the block's graph: the third layer (`out_of_hidden`) applied to the
    second layer's output as the hidden buffer holds it (`h1_apply`), the normalised affinity being what the affinity
    buffer holds after the second phase (`nadj_apply`). -/
theorem body_value (c : Dev nD) (i : grid0.Coords) (arg1 : Memref sig .tc .vmem S1x2048x6 .f32) (harg1 : arg1.IsWhole) (arg2 : Memref sig .tc .vmem S36x128 .bf16) (harg2 : arg2.IsWhole) (arg3 : Memref sig .tc .vmem S1x128 .f32) (harg3 : arg3.IsWhole) (arg4 : Memref sig .tc .vmem S640x512 .bf16) (harg4 : arg4.IsWhole) (arg5 : Memref sig .tc .vmem S1x512 .f32) (harg5 : arg5.IsWhole) (arg6 : Memref sig .tc .vmem S1536x1024 .bf16) (harg6 : arg6.IsWhole) (arg7 : Memref sig .tc .vmem S1x1024 .f32) (harg7 : arg7.IsWhole) (arg8 : Memref sig .tc .vmem S1x2048x1024 .bf16) (harg8 : arg8.IsWhole) (arg9 : Memref sig .tc .vmem S2048x2048 .bf16) (harg9 : arg9.IsWhole) (arg10 : Memref sig .tc .vmem S2048x1 .f32) (harg10 : arg10.IsWhole) (arg11 : Memref sig .tc .vmem S2048x1536 .bf16) (harg11 : arg11.IsWhole) (arg12 : Memref sig .tc .vmem S2048x512 .bf16) (harg12 : arg12.IsWhole) (x0 : Vec Ideal S1x2048x6 .f32) (x1 : Vec Ideal S36x128 .bf16) (x2 : Vec Ideal S1x128 .f32) (x3 : Vec Ideal S640x512 .bf16) (x4 : Vec Ideal S1x512 .f32) (x5 : Vec Ideal S1536x1024 .bf16) (x6 : Vec Ideal S1x1024 .f32) :
    out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 = Cert.GraphConv.bodyOut x0 x1 x2 x3 x4 x5 x6 :=
  out_of_hidden c i arg1 harg1 arg2 harg2 arg3 harg3 arg4 harg4 arg5 harg5 arg6 harg6 arg7 harg7 arg8 harg8 arg9 harg9 arg10 harg10 arg11 harg11 arg12 harg12 x0 x1 x2 x3 x4 x5 x6 (h1 x0 x1 x2 x3 x4)
    (nadj_apply c arg1 harg1 arg9 arg10 x0)
    (h1_apply c arg1 harg1 arg2 harg2 arg3 harg3 arg4 harg4 arg5 harg5 arg9 arg10 arg11 arg12 x0 x1 x2 x3 x4)

end Cert.KernelIdeal.Net

end
-- ==== Proof.lean ====
/-
  A fused graph-convolution kernel against its plain reference, over the extended reals.

  For each of sixteen graphs of 2048 nodes with 6 features, both programs build the Gaussian affinity of the nodes
  (the exponential of minus the squared distance of their feature rows), normalise it symmetrically by the inverse
  square roots of the degrees, and apply three Chebyshev graph-convolution layers (6, 5 and 3 terms; 6 → 128 → 512 →
  1024 features), each a dense layer on the concatenated Chebyshev terms followed by a rectifier.  The common
  specification is `Cert.GraphConv.outOf` (Proof/Spec.lean).

  The kernel keeps the normalised affinity of one graph in a scratch buffer and fills it, and every later buffer,
  block of rows by block of rows; what each store leaves and what each load reads back is followed through the body
  (Proof/KPhase1 … KOut), one grid point per graph, and from the blocks to the whole result array (Proof/KRun).  It
  applies the normalised Laplacian as `y - A · y` and takes the reciprocal square root of a degree directly.  The
  reference builds the matrix `I - A`, multiplies, and divides one by the square root of the degree; it stacks the
  Chebyshev terms on a new last axis, so its weight rows are met in another order (Proof/RefStages … RefEq).  The two
  agree because a degree is a positive real number (a sum of exponentials of real numbers), so `1 / sqrt` and the
  reciprocal square root coincide there, and because `(I - A) y = y - A y` row by row once every entry is a real
  number — which the precondition (every float input finite) gives for the inputs and the operations carry to every
  Chebyshev term of the first two layers; the re-ordered weight rows are one finite sum written in two orders.
  The kernel's idealization only drops roundings to the narrow format and back (`preserves`).
-/
import proofs.«175608_j66305705115960_1_alg».proof.Proof.KClaim
import proofs.«175608_j66305705115960_1_alg».proof.Proof.KBody

noncomputable section

namespace Cert.Proof

/-- The five claims, from the kernel body's value (`Cert.KernelIdeal.Net.body_value`). -/
theorem claim : Cert.Claim := Cert.Proof.Parts.claim_of_body Cert.KernelIdeal.Net.body_value

end Cert.Proof

end
